-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_200" .f32 0x3BA3D70A#32 ((1 / 200 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x200 : Shape := ⟨2, ![16384, 200]⟩
abbrev S4096x72 : Shape := ⟨2, ![4096, 72]⟩
abbrev S72x256 : Shape := ⟨2, ![72, 256]⟩
abbrev S256 : Shape := ⟨1, ![256]⟩
abbrev S_ : Shape := ⟨0, ![]⟩

class Facts : Prop where
  bcast_S_S4096x72 : S_.BroadcastsInDim S4096x72 (![] : Fin 0 → Fin S4096x72.rank)
  reducesTo_S4096x72_S_d0_1 : S4096x72.ReducesTo [0, 1] S_
  h_S_ : 0 < S_.numel
  bcast_S_S72x256 : S_.BroadcastsInDim S72x256 (![] : Fin 0 → Fin S72x256.rank)
  reducesTo_S72x256_S_d0_1 : S72x256.ReducesTo [0, 1] S_
  bcast_S_S256 : S_.BroadcastsInDim S256 (![] : Fin 0 → Fin S256.rank)
  reducesTo_S256_S_d0 : S256.ReducesTo [0] S_
  bcast_S_S16384x200 : S_.BroadcastsInDim S16384x200 (![] : Fin 0 → Fin S16384x200.rank)
  reducesTo_S16384x200_S_d0_1 : S16384x200.ReducesTo [0, 1] S_

variable [Facts]

def fn_part1 {F : FTy → Type} [FloatOps F] (main_arg0 : IVec S16384x200 32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_c_8 : IVec S_ 32 := constantI S_ 32 0#32
  let main_v24 : IVec S16384x200 32 := broadcastInDim S16384x200 ![] bcast_S_S16384x200 main_c_8
  let main_v25 : IVec S16384x200 1 := cmpi .sge main_arg0 main_v24
  let main_c_9 : IVec S_ 32 := constantI S_ 32 4095#32
  let main_v26 : IVec S16384x200 32 := broadcastInDim S16384x200 ![] bcast_S_S16384x200 main_c_9
  let main_v27 : IVec S16384x200 1 := cmpi .sle main_arg0 main_v26
  let main_v28 : IVec S16384x200 1 := andi main_v25 main_v27
  let main_c_10 : IVec S_ 1 := constantI S_ 1 1#1
  let main_v29 : IVec S_ 1 := (fun x v => Host.reduce IntOp.andi x v reducesTo_S16384x200_S_d0_1 h_S_) main_v28 main_c_10
  let main_v30 : IVec S_ 1 := andi main_v23 main_v29
  main_v30

def fn {F : FTy → Type} [FloatOps F] (main_arg0 : IVec S16384x200 32) (main_arg1 : FVec F S4096x72 .f32) (main_arg2 : FVec F S72x256 .f32) (main_arg3 : FVec F S256 .f32) (main_arg4 : FVec F S256 .f32) (main_arg5 : FVec F S256 .f32) : IVec S_ 1 :=
  let main_v0 : FVec F S4096x72 .f32 := Host.absf main_arg1
  let main_cst : FVec F S_ .f32 := constant S_ .f32 0x7F800000#32
  let main_v1 : FVec F S4096x72 .f32 := broadcastInDim S4096x72 ![] bcast_S_S4096x72 main_cst
  let main_v2 : IVec S4096x72 1 := cmpf .olt main_v0 main_v1
  let main_c : IVec S_ 1 := constantI S_ 1 1#1
  let main_v3 : IVec S_ 1 := (fun x v => Host.reduce IntOp.andi x v reducesTo_S4096x72_S_d0_1 h_S_) main_v2 main_c
  let main_v4 : FVec F S72x256 .f32 := Host.absf main_arg2
  let main_cst_0 : FVec F S_ .f32 := constant S_ .f32 0x7F800000#32
  let main_v5 : FVec F S72x256 .f32 := broadcastInDim S72x256 ![] bcast_S_S72x256 main_cst_0
  let main_v6 : IVec S72x256 1 := cmpf .olt main_v4 main_v5
  let main_c_1 : IVec S_ 1 := constantI S_ 1 1#1
  let main_v7 : IVec S_ 1 := (fun x v => Host.reduce IntOp.andi x v reducesTo_S72x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg0 main_arg5 main_v13 main_v16
-- ==== Kernel.lean ====
abbrev S16384x200 : Shape := ⟨2, ![16384, 200]⟩
abbrev S4096x72 : Shape := ⟨2, ![4096, 72]⟩
abbrev S72x256 : Shape := ⟨2, ![72, 256]⟩
abbrev S256 : Shape := ⟨1, ![256]⟩
abbrev S3276800 : Shape := ⟨1, ![3276800]⟩
abbrev S16777216 : Shape := ⟨1, ![16777216]⟩
abbrev S3200 : Shape := ⟨1, ![3200]⟩
abbrev S16384 : Shape := ⟨1, ![16384]⟩
abbrev S16 : Shape := ⟨1, ![16]⟩
abbrev S_ : Shape := ⟨0, ![]⟩
abbrev S16384x1024 : Shape := ⟨2, ![16384, 1024]⟩
abbrev S1024x72 : Shape := ⟨2, ![1024, 72]⟩
abbrev S1x256 : Shape := ⟨2, ![1, 256]⟩
abbrev S16384x256 : Shape := ⟨2, ![16384, 256]⟩
abbrev S512x1024 : Shape := ⟨2, ![512, 1024]⟩
abbrev S512x256 : Shape := ⟨2, ![512, 256]⟩
abbrev S512x4096 : Shape := ⟨2, ![512, 4096]⟩
abbrev S512x72 : Shape := ⟨2, ![512, 72]⟩
abbrev S512 : Shape := ⟨1, ![512]⟩
abbrev S512x1 : Shape := ⟨2, ![512, 1]⟩

abbrev nBuf : Table → Nat
  | .hbm => 19
  | .local .tc .vmem => 9
  | .local .scVector .vmem => 2
  | _ => 0

abbrev bufTy : (tb : Table) → Fin (nBuf tb) → BufTy
  | .hbm, ⟨0, _⟩ => ⟨S16384x200, .i32⟩
  | .hbm, ⟨1, _⟩ => ⟨S4096x72, .f32⟩
  | .hbm, ⟨2, _⟩ => ⟨S72x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S3276800, .i32⟩
  | .hbm, ⟨7, _⟩ => ⟨S16777216, .i32⟩
  | .hbm, ⟨8, _⟩ => ⟨S16384x1024, .i32⟩
  | .hbm, ⟨9, _⟩ => ⟨S1024x72, .f32⟩
  | .hbm, ⟨10, _⟩ => ⟨S1024x72, .f32⟩
  | .hbm, ⟨11, _⟩ => ⟨S1024x72, .f32⟩
  | .hbm, ⟨12, _⟩ => ⟨S1024x72, .f32⟩
  | .hbm, ⟨13, _⟩ => ⟨S4096x72, .f32⟩
  | .hbm, ⟨14, _⟩ => ⟨S4096x72, .bf16⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S16384x256, .f32⟩
  | .local .tc .vmem, ⟨0, _⟩ => ⟨S512x1024, .i32⟩
  | .local .tc .vmem, ⟨1, _⟩ => ⟨S512x1024, .i32⟩
  | .local .tc .vmem, ⟨2, _⟩ => ⟨S4096x72, .bf16⟩
  | .local .tc .vmem, ⟨3, _⟩ => ⟨S72x256, .f32⟩
  | .local .tc .vmem, ⟨4, _⟩ => ⟨S1x256, .f32⟩
  | .local .tc .vmem, ⟨5, _⟩ => ⟨S1x256, .f32⟩
  | .local .tc .vmem, ⟨6, _⟩ => ⟨S1x256, .f32⟩
  | .local .tc .vmem, ⟨7, _⟩ => ⟨S512x256, .f32⟩
  | .local .tc .vmem, ⟨8, _⟩ => ⟨S512x256, .f32⟩
  | .local .scVector .vmem, ⟨0, _⟩ => ⟨S3200, .i32⟩
  | .local .scVector .vmem, ⟨1, _⟩ => ⟨S16384, .i32⟩
  | _, _ => ⟨S16384x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v0_scv : Ref sig .scVector := ⟨.hbm, 6, rfl⟩
abbrev main_v1_scv : Ref sig .scVector := ⟨.hbm, 7, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg6_1 : Ref sig .tc := ⟨.vmem, 8, rfl⟩
abbrev cc0_scratch0 : Ref sig .scVector := ⟨.vmem, 0, rfl⟩
abbrev cc0_scratch1 : Ref sig .scVector := ⟨.vmem, 1, rfl⟩
abbrev cc1_sem0_0 : DmaSem sig := 2
abbrev cc1_sem0_1 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem6_0 : DmaSem sig := 9
abbrev cc1_sem6_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c32_i32 : BitVec 32 := 32#32
  let v11 : BitVec 32 := Scalar.addi c0_i32_1 c32_i32
  let c1_i32_2 : BitVec 32 := 1#32
  ⟨c0_i32_1, v11, c1_i32_2⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_1 : BitVec 32 := 0#32
  let c1_i32_2 : BitVec 32 := 1#32
  let arg6 : BitVec 32 := Scf.iv c0_i32_1 c1_i32_2 k0_t1
  let c16_i32 : BitVec 32 := 16#32
  let v13 : BitVec 32 := Scalar.muli arg6 c16_i32
  let v14 : BitVec 32 := Scalar.addi v2 v13
  let c200_i32_4 : BitVec 32 := 200#32
  let v15 : BitVec 32 := Scalar.muli v14 c200_i32_4
  ![v15.toNat]
@[reducible] def k0_t2_loop : Scf.Loop 32 :=
  let c0_i32_6 : BitVec 32 := 0#32
  let c1024_i32_7 : BitVec 32 := 1024#32
  let v16 : BitVec 32 := Scalar.addi c0_i32_6 c1024_i32_7
  let c1_i32_8 : BitVec 32 := 1#32
  ⟨c0_i32_6, v16, c1_i32_8⟩
def k0_off2 (k0_t2 : Fin k0_t2_loop.trips) : Fin 1 → Nat :=
  let c0_i32_6 : BitVec 32 := 0#32
  let c1_i32_8 : BitVec 32 := 1#32
  let arg8 : BitVec 32 := Scf.iv c0_i32_6 c1_i32_8 k0_t2
  let c16_i32_17 : BitVec 32 := 16#32
  let v21 : BitVec 32 := Scalar.muli arg8 c16_i32_17
  let v22 : Index := Scalar.indexCast v21
  ![v22.toNat]
@[reducible] def k0_t3_loop : Scf.Loop 32 :=
  let c0_i32_11 : BitVec 32 := 0#32
  let c200_i32_12 : BitVec 32 := 200#32
  let v18 : BitVec 32 := Scalar.addi c0_i32_11 c200_i32_12
  let c1_i32_13 : BitVec 32 := 1#32
  ⟨c0_i32_11, v18, c1_i32_13⟩

def k0_chk1 (v22 : IVec S16 32) : Prop :=
  (∀ a x, ((![v22] : Fin 1 → IVec S16 32) a x).toNat < S3200.size a)
instance k0_chk1.dec : ∀ (v22 : IVec S16 32), Decidable (k0_chk1 v22) := fun v22 => decidable_of_iff' _ (Iff.of_eq (k0_chk1.eq_1 v22))
theorem k0_idx1_inb : ∀ (v22 : IVec S16 32) (k0_hw1 : k0_chk1 v22), ∀ a x, ((![v22] : Fin 1 → IVec S16 32) a x).toNat < S3200.size a := fun v22 k0_hw1 => k0_hw1

def k0_chk2 (v30 : IVec S16 32) : Prop :=
  (∀ a x, ((![v30] : Fin 1 → IVec S16 32) a x).toNat < S16384.size a)
instance k0_chk2.dec : ∀ (v30 : IVec S16 32), Decidable (k0_chk2 v30) := fun v30 => decidable_of_iff' _ (Iff.of_eq (k0_chk2.eq_1 v30))
theorem k0_idx2_inb : ∀ (v30 : IVec S16 32) (k0_hw2 : k0_chk2 v30), ∀ a x, ((![v30] : Fin 1 → IVec S16 32) a x).toNat < S16384.size a := fun v30 k0_hw2 => k0_hw2
def k0_off3 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_1 : BitVec 32 := 0#32
  let c1_i32_2 : BitVec 32 := 1#32
  let arg6 : BitVec 32 := Scf.iv c0_i32_1 c1_i32_2 k0_t1
  let c16_i32 : BitVec 32 := 16#32
  let v13 : BitVec 32 := Scalar.muli arg6 c16_i32
  let v14 : BitVec 32 := Scalar.addi v2 v13
  let c1024_i32_15 : BitVec 32 := 1024#32
  let v20 : BitVec 32 := Scalar.muli v14 c1024_i32_15
  ![v20.toNat]
abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x72 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S72x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384x200_S3276800 : S16384x200.ShapeCasts S3276800
  iota_S16_d0_w32_scVector : S16.Iotas .scVector 32 [0]
  h_S16 : 0 < S16.numel
  h_S3200 : 0 < S3200.numel
  h_S16384 : 0 < S16384.numel
  shapeCasts_S16777216_S16384x1024 : S16777216.ShapeCasts S16384x1024
  slicesBy_S4096x72_S1024x72_0s4_0s1 : S4096x72.SlicesBy (![0, 0] : Fin 2 → Nat) ![4, 1] S1024x72
  slicesBy_S4096x72_S1024x72_1s4_0s1 : S4096x72.SlicesBy (![1, 0] : Fin 2 → Nat) ![4, 1] S1024x72
  slicesBy_S4096x72_S1024x72_2s4_0s1 : S4096x72.SlicesBy (![2, 0] : Fin 2 → Nat) ![4, 1] S1024x72
  slicesBy_S4096x72_S1024x72_3s4_0s1 : S4096x72.SlicesBy (![3, 0] : Fin 2 → Nat) ![4, 1] S1024x72
  concatenates_S1024x72_S1024x72_S1024x72_S1024x72_S4096x72_d0 : Shape.Concatenates [S1024x72, S1024x72, S1024x72, S1024x72] S4096x72 0
  bitsLt_bf16_f32 : FTy.bits .bf16 < FTy.bits .f32
  shapeCasts_S256_S1x256 : S256.ShapeCasts S1x256
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  concatenates_S512x1024_S512x1024_S512x1024_S512x1024_S512x4096_d1 : Shape.Concatenates [S512x1024, S512x1024, S512x1024, S512x1024] S512x4096 1
  inb_S4096x72_S4096x72_0_0 : ∀ a, (![0, 0] : Fin 2 → Nat) a + S4096x72.size a ≤ S4096x72.size a
  h_S4096x72 : 0 < S4096x72.numel
  shapeCasts_S4096x72_S4096x72 : S4096x72.ShapeCasts S4096x72
  inb_S72x256_S72x256_0_0 : ∀ a, (![0, 0] : Fin 2 → Nat) a + S72x256.size a ≤ S72x256.size a
  h_S72x256 : 0 < S72x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  reduces_S512x256_S512 : S512x256.Reduces [1] S512
  shapeCasts_S512_S512x1 : S512.ShapeCasts S512x1
  broadcasts_S512x1_S512x256 : S512x1.Broadcasts S512x256
  inb_S512x256_S512x256_0_0 : ∀ a, (![0, 0] : Fin 2 → Nat) a + S512x256.size a ≤ S512x256.size a
  h_S512x256 : 0 < S512x256.numel
  dot_S512x4096_S4096x72_S512x72_1_0_0_1_n_n_wf : DotDims.WF S512x4096 S4096x72 S512x72 [1] [0] [0] [1] [] []
  dot_S512x72_S72x256_S512x256_1_0_0_1_n_n_wf : DotDims.WF S512x72 S72x256 S512x256 [1] [0] [0] [1] [] []
  hcc0_scoped0 : 0 + S_.numel ≤ 11
  hcc0_scoped1 : 1 + S_.numel ≤ 11
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ (i : grid0.Coords) (k0_t1 : Fin k0_t1_loop.trips), ∀ a, (k0_off1 i k0_t1) a + S3200.size a ≤ S3276800.size a
  k0_t2_ok : k0_t2_loop.OK
  k0_off2_inb : ∀ k0_t2 : Fin k0_t2_loop.trips, ∀ a, (k0_off2 k0_t2) a + S16.size a ≤ S16384.size a
  k0_t3_ok : k0_t3_loop.OK
  k0_off3_inb : ∀ (i : grid0.Coords) (k0_t1 : Fin k0_t1_loop.trips), ∀ a, (k0_off3 i k0_t1) a + S16384.size a ≤ S16777216.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S16384x1024.size a
  hwx1_0 : ∀ i : grid1.Coords, EltTy.bits .i32 = 32 ∨ (Rect.block (s := S16384x1024) S512x1024.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x72.size a ≤ S4096x72.size a
  hwx1_1 : ∀ i : grid1.Coords, EltTy.bits .bf16 = 32 ∨ (Rect.block (s := S4096x72) S4096x72.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S72x256.size a ≤ S72x256.size a
  hwx1_2 : ∀ i : grid1.Coords, EltTy.bits .f32 = 32 ∨ (Rect.block (s := S72x256) S72x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x256.size a ≤ S16384x256.size a
  hwx1_6 : ∀ i : grid1.Coords, EltTy.bits .f32 = 32 ∨ (Rect.block (s := S16384x256) S512x256.size (cc1_transform_6 i) (hinb1_6 i)).WholeWords (EltTy.packing .f32)

variable [Facts₀]

abbrev cc0_scoped0 : DmaSems sig S_ := SemArray.consecutive 0 S_ hcc0_scoped0
abbrev cc0_scoped1 : DmaSems sig S_ := SemArray.consecutive 1 S_ hcc0_scoped1
def dot_S512x4096_S4096x72_S512x72_1_0_0_1_n_n : DotDims S512x4096 S4096x72 S512x72 where
  lhsContracting := [1]
  rhsContracting := [0]
  lhsNonContracting := [0]
  rhsNonContracting := [1]
  lhsBatch := []
  rhsBatch := []
  wf := dot_S512x4096_S4096x72_S512x72_1_0_0_1_n_n_wf
def dot_S512x72_S72x256_S512x256_1_0_0_1_n_n : DotDims S512x72 S72x256 S512x256 where
  lhsContracting := [1]
  rhsContracting := [0]
  lhsNonContracting := [0]
  rhsNonContracting := [1]
  lhsBatch := []
  rhsBatch := []
  wf := dot_S512x72_S72x256_S512x256_1_0_0_1_n_n_wf

abbrev win1_0 : Pipeline.Window sig grid1 :=
  Pipeline.Window.ofSpec (Memref.whole main_v2) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S4096x72.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S72x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S512x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S16384x200 : Shape := ⟨2, ![16384, 200]⟩
abbrev S4096x72 : Shape := ⟨2, ![4096, 72]⟩
abbrev S72x256 : Shape := ⟨2, ![72, 256]⟩
abbrev S256 : Shape := ⟨1, ![256]⟩
abbrev S_ : Shape := ⟨0, ![]⟩
abbrev S16384x200x1 : Shape := ⟨3, ![16384, 200, 1]⟩
abbrev S1 : Shape := ⟨1, ![1]⟩
abbrev S1x1x1 : Shape := ⟨3, ![1, 1, 1]⟩
abbrev S16384x200x72 : Shape := ⟨3, ![16384, 200, 72]⟩
abbrev S16384x72 : Shape := ⟨2, ![16384, 72]⟩
abbrev S16384x256 : Shape := ⟨2, ![16384, 256]⟩
abbrev S1x256 : Shape := ⟨2, ![1, 256]⟩
abbrev S16384 : Shape := ⟨1, ![16384]⟩
abbrev S16384x1 : Shape := ⟨2, ![16384, 1]⟩

abbrev nBuf : Space → Nat
  | .hbm => 85
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S4096x72, .f32⟩
  | .hbm, ⟨2, _⟩ => ⟨S72x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S_, .i32⟩
  | .hbm, ⟨7, _⟩ => ⟨S16384x200, .i32⟩
  | .hbm, ⟨8, _⟩ => ⟨S16384x200, .i1⟩
  | .hbm, ⟨9, _⟩ => ⟨S_, .i32⟩
  | .hbm, ⟨10, _⟩ => ⟨S16384x200, .i32⟩
  | .hbm, ⟨11, _⟩ => ⟨S16384x200, .i32⟩
  | .hbm, ⟨12, _⟩ => ⟨S16384x200, .i32⟩
  | .hbm, ⟨13, _⟩ => ⟨S16384x200x1, .i32⟩
  | .hbm, ⟨14, _⟩ => ⟨S1, .i32⟩
  | .hbm, ⟨15, _⟩ => ⟨S_, .i32⟩
  | .hbm, ⟨16, _⟩ => ⟨S16384x200x1, .i32⟩
  | .hbm, ⟨17, _⟩ => ⟨S16384x200x1, .i1⟩
  | .hbm, ⟨18, _⟩ => ⟨S1x1x1, .i32⟩
  | .hbm, ⟨19, _⟩ => ⟨S16384x200x1, .i32⟩
  | .hbm, ⟨20, _⟩ => ⟨S16384x200x1, .i1⟩
  | .hbm, ⟨21, _⟩ => ⟨S16384x200x1, .i1⟩
  | .hbm, ⟨22, _⟩ => ⟨S_, .i1⟩
  | .hbm, ⟨23, _⟩ => ⟨S16384x200, .i1⟩
  | .hbm, ⟨24, _⟩ => ⟨S16384x200x72, .f32⟩
  | .hbm, ⟨25, _⟩ => ⟨S16384x200x72, .i1⟩
  | .hbm, ⟨26, _⟩ => ⟨S_, .f32⟩
  | .hbm, ⟨27, _⟩ => ⟨S16384x200x72, .f32⟩
  | .hbm, ⟨28, _⟩ => ⟨S16384x200x72, .f32⟩
  | .hbm, ⟨29, _⟩ => ⟨S_, .f32⟩
  | .hbm, ⟨30, _⟩ => ⟨S16384x72, .f32⟩
  | .hbm, ⟨31, _⟩ => ⟨S_, .f32⟩
  | .hbm, ⟨32, _⟩ => ⟨S16384x72, .f32⟩
  | .hbm, ⟨33, _⟩ => ⟨S16384x72, .f32⟩
  | .hbm, ⟨34, _⟩ => ⟨S16384x256, .f32⟩
  | .hbm, ⟨35, _⟩ => ⟨S1x256, .f32⟩
  | .hbm, ⟨36, _⟩ => ⟨S16384x256, .f32⟩
  | .hbm, ⟨37, _⟩ => ⟨S16384x256, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S_, .i32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x256, .f32⟩
  | .hbm, ⟨52, _⟩ => ⟨S16384x256, .f32⟩
  | .hbm, ⟨53, _⟩ => ⟨S16384x256, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S16384, .f32⟩
  | .hbm, ⟨59, _⟩ => ⟨S16384x1, .f32⟩
  | .hbm, ⟨60, _⟩ => ⟨S16384x1, .f32⟩
  | .hbm, ⟨61, _⟩ => ⟨S16384x1, .f32⟩
  | .hbm, ⟨62, _⟩ => ⟨S_, .f32⟩
  | .hbm, ⟨63, _⟩ => ⟨S_, .i1⟩
  | .hbm, ⟨64, _⟩ => ⟨S_, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S16384x256, .f32⟩
  | .hbm, ⟨69, _⟩ => ⟨S16384x256, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S16384x1, .f32⟩
  | .hbm, ⟨74, _⟩ => ⟨S16384x256, .f32⟩
  | .hbm, ⟨75, _⟩ => ⟨S16384x256, .f32⟩
  | .hbm, ⟨76, _⟩ => ⟨S1x256, .f32⟩
  | .hbm, ⟨77, _⟩ => ⟨S16384x256, .f32⟩
  | .hbm, ⟨78, _⟩ => ⟨S16384x256, .f32⟩
  | .hbm, ⟨79, _⟩ => ⟨S1x256, .f32⟩
  | .hbm, ⟨80, _⟩ => ⟨S16384x256, .f32⟩
  | .hbm, ⟨81, _⟩ => ⟨S16384x256, .f32⟩
  | .hbm, ⟨82, _⟩ => ⟨S_, .f32⟩
  | .hbm, ⟨83, _⟩ => ⟨S16384x256, .f32⟩
  | .hbm, ⟨84, _⟩ => ⟨S16384x256, .f32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_cst : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_cst_1 : Ref sig .tc := ⟨.hbm, 38, rfl⟩
abbrev main_v8 : Ref sig .tc := ⟨.hbm, 39, rfl⟩
abbrev main_v9 : Ref sig .tc := ⟨.hbm, 40, rfl⟩
abbrev main_cst_2 : Ref sig .tc := ⟨.hbm, 41, rfl⟩
abbrev main_v10 : Ref sig .tc := ⟨.hbm, 42, rfl⟩
abbrev main_v11 : Ref sig .tc := ⟨.hbm, 43, rfl⟩
abbrev main_c : Ref sig .tc := ⟨.hbm, 44, rfl⟩
abbrev main_call1_cst : Ref sig .tc := ⟨.hbm, 45, rfl⟩
abbrev main_call1_v0 : Ref sig .tc := ⟨.hbm, 46, rfl⟩
abbrev main_call1_v1 : Ref sig .tc := ⟨.hbm, 47, rfl⟩
abbrev main_call1_cst_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_cst_1 : Ref sig .tc := ⟨.hbm, 55, rfl⟩
abbrev main_call1_v8 : Ref sig .tc := ⟨.hbm, 56, rfl⟩
abbrev main_call1_cst_2 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_cst_3 : Ref sig .tc := ⟨.hbm, 62, rfl⟩
abbrev main_call1_v13 : Ref sig .tc := ⟨.hbm, 63, rfl⟩
abbrev main_call1_cst_4 : Ref sig .tc := ⟨.hbm, 64, rfl⟩
abbrev main_call1_call0_v0 : Ref sig .tc := ⟨.hbm, 65, rfl⟩
abbrev main_call1_call0_v1 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_cst_3 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_call2_cst : Ref sig .tc := ⟨.hbm, 82, rfl⟩
abbrev main_call2_v0 : Ref sig .tc := ⟨.hbm, 83, rfl⟩
abbrev main_v26 : Ref sig .tc := ⟨.hbm, 84, rfl⟩

abbrev nD : Nat := 1
abbrev τ : Topo := Topo.v7x

variable {F : FTy → Type} [FloatOps F]

class Facts₀ : Prop where
  bcast_S_S16384x200 : S_.BroadcastsInDim S16384x200 (![] : Fin 0 → Fin S16384x200.rank)
  bcast_S16384x200_S16384x200x1_0_1 : S16384x200.BroadcastsInDim S16384x200x1 (![0, 1] : Fin 2 → Fin S16384x200x1.rank)
  bcast_S_S16384x200x1 : S_.BroadcastsInDim S16384x200x1 (![] : Fin 0 → Fin S16384x200x1.rank)
  bcast_S1_S1x1x1_2 : S1.BroadcastsInDim S1x1x1 (![2] : Fin 1 → Fin S1x1x1.rank)
  bcast_S1x1x1_S16384x200x1_0_1_2 : S1x1x1.BroadcastsInDim S16384x200x1 (![0, 1, 2] : Fin 3 → Fin S16384x200x1.rank)
  reducesTo_S16384x200x1_S16384x200_d2 : S16384x200x1.ReducesTo [2] S16384x200
  h_S_ : 0 < S_.numel
  bcast_S16384x200_S16384x200x72_0_1 : S16384x200.BroadcastsInDim S16384x200x72 (![0, 1] : Fin 2 → Fin S16384x200x72.rank)
  bcast_S_S16384x200x72 : S_.BroadcastsInDim S16384x200x72 (![] : Fin 0 → Fin S16384x200x72.rank)
  reducesTo_S16384x200x72_S16384x72_d1 : S16384x200x72.ReducesTo [1] S16384x72
  bcast_S_S16384x72 : S_.BroadcastsInDim S16384x72 (![] : Fin 0 → Fin S16384x72.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  reducesTo_S16384x256_S16384_d1 : S16384x256.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  bcast_S_S16384x256 : S_.BroadcastsInDim S16384x256 (![] : Fin 0 → Fin S16384x256.rank)
  gather_S4096x72_S16384x200x1_S16384x200x72_2_0_n_n_0_2_172_wf : GatherDims.WF S4096x72 S16384x200x1 S16384x200x72 [2] [0] [] [0] [] 2 ![1, 72]
  dot_S16384x72_S72x256_S16384x256_1_0_0_1_n_n_wf : DotDims.WF S16384x72 S72x256 S16384x256 [1] [0] [0] [1] [] []

variable [Facts₀]

def gather_S4096x72_S16384x200x1_S16384x200x72_2_0_n_n_0_2_172 : GatherDims S4096x72 S16384x200x1 S16384x200x72 where
  offsetDims := [2]
  collapsedSliceDims := [0]
  operandBatchingDims := []
  startIndicesBatchingDims := []
  startIndexMap := [0]
  indexVectorDim := 2
  sliceSizes := ![1, 72]
  wf := gather_S4096x72_S16384x200x1_S16384x200x72_2_0_n_n_0_2_172_wf
def dot_S16384x72_S72x256_S16384x256_1_0_0_1_n_n : DotDims S16384x72 S72x256 S16384x256 where
  lhsContracting := [1]
  rhsContracting := [0]
  lhsNonContracting := [0]
  rhsNonContracting := [1]
  lhsBatch := []
  rhsBatch := []
  wf := dot_S16384x72_S72x256_S16384x256_1_0_0_1_n_n_wf

class Facts : Prop extends Facts₀ where

variable [Facts]
-- ==== Proof.Spec.lean ====
/-
  The specification, free of any program: what each side computes, query by query, over the extended reals.

  A query has 200 tokens, each naming a row of a 4096-row table. The reference pools the named rows
  (their mean), applies a linear layer, normalises the 256 features of the query to mean 0 and variance 1
  (with a small constant under the root), scales, shifts and clips at 0: outQ.
  The kernel first counts, per query, how often each token occurs, four counts to a 32-bit word (token
  4 w + k in byte k of word w): packedQ. It then unpacks the bytes, multiplies the counts with a
  copy of the table whose rows are regrouped by byte (tabR), and finishes as the reference does,
  with the reciprocal root in place of the quotient by the root: outKQ.
-/
import Idealize.ShloMosaic.PureOps.Ideal
import Idealize.ShloMosaic.Lib.ValueIdx
import Mathlib.Data.BitVec

noncomputable section

namespace Cert.Spec

open Idealize.ShloMosaic Idealize.ShloMosaic.ValueIdx

/-- The arrays' shapes, as literal shapes. -/
abbrev STok : Shape := ⟨2, ![16384, 200]⟩
abbrev STab : Shape := ⟨2, ![4096, 72]⟩
abbrev SW : Shape := ⟨2, ![72, 256]⟩
abbrev SVec : Shape := ⟨1, ![256]⟩
abbrev SCnt : Shape := ⟨2, ![16384, 1024]⟩
abbrev SOut : Shape := ⟨2, ![16384, 256]⟩

/-- Every token names a row of the table. -/
def TokOK (A : STok.Idx → BitVec 32) : Prop := ∀ i, (A i).toNat < 4096

/-- The token of query q at position l, as a row number of the table (total: reduced mod 4096, which
    changes nothing where TokOK holds). -/
def tokF (A : STok.Idx → BitVec 32) (q : Fin 16384) (l : Fin 200) : Fin 4096 :=
  ⟨(A (ix2 q l)).toNat % 4096, Nat.mod_lt _ (by decide)⟩

/-- Word w of a query's packed histogram: byte k counts the positions whose token is 4 w + k
    (a sum of 32-bit words; no byte overflows, a query having 200 tokens). -/
def packedQ (tok : Fin 200 → Fin 4096) (w : Fin 1024) : BitVec 32 :=
  ∑ l : Fin 200, if (tok l).val / 4 = w.val then (1#32 <<< (8 * ((tok l).val % 4))) else 0#32

/-- The constant under the root (the 32-bit float nearest to 1e-5, as both programs spell it). -/
def eps : EReal := Ideal.ofBits .f32 0x3727C5AC#32

section Formulas

variable (W : Fin 72 → Fin 256 → EReal) (b g be : Fin 256 → EReal)

/-! ### The reference, for one query -/

section Ref
variable (T : Fin 4096 → Fin 72 → EReal) (tok : Fin 200 → Fin 4096)

def pooled (d : Fin 72) : EReal := Ideal.div (∑ l : Fin 200, T (tok l) d) ((200 : ℝ) : EReal)
def lin (f : Fin 256) : EReal := (∑ d : Fin 72, pooled T tok d * W d f) + b f
def mean : EReal := Ideal.div (∑ f : Fin 256, lin W b T tok f) ((256 : ℝ) : EReal)
def ctr (f : Fin 256) : EReal := lin W b T tok f - mean W b T tok
def var : EReal := Ideal.div (∑ f : Fin 256, ctr W b T tok f * ctr W b T tok f) ((256 : ℝ) : EReal)
def outQ (f : Fin 256) : EReal :=
  max (Ideal.div (ctr W b T tok f) (Ideal.sqrt (var W b T tok + eps)) * g f + be f) 0
end Ref

/-! ### The second kernel, for one query, from its packed counts and the regrouped table -/

section Ker
variable (TR : Fin 4096 → Fin 72 → EReal) (cnt : Fin 1024 → BitVec 32)

/-- Column j of the unpacked counts: byte j / 1024 of word j % 1024. -/
def plane (j : Fin 4096) : BitVec 32 :=
  (cnt ⟨j.val % 1024, Nat.mod_lt _ (by decide)⟩ >>> (8 * (j.val / 1024))) &&& 255#32
/-- The count as an extended real (the word read as a signed integer). -/
def cntE (j : Fin 4096) : EReal := (((plane cnt j).toInt : ℝ) : EReal)

def pooledK (d : Fin 72) : EReal := (∑ j : Fin 4096, cntE cnt j * TR j d) * ((1 / 200 : ℝ) : EReal)
def linK (f : Fin 256) : EReal := (∑ d : Fin 72, pooledK TR cnt d * W d f) + b f
def meanK : EReal := Ideal.div (∑ f : Fin 256, linK W b TR cnt f) ((256 : ℝ) : EReal)
def ctrK (f : Fin 256) : EReal := linK W b TR cnt f - meanK W b TR cnt
def varK : EReal := Ideal.div (∑ f : Fin 256, ctrK W b TR cnt f * ctrK W b TR cnt f) ((256 : ℝ) : EReal)
def outKQ (f : Fin 256) : EReal :=
  max (ctrK W b TR cnt f * Ideal.rsqrt (varK W b TR cnt + eps) * g f + be f) 0
end Ker

end Formulas

/-- The table regrouped by byte: row j is the table's row 4 (j % 1024) + j / 1024. -/
def tabR (T : Fin 4096 → Fin 72 → EReal) (j : Fin 4096) (d : Fin 72) : EReal :=
  T ⟨4 * (j.val % 1024) + j.val / 1024, by have := j.isLt; omega⟩ d

/-! ### The arrays read as functions of coordinates -/

def tabF (A : STab.Idx → EReal) : Fin 4096 → Fin 72 → EReal := fun v d => A (ix2 v d)
def wF (A : SW.Idx → EReal) : Fin 72 → Fin 256 → EReal := fun d f => A (ix2 d f)
def vecF (A : SVec.Idx → EReal) : Fin 256 → EReal := fun f => A (ix1 f)

/-- The packed histogram as the array the counting kernel leaves: row q is query q's. -/
def packedArr (A : STok.Idx → BitVec 32) : SCnt.Idx → BitVec 32 :=
  fun j => packedQ (tokF A (j 0)) (j 1)

/-- The reference's result array, as one function of the argument arrays. -/
def refArr (a0 : STok.Idx → BitVec 32) (a1 : STab.Idx → EReal) (a2 : SW.Idx → EReal) (a3 a4 a5 : SVec.Idx → EReal) : SOut.Idx → EReal :=
  fun i => outQ (wF a2) (vecF a3) (vecF a4) (vecF a5) (tabF a1) (tokF a0 (i 0)) (i 1)

/-- The second kernel's result array, as one function of the packed counts and the argument arrays. -/
def kerArr (cnt : SCnt.Idx → BitVec 32) (a1 : STab.Idx → EReal) (a2 : SW.Idx → EReal) (a3 a4 a5 : SVec.Idx → EReal) : SOut.Idx → EReal :=
  fun i => outKQ (wF a2) (vecF a3) (vecF a4) (vecF a5) (tabR (tabF a1)) (fun w => cnt (ix2 (i 0) w)) (i 1)

end Cert.Spec

end
-- ==== Proof.Base.lean ====
/-
  The counting kernel's view of its two flat arrays, shared by the proof of one vector subcore's task and by the launch.

  The flat token array (3276800 words) is cut into 1024 pieces of 3200 words (sixteen queries of 200 tokens), the flat
  count array (16777216 words) into 1024 pieces of 16384 words (sixteen queries of 1024 packed words). Vector subcore s of
  SparseCore c works on the 32 consecutive pieces 64 s + 32 c + k, k < 32, one per trip of its outer loop: it copies piece
  k of the tokens into its first scratch, builds the sixteen packed histograms in its second scratch and copies them out
  to piece k of the counts. packedFlat is what the count array holds afterwards, word by word.
-/
import proofs.«207659_g70703751627518_cont_9to1_m_904_5_alg».proof.KernelIdeal
import proofs.«207659_g70703751627518_cont_9to1_m_904_5_alg».proof.Proof.Gen.KernelIdeal
import proofs.«207659_g70703751627518_cont_9to1_m_904_5_alg».proof.Proof.Gen.KernelIdeal.Skeleton
import proofs.«207659_g70703751627518_cont_9to1_m_904_5_alg».proof.Proof.Spec
import Idealize.ShloMosaic.Lib.SparseCore.Launch
import Idealize.ShloMosaic.Lib.Transfers
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The two flat arrays and their pieces -/

/-- The flat tokens and the flat counts, as locations of device d. -/
abbrev idsLoc (d : Dev nD) : Loc nD τ sig := (SparseCore.T d).loc main_v0
abbrev cntLoc (d : Dev nD) : Loc nD τ sig := (SparseCore.T d).loc main_v1

theorem hdivI : 1024 ∣ S3276800.size 0 := ⟨3200, rfl⟩
theorem hdivC : 1024 ∣ S16777216.size 0 := ⟨16384, rfl⟩
/-- Piece n of the tokens (3200 words from 3200 n) and of the counts (16384 words from 16384 n). -/
abbrev ipiece (n : Fin 1024) : Rect S3276800 := Rect.part (s := S3276800) (a₀ := 0) hdivI n
abbrev cpiece (n : Fin 1024) : Rect S16777216 := Rect.part (s := S16777216) (a₀ := 0) hdivC n

/-- The piece subcore s of SparseCore c works on in trip k. -/
def pieceOf (c : Fin 2) (s : Fin 16) (k : Fin 32) : Fin 1024 := ⟨64 * s.val + 32 * c.val + k.val, by omega⟩

/-- The token a flat token word names, as a row number (reduced mod 4096: nothing changes where tokens are in range). -/
def tokAt (ids : S3276800.Idx → BitVec 32) (q : Fin 16384) (l : Fin 200) : Fin 4096 :=
  ⟨(ids (ValueIdx.ix1 ⟨200 * q.val + l.val, by omega⟩)).toNat % 4096, Nat.mod_lt _ (by decide)⟩

/-- What the counting kernel leaves in the flat counts: word 1024 q + w is word w of query q's packed histogram. -/
def packedFlat (ids : S3276800.Idx → BitVec 32) : S16777216.Idx → BitVec 32 :=
  fun j => Cert.Spec.packedQ (tokAt ids ⟨(j 0).val / 1024, by have h : (j 0).val < 16777216 := (j 0).isLt; omega⟩)
    ⟨(j 0).val % 1024, Nat.mod_lt _ (by decide)⟩

/-! ## What a task is handed and hands back -/

section Pay

variable {U : Type} [URA U]

local notation "𝕄" => MT nD τ sig (HIx 1) (Elt F) ℕ U ℕ

/-- A task's operands: its 32 pieces of the tokens at contents ids, its 32 pieces of the counts at contents cnt. -/
def taskPts (d : Dev nD) (c : Fin 2) (s : Fin 16) (ids : Buf (Elt F) (idsLoc d)) (cnt : Buf (Elt F) (cntLoc d)) : sProp 𝕄 :=
  bigSep (Finset.univ : Finset (Fin 32)) fun k =>
    iprop((idsLoc d ↦[(ipiece (pieceOf c s k)).set]{fullShare} ids) ∗ (cntLoc d ↦[(cpiece (pieceOf c s k)).set]{fullShare} cnt))

end Pay

end Cert.KernelIdeal.Hand

end
-- ==== Proof.TcBody.lean ====
/-
  The projection kernel on the TensorCore: one grid of 32 points, each taking a block of 512 rows of the packed counts
  (512 x 1024 words), the whole table (4096 x 72), the whole projection matrix (72 x 256) and the three rows of 256
  (bias, scale, shift), and leaving one block of 512 rows of the result (512 x 256).

  The body reads its six inputs whole and writes its output block whole, once. So what it leaves in the output block
  is a function tcOut of the six input blocks alone, and every input block is left as it was found. This file names
  that function, states the body's triple, the data of the pipeline around it (the arrays as the region finds them,
  each input's block at each point, the output block tcOut of the input blocks) and the obligation that the body
  meets this data at every point.
-/
import proofs.«207659_g70703751627518_cont_9to1_m_904_5_alg».proof.Proof.Gen.KernelIdeal.Launch
import proofs.«207659_g70703751627518_cont_9to1_m_904_5_alg».proof.Proof.Gen.KernelIdeal.Points
import proofs.«207659_g70703751627518_cont_9to1_m_904_5_alg».proof.Proof.Gen.KernelIdeal.Skeleton
import proofs.«207659_g70703751627518_cont_9to1_m_904_5_alg».proof.Proof.Base
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] {U : Type} [URA U]

local notation "𝕄" => MT nD τ sig (HIx 1) (Elt F) ℕ U ℕ

-- The TensorCore's arrays when the region is entered: a parameter (what the counting kernel and the host operations
-- before the region left).
variable (Vv : (c : Dev nD) → (b : Ref sig .tc) → Buf (Elt F) ((c : Thread nD τ).loc b))

/-! ## The block function -/

/-- What the body leaves in its output block, from its six input blocks: 512 rows of packed counts x0, the table x1,
    the projection x2, the bias x3, the scale x4 and the shift x5. The packed counts are unpacked to 4096 counts a row,
    multiplied into the table and scaled (the mean embedding), projected and biased; each row is then centred, divided
    by its deviation, scaled, shifted and clamped below at zero. -/
def tcOut (x0 : Vec F S512x1024 .i32) (x1 : Vec F S4096x72 .bf16) (x2 : Vec F S72x256 .f32) (x3 x4 x5 : Vec F S1x256 .f32) :
    Vec F S512x256 .f32 :=
  k1_pay1 (k1_pay2 x0 x1 x2 x3) (k1_pay3 x0 x1 x2 x3) x4 x5

/-! ## The windows' blocks -/

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (Vv c (Pipeline.arrRef spec1 w))

/-- An input window's current buffer holds its block at every point, fetched there or not, for any data whose array
    is the region's and whose body leaves the block in place: unfetched, the block index has not moved. -/
theorem before0_of {c : Dev nD} (dat : Pipeline.Dat τ (Elt F) (HIx 1) ℕ U ℕ cfg1 c) (hA : dat.A 0 = Vv c (Pipeline.arrRef spec1 0))
    (hafter : ∀ t, dat.after 0 t = iblk Vv c 0 t) (t : Fin cfg1.N) (d) : dat.before 0 t d = iblk Vv c 0 t :=
  (dat.before_in_eq_fetched 0 rfl (fun _ => rfl) (fun _ _ _ => rfl) (fun t => by rw [hafter]; unfold Pipeline.Dat.blockOf iblk; rw [hA]; try rfl) t d).trans
    (by unfold Pipeline.Dat.fetched Pipeline.Dat.blockOf iblk; rw [hA]; try rfl)
theorem before1_of {c : Dev nD} (dat : Pipeline.Dat τ (Elt F) (HIx 1) ℕ U ℕ cfg1 c) (hA : dat.A 1 = Vv c (Pipeline.arrRef spec1 1))
    (hafter : ∀ t, dat.after 1 t = iblk Vv c 1 t) (t : Fin cfg1.N) (d) : dat.before 1 t d = iblk Vv c 1 t :=
  (dat.before_in_eq_fetched 1 rfl (fun _ => rfl) (fun _ _ _ => rfl) (fun t => by rw [hafter]; unfold Pipeline.Dat.blockOf iblk; rw [hA]; try rfl) t d).trans
    (by unfold Pipeline.Dat.fetched Pipeline.Dat.blockOf iblk; rw [hA]; try rfl)
theorem before2_of {c : Dev nD} (dat : Pipeline.Dat τ (Elt F) (HIx 1) ℕ U ℕ cfg1 c) (hA : dat.A 2 = Vv c (Pipeline.arrRef spec1 2))
    (hafter : ∀ t, dat.after 2 t = iblk Vv c 2 t) (t : Fin cfg1.N) (d) : dat.before 2 t d = iblk Vv c 2 t :=
  (dat.before_in_eq_fetched 2 rfl (fun _ => rfl) (fun _ _ _ => rfl) (fun t => by rw [hafter]; unfold Pipeline.Dat.blockOf iblk; rw [hA]; try rfl) t d).trans
    (by unfold Pipeline.Dat.fetched Pipeline.Dat.blockOf iblk; rw [hA]; try rfl)
theorem before3_of {c : Dev nD} (dat : Pipeline.Dat τ (Elt F) (HIx 1) ℕ U ℕ cfg1 c) (hA : dat.A 3 = Vv c (Pipeline.arrRef spec1 3))
    (hafter : ∀ t, dat.after 3 t = iblk Vv c 3 t) (t : Fin cfg1.N) (d) : dat.before 3 t d = iblk Vv c 3 t :=
  (dat.before_in_eq_fetched 3 rfl (fun _ => rfl) (fun _ _ _ => rfl) (fun t => by rw [hafter]; unfold Pipeline.Dat.blockOf iblk; rw [hA]; try rfl) t d).trans
    (by unfold Pipeline.Dat.fetched Pipeline.Dat.blockOf iblk; rw [hA]; try rfl)
theorem before4_of {c : Dev nD} (dat : Pipeline.Dat τ (Elt F) (HIx 1) ℕ U ℕ cfg1 c) (hA : dat.A 4 = Vv c (Pipeline.arrRef spec1 4))
    (hafter : ∀ t, dat.after 4 t = iblk Vv c 4 t) (t : Fin cfg1.N) (d) : dat.before 4 t d = iblk Vv c 4 t :=
  (dat.before_in_eq_fetched 4 rfl (fun _ => rfl) (fun _ _ _ => rfl) (fun t => by rw [hafter]; unfold Pipeline.Dat.blockOf iblk; rw [hA]; try rfl) t d).trans
    (by unfold Pipeline.Dat.fetched Pipeline.Dat.blockOf iblk; rw [hA]; try rfl)
theorem before5_of {c : Dev nD} (dat : Pipeline.Dat τ (Elt F) (HIx 1) ℕ U ℕ cfg1 c) (hA : dat.A 5 = Vv c (Pipeline.arrRef spec1 5))
    (hafter : ∀ t, dat.after 5 t = iblk Vv c 5 t) (t : Fin cfg1.N) (d) : dat.before 5 t d = iblk Vv c 5 t :=
  (dat.before_in_eq_fetched 5 rfl (fun _ => rfl) (fun _ _ _ => rfl) (fun t => by rw [hafter]; unfold Pipeline.Dat.blockOf iblk; rw [hA]; try rfl) t d).trans
    (by unfold Pipeline.Dat.fetched Pipeline.Dat.blockOf iblk; rw [hA]; try rfl)

/-! ## The body's accesses: each buffer whole -/

abbrev rIn0 : Rect S512x1024 := Rect.unit (s := S512x1024) ![0, 0] S512x1024.size inb_S512x1024_S512x1024_0_0
abbrev rIn1 : Rect S4096x72 := Rect.unit (s := S4096x72) ![0, 0] S4096x72.size inb_S4096x72_S4096x72_0_0
abbrev rIn2 : Rect S72x256 := Rect.unit (s := S72x256) ![0, 0] S72x256.size inb_S72x256_S72x256_0_0
abbrev rRow : Rect S1x256 := Rect.unit (s := S1x256) ![0, 0] S1x256.size inb_S1x256_S1x256_0_0
abbrev rOut : Rect S512x256 := Rect.unit (s := S512x256) ![0, 0] S512x256.size inb_S512x256_S512x256_0_0

/-! ## What the body leaves in the output block -/

/-- The output block after the body, from the input blocks: its one store, of tcOut of the six loads. -/
def out6 (x0 : Vec F S512x1024 .i32) (x1 : Vec F S4096x72 .bf16) (x2 : Vec F S72x256 .f32) (x3 x4 x5 : Vec F S1x256 .f32) :
    Vec F S512x256 .f32 :=
  View.canon [⟨rOut, tcOut (View.ld x0 rIn0) (View.ld x1 rIn1) (View.ld x2 rIn2) (View.ld x3 rRow) (View.ld x4 rRow) (View.ld x5 rRow)⟩]

/-- The one store is of the whole block, so it covers it. -/
theorem cover6 (p0 : Vec F S512x256 .f32) (y : S512x256.Idx) :
    ∃ pc ∈ ([⟨rOut, p0⟩] : List (View.Piece (Elt F) S512x256 .f32)), y ∈ pc.1.set :=
  View.cover_of_tiled [⟨rOut, p0⟩] S512x256.size (by rfl) y

/-! ## The body's triple -/

set_option maxHeartbeats 4000000 in
/-- The body on whole buffers, the inputs' at read contents x0..x5 and the output's at anything, runs to the
    continuation holding the inputs' as they were and the output's at out6 of the inputs'. -/
theorem sound_kernel (c : Dev nD) (E : Set ℕ) (i : grid1.Coords)
    (a0 : Memref sig .tc .vmem S512x1024 .i32) (h0 : a0.IsWhole) (a1 : Memref sig .tc .vmem S4096x72 .bf16) (h1 : a1.IsWhole)
    (a2 : Memref sig .tc .vmem S72x256 .f32) (h2 : a2.IsWhole) (a3 : Memref sig .tc .vmem S1x256 .f32) (h3 : a3.IsWhole)
    (a4 : Memref sig .tc .vmem S1x256 .f32) (h4 : a4.IsWhole) (a5 : Memref sig .tc .vmem S1x256 .f32) (h5 : a5.IsWhole)
    (a6 : Memref sig .tc .vmem S512x256 .f32) (h6 : a6.IsWhole)
    (x0 : Vec F S512x1024 .i32) (x1 : Vec F S4096x72 .bf16) (x2 : Vec F S72x256 .f32) (x3 x4 x5 : Vec F S1x256 .f32) (Kc : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ (∃ d, owns (c : Thread nD τ) a6 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare (out6 x0 x1 x2 x3 x4 x5)) -∗ Kc ⟨⟩))
      ⊢ wp frame (wpE (defs₀ (F := F)) Variants.none c none) E (cc1__tc_project i a0 h0 a1 h1 a2 h2 a3 h3 a4 h4 a5 h5 a6 h6) Kc := by
  simp only [cc1__tc_project_eq_skeleton]; unfold cc1__tc_project_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

/-! ## The pipeline's data -/

/-- The data of the pipeline on core c: the arrays as the region finds them; after the body at point t each input's
    buffer at its block and the output's at out6 of the six input blocks; the invariant the scoped buffers no window
    stages (there is none); nothing owed, the recorded pairs within B; full shares. -/
def tcDat (B : Set (SemLoc sig × HIx 1)) (c : Dev nD) : Pipeline.Dat τ (Elt F) (HIx 1) ℕ U ℕ cfg1 c where
  A w := Vv c (Pipeline.arrRef spec1 w)
  after w t := match w with
    | ⟨0, _⟩ => iblk Vv c 0 t
    | ⟨1, _⟩ => iblk Vv c 1 t
    | ⟨2, _⟩ => iblk Vv c 2 t
    | ⟨3, _⟩ => iblk Vv c 3 t
    | ⟨4, _⟩ => iblk Vv c 4 t
    | ⟨5, _⟩ => iblk Vv c 5 t
    | ⟨6, _⟩ => out6 (iblk Vv c 0 t) (iblk Vv c 1 t) (iblk Vv c 2 t) (iblk Vv c 3 t) (iblk Vv c 4 t) (iblk Vv c 5 t)
  Φ _ := Pipeline.scopedRest (Ix := HIx 1) (Name := ℕ) (U := U) (Lvl := ℕ) (Val := Elt F) spec1 c
  q _ := fullShare
  owed _ := 0
  recorded _ := B

variable (B : Set (SemLoc sig × HIx 1))

/-- The data's arrays are the region-entry contents. -/
theorem tcDat_A (c : Dev nD) (w : Fin cfg1.W) : (tcDat (U := U) Vv B c).A w = Vv c (Pipeline.arrRef spec1 w) := by
  dsimp only [tcDat]

/-- What the body leaves, window by window. -/
theorem tcDat_after0 (c : Dev nD) (t : Fin cfg1.N) : (tcDat (U := U) Vv B c).after 0 t = iblk Vv c 0 t := by dsimp only [tcDat]
theorem tcDat_after1 (c : Dev nD) (t : Fin cfg1.N) : (tcDat (U := U) Vv B c).after 1 t = iblk Vv c 1 t := by dsimp only [tcDat]
theorem tcDat_after2 (c : Dev nD) (t : Fin cfg1.N) : (tcDat (U := U) Vv B c).after 2 t = iblk Vv c 2 t := by dsimp only [tcDat]
theorem tcDat_after3 (c : Dev nD) (t : Fin cfg1.N) : (tcDat (U := U) Vv B c).after 3 t = iblk Vv c 3 t := by dsimp only [tcDat]
theorem tcDat_after4 (c : Dev nD) (t : Fin cfg1.N) : (tcDat (U := U) Vv B c).after 4 t = iblk Vv c 4 t := by dsimp only [tcDat]
theorem tcDat_after5 (c : Dev nD) (t : Fin cfg1.N) : (tcDat (U := U) Vv B c).after 5 t = iblk Vv c 5 t := by dsimp only [tcDat]
theorem tcDat_after6 (c : Dev nD) (t : Fin cfg1.N) :
    (tcDat (U := U) Vv B c).after 6 t = out6 (iblk Vv c 0 t) (iblk Vv c 1 t) (iblk Vv c 2 t) (iblk Vv c 3 t) (iblk Vv c 4 t) (iblk Vv c 5 t) := by
  dsimp only [tcDat]

/-- Each input's current buffer holds its block at every point, fetched there or not. -/
theorem tcDat_before0 (c : Dev nD) (t : Fin cfg1.N) (d) : (tcDat (U := U) Vv B c).before 0 t d = iblk Vv c 0 t :=
  before0_of Vv (tcDat Vv B c) (tcDat_A Vv B c 0) (tcDat_after0 Vv B c) t d
theorem tcDat_before1 (c : Dev nD) (t : Fin cfg1.N) (d) : (tcDat (U := U) Vv B c).before 1 t d = iblk Vv c 1 t :=
  before1_of Vv (tcDat Vv B c) (tcDat_A Vv B c 1) (tcDat_after1 Vv B c) t d
theorem tcDat_before2 (c : Dev nD) (t : Fin cfg1.N) (d) : (tcDat (U := U) Vv B c).before 2 t d = iblk Vv c 2 t :=
  before2_of Vv (tcDat Vv B c) (tcDat_A Vv B c 2) (tcDat_after2 Vv B c) t d
theorem tcDat_before3 (c : Dev nD) (t : Fin cfg1.N) (d) : (tcDat (U := U) Vv B c).before 3 t d = iblk Vv c 3 t :=
  before3_of Vv (tcDat Vv B c) (tcDat_A Vv B c 3) (tcDat_after3 Vv B c) t d
theorem tcDat_before4 (c : Dev nD) (t : Fin cfg1.N) (d) : (tcDat (U := U) Vv B c).before 4 t d = iblk Vv c 4 t :=
  before4_of Vv (tcDat Vv B c) (tcDat_A Vv B c 4) (tcDat_after4 Vv B c) t d
theorem tcDat_before5 (c : Dev nD) (t : Fin cfg1.N) (d) : (tcDat (U := U) Vv B c).before 5 t d = iblk Vv c 5 t :=
  before5_of Vv (tcDat Vv B c) (tcDat_A Vv B c 5) (tcDat_after5 Vv B c) t d

/-! ## The body obligation, at a generic point -/

/-- What the body is called with at point t, the windows one by one, -/
def bodyPre (c : Dev nD) (t : Fin cfg1.N) : sProp 𝕄 :=
  iprop((tcDat (U := U) Vv B c).Φ t.castSucc ∗ (tcDat (U := U) Vv B c).owesAt (none : HIx 1) t.castSucc
    ∗ (∃ d, owns (c : Thread nD τ) (st1_0 t) fullShare ((tcDat (U := U) Vv B c).before 0 t d))
    ∗ (∃ d, owns (c : Thread nD τ) (st1_1 t) fullShare ((tcDat (U := U) Vv B c).before 1 t d))
    ∗ (∃ d, owns (c : Thread nD τ) (st1_2 t) fullShare ((tcDat (U := U) Vv B c).before 2 t d))
    ∗ (∃ d, owns (c : Thread nD τ) (st1_3 t) fullShare ((tcDat (U := U) Vv B c).before 3 t d))
    ∗ (∃ d, owns (c : Thread nD τ) (st1_4 t) fullShare ((tcDat (U := U) Vv B c).before 4 t d))
    ∗ (∃ d, owns (c : Thread nD τ) (st1_5 t) fullShare ((tcDat (U := U) Vv B c).before 5 t d))
    ∗ (∃ d, owns (c : Thread nD τ) (st1_6 t) fullShare ((tcDat (U := U) Vv B c).before 6 t d)))

/-- and what it returns. -/
def bodyPost (c : Dev nD) (t : Fin cfg1.N) : sProp 𝕄 :=
  iprop((tcDat (U := U) Vv B c).Φ t.succ ∗ (tcDat (U := U) Vv B c).owesAt (none : HIx 1) t.succ
    ∗ owns (c : Thread nD τ) (st1_0 t) fullShare ((tcDat (U := U) Vv B c).after 0 t)
    ∗ owns (c : Thread nD τ) (st1_1 t) fullShare ((tcDat (U := U) Vv B c).after 1 t)
    ∗ owns (c : Thread nD τ) (st1_2 t) fullShare ((tcDat (U := U) Vv B c).after 2 t)
    ∗ owns (c : Thread nD τ) (st1_3 t) fullShare ((tcDat (U := U) Vv B c).after 3 t)
    ∗ owns (c : Thread nD τ) (st1_4 t) fullShare ((tcDat (U := U) Vv B c).after 4 t)
    ∗ owns (c : Thread nD τ) (st1_5 t) fullShare ((tcDat (U := U) Vv B c).after 5 t)
    ∗ owns (c : Thread nD τ) (st1_6 t) fullShare ((tcDat (U := U) Vv B c).after 6 t))

set_option maxHeartbeats 4000000 in
/-- The body at any point: the inputs' buffers hold their blocks, so the body's triple applies; the invariant and the
    core's owes pass through unread. -/
theorem sound_body (c : Dev nD) (t : Fin cfg1.N) :
    bodyPre (U := U) Vv B c t ⊢ wp frame (wpE (defs₀ (F := F)) Variants.none c none) Set.univ (bodyAt1 t) (fun _ => bodyPost (U := U) Vv B c t) := by
  unfold bodyPre bodyPost bodyAt1
  simp only [tcDat_before0, tcDat_before1, tcDat_before2, tcDat_before3, tcDat_before4, tcDat_before5]
  rw [show (tcDat (U := U) Vv B c).Φ t.succ = (tcDat (U := U) Vv B c).Φ t.castSucc from rfl,
    show (tcDat (U := U) Vv B c).owesAt (none : HIx 1) t.succ = (tcDat (U := U) Vv B c).owesAt (none : HIx 1) t.castSucc from rfl,
    tcDat_after0, tcDat_after1, tcDat_after2, tcDat_after3, tcDat_after4, tcDat_after5, tcDat_after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk Vv c 0 t) (iblk Vv c 1 t) (iblk Vv c 2 t) (iblk Vv c 3 t) (iblk Vv c 4 t) (iblk Vv c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem tc_body_obligation (c : Dev nD) :
    Pipeline.BodyObligation (tcDat (U := U) Vv B c) (defs₀ (F := F)) Variants.none (none : HIx 1) Set.univ := fun t => by
  rw [bigSep_W1, bigSep_W1]
  exact sound_body Vv B c t

/-- info: 'Cert.KernelIdeal.Hand.tc_body_obligation' depends on axioms: [propext, Classical.choice, Quot.sound] -/
#guard_msgs in #print axioms tc_body_obligation

end Cert.KernelIdeal.Hand

end
-- ==== Proof.TcBodyValue.lean ====
/-
  The result array of the projection kernel after its 32 points.

  Point t takes rows 512 t .. 512 t + 511 of the packed counts and writes rows 512 t .. 512 t + 511 of the result; the
  other five inputs are whole at every point. So row r of the result is computed from the block r / 512 of the packed
  counts, at row r % 512 of that block: the 32 blocks written back are the blocks of ONE function tcG of the region's
  arrays, and together they cover the result. The input arrays are never written.
-/
import proofs.«207659_g70703751627518_cont_9to1_m_904_5_alg».proof.Proof.TcBody
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] {U : Type} [URA U]

variable (Vv : (c : Dev nD) → (b : Ref sig .tc) → Buf (Elt F) ((c : Thread nD τ).loc b))
variable (B : Set (SemLoc sig × HIx 1))

theorem hz2 : (![0, 0] : Fin 2 → Nat) = fun _ => 0 := funext fun a => by fin_cases a <;> rfl

/-- The block indices over the grid: the packed counts' and the result's blocks move down one block of rows a point,
    the other inputs' stay at the one block that is their whole array. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem pt_lt (t : Fin cfg1.N) : t.val < 32 := t.isLt.trans_eq N_1

/-! ## The input blocks, read -/

/-- The word at (r, w) of block t of the packed counts is the array's word at (512 t + r, w). -/
theorem iblk0_apply (c : Dev nD) (t : Fin cfg1.N) (j : S512x1024.Idx) :
    iblk Vv c 0 t j = Vv c main_v2 (ValueIdx.ix2 (⟨512 * t.val + (j 0).val, by have := pt_lt t; have : (j 0).val < 512 := (j 0).isLt; omega⟩ : Fin 16384) (j 1 : Fin 1024)) := by
  obtain ⟨e0, e1, -⟩ := idx_facts t
  show Vv c main_v2 (((cfg1.win 0).blk t).view.emb j) = _
  refine congrArg (Vv c main_v2) ?_
  funext a; apply Fin.ext
  match a with
  | ⟨0, _⟩ => show win1_0.index t (0 : Fin 2) * 512 + 1 * (j 0).val = 512 * t.val + (j 0).val; omega
  | ⟨1, _⟩ => show win1_0.index t (1 : Fin 2) * 1024 + 1 * (j 1).val = (j 1).val; omega

/-- The other inputs' one block is their whole array. -/
theorem iblk1_eq (c : Dev nD) (t : Fin cfg1.N) : (iblk Vv c 1 t : Vec F S4096x72 .bf16) = (Vv c main_v8 : Vec F S4096x72 .bf16) := by
  obtain ⟨-, -, e0, e1, -⟩ := idx_facts t
  funext j
  show Vv c main_v8 (((cfg1.win 1).blk t).view.emb j) = Vv c main_v8 j
  refine congrArg (Vv c main_v8) ?_
  funext a; apply Fin.ext
  match a with
  | ⟨0, _⟩ => show win1_1.index t (0 : Fin 2) * 4096 + 1 * (j 0).val = (j 0).val; omega
  | ⟨1, _⟩ => show win1_1.index t (1 : Fin 2) * 72 + 1 * (j 1).val = (j 1).val; omega
theorem iblk2_eq (c : Dev nD) (t : Fin cfg1.N) : (iblk Vv c 2 t : Vec F S72x256 .f32) = (Vv c main_arg2 : Vec F S72x256 .f32) := by
  obtain ⟨-, -, -, -, e0, e1, -⟩ := idx_facts t
  funext j
  show Vv c main_arg2 (((cfg1.win 2).blk t).view.emb j) = Vv c main_arg2 j
  refine congrArg (Vv c main_arg2) ?_
  funext a; apply Fin.ext
  match a with
  | ⟨0, _⟩ => show win1_2.index t (0 : Fin 2) * 72 + 1 * (j 0).val = (j 0).val; omega
  | ⟨1, _⟩ => show win1_2.index t (1 : Fin 2) * 256 + 1 * (j 1).val = (j 1).val; omega
theorem iblk3_eq (c : Dev nD) (t : Fin cfg1.N) : (iblk Vv c 3 t : Vec F S1x256 .f32) = (Vv c main_v9 : Vec F S1x256 .f32) := by
  obtain ⟨-, -, -, -, -, -, e0, e1, -⟩ := idx_facts t
  funext j
  show Vv c main_v9 (((cfg1.win 3).blk t).view.emb j) = Vv c main_v9 j
  refine congrArg (Vv c main_v9) ?_
  funext a; apply Fin.ext
  match a with
  | ⟨0, _⟩ => show win1_3.index t (0 : Fin 2) * 1 + 1 * (j 0).val = (j 0).val; omega
  | ⟨1, _⟩ => show win1_3.index t (1 : Fin 2) * 256 + 1 * (j 1).val = (j 1).val; omega
theorem iblk4_eq (c : Dev nD) (t : Fin cfg1.N) : (iblk Vv c 4 t : Vec F S1x256 .f32) = (Vv c main_v10 : Vec F S1x256 .f32) := by
  obtain ⟨-, -, -, -, -, -, -, -, e0, e1, -⟩ := idx_facts t
  funext j
  show Vv c main_v10 (((cfg1.win 4).blk t).view.emb j) = Vv c main_v10 j
  refine congrArg (Vv c main_v10) ?_
  funext a; apply Fin.ext
  match a with
  | ⟨0, _⟩ => show win1_4.index t (0 : Fin 2) * 1 + 1 * (j 0).val = (j 0).val; omega
  | ⟨1, _⟩ => show win1_4.index t (1 : Fin 2) * 256 + 1 * (j 1).val = (j 1).val; omega
theorem iblk5_eq (c : Dev nD) (t : Fin cfg1.N) : (iblk Vv c 5 t : Vec F S1x256 .f32) = (Vv c main_v11 : Vec F S1x256 .f32) := by
  obtain ⟨-, -, -, -, -, -, -, -, -, -, e0, e1, -⟩ := idx_facts t
  funext j
  show Vv c main_v11 (((cfg1.win 5).blk t).view.emb j) = Vv c main_v11 j
  refine congrArg (Vv c main_v11) ?_
  funext a; apply Fin.ext
  match a with
  | ⟨0, _⟩ => show win1_5.index t (0 : Fin 2) * 1 + 1 * (j 0).val = (j 0).val; omega
  | ⟨1, _⟩ => show win1_5.index t (1 : Fin 2) * 256 + 1 * (j 1).val = (j 1).val; omega

/-! ## The result as one function of the region's arrays -/

/-- The point whose block holds row (i 0) of the result. -/
def ptOf (i : S16384x256.Idx) : Fin cfg1.N := ⟨(i 0).val / 512, by
  have h : (i 0).val < 16384 := (i 0).isLt
  show (i 0).val / 512 < grid1.N
  rw [N_1]; omega⟩

theorem ptOf_val (i : S16384x256.Idx) : (ptOf i).val = (i 0).val / 512 := rfl

/-- The result array: entry (r, k) is entry (r % 512, k) of tcOut of block r / 512 of the packed counts and the five
    whole inputs. -/
def tcG (c : Dev nD) : S16384x256.Idx → Elt F .f32 := fun i =>
  tcOut (iblk Vv c 0 (ptOf i)) (Vv c main_v8) (Vv c main_arg2) (Vv c main_v9) (Vv c main_v10) (Vv c main_v11)
    (ValueIdx.ix2 (⟨(i 0).val % 512, Nat.mod_lt _ (by decide)⟩ : Fin 512) (i 1 : Fin 256))

/-- tcG at row 512 t + r is the block function of block t at row r. -/
theorem tcG_at (c : Dev nD) (t : Fin cfg1.N) (i : S16384x256.Idx) (j : S512x256.Idx)
    (h0 : (i 0).val = 512 * t.val + (j 0).val) (h1 : (i 1).val = (j 1).val) :
    tcG Vv c i = tcOut (iblk Vv c 0 t) (Vv c main_v8) (Vv c main_arg2) (Vv c main_v9) (Vv c main_v10) (Vv c main_v11) j := by
  have hj0 : (j 0).val < 512 := (j 0).isLt
  have hp : ptOf i = t := Fin.ext (by rw [ptOf_val]; omega)
  subst hp
  have hj : (ValueIdx.ix2 (⟨(i 0).val % 512, Nat.mod_lt _ (by decide)⟩ : Fin 512) (i 1 : Fin 256) : S512x256.Idx) = j := by
    funext a; apply Fin.ext
    match a with
    | ⟨0, _⟩ => show (i 0).val % 512 = (j 0).val; rw [ptOf_val] at h0; omega
    | ⟨1, _⟩ => exact h1
  unfold tcG
  rw [hj]

/-- What point t writes back is block t of tcG. -/
theorem flushed6_eq (c : Dev nD) (t : Fin cfg1.N) :
    (tcDat (U := U) Vv B c).flushed 6 t = ((cfg1.win 6).blk t).view.read (Elt F) (tcG Vv c) := by
  show (cfg1.win 6).cut (grid1.coords t) ((tcDat (U := U) Vv B c).after 6 t) = _
  rw [tcDat_after6]
  unfold out6
  rw [View.canon_unit_zero hz2]
  simp only [View.ld_unit_zero (S := S512x1024) hz2, View.ld_unit_zero (S := S4096x72) hz2, View.ld_unit_zero (S := S72x256) hz2,
    View.ld_unit_zero (S := S1x256) hz2]
  rw [iblk1_eq, iblk2_eq, iblk3_eq, iblk4_eq, iblk5_eq]
  obtain ⟨-, -, -, -, -, -, -, -, -, -, -, -, e0, e1⟩ := idx_facts t
  funext j
  show tcOut (iblk Vv c 0 t) (Vv c main_v8) (Vv c main_arg2) (Vv c main_v9) (Vv c main_v10) (Vv c main_v11) j
    = tcG Vv c (((cfg1.win 6).blk t).view.emb j)
  refine (tcG_at Vv c t _ j ?_ ?_).symm
  · show win1_6.index t (0 : Fin 2) * 512 + 1 * (j 0).val = 512 * t.val + (j 0).val; omega
  · show win1_6.index t (1 : Fin 2) * 256 + 1 * (j 1).val = (j 1).val; omega

/-- A row of the result is in point t's block iff it is one of rows 512 t .. 512 t + 511. -/
theorem mem_blk6 (t : Fin cfg1.N) (i : S16384x256.Idx) :
    i ∈ ((cfg1.win 6).blk t).view.set ↔ ∀ a : Fin 2, win1_6.index t a * S512x256.size a ≤ (i a).val ∧ (i a).val < win1_6.index t a * S512x256.size a + S512x256.size a := by
  show i ∈ ((View.whole main_v12).slice (win1_6.rect t)).set ↔ _
  rw [View.set_slice_whole, Rect.mem_set_unit]
  exact Iff.rfl

/-- Every entry of the result is in the block of the point r / 512, which writes it back. -/
theorem cover6_arr (i : S16384x256.Idx) : ∃ t : Fin cfg1.N, (cfg1.win 6).flush t = true ∧ i ∈ ((cfg1.win 6).blk t).view.set := by
  refine ⟨ptOf i, flush1_6 _, ?_⟩
  rw [mem_blk6]
  obtain ⟨-, -, -, -, -, -, -, -, -, -, -, -, e0, e1⟩ := idx_facts (ptOf i)
  have h0 : (i 0).val < 16384 := (i 0).isLt
  have h1 : (i 1).val < 256 := (i 1).isLt
  have hp := ptOf_val i
  intro a
  match a with
  | ⟨0, _⟩ => show win1_6.index (ptOf i) (0 : Fin 2) * 512 ≤ (i 0).val ∧ (i 0).val < win1_6.index (ptOf i) (0 : Fin 2) * 512 + 512; omega
  | ⟨1, _⟩ => show win1_6.index (ptOf i) (1 : Fin 2) * 256 ≤ (i 1).val ∧ (i 1).val < win1_6.index (ptOf i) (1 : Fin 2) * 256 + 256; omega

/-! ## The arrays after the last point -/

/-- The result array after the last point is tcG of the region's arrays. -/
theorem tcDat_arrAt6 (c : Dev nD) : (tcDat (U := U) Vv B c).arrAt 6 cfg1.N = tcG Vv c :=
  (tcDat (U := U) Vv B c).arrAt_eq_of_cover 6 (tcG Vv c) (fun t _ => flushed6_eq Vv B c t) cover6_arr

/-- Entry by entry. -/
theorem tcDat_arrAt6_apply (c : Dev nD) (i : S16384x256.Idx) :
    (tcDat (U := U) Vv B c).arrAt 6 cfg1.N i
      = tcOut (iblk Vv c 0 (ptOf i)) (Vv c main_v8) (Vv c main_arg2) (Vv c main_v9) (Vv c main_v10) (Vv c main_v11)
          (ValueIdx.ix2 (⟨(i 0).val % 512, Nat.mod_lt _ (by decide)⟩ : Fin 512) (i 1 : Fin 256)) := by
  rw [tcDat_arrAt6]; rfl

/-- The input arrays are never written. -/
theorem tcDat_arrAt0 (c : Dev nD) : (tcDat (U := U) Vv B c).arrAt 0 cfg1.N = (tcDat (U := U) Vv B c).A 0 := (tcDat (U := U) Vv B c).arrAt_in 0 rfl _
theorem tcDat_arrAt1 (c : Dev nD) : (tcDat (U := U) Vv B c).arrAt 1 cfg1.N = (tcDat (U := U) Vv B c).A 1 := (tcDat (U := U) Vv B c).arrAt_in 1 rfl _
theorem tcDat_arrAt2 (c : Dev nD) : (tcDat (U := U) Vv B c).arrAt 2 cfg1.N = (tcDat (U := U) Vv B c).A 2 := (tcDat (U := U) Vv B c).arrAt_in 2 rfl _
theorem tcDat_arrAt3 (c : Dev nD) : (tcDat (U := U) Vv B c).arrAt 3 cfg1.N = (tcDat (U := U) Vv B c).A 3 := (tcDat (U := U) Vv B c).arrAt_in 3 rfl _
theorem tcDat_arrAt4 (c : Dev nD) : (tcDat (U := U) Vv B c).arrAt 4 cfg1.N = (tcDat (U := U) Vv B c).A 4 := (tcDat (U := U) Vv B c).arrAt_in 4 rfl _
theorem tcDat_arrAt5 (c : Dev nD) : (tcDat (U := U) Vv B c).arrAt 5 cfg1.N = (tcDat (U := U) Vv B c).A 5 := (tcDat (U := U) Vv B c).arrAt_in 5 rfl _

/-- info: 'Cert.KernelIdeal.Hand.tcDat_arrAt6' depends on axioms: [propext, Classical.choice, Quot.sound] -/
#guard_msgs in #print axioms tcDat_arrAt6

end Cert.KernelIdeal.Hand

end
-- ==== Proof.Launch.lean ====
/-
  The launch of the whole program: the counting kernel on the 32 vector subcores of the two SparseCores, the host
  operations around it, and the projection kernel on the TensorCore as a pipeline over 32 blocks of 512 queries.

  The two flat arrays the counting kernel works on are cut into 1024 pieces each; piece 64 s + 32 c + k belongs to
  trip k of vector subcore s of SparseCore c, and the map (c, s, k) ↦ 64 s + 32 c + k is a bijection onto the piece
  numbers, so the whole arrays are exactly the tasks' operands taken together, before the call and after it.
-/
import proofs.«207659_g70703751627518_cont_9to1_m_904_5_alg».proof.Proof.Base
import proofs.«207659_g70703751627518_cont_9to1_m_904_5_alg».proof.Proof.Gen.KernelIdeal.Launch
import proofs.«207659_g70703751627518_cont_9to1_m_904_5_alg».proof.Proof.Gen.KernelIdeal.Points
import proofs.«207659_g70703751627518_cont_9to1_m_904_5_alg».proof.Proof.TcBody
import proofs.«207659_g70703751627518_cont_9to1_m_904_5_alg».proof.Proof.TcBodyValue
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.KernelIdeal.Hand

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within)
open Idealize.ShloMosaic.Tactic

variable {F : FTy → Type}

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds are the left factor; the pipeline's the left factor of the right one; the counters are
    found by instance in what remains. -/
abbrev EH : Emb UH (MT nD τ sig (HIx 1) (Elt F) ℕ UU ℕ) := embL
abbrev EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP embR; infer_instance

/-! ## The launch memory, the host operations and what each buffer holds when -/

variable (m : (ℓ : Loc nD τ sig) → Buf (Elt F) ℓ) (ρ : Dev nD → PrngReg)

variable [FloatOps F] [Named F]

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev a5' : DevRef τ sig := Proc.devRef .tc (main_arg5 : Ref sig .tc)
abbrev v0' : DevRef τ sig := Proc.devRef .tc (main_v0 : Ref sig .tc)
abbrev v1' : DevRef τ sig := Proc.devRef .tc (main_v1 : Ref sig .tc)

/-- The twelve host operations of the program, in order: the flattening of the tokens; after the call the
    reshaping of the counts, the four strided slices of the table, their concatenation, its conversion, and the three
    row vectors. -/
abbrev op0 : HloOp τ sig (Elt F) := StableHlo.reshape main_arg0 main_v0 rfl Facts₀.shapeCasts_S16384x200_S3276800
abbrev op2 : HloOp τ sig (Elt F) := StableHlo.reshape main_v1 main_v2 rfl Facts₀.shapeCasts_S16777216_S16384x1024
abbrev op3 : HloOp τ sig (Elt F) := StableHlo.unary main_arg1 main_v3 ((Host.slice S1024x72 ![0, 0] ![4, 1] · Facts₀.slicesBy_S4096x72_S1024x72_0s4_0s1) : (⟨S4096x72, .f32⟩ : BufTy).Contents (Elt F) → (⟨S1024x72, .f32⟩ : BufTy).Contents (Elt F))
abbrev op4 : HloOp τ sig (Elt F) := StableHlo.unary main_arg1 main_v4 ((Host.slice S1024x72 ![1, 0] ![4, 1] · Facts₀.slicesBy_S4096x72_S1024x72_1s4_0s1) : (⟨S4096x72, .f32⟩ : BufTy).Contents (Elt F) → (⟨S1024x72, .f32⟩ : BufTy).Contents (Elt F))
abbrev op5 : HloOp τ sig (Elt F) := StableHlo.unary main_arg1 main_v5 ((Host.slice S1024x72 ![2, 0] ![4, 1] · Facts₀.slicesBy_S4096x72_S1024x72_2s4_0s1) : (⟨S4096x72, .f32⟩ : BufTy).Contents (Elt F) → (⟨S1024x72, .f32⟩ : BufTy).Contents (Elt F))
abbrev op6 : HloOp τ sig (Elt F) := StableHlo.unary main_arg1 main_v6 ((Host.slice S1024x72 ![3, 0] ![4, 1] · Facts₀.slicesBy_S4096x72_S1024x72_3s4_0s1) : (⟨S4096x72, .f32⟩ : BufTy).Contents (Elt F) → (⟨S1024x72, .f32⟩ : BufTy).Contents (Elt F))
abbrev op7 : HloOp τ sig (Elt F) := StableHlo.nary ![main_v3, main_v4, main_v5, main_v6] main_v7 (fun u => concatenate S4096x72 0 [⟨S1024x72, u 0⟩, ⟨S1024x72, u 1⟩, ⟨S1024x72, u 2⟩, ⟨S1024x72, u 3⟩] Facts₀.concatenates_S1024x72_S1024x72_S1024x72_S1024x72_S4096x72_d0)
abbrev op8 : HloOp τ sig (Elt F) := StableHlo.unary main_v7 main_v8 ((truncf .bf16 · Facts₀.bitsLt_bf16_f32) : (⟨S4096x72, .f32⟩ : BufTy).Contents (Elt F) → (⟨S4096x72, .bf16⟩ : BufTy).Contents (Elt F))
abbrev op9 : HloOp τ sig (Elt F) := StableHlo.reshape main_arg3 main_v9 rfl Facts₀.shapeCasts_S256_S1x256
abbrev op10 : HloOp τ sig (Elt F) := StableHlo.reshape main_arg4 main_v10 rfl Facts₀.shapeCasts_S256_S1x256
abbrev op11 : HloOp τ sig (Elt F) := StableHlo.reshape main_arg5 main_v11 rfl Facts₀.shapeCasts_S256_S1x256

/-- The launch contents, then the contents after the flattening of the tokens. -/
abbrev V0 (d : Dev nD) : Valuation τ sig (Elt F) := fun b => m (d, b)
abbrev V1 (d : Dev nD) : Valuation τ sig (Elt F) := (op0 (F := F)).result (V0 m d)

/-- The flat tokens and the flat counts when the counting kernel starts. -/
abbrev ids (d : Dev nD) : Buf (Elt F) (idsLoc d) := V1 m d v0'
abbrev cnt0 (d : Dev nD) : Buf (Elt F) (cntLoc d) := V1 m d v1'

/-- After the call the flat counts hold the packed histograms. -/
def V2 (d : Dev nD) : Valuation τ sig (Elt F) := Function.update (V1 m d) v1' (packedFlat (ids m d))

/-- The contents when the projection kernel starts: the eleven remaining host operations applied in order. -/
abbrev Vr (d : Dev nD) : Valuation τ sig (Elt F) :=
  (op11 (F := F)).result ((op10 (F := F)).result ((op9 (F := F)).result ((op8 (F := F)).result ((op7 (F := F)).result ((op6 (F := F)).result
    ((op5 (F := F)).result ((op4 (F := F)).result ((op3 (F := F)).result ((op2 (F := F)).result (V2 m d))))))))))

/-! ## One vector subcore's task, as the launch needs it -/

abbrev cVL (L : grid0.Coords) : Fin τ.nSC := (L 0).castLE Facts₀.hcore0
abbrev jVL (L : grid0.Coords) : Fin τ.nSub := (L 1).castLE Facts₀.hsub0

/-- The statement of a task: from its 32 pieces of the tokens and of the counts (at any contents) and the subcore's
    scoped storage, the kernel's function at the subcore's coordinates runs to the same pieces, the counts' at the
    packed histograms of the tokens, whatever the subcore owes passing through. -/
def TileBody (F : FTy → Type) [FloatOps F] [Named F] (U : Type) [URA U] [CountersIn U] : Prop :=
  ∀ (hF : (K (F := F)).Facts) (d : Dev nD) (L : grid0.Coords)
    (ids : Buf (Elt F) (idsLoc d)) (cnt : Buf (Elt F) (cntLoc d)) (hids : ∀ i, (ids i).toNat < 4096)
    (O : CellTallies nD τ sig (HIx 1)) (W : Waits sig (HIx 1)) (hO : ∀ g, O g none = 0),
    (iprop(levAts (K (F := F)).L (K (F := F)).lev
        ∗ taskPts (U := U) d (Fin.cast (show grid0.bound 0 = 2 from rfl) (L 0)) (Fin.cast (show grid0.bound 1 = 16 from rfl) (L 1)) ids cnt
        ∗ scopedBufs (V d (cVL L) (jVL L)) ∗ scopedSems0 (V d (cVL L) (jVL L)) ∗ owes (V d (cVL L) (jVL L)) O W)
      : sProp (MT nD τ sig (HIx 1) (Elt F) ℕ U ℕ))
      ⊢ wp frame (wpE (defs₀ (F := F)) 𝒱₀ (V d (cVL L) (jVL L)) none) Set.univ
          (cc0__sc_histogram L (Memref.whole main_v0_scv) (Memref.isWhole_whole _) (Memref.whole main_v1_scv) (Memref.isWhole_whole _)
            (Memref.whole cc0_scratch0) (Memref.isWhole_whole _) (Memref.whole cc0_scratch1) (Memref.isWhole_whole _) cc0_scoped0 cc0_scoped1)
          fun _ => iprop(taskPts (U := U) d (Fin.cast (show grid0.bound 0 = 2 from rfl) (L 0)) (Fin.cast (show grid0.bound 1 = 16 from rfl) (L 1)) ids (packedFlat ids)
            ∗ scopedBufs (V d (cVL L) (jVL L)) ∗ scopedSems0 (V d (cVL L) (jVL L))
            ∗ ∃ W', ⌜∀ p ∈ W', p ∈ W ∨ p.2 = none⌝ ∗ owes (V d (cVL L) (jVL L)) O W')

/-! ## What the handshakes carry -/

instance taskPts_storable (d : Dev nD) (c : Fin 2) (s : Fin 16) (ids : Buf (Elt F) (idsLoc d)) (cnt : Buf (Elt F) (cntLoc d)) :
    BI.Storable (upEmb : UEmb _ 𝕄) (taskPts (U := UU) d c s ids cnt) := by
  unfold taskPts; infer_instance

/-- A task is handed its pieces with the counts as they stand and hands them back with the packed histograms; a
    SparseCore is handed its sixteen tasks' pieces. -/
def P : (K (F := F)).Pay (nD := nD) (Val := Elt F) (Name := ℕ) (U := UU) where
  st := fun q d c => match q with
    | 0 => bigSep Finset.univ fun i : Fin ((K (F := F)).nSub 0) => taskPts (U := UU) d (Fin.cast nCore_zero c) (Fin.cast nSub_zero i) (ids m d) (cnt0 m d)
  dn := fun q d c => match q with
    | 0 => bigSep Finset.univ fun i : Fin ((K (F := F)).nSub 0) => taskPts (U := UU) d (Fin.cast nCore_zero c) (Fin.cast nSub_zero i) (ids m d) (packedFlat (ids m d))
  go := fun q d c i => match q with
    | 0 => taskPts (U := UU) d (Fin.cast nCore_zero c) (Fin.cast nSub_zero i) (ids m d) (cnt0 m d)
  td := fun q d c i => match q with
    | 0 => taskPts (U := UU) d (Fin.cast nCore_zero c) (Fin.cast nSub_zero i) (ids m d) (packedFlat (ids m d))
  x := fun _ _ => iprop(emp)

instance P_storable : (P (F := F) m).IsStorable where
  st q d c := match q with
    | 0 => (inferInstance : BI.Storable (upEmb : UEmb _ 𝕄)
        (bigSep Finset.univ fun i : Fin ((K (F := F)).nSub 0) => taskPts (U := UU) d (Fin.cast nCore_zero c) (Fin.cast nSub_zero i) (ids m d) (cnt0 m d)))
  dn q d c := match q with
    | 0 => (inferInstance : BI.Storable (upEmb : UEmb _ 𝕄)
        (bigSep Finset.univ fun i : Fin ((K (F := F)).nSub 0) => taskPts (U := UU) d (Fin.cast nCore_zero c) (Fin.cast nSub_zero i) (ids m d) (packedFlat (ids m d))))
  go q d c i := match q with
    | 0 => (inferInstance : BI.Storable (upEmb : UEmb _ 𝕄) (taskPts (U := UU) d (Fin.cast nCore_zero c) (Fin.cast nSub_zero i) (ids m d) (cnt0 m d)))
  td q d c i := match q with
    | 0 => (inferInstance : BI.Storable (upEmb : UEmb _ 𝕄) (taskPts (U := UU) d (Fin.cast nCore_zero c) (Fin.cast nSub_zero i) (ids m d) (packedFlat (ids m d))))

/-- The payloads, as equations. -/
theorem P_st (d : Dev nD) (c : Fin ((K (F := F)).nCore 0)) : (P m).st 0 d c
    = bigSep Finset.univ fun i : Fin ((K (F := F)).nSub 0) => taskPts (U := UU) d (Fin.cast nCore_zero c) (Fin.cast nSub_zero i) (ids m d) (cnt0 m d) := by unfold P; rfl
theorem P_dn (d : Dev nD) (c : Fin ((K (F := F)).nCore 0)) : (P m).dn 0 d c
    = bigSep Finset.univ fun i : Fin ((K (F := F)).nSub 0) => taskPts (U := UU) d (Fin.cast nCore_zero c) (Fin.cast nSub_zero i) (ids m d) (packedFlat (ids m d)) := by unfold P; rfl
theorem P_go (d : Dev nD) (c : Fin ((K (F := F)).nCore 0)) (i : Fin ((K (F := F)).nSub 0)) : (P m).go 0 d c i
    = taskPts (U := UU) d (Fin.cast nCore_zero c) (Fin.cast nSub_zero i) (ids m d) (cnt0 m d) := by unfold P; rfl
theorem P_td (d : Dev nD) (c : Fin ((K (F := F)).nCore 0)) (i : Fin ((K (F := F)).nSub 0)) : (P m).td 0 d c i
    = taskPts (U := UU) d (Fin.cast nCore_zero c) (Fin.cast nSub_zero i) (ids m d) (packedFlat (ids m d)) := by unfold P; rfl
theorem P_x (q : Fin 1) (thr : Thread nD τ) : (P m).x q thr = iprop(emp) := by unfold P; rfl

/-! ## The launch theorem's obligations for the counting kernel -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile Facts₀.hcore0 Facts₀.hsub0 (fun c s => cc0__sc_histogram (coordsV c s)
          (Memref.whole main_v0_scv) (Memref.isWhole_whole _) (Memref.whole main_v1_scv) (Memref.isWhole_whole _)
          (Memref.whole cc0_scratch0) (Memref.isWhole_whole _) (Memref.whole cc0_scratch1) (Memref.isWhole_whole _) cc0_scoped0 cc0_scoped1) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The flat tokens name rows of the table. -/
def IdsOK : Prop := ∀ (d : Dev nD) i, ((ids m d) i).toNat < 4096

theorem tileObl (hT : TileBody F UU) (hF : (K (F := F)).Facts) (hids : IdsOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [P_go, P_td]
  refine BI.Entails.trans ?_ ((hT hF d (coordsV ⟨_, hc.1⟩ ⟨_, hc.2⟩) (ids m d) (cnt0 m d) (hids d) O W hO).trans (wp_mono frame _ _ fun _ => obl_post))
  show (iprop(_ ∗ _ ∗ _ ∗ _ ∗ _ ∗ _) : sProp 𝕄) ⊢ iprop(_ ∗ _ ∗ _ ∗ _ ∗ _)
  iintro ⟨Hl, -, Hgo, Hb, Hs, Ho⟩
  isplitl [Hl]; · iexact Hl
  isplitl [Hgo]; · iexact Hgo
  isplitl [Hb]; · iexact Hb
  isplitl [Hs]; · iexact Hs
  iexact Ho

/-- A SparseCore's operands are by definition its sixteen tasks' taken together, both ways. -/
theorem vecSplit : (K (F := F)).VecSplit' (P m) 0 := by
  intro d c
  rw [P_st, P_dn]
  simp only [P_go, P_td]
  show (_ : sProp 𝕄) ⊢ _
  iintro H; imodintro
  isplitl [H]; · iexact H
  iintro H; iexact H

/-! ## The two flat arrays as the tasks' pieces -/

omit [FloatOps F] [Named F] in
theorem ids_cover (d : Dev nD) (f : Buf (Elt F) (idsLoc d)) :
    (idsLoc d ↦{fullShare} f : sProp 𝕄) = bigSep Finset.univ fun n : Fin 1024 => idsLoc d ↦[(ipiece n).set]{fullShare} f := by
  rw [← pointsTo_biUnion Finset.univ (ℓ := idsLoc d) (fun n : Fin 1024 => (ipiece n).set) (fun i _ j _ h => Rect.part_disjoint hdivI h),
    Rect.biUnion_part hdivI]; try rfl
omit [FloatOps F] [Named F] in
theorem cnt_cover (d : Dev nD) (f : Buf (Elt F) (cntLoc d)) :
    (cntLoc d ↦{fullShare} f : sProp 𝕄) = bigSep Finset.univ fun n : Fin 1024 => cntLoc d ↦[(cpiece n).set]{fullShare} f := by
  rw [← pointsTo_biUnion Finset.univ (ℓ := cntLoc d) (fun n : Fin 1024 => (cpiece n).set) (fun i _ j _ h => Rect.part_disjoint hdivC h),
    Rect.biUnion_part hdivC]; try rfl

/-- (c, s, k) ↦ 64 s + 32 c + k is a bijection from 2 × 16 × 32 onto the 1024 piece numbers. -/
def pieceEquiv : Fin 2 × (Fin 16 × Fin 32) ≃ Fin 1024 where
  toFun x := pieceOf x.1 x.2.1 x.2.2
  invFun n := (⟨n.val % 64 / 32, by have := n.isLt; omega⟩, ⟨n.val / 64, by have := n.isLt; omega⟩, ⟨n.val % 32, by omega⟩)
  left_inv := by
    rintro ⟨⟨c, hc⟩, ⟨s, hs⟩, ⟨k, hk⟩⟩
    refine Prod.ext (Fin.ext ?_) (Prod.ext (Fin.ext ?_) (Fin.ext ?_))
    · show (64 * s + 32 * c + k) % 64 / 32 = c; omega
    · show (64 * s + 32 * c + k) / 64 = s; omega
    · show (64 * s + 32 * c + k) % 32 = k; omega
  right_inv := by
    rintro ⟨n, hn⟩
    refine Fin.ext ?_
    show 64 * (n / 64) + 32 * (n % 64 / 32) + n % 32 = n; omega

omit [FloatOps F] [Named F] in
theorem pieces_tasks (Φ : Fin 1024 → sProp 𝕄) :
    bigSep Finset.univ Φ = bigSep Finset.univ fun c : Fin 2 => bigSep Finset.univ fun s : Fin 16 => bigSep Finset.univ fun k : Fin 32 => Φ (pieceOf c s k) := by
  rw [bigSep_univ_equiv pieceEquiv Φ, bigSep_univ_prod]
  refine bigSep_congr fun c _ => ?_
  rw [bigSep_univ_prod]; rfl

omit [FloatOps F] [Named F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] [Named F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- The two whole arrays are the 32 tasks' operands taken together. -/
theorem whole_tasks (d : Dev nD) (f : Buf (Elt F) (idsLoc d)) (g : Buf (Elt F) (cntLoc d)) :
    (bigSep Finset.univ fun c : Fin ((K (F := F)).nCore 0) => bigSep Finset.univ fun i : Fin ((K (F := F)).nSub 0) =>
        taskPts (U := UU) d (Fin.cast nCore_zero c) (Fin.cast nSub_zero i) f g)
      = (iprop((idsLoc d ↦{fullShare} f) ∗ (cntLoc d ↦{fullShare} g)) : sProp 𝕄) := by
  rw [ids_cover, cnt_cover, ← bigSep_sep', pieces_tasks]
  rw [bigSep_cores (F := F) (fun c => bigSep Finset.univ fun i : Fin ((K (F := F)).nSub 0) => taskPts (U := UU) d c (Fin.cast nSub_zero i) f g)]
  refine bigSep_congr fun c _ => ?_
  rw [bigSep_tasks (F := F) (fun s => taskPts (U := UU) d c s f g)]
  rfl

theorem st0_eq (d : Dev nD) : (bigSep Finset.univ fun c : Fin ((K (F := F)).nCore 0) => (P m).st 0 d c)
    = (iprop((idsLoc d ↦{fullShare} ids m d) ∗ (cntLoc d ↦{fullShare} cnt0 m d)) : sProp 𝕄) := by
  simp only [P_st]; exact whole_tasks d _ _
theorem dn0_eq (d : Dev nD) : (bigSep Finset.univ fun c : Fin ((K (F := F)).nCore 0) => (P m).dn 0 d c)
    = (iprop((idsLoc d ↦{fullShare} ids m d) ∗ (cntLoc d ↦{fullShare} packedFlat (ids m d))) : sProp 𝕄) := by
  simp only [P_dn]; exact whole_tasks d _ _

/-! ## The launch element: the handshakes' rounds, the pipeline's cells, the counters -/

def u₀ : UU := (initOf (K (F := F)).hsCells (K (F := F)).hsToks,
  (initOf (Pipeline.cells (nD := nD) (τ := τ) cfgs cellOf_inj) (Pipeline.launchToks (nD := nD) (τ := τ) cfgs cellOf_inj), 1))

/-- What @main starts from on each device beyond what the launch deals it: the projection pipeline's staging cells'
    ghost state and its duty tokens. -/
abbrev G (d : Dev nD) : sProp 𝕄 := iprop(Pipeline.cellsGhost cfgs (EP (F := F)) 0 d ∗ Pipeline.toksInit cfgs (EP (F := F)) 0 d)

omit [FloatOps F] [Named F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  have e1 : (bigSep Finset.univ fun c : Dev nD => bigSep Finset.univ fun p : Fin 1 => (Pipeline.cellsGhost cfgs (EP (F := F)) p c : sProp 𝕄))
      = bigSep Finset.univ fun c : Dev nD => Pipeline.cellsGhost cfgs (EP (F := F)) 0 c := bigSep_congr fun c _ => bigSep_univ_of_subsingleton (0 : Fin 1)
  have e2 : (bigSep Finset.univ fun c : Dev nD => bigSep Finset.univ fun p : Fin 1 => (Pipeline.toksInit cfgs (EP (F := F)) p c : sProp 𝕄))
      = bigSep Finset.univ fun c : Dev nD => Pipeline.toksInit cfgs (EP (F := F)) 0 c := bigSep_congr fun c _ => bigSep_univ_of_subsingleton (0 : Fin 1)
  unfold u₀
  iintro Hu
  ihave H := (ownU_pair _ _) $$ Hu
  icases H with ⟨HH, HR⟩
  ihave H2 := (own_pair_emb (embR : Emb (UP × Counters) 𝕄) _ _) $$ HR
  icases H2 with ⟨HP, -⟩
  imod (Pipeline.fund_ghost cfgs (EP (F := F)) cellOf_inj) $$ HP with ⟨Hg, Ht⟩
  imodintro
  isplitl [HH]; · iexact HH
  isplitl [Hg Ht]
  · rw [bigSep_sep']
    isplitl [Hg]
    · iapply (Entails.of_eq e1); iexact Hg
    · iapply (Entails.of_eq e2); iexact Ht
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The TensorCore's unscoped buffers, as device buffers. -/
def SU : Finset (DevRef τ sig) :=
  (Finset.univ.filter fun b : Ref sig .tc => ¬ b.isScoped).map ⟨Proc.devRef (sig := sig) (.tc : Proc τ), Proc.devRef_injective _⟩

theorem mem_SU (b : Ref sig .tc) (h : ¬ b.isScoped) : Proc.devRef (τ := τ) .tc b ∈ SU :=
  Finset.mem_map_of_mem _ (Finset.mem_filter.2 ⟨Finset.mem_univ b, h⟩)

theorem pair_sub (x y : Ref sig .tc) (hx : ¬ x.isScoped) (hy : ¬ y.isScoped) :
    ({Proc.devRef (τ := τ) .tc x, Proc.devRef .tc y} : Finset (DevRef τ sig)) ⊆ SU :=
  Finset.insert_subset_iff.2 ⟨mem_SU x hx, Finset.singleton_subset_iff.2 (mem_SU y hy)⟩

omit [FloatOps F] [Named F] in
theorem unscoped_held (d : Dev nD) (Vv : Valuation τ sig (Elt F)) :
    (unscopedBufs d (fun b => Vv (Proc.devRef .tc b)) : sProp 𝕄) = held (SparseCore.T d) SU Vv := by
  unfold unscopedBufs held SU; rw [bigSep_map]; rfl

theorem h0 : (op0 (F := F)).bufs ⊆ SU := pair_sub _ _ (by decide) (by decide)
theorem h2 : (op2 (F := F)).bufs ⊆ SU := pair_sub _ _ (by decide) (by decide)
theorem h3 : (op3 (F := F)).bufs ⊆ SU := pair_sub _ _ (by decide) (by decide)
theorem h4 : (op4 (F := F)).bufs ⊆ SU := pair_sub _ _ (by decide) (by decide)
theorem h5 : (op5 (F := F)).bufs ⊆ SU := pair_sub _ _ (by decide) (by decide)
theorem h6 : (op6 (F := F)).bufs ⊆ SU := pair_sub _ _ (by decide) (by decide)
theorem h7 : (op7 (F := F)).bufs ⊆ SU := by
  intro b hb
  rcases Finset.mem_insert.mp hb with rfl | hb
  · exact mem_SU _ (by decide)
  · obtain ⟨k, -, rfl⟩ := Finset.mem_image.mp hb
    fin_cases k <;> exact mem_SU _ (by decide)
theorem h8 : (op8 (F := F)).bufs ⊆ SU := pair_sub _ _ (by decide) (by decide)
theorem h9 : (op9 (F := F)).bufs ⊆ SU := pair_sub _ _ (by decide) (by decide)
theorem h10 : (op10 (F := F)).bufs ⊆ SU := pair_sub _ _ (by decide) (by decide)
theorem h11 : (op11 (F := F)).bufs ⊆ SU := pair_sub _ _ (by decide) (by decide)

omit [FloatOps F] [Named F] in
/-- The two flat arrays taken out of the unscoped buffers. -/
theorem held_split2 (d : Dev nD) (Vv : Valuation τ sig (Elt F)) :
    (held (SparseCore.T d) SU Vv : sProp 𝕄)
      = iprop(((idsLoc d ↦{fullShare} Vv v0') ∗ (cntLoc d ↦{fullShare} Vv v1')) ∗ held (SparseCore.T d) (SU \ {v0', v1'}) Vv) := by
  rw [held_sub_split (SparseCore.T d) (T := {v0', v1'}) (S := SU) (pair_sub _ _ (by decide) (by decide)) Vv]
  rw [show (held (SparseCore.T d) {v0', v1'} Vv : sProp 𝕄) = iprop((idsLoc d ↦{fullShare} Vv v0') ∗ (cntLoc d ↦{fullShare} Vv v1')) from by
    unfold held; rw [SparseCore.bigSep_insert' (by decide), bigSep_singleton]]

theorem held_V2 (d : Dev nD) :
    (iprop(((idsLoc d ↦{fullShare} ids m d) ∗ (cntLoc d ↦{fullShare} packedFlat (ids m d))) ∗ held (SparseCore.T d) (SU \ {v0', v1'}) (V1 m d)) : sProp 𝕄)
      = held (SparseCore.T d) SU (V2 m d) := by
  rw [held_split2 d (V2 m d), show V2 m d v0' = ids m d from Function.update_of_ne (show v0' ≠ v1' by decide) _ _,
    show V2 m d v1' = packedFlat (ids m d) from Function.update_self _ _ _,
    held_congr (SparseCore.T d) (S := SU \ {v0', v1'}) (V := V2 m d) (V' := V1 m d) (fun b hb => Function.update_of_ne (fun e => by
      subst e; simp at hb) _ _)]

/-! ### The projection kernel's region -/

/-- The pairs the TensorCore may have recorded waiting on: all within level 8, the end of the one call's band. -/
abbrev BT (d : Dev nD) : Set (SemLoc sig × HIx 1) := {p | (K (F := F)).lev (SparseCore.T d, p.1) p.2 ≤ 8 * 1}

/-- What each TensorCore buffer holds when the projection kernel starts, per reference. -/
abbrev Vreg (c : Dev nD) (b : Ref sig .tc) : Buf (Elt F) ((c.tc : Thread nD τ).loc b) := Vr m c (Proc.devRef .tc b)

/-- The pipeline's proof data on device c: its arrays at those contents. -/
abbrev dat (c : Dev nD) : Pipeline.Dat τ (Elt F) (HIx 1) ℕ UU ℕ cfg1 c := tcDat (U := UU) (Vreg m) (BT (F := F) c) c

/-- What @main leaves the claim: the pipeline's seven arrays as the pipeline leaves them, and the other unscoped
    buffers as the region found them. -/
def FIN (d : Dev nD) : sProp 𝕄 :=
  iprop((dat m d).arrays ((dat m d).arrAt · cfg1.N) ∗ Pipeline.unscopedRest (Ix := HIx 1) (Name := ℕ) (U := UU) (Lvl := ℕ) spec1 d (Vreg m d))

/-- The TensorCore owing nothing after the call, its recorded pairs within level 8. -/
def owesT (d : Dev nD) : sProp 𝕄 := iprop(∃ W, ⌜(K (F := F)).WBelow (SparseCore.T d) W (8 * 1)⌝ ∗ owes (SparseCore.T d) 0 W)

def adm : (p : Fin 1) → (pcfgs (F := F) p).Adm := fun p => (cfgs p).toPCfg_adm

def Rg : Pipeline.RegionSeg (pcfgs (F := F)) (adm (F := F)) (fun _ c => dat m c) (none : HIx 1) (defs₀ (F := F)) 𝒱₀ (K (F := F)).L (K (F := F)).lev (0 : Fin 1) where
  win := winFacts1.to₀
  block_pos := block_pos1
  stage_whole := stage_whole1
  K := PEmpty
  osem := fun k => k.elim
  ho := Pipeline.OwnSemFacts.none _
  hbody := fun c => (tc_body_obligation (U := UU) (Vreg m) (BT (F := F) c) c).loose
  hwaits := fun c => Pipeline.hwaits_of_owed_zero (pcfgs (F := F)) (adm (F := F)) (fun _ c => dat m c) (none : HIx 1) (K (F := F)).L (K (F := F)).lev 0 (fun _ _ => rfl) c
  pre := fun c => iprop(unscopedBufs c (Vreg m c) ∗ owesT (F := F) c)
  post := fun c => iprop(FIN m c ∗ owesT (F := F) c)
  X := fun _ => iprop(emp)
  Y := fun _ => iprop(emp)
  Z := fun c => Pipeline.unscopedRest (Ix := HIx 1) (Name := ℕ) (U := UU) (Lvl := ℕ) spec1 c (Vreg m c)
  hentry := fun c => by
    unfold owesT
    iintro ⟨⟨Hu, %W, %hW, HO⟩, -, -⟩
    imodintro
    ihave H := (Pipeline.arrays_of_unscopedBufs (pcfgs (F := F)) (adm (F := F)) (fun _ c => dat m c) (p := 0) winFacts1 arr_whole1 c
      ((dat m c).share_full fun _ => rfl) (Vreg m c) (tcDat_A (U := UU) (Vreg m) (BT (F := F) c) c)) $$ Hu
    icases H with ⟨Ha, Hr⟩
    isplitl [Ha]; · iexact Ha
    isplitr
    · unfold Pipeline.prefHeld
      rw [show (Finset.univ : Finset (Fin (pcfgs (F := F) 0).pre.K)) = ∅ from rfl, bigSep_empty]; iempintro
    isplitl [HO]
    · iexists W; isplitr
      · ipureintro; exact fun p hp => Or.inl (hW p hp)
      · iexact HO
    isplitr; · iempintro
    iexact Hr
  hin := fun c => by
    show (iprop(_ ∗ _ ∗ Pipeline.scopedRest (Ix := HIx 1) (Name := ℕ) (U := UU) (Lvl := ℕ) (Val := Elt F) spec1 c) : sProp 𝕄)
      ⊢ Pipeline.scopedRest (Ix := HIx 1) (Name := ℕ) (U := UU) (Lvl := ℕ) (Val := Elt F) spec1 c
    iintro ⟨-, -, H⟩; iexact H
  hout := fun c => by
    show (Pipeline.scopedRest (Ix := HIx 1) (Name := ℕ) (U := UU) (Lvl := ℕ) (Val := Elt F) spec1 c : sProp 𝕄)
      ⊢ iprop(emp ∗ Pipeline.ownSems0 (fun k : PEmpty => k.elim) c ∗ Pipeline.scopedRest (Ix := HIx 1) (Name := ℕ) (U := UU) (Lvl := ℕ) (Val := Elt F) spec1 c)
    rw [Pipeline.ownSems0_none]
    iintro H
    isplitr; · iempintro
    isplitr; · iempintro
    iexact H
  hexit := fun c => by
    iintro ⟨Ha, ⟨%W, %hW, HO⟩, -, Hz⟩
    imodintro
    isplitl [Ha Hz]
    · unfold FIN
      isplitl [Ha]; · iexact Ha
      iexact Hz
    unfold owesT
    iexists W; isplitr
    · ipureintro
      intro p hp
      rcases hW hp with h | ⟨w, s, rfl⟩
      · exact h
      · exact Nat.zero_le _
    · iexact HO

/-- The TensorCore's state after the one call, opened at what it owes (nothing) and closed again. -/
theorem tcSt_open (d : Dev nD) :
    ((K (F := F)).tcSt (EH (F := F)) d ((0 : Fin 1).val + 1) : sProp 𝕄) ⊢ iprop(owesT (F := F) d ∗ (owesT (F := F) d -∗ (K (F := F)).tcSt (EH (F := F)) d 1)) := by
  show ((K (F := F)).tcSt (EH (F := F)) d 1 : sProp 𝕄) ⊢ _
  unfold SparseCore.Cfg.tcSt owesT
  rw [(K (F := F)).Otc_end d (le_refl 1)]
  iintro ⟨H, R⟩
  isplitl [H]; · iexact H
  iintro H
  isplitl [H]; · iexact H
  iexact R

set_option maxHeartbeats 2000000 in
set_option backward.isDefEq.respectTransparency.types false in
/-- @main on device d's TensorCore: the tokens flattened, the counting kernel's call (the two flat arrays out to the
    32 tasks and back), the ten host operations that follow, the projection kernel's region. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = held (SparseCore.T d) SU (V0 m d) from unscoped_held d (V0 m d)]
  simp only [main, wp_bind, wp_pure]
  iintro ⟨#Hctx, Hst, ⟨Hb, Hheld, -, -⟩, ⟨Hg, Ht⟩⟩
  -- the tokens flattened
  iapply (wp_hlo_within 𝒱 (SparseCore.T d) none Set.univ (op := op0 (F := F)) (S := SU) h0) $$ [Hb Hheld]
  · isplitl [Hb]; · iexact Hb
    iexact Hheld
  iintro ⟨Hb, Hheld⟩
  rw [wp_ret]; imodintro
  -- the call
  ihave Hh := (Entails.of_eq (held_split2 (F := F) d (V1 m d))) $$ Hheld
  icases Hh with ⟨⟨Hi, Hc⟩, Hrest⟩
  iapply ((K (F := F)).wp_run (D (F := F)) 𝒱 (EH := EH) (P := P m) κ d 0) $$ [Hst Hi Hc Hb Hrest Hg Ht]
  isplitr; · iexact Hctx
  isplitl [Hst]; · iexact Hst
  isplitl [Hi Hc]
  · rw [st0_eq]
    isplitl [Hi]; · iexact Hi
    iexact Hc
  iintro ⟨Hst, Hdn⟩
  ihave Hdn' := (Entails.of_eq (dn0_eq m d)) $$ Hdn
  icases Hdn' with ⟨Hi, Hc⟩
  ihave Hheld := (Entails.of_eq (held_V2 m d)) $$ [Hi Hc Hrest]
  · isplitl [Hi Hc]
    · isplitl [Hi]; · iexact Hi
      iexact Hc
    iexact Hrest
  -- the ten host operations
  iapply (wp_hlo_within 𝒱 (SparseCore.T d) none Set.univ (op := op2 (F := F)) (S := SU) h2) $$ [Hb Hheld]
  · isplitl [Hb]; · iexact Hb
    iexact Hheld
  iintro ⟨Hb, Hheld⟩
  rw [wp_ret]; imodintro
  iapply (wp_hlo_within 𝒱 (SparseCore.T d) none Set.univ (op := op3 (F := F)) (S := SU) h3) $$ [Hb Hheld]
  · isplitl [Hb]; · iexact Hb
    iexact Hheld
  iintro ⟨Hb, Hheld⟩
  rw [wp_ret]; imodintro
  iapply (wp_hlo_within 𝒱 (SparseCore.T d) none Set.univ (op := op4 (F := F)) (S := SU) h4) $$ [Hb Hheld]
  · isplitl [Hb]; · iexact Hb
    iexact Hheld
  iintro ⟨Hb, Hheld⟩
  rw [wp_ret]; imodintro
  iapply (wp_hlo_within 𝒱 (SparseCore.T d) none Set.univ (op := op5 (F := F)) (S := SU) h5) $$ [Hb Hheld]
  · isplitl [Hb]; · iexact Hb
    iexact Hheld
  iintro ⟨Hb, Hheld⟩
  rw [wp_ret]; imodintro
  iapply (wp_hlo_within 𝒱 (SparseCore.T d) none Set.univ (op := op6 (F := F)) (S := SU) h6) $$ [Hb Hheld]
  · isplitl [Hb]; · iexact Hb
    iexact Hheld
  iintro ⟨Hb, Hheld⟩
  rw [wp_ret]; imodintro
  iapply (wp_hlo_within 𝒱 (SparseCore.T d) none Set.univ (op := op7 (F := F)) (S := SU) h7) $$ [Hb Hheld]
  · isplitl [Hb]; · iexact Hb
    iexact Hheld
  iintro ⟨Hb, Hheld⟩
  rw [wp_ret]; imodintro
  iapply (wp_hlo_within 𝒱 (SparseCore.T d) none Set.univ (op := op8 (F := F)) (S := SU) h8) $$ [Hb Hheld]
  · isplitl [Hb]; · iexact Hb
    iexact Hheld
  iintro ⟨Hb, Hheld⟩
  rw [wp_ret]; imodintro
  iapply (wp_hlo_within 𝒱 (SparseCore.T d) none Set.univ (op := op9 (F := F)) (S := SU) h9) $$ [Hb Hheld]
  · isplitl [Hb]; · iexact Hb
    iexact Hheld
  iintro ⟨Hb, Hheld⟩
  rw [wp_ret]; imodintro
  iapply (wp_hlo_within 𝒱 (SparseCore.T d) none Set.univ (op := op10 (F := F)) (S := SU) h10) $$ [Hb Hheld]
  · isplitl [Hb]; · iexact Hb
    iexact Hheld
  iintro ⟨Hb, Hheld⟩
  rw [wp_ret]; imodintro
  iapply (wp_hlo_within 𝒱 (SparseCore.T d) none Set.univ (op := op11 (F := F)) (S := SU) h11) $$ [Hb Hheld]
  · isplitl [Hb]; · iexact Hb
    iexact Hheld
  iintro ⟨Hb, Hheld⟩
  rw [wp_ret]; imodintro
  -- the region
  ihave Hu := (Entails.of_eq (unscoped_held (F := F) d (Vr m d)).symm) $$ Hheld
  ihave Ho := (tcSt_open (F := F) d) $$ Hst
  icases Ho with ⟨HoT, Hback⟩
  ihave Hlev := (SparseCore.Cfg.ctx_levAts (K := K (F := F)) (EH := EH) (P := P m) κ) $$ Hctx
  iapply ((K (F := F)).wp_liftProg (D (F := F)) 𝒱 (SparseCore.T d) Set.univ none (Prog.op (.customCall (Pipeline.entry 0) ()) Prog.ret) _)
  iapply (Pipeline.RegionSeg.wp (pcfgs (F := F)) (adm (F := F)) (fun _ c => dat m c) (none : HIx 1) cellOf_inj (EP (F := F)) (defs₀ (F := F)) 𝒱₀
      (K (F := F)).L (K (F := F)).lev (Rg m) d none (fun u hu => nomatch hu) Prog.ret _) $$ [Hb Hu HoT Hlev Hg Ht Hback]
  isplitl [Hback]
  · iintro ⟨Hb, Hpost⟩
    rw [wp_ret]; imodintro; imodintro
    ihave Hp := (show (Rg m).post d ⊢ iprop(FIN m d ∗ owesT (F := F) d) from BI.Entails.refl _) $$ Hpost
    icases Hp with ⟨Hfin, HoT⟩
    isplitl [Hback HoT]
    · iapply Hback; iexact HoT
    iexact Hfin
  isplitl [Hb]; · iexact Hb
  isplitl [Hu HoT]
  · iapply (show (iprop(unscopedBufs d (Vreg m d) ∗ owesT (F := F) d) : sProp 𝕄) ⊢ (Rg m).pre d from BI.Entails.refl _)
    isplitl [Hu]; · iexact Hu
    iexact HoT
  isplitl [Hlev]; · iexact Hlev
  isplitl [Hg]; · iexact Hg
  iexact Ht

/-! ## The arguments survive the host operations -/

theorem Vr_main_arg0 (d : Dev nD) : Vr m d a0' = m (d, a0') := by
  unfold Vr
  rw [(op11 (F := F)).result_of_not_mem _ (b := a0') (show a0' ∉ ({Proc.devRef .tc (main_v11 : Ref sig .tc)} : Finset (DevRef τ sig)) by decide),
    (op10 (F := F)).result_of_not_mem _ (b := a0') (show a0' ∉ ({Proc.devRef .tc (main_v10 : Ref sig .tc)} : Finset (DevRef τ sig)) by decide),
    (op9 (F := F)).result_of_not_mem _ (b := a0') (show a0' ∉ ({Proc.devRef .tc (main_v9 : Ref sig .tc)} : Finset (DevRef τ sig)) by decide),
    (op8 (F := F)).result_of_not_mem _ (b := a0') (show a0' ∉ ({Proc.devRef .tc (main_v8 : Ref sig .tc)} : Finset (DevRef τ sig)) by decide),
    (op7 (F := F)).result_of_not_mem _ (b := a0') (show a0' ∉ ({Proc.devRef .tc (main_v7 : Ref sig .tc)} : Finset (DevRef τ sig)) by decide),
    (op6 (F := F)).result_of_not_mem _ (b := a0') (show a0' ∉ ({Proc.devRef .tc (main_v6 : Ref sig .tc)} : Finset (DevRef τ sig)) by decide),
    (op5 (F := F)).result_of_not_mem _ (b := a0') (show a0' ∉ ({Proc.devRef .tc (main_v5 : Ref sig .tc)} : Finset (DevRef τ sig)) by decide),
    (op4 (F := F)).result_of_not_mem _ (b := a0') (show a0' ∉ ({Proc.devRef .tc (main_v4 : Ref sig .tc)} : Finset (DevRef τ sig)) by decide),
    (op3 (F := F)).result_of_not_mem _ (b := a0') (show a0' ∉ ({Proc.devRef .tc (main_v3 : Ref sig .tc)} : Finset (DevRef τ sig)) by decide),
    (op2 (F := F)).result_of_not_mem _ (b := a0') (show a0' ∉ ({Proc.devRef .tc (main_v2 : Ref sig .tc)} : Finset (DevRef τ sig)) by decide)]
  unfold V2; rw [Function.update_of_ne (show a0' ≠ v1' by decide)]
  unfold V1; rw [(op0 (F := F)).result_of_not_mem _ (b := a0') (show a0' ∉ ({Proc.devRef .tc (main_v0 : Ref sig .tc)} : Finset (DevRef τ sig)) by decide)]
theorem Vr_main_arg1 (d : Dev nD) : Vr m d a1' = m (d, a1') := by
  unfold Vr
  rw [(op11 (F := F)).result_of_not_mem _ (b := a1') (show a1' ∉ ({Proc.devRef .tc (main_v11 : Ref sig .tc)} : Finset (DevRef τ sig)) by decide),
    (op10 (F := F)).result_of_not_mem _ (b := a1') (show a1' ∉ ({Proc.devRef .tc (main_v10 : Ref sig .tc)} : Finset (DevRef τ sig)) by decide),
    (op9 (F := F)).result_of_not_mem _ (b := a1') (show a1' ∉ ({Proc.devRef .tc (main_v9 : Ref sig .tc)} : Finset (DevRef τ sig)) by decide),
    (op8 (F := F)).result_of_not_mem _ (b := a1') (show a1' ∉ ({Proc.devRef .tc (main_v8 : Ref sig .tc)} : Finset (DevRef τ sig)) by decide),
    (op7 (F := F)).result_of_not_mem _ (b := a1') (show a1' ∉ ({Proc.devRef .tc (main_v7 : Ref sig .tc)} : Finset (DevRef τ sig)) by decide),
    (op6 (F := F)).result_of_not_mem _ (b := a1') (show a1' ∉ ({Proc.devRef .tc (main_v6 : Ref sig .tc)} : Finset (DevRef τ sig)) by decide),
    (op5 (F := F)).result_of_not_mem _ (b := a1') (show a1' ∉ ({Proc.devRef .tc (main_v5 : Ref sig .tc)} : Finset (DevRef τ sig)) by decide),
    (op4 (F := F)).result_of_not_mem _ (b := a1') (show a1' ∉ ({Proc.devRef .tc (main_v4 : Ref sig .tc)} : Finset (DevRef τ sig)) by decide),
    (op3 (F := F)).result_of_not_mem _ (b := a1') (show a1' ∉ ({Proc.devRef .tc (main_v3 : Ref sig .tc)} : Finset (DevRef τ sig)) by decide),
    (op2 (F := F)).result_of_not_mem _ (b := a1') (show a1' ∉ ({Proc.devRef .tc (main_v2 : Ref sig .tc)} : Finset (DevRef τ sig)) by decide)]
  unfold V2; rw [Function.update_of_ne (show a1' ≠ v1' by decide)]
  unfold V1; rw [(op0 (F := F)).result_of_not_mem _ (b := a1') (show a1' ∉ ({Proc.devRef .tc (main_v0 : Ref sig .tc)} : Finset (DevRef τ sig)) by decide)]
theorem Vr_main_arg2 (d : Dev nD) : Vr m d a2' = m (d, a2') := by
  unfold Vr
  rw [(op11 (F := F)).result_of_not_mem _ (b := a2') (show a2' ∉ ({Proc.devRef .tc (main_v11 : Ref sig .tc)} : Finset (DevRef τ sig)) by decide),
    (op10 (F := F)).result_of_not_mem _ (b := a2') (show a2' ∉ ({Proc.devRef .tc (main_v10 : Ref sig .tc)} : Finset (DevRef τ sig)) by decide),
    (op9 (F := F)).result_of_not_mem _ (b := a2') (show a2' ∉ ({Proc.devRef .tc (main_v9 : Ref sig .tc)} : Finset (DevRef τ sig)) by decide),
    (op8 (F := F)).result_of_not_mem _ (b := a2') (show a2' ∉ ({Proc.devRef .tc (main_v8 : Ref sig .tc)} : Finset (DevRef τ sig)) by decide),
    (op7 (F := F)).result_of_not_mem _ (b := a2') (show a2' ∉ ({Proc.devRef .tc (main_v7 : Ref sig .tc)} : Finset (DevRef τ sig)) by decide),
    (op6 (F := F)).result_of_not_mem _ (b := a2') (show a2' ∉ ({Proc.devRef .tc (main_v6 : Ref sig .tc)} : Finset (DevRef τ sig)) by decide),
    (op5 (F := F)).result_of_not_mem _ (b := a2') (show a2' ∉ ({Proc.devRef .tc (main_v5 : Ref sig .tc)} : Finset (DevRef τ sig)) by decide),
    (op4 (F := F)).result_of_not_mem _ (b := a2') (show a2' ∉ ({Proc.devRef .tc (main_v4 : Ref sig .tc)} : Finset (DevRef τ sig)) by decide),
    (op3 (F := F)).result_of_not_mem _ (b := a2') (show a2' ∉ ({Proc.devRef .tc (main_v3 : Ref sig .tc)} : Finset (DevRef τ sig)) by decide),
    (op2 (F := F)).result_of_not_mem _ (b := a2') (show a2' ∉ ({Proc.devRef .tc (main_v2 : Ref sig .tc)} : Finset (DevRef τ sig)) by decide)]
  unfold V2; rw [Function.update_of_ne (show a2' ≠ v1' by decide)]
  unfold V1; rw [(op0 (F := F)).result_of_not_mem _ (b := a2') (show a2' ∉ ({Proc.devRef .tc (main_v0 : Ref sig .tc)} : Finset (DevRef τ sig)) by decide)]
theorem Vr_main_arg3 (d : Dev nD) : Vr m d a3' = m (d, a3') := by
  unfold Vr
  rw [(op11 (F := F)).result_of_not_mem _ (b := a3') (show a3' ∉ ({Proc.devRef .tc (main_v11 : Ref sig .tc)} : Finset (DevRef τ sig)) by decide),
    (op10 (F := F)).result_of_not_mem _ (b := a3') (show a3' ∉ ({Proc.devRef .tc (main_v10 : Ref sig .tc)} : Finset (DevRef τ sig)) by decide),
    (op9 (F := F)).result_of_not_mem _ (b := a3') (show a3' ∉ ({Proc.devRef .tc (main_v9 : Ref sig .tc)} : Finset (DevRef τ sig)) by decide),
    (op8 (F := F)).result_of_not_mem _ (b := a3') (show a3' ∉ ({Proc.devRef .tc (main_v8 : Ref sig .tc)} : Finset (DevRef τ sig)) by decide),
    (op7 (F := F)).result_of_not_mem _ (b := a3') (show a3' ∉ ({Proc.devRef .tc (main_v7 : Ref sig .tc)} : Finset (DevRef τ sig)) by decide),
    (op6 (F := F)).result_of_not_mem _ (b := a3') (show a3' ∉ ({Proc.devRef .tc (main_v6 : Ref sig .tc)} : Finset (DevRef τ sig)) by decide),
    (op5 (F := F)).result_of_not_mem _ (b := a3') (show a3' ∉ ({Proc.devRef .tc (main_v5 : Ref sig .tc)} : Finset (DevRef τ sig)) by decide),
    (op4 (F := F)).result_of_not_mem _ (b := a3') (show a3' ∉ ({Proc.devRef .tc (main_v4 : Ref sig .tc)} : Finset (DevRef τ sig)) by decide),
    (op3 (F := F)).result_of_not_mem _ (b := a3') (show a3' ∉ ({Proc.devRef .tc (main_v3 : Ref sig .tc)} : Finset (DevRef τ sig)) by decide),
    (op2 (F := F)).result_of_not_mem _ (b := a3') (show a3' ∉ ({Proc.devRef .tc (main_v2 : Ref sig .tc)} : Finset (DevRef τ sig)) by decide)]
  unfold V2; rw [Function.update_of_ne (show a3' ≠ v1' by decide)]
  unfold V1; rw [(op0 (F := F)).result_of_not_mem _ (b := a3') (show a3' ∉ ({Proc.devRef .tc (main_v0 : Ref sig .tc)} : Finset (DevRef τ sig)) by decide)]
theorem Vr_main_arg4 (d : Dev nD) : Vr m d a4' = m (d, a4') := by
  unfold Vr
  rw [(op11 (F := F)).result_of_not_mem _ (b := a4') (show a4' ∉ ({Proc.devRef .tc (main_v11 : Ref sig .tc)} : Finset (DevRef τ sig)) by decide),
    (op10 (F := F)).result_of_not_mem _ (b := a4') (show a4' ∉ ({Proc.devRef .tc (main_v10 : Ref sig .tc)} : Finset (DevRef τ sig)) by decide),
    (op9 (F := F)).result_of_not_mem _ (b := a4') (show a4' ∉ ({Proc.devRef .tc (main_v9 : Ref sig .tc)} : Finset (DevRef τ sig)) by decide),
    (op8 (F := F)).result_of_not_mem _ (b := a4') (show a4' ∉ ({Proc.devRef .tc (main_v8 : Ref sig .tc)} : Finset (DevRef τ sig)) by decide),
    (op7 (F := F)).result_of_not_mem _ (b := a4') (show a4' ∉ ({Proc.devRef .tc (main_v7 : Ref sig .tc)} : Finset (DevRef τ sig)) by decide),
    (op6 (F := F)).result_of_not_mem _ (b := a4') (show a4' ∉ ({Proc.devRef .tc (main_v6 : Ref sig .tc)} : Finset (DevRef τ sig)) by decide),
    (op5 (F := F)).result_of_not_mem _ (b := a4') (show a4' ∉ ({Proc.devRef .tc (main_v5 : Ref sig .tc)} : Finset (DevRef τ sig)) by decide),
    (op4 (F := F)).result_of_not_mem _ (b := a4') (show a4' ∉ ({Proc.devRef .tc (main_v4 : Ref sig .tc)} : Finset (DevRef τ sig)) by decide),
    (op3 (F := F)).result_of_not_mem _ (b := a4') (show a4' ∉ ({Proc.devRef .tc (main_v3 : Ref sig .tc)} : Finset (DevRef τ sig)) by decide),
    (op2 (F := F)).result_of_not_mem _ (b := a4') (show a4' ∉ ({Proc.devRef .tc (main_v2 : Ref sig .tc)} : Finset (DevRef τ sig)) by decide)]
  unfold V2; rw [Function.update_of_ne (show a4' ≠ v1' by decide)]
  unfold V1; rw [(op0 (F := F)).result_of_not_mem _ (b := a4') (show a4' ∉ ({Proc.devRef .tc (main_v0 : Ref sig .tc)} : Finset (DevRef τ sig)) by decide)]
theorem Vr_main_arg5 (d : Dev nD) : Vr m d a5' = m (d, a5') := by
  unfold Vr
  rw [(op11 (F := F)).result_of_not_mem _ (b := a5') (show a5' ∉ ({Proc.devRef .tc (main_v11 : Ref sig .tc)} : Finset (DevRef τ sig)) by decide),
    (op10 (F := F)).result_of_not_mem _ (b := a5') (show a5' ∉ ({Proc.devRef .tc (main_v10 : Ref sig .tc)} : Finset (DevRef τ sig)) by decide),
    (op9 (F := F)).result_of_not_mem _ (b := a5') (show a5' ∉ ({Proc.devRef .tc (main_v9 : Ref sig .tc)} : Finset (DevRef τ sig)) by decide),
    (op8 (F := F)).result_of_not_mem _ (b := a5') (show a5' ∉ ({Proc.devRef .tc (main_v8 : Ref sig .tc)} : Finset (DevRef τ sig)) by decide),
    (op7 (F := F)).result_of_not_mem _ (b := a5') (show a5' ∉ ({Proc.devRef .tc (main_v7 : Ref sig .tc)} : Finset (DevRef τ sig)) by decide),
    (op6 (F := F)).result_of_not_mem _ (b := a5') (show a5' ∉ ({Proc.devRef .tc (main_v6 : Ref sig .tc)} : Finset (DevRef τ sig)) by decide),
    (op5 (F := F)).result_of_not_mem _ (b := a5') (show a5' ∉ ({Proc.devRef .tc (main_v5 : Ref sig .tc)} : Finset (DevRef τ sig)) by decide),
    (op4 (F := F)).result_of_not_mem _ (b := a5') (show a5' ∉ ({Proc.devRef .tc (main_v4 : Ref sig .tc)} : Finset (DevRef τ sig)) by decide),
    (op3 (F := F)).result_of_not_mem _ (b := a5') (show a5' ∉ ({Proc.devRef .tc (main_v3 : Ref sig .tc)} : Finset (DevRef τ sig)) by decide),
    (op2 (F := F)).result_of_not_mem _ (b := a5') (show a5' ∉ ({Proc.devRef .tc (main_v2 : Ref sig .tc)} : Finset (DevRef τ sig)) by decide)]
  unfold V2; rw [Function.update_of_ne (show a5' ≠ v1' by decide)]
  unfold V1; rw [(op0 (F := F)).result_of_not_mem _ (b := a5') (show a5' ∉ ({Proc.devRef .tc (main_v0 : Ref sig .tc)} : Finset (DevRef τ sig)) by decide)]

/-! ## The final memory -/

/-- What is read off the final memory of device d: the result array at the pipeline's closed form over the contents
    the projection kernel started from, and the six arguments as launched. -/
def fq (d : Dev nD) (s' : Phys nD τ sig (Elt F)) : Prop :=
  s'.mem.mem ((d.tc : Thread nD τ).loc main_v12) = tcG (Vreg m) d
    ∧ s'.mem.mem ((d.tc : Thread nD τ).loc main_arg0) = m ((d.tc : Thread nD τ).loc main_arg0)
    ∧ s'.mem.mem ((d.tc : Thread nD τ).loc main_arg1) = m ((d.tc : Thread nD τ).loc main_arg1)
    ∧ s'.mem.mem ((d.tc : Thread nD τ).loc main_arg2) = m ((d.tc : Thread nD τ).loc main_arg2)
    ∧ s'.mem.mem ((d.tc : Thread nD τ).loc main_arg3) = m ((d.tc : Thread nD τ).loc main_arg3)
    ∧ s'.mem.mem ((d.tc : Thread nD τ).loc main_arg4) = m ((d.tc : Thread nD τ).loc main_arg4)
    ∧ s'.mem.mem ((d.tc : Thread nD τ).loc main_arg5) = m ((d.tc : Thread nD τ).loc main_arg5)

theorem hfin (d : Dev nD) (s' : Phys nD τ sig (Elt F)) : iprop(FIN m d ∗ SI s') ⊢ (⌜fq m d s'⌝ : sProp 𝕄) := by
  unfold FIN
  rw [unscopedRest1_eq]
  iintro ⟨⟨Ha, H0, H1, H3, H4, H5, -⟩, HSI⟩
  ihave Hr := (Pipeline.arrays_read (pcfgs (F := F)) (adm (F := F)) (fun _ c => dat m c) (p := 0) arr_whole1 d ((dat m d).share_full fun _ => rfl) _ s') $$ [Ha HSI]
  · isplitl [Ha] <;> iassumption
  icases Hr with ⟨%ha, HSI⟩
  ihave H := (persistent_entails_right (SI_pointsTo_agree (st := s') (ℓ := ((d.tc : Thread nD τ).loc main_arg0)) (I := Finset.univ) (q := fullShare) (f := Vreg m d main_arg0))) $$ [HSI H0]
  · isplitl [HSI] <;> iassumption
  icases H with ⟨%h0, HSI, -⟩
  ihave H := (persistent_entails_right (SI_pointsTo_agree (st := s') (ℓ := ((d.tc : Thread nD τ).loc main_arg1)) (I := Finset.univ) (q := fullShare) (f := Vreg m d main_arg1))) $$ [HSI H1]
  · isplitl [HSI] <;> iassumption
  icases H with ⟨%h1, HSI, -⟩
  ihave H := (persistent_entails_right (SI_pointsTo_agree (st := s') (ℓ := ((d.tc : Thread nD τ).loc main_arg3)) (I := Finset.univ) (q := fullShare) (f := Vreg m d main_arg3))) $$ [HSI H3]
  · isplitl [HSI] <;> iassumption
  icases H with ⟨%h3, HSI, -⟩
  ihave H := (persistent_entails_right (SI_pointsTo_agree (st := s') (ℓ := ((d.tc : Thread nD τ).loc main_arg4)) (I := Finset.univ) (q := fullShare) (f := Vreg m d main_arg4))) $$ [HSI H4]
  · isplitl [HSI] <;> iassumption
  icases H with ⟨%h4, HSI, -⟩
  ihave H := (SI_pointsTo_agree (st := s') (ℓ := ((d.tc : Thread nD τ).loc main_arg5)) (I := Finset.univ) (q := fullShare) (f := Vreg m d main_arg5)) $$ [HSI H5]
  · isplitl [HSI] <;> iassumption
  icases H with %h5
  ipureintro
  refine ⟨?_, ?_, ?_, ?_, ?_, ?_, ?_⟩
  · exact (ha 6).trans (tcDat_arrAt6 (U := UU) (Vreg m) (BT (F := F) d) d)
  · exact (funext fun i => h0 i (Finset.mem_univ i)).trans (Vr_main_arg0 m d)
  · exact (funext fun i => h1 i (Finset.mem_univ i)).trans (Vr_main_arg1 m d)
  · exact (ha 2).trans ((tcDat_arrAt2 (U := UU) (Vreg m) (BT (F := F) d) d).trans ((tcDat_A (U := UU) (Vreg m) (BT (F := F) d) d 2).trans (Vr_main_arg2 m d)))
  · exact (funext fun i => h3 i (Finset.mem_univ i)).trans (Vr_main_arg3 m d)
  · exact (funext fun i => h4 i (Finset.mem_univ i)).trans (Vr_main_arg4 m d)
  · exact (funext fun i => h5 i (Finset.mem_univ i)).trans (Vr_main_arg5 m d)

/-! ## The program's run -/

def QC : PUnit × MemSt nD τ sig (Elt F) → Prop := fun r => ∀ c : Dev nD,
  r.2.mem ((c.tc : Thread nD τ).loc main_v12) = tcG (Vreg m) c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)

/-- Every weakly fair execution of the whole program terminates, nothing faulting, and ends with the result array at
    the closed form and the arguments unchanged: from one task's statement and the tokens naming rows of the table. -/
theorem run_main [∀ e, Nonempty (Elt F e)] (hT : TileBody F UU) (hids : IdsOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hT facts hids)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h => h)

/-! ## What the projection kernel reads, as functions of the arguments -/

abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)
abbrev v8' : DevRef τ sig := Proc.devRef .tc (main_v8 : Ref sig .tc)
abbrev v9' : DevRef τ sig := Proc.devRef .tc (main_v9 : Ref sig .tc)
abbrev v10' : DevRef τ sig := Proc.devRef .tc (main_v10 : Ref sig .tc)
abbrev v11' : DevRef τ sig := Proc.devRef .tc (main_v11 : Ref sig .tc)

theorem keep3_a1 (d : Dev nD) : ((op2 (F := F)).result (V2 m d)) a1' = m (d, a1') := by
  rw [(op2 (F := F)).result_of_not_mem _ (b := a1') (show a1' ∉ ({Proc.devRef .tc (main_v2 : Ref sig .tc)} : Finset (DevRef τ sig)) by decide)]
  unfold V2; rw [Function.update_of_ne (show a1' ≠ v1' by decide)]
  unfold V1; rw [(op0 (F := F)).result_of_not_mem _ (b := a1') (show a1' ∉ ({Proc.devRef .tc (main_v0 : Ref sig .tc)} : Finset (DevRef τ sig)) by decide)]
theorem keep4_a1 (d : Dev nD) : ((op3 (F := F)).result ((op2 (F := F)).result (V2 m d))) a1' = m (d, a1') := by
  rw [(op3 (F := F)).result_of_not_mem _ (b := a1') (show a1' ∉ ({Proc.devRef .tc (main_v3 : Ref sig .tc)} : Finset (DevRef τ sig)) by decide),
    (op2 (F := F)).result_of_not_mem _ (b := a1') (show a1' ∉ ({Proc.devRef .tc (main_v2 : Ref sig .tc)} : Finset (DevRef τ sig)) by decide)]
  unfold V2; rw [Function.update_of_ne (show a1' ≠ v1' by decide)]
  unfold V1; rw [(op0 (F := F)).result_of_not_mem _ (b := a1') (show a1' ∉ ({Proc.devRef .tc (main_v0 : Ref sig .tc)} : Finset (DevRef τ sig)) by decide)]
theorem keep5_a1 (d : Dev nD) : ((op4 (F := F)).result ((op3 (F := F)).result ((op2 (F := F)).result (V2 m d)))) a1' = m (d, a1') := by
  rw [(op4 (F := F)).result_of_not_mem _ (b := a1') (show a1' ∉ ({Proc.devRef .tc (main_v4 : Ref sig .tc)} : Finset (DevRef τ sig)) by decide),
    (op3 (F := F)).result_of_not_mem _ (b := a1') (show a1' ∉ ({Proc.devRef .tc (main_v3 : Ref sig .tc)} : Finset (DevRef τ sig)) by decide),
    (op2 (F := F)).result_of_not_mem _ (b := a1') (show a1' ∉ ({Proc.devRef .tc (main_v2 : Ref sig .tc)} : Finset (DevRef τ sig)) by decide)]
  unfold V2; rw [Function.update_of_ne (show a1' ≠ v1' by decide)]
  unfold V1; rw [(op0 (F := F)).result_of_not_mem _ (b := a1') (show a1' ∉ ({Proc.devRef .tc (main_v0 : Ref sig .tc)} : Finset (DevRef τ sig)) by decide)]
theorem keep6_a1 (d : Dev nD) : ((op5 (F := F)).result ((op4 (F := F)).result ((op3 (F := F)).result ((op2 (F := F)).result (V2 m d))))) a1' = m (d, a1') := by
  rw [(op5 (F := F)).result_of_not_mem _ (b := a1') (show a1' ∉ ({Proc.devRef .tc (main_v5 : Ref sig .tc)} : Finset (DevRef τ sig)) by decide),
    (op4 (F := F)).result_of_not_mem _ (b := a1') (show a1' ∉ ({Proc.devRef .tc (main_v4 : Ref sig .tc)} : Finset (DevRef τ sig)) by decide),
    (op3 (F := F)).result_of_not_mem _ (b := a1') (show a1' ∉ ({Proc.devRef .tc (main_v3 : Ref sig .tc)} : Finset (DevRef τ sig)) by decide),
    (op2 (F := F)).result_of_not_mem _ (b := a1') (show a1' ∉ ({Proc.devRef .tc (main_v2 : Ref sig .tc)} : Finset (DevRef τ sig)) by decide)]
  unfold V2; rw [Function.update_of_ne (show a1' ≠ v1' by decide)]
  unfold V1; rw [(op0 (F := F)).result_of_not_mem _ (b := a1') (show a1' ∉ ({Proc.devRef .tc (main_v0 : Ref sig .tc)} : Finset (DevRef τ sig)) by decide)]
theorem keep9_a3 (d : Dev nD) : ((op8 (F := F)).result ((op7 (F := F)).result ((op6 (F := F)).result ((op5 (F := F)).result ((op4 (F := F)).result ((op3 (F := F)).result ((op2 (F := F)).result (V2 m d)))))))) a3' = m (d, a3') := by
  rw [(op8 (F := F)).result_of_not_mem _ (b := a3') (show a3' ∉ ({Proc.devRef .tc (main_v8 : Ref sig .tc)} : Finset (DevRef τ sig)) by decide),
    (op7 (F := F)).result_of_not_mem _ (b := a3') (show a3' ∉ ({Proc.devRef .tc (main_v7 : Ref sig .tc)} : Finset (DevRef τ sig)) by decide),
    (op6 (F := F)).result_of_not_mem _ (b := a3') (show a3' ∉ ({Proc.devRef .tc (main_v6 : Ref sig .tc)} : Finset (DevRef τ sig)) by decide),
    (op5 (F := F)).result_of_not_mem _ (b := a3') (show a3' ∉ ({Proc.devRef .tc (main_v5 : Ref sig .tc)} : Finset (DevRef τ sig)) by decide),
    (op4 (F := F)).result_of_not_mem _ (b := a3') (show a3' ∉ ({Proc.devRef .tc (main_v4 : Ref sig .tc)} : Finset (DevRef τ sig)) by decide),
    (op3 (F := F)).result_of_not_mem _ (b := a3') (show a3' ∉ ({Proc.devRef .tc (main_v3 : Ref sig .tc)} : Finset (DevRef τ sig)) by decide),
    (op2 (F := F)).result_of_not_mem _ (b := a3') (show a3' ∉ ({Proc.devRef .tc (main_v2 : Ref sig .tc)} : Finset (DevRef τ sig)) by decide)]
  unfold V2; rw [Function.update_of_ne (show a3' ≠ v1' by decide)]
  unfold V1; rw [(op0 (F := F)).result_of_not_mem _ (b := a3') (show a3' ∉ ({Proc.devRef .tc (main_v0 : Ref sig .tc)} : Finset (DevRef τ sig)) by decide)]
theorem keep10_a4 (d : Dev nD) : ((op9 (F := F)).result ((op8 (F := F)).result ((op7 (F := F)).result ((op6 (F := F)).result ((op5 (F := F)).result ((op4 (F := F)).result ((op3 (F := F)).result ((op2 (F := F)).result (V2 m d))))))))) a4' = m (d, a4') := by
  rw [(op9 (F := F)).result_of_not_mem _ (b := a4') (show a4' ∉ ({Proc.devRef .tc (main_v9 : Ref sig .tc)} : Finset (DevRef τ sig)) by decide),
    (op8 (F := F)).result_of_not_mem _ (b := a4') (show a4' ∉ ({Proc.devRef .tc (main_v8 : Ref sig .tc)} : Finset (DevRef τ sig)) by decide),
    (op7 (F := F)).result_of_not_mem _ (b := a4') (show a4' ∉ ({Proc.devRef .tc (main_v7 : Ref sig .tc)} : Finset (DevRef τ sig)) by decide),
    (op6 (F := F)).result_of_not_mem _ (b := a4') (show a4' ∉ ({Proc.devRef .tc (main_v6 : Ref sig .tc)} : Finset (DevRef τ sig)) by decide),
    (op5 (F := F)).result_of_not_mem _ (b := a4') (show a4' ∉ ({Proc.devRef .tc (main_v5 : Ref sig .tc)} : Finset (DevRef τ sig)) by decide),
    (op4 (F := F)).result_of_not_mem _ (b := a4') (show a4' ∉ ({Proc.devRef .tc (main_v4 : Ref sig .tc)} : Finset (DevRef τ sig)) by decide),
    (op3 (F := F)).result_of_not_mem _ (b := a4') (show a4' ∉ ({Proc.devRef .tc (main_v3 : Ref sig .tc)} : Finset (DevRef τ sig)) by decide),
    (op2 (F := F)).result_of_not_mem _ (b := a4') (show a4' ∉ ({Proc.devRef .tc (main_v2 : Ref sig .tc)} : Finset (DevRef τ sig)) by decide)]
  unfold V2; rw [Function.update_of_ne (show a4' ≠ v1' by decide)]
  unfold V1; rw [(op0 (F := F)).result_of_not_mem _ (b := a4') (show a4' ∉ ({Proc.devRef .tc (main_v0 : Ref sig .tc)} : Finset (DevRef τ sig)) by decide)]
theorem keep11_a5 (d : Dev nD) : ((op10 (F := F)).result ((op9 (F := F)).result ((op8 (F := F)).result ((op7 (F := F)).result ((op6 (F := F)).result ((op5 (F := F)).result ((op4 (F := F)).result ((op3 (F := F)).result ((op2 (F := F)).result (V2 m d)))))))))) a5' = m (d, a5') := by
  rw [(op10 (F := F)).result_of_not_mem _ (b := a5') (show a5' ∉ ({Proc.devRef .tc (main_v10 : Ref sig .tc)} : Finset (DevRef τ sig)) by decide),
    (op9 (F := F)).result_of_not_mem _ (b := a5') (show a5' ∉ ({Proc.devRef .tc (main_v9 : Ref sig .tc)} : Finset (DevRef τ sig)) by decide),
    (op8 (F := F)).result_of_not_mem _ (b := a5') (show a5' ∉ ({Proc.devRef .tc (main_v8 : Ref sig .tc)} : Finset (DevRef τ sig)) by decide),
    (op7 (F := F)).result_of_not_mem _ (b := a5') (show a5' ∉ ({Proc.devRef .tc (main_v7 : Ref sig .tc)} : Finset (DevRef τ sig)) by decide),
    (op6 (F := F)).result_of_not_mem _ (b := a5') (show a5' ∉ ({Proc.devRef .tc (main_v6 : Ref sig .tc)} : Finset (DevRef τ sig)) by decide),
    (op5 (F := F)).result_of_not_mem _ (b := a5') (show a5' ∉ ({Proc.devRef .tc (main_v5 : Ref sig .tc)} : Finset (DevRef τ sig)) by decide),
    (op4 (F := F)).result_of_not_mem _ (b := a5') (show a5' ∉ ({Proc.devRef .tc (main_v4 : Ref sig .tc)} : Finset (DevRef τ sig)) by decide),
    (op3 (F := F)).result_of_not_mem _ (b := a5') (show a5' ∉ ({Proc.devRef .tc (main_v3 : Ref sig .tc)} : Finset (DevRef τ sig)) by decide),
    (op2 (F := F)).result_of_not_mem _ (b := a5') (show a5' ∉ ({Proc.devRef .tc (main_v2 : Ref sig .tc)} : Finset (DevRef τ sig)) by decide)]
  unfold V2; rw [Function.update_of_ne (show a5' ≠ v1' by decide)]
  unfold V1; rw [(op0 (F := F)).result_of_not_mem _ (b := a5') (show a5' ∉ ({Proc.devRef .tc (main_v0 : Ref sig .tc)} : Finset (DevRef τ sig)) by decide)]

/-- The flat tokens are the tokens read in row-major order. -/
theorem ids_eq (d : Dev nD) : ids m d = (fun i => shapeCast S3276800 (m (d, a0')) Facts₀.shapeCasts_S16384x200_S3276800 i) :=
  (StableHlo.reshape_result main_arg0 main_v0 rfl Facts₀.shapeCasts_S16384x200_S3276800 ⟨by decide, rfl⟩ ⟨by decide, rfl⟩ (V0 m d)).trans rfl

/-- Tokens that name rows of the table give flat tokens that do. -/
theorem idsOK_of_tok (hpre : ∀ d : Dev nD, Cert.Spec.TokOK (m ((SparseCore.T d).loc main_arg0))) : IdsOK m := by
  intro d i
  rw [ids_eq]
  exact hpre d _

/-- The 2-d packed counts: the packed histograms of the flat tokens, reshaped. -/
theorem Vr_v2 (d : Dev nD) : Vr m d v2' = (fun i => shapeCast S16384x1024 (packedFlat (ids m d)) Facts₀.shapeCasts_S16777216_S16384x1024 i) := by
  unfold Vr
  rw [(op11 (F := F)).result_of_not_mem _ (b := v2') (show v2' ∉ ({Proc.devRef .tc (main_v11 : Ref sig .tc)} : Finset (DevRef τ sig)) by decide),
    (op10 (F := F)).result_of_not_mem _ (b := v2') (show v2' ∉ ({Proc.devRef .tc (main_v10 : Ref sig .tc)} : Finset (DevRef τ sig)) by decide),
    (op9 (F := F)).result_of_not_mem _ (b := v2') (show v2' ∉ ({Proc.devRef .tc (main_v9 : Ref sig .tc)} : Finset (DevRef τ sig)) by decide),
    (op8 (F := F)).result_of_not_mem _ (b := v2') (show v2' ∉ ({Proc.devRef .tc (main_v8 : Ref sig .tc)} : Finset (DevRef τ sig)) by decide),
    (op7 (F := F)).result_of_not_mem _ (b := v2') (show v2' ∉ ({Proc.devRef .tc (main_v7 : Ref sig .tc)} : Finset (DevRef τ sig)) by decide),
    (op6 (F := F)).result_of_not_mem _ (b := v2') (show v2' ∉ ({Proc.devRef .tc (main_v6 : Ref sig .tc)} : Finset (DevRef τ sig)) by decide),
    (op5 (F := F)).result_of_not_mem _ (b := v2') (show v2' ∉ ({Proc.devRef .tc (main_v5 : Ref sig .tc)} : Finset (DevRef τ sig)) by decide),
    (op4 (F := F)).result_of_not_mem _ (b := v2') (show v2' ∉ ({Proc.devRef .tc (main_v4 : Ref sig .tc)} : Finset (DevRef τ sig)) by decide),
    (op3 (F := F)).result_of_not_mem _ (b := v2') (show v2' ∉ ({Proc.devRef .tc (main_v3 : Ref sig .tc)} : Finset (DevRef τ sig)) by decide)]
  refine (StableHlo.reshape_result main_v1 main_v2 rfl Facts₀.shapeCasts_S16777216_S16384x1024 ⟨by decide, rfl⟩ ⟨by decide, rfl⟩ (V2 m d)).trans ?_
  unfold V2; rw [Function.update_self]; try rfl

/-- The three row vectors: the bias, the scale and the shift reshaped to one row. -/
theorem Vr_v9 (d : Dev nD) : Vr m d v9' = (fun i => shapeCast S1x256 (m (d, a3')) Facts₀.shapeCasts_S256_S1x256 i) := by
  unfold Vr
  rw [(op11 (F := F)).result_of_not_mem _ (b := v9') (show v9' ∉ ({Proc.devRef .tc (main_v11 : Ref sig .tc)} : Finset (DevRef τ sig)) by decide),
    (op10 (F := F)).result_of_not_mem _ (b := v9') (show v9' ∉ ({Proc.devRef .tc (main_v10 : Ref sig .tc)} : Finset (DevRef τ sig)) by decide)]
  refine (StableHlo.reshape_result main_arg3 main_v9 rfl Facts₀.shapeCasts_S256_S1x256 ⟨by decide, rfl⟩ ⟨by decide, rfl⟩ ((op8 (F := F)).result ((op7 (F := F)).result ((op6 (F := F)).result ((op5 (F := F)).result ((op4 (F := F)).result ((op3 (F := F)).result ((op2 (F := F)).result (V2 m d))))))))).trans ?_
  rw [keep9_a3 m d]; try rfl
theorem Vr_v10 (d : Dev nD) : Vr m d v10' = (fun i => shapeCast S1x256 (m (d, a4')) Facts₀.shapeCasts_S256_S1x256 i) := by
  unfold Vr
  rw [(op11 (F := F)).result_of_not_mem _ (b := v10') (show v10' ∉ ({Proc.devRef .tc (main_v11 : Ref sig .tc)} : Finset (DevRef τ sig)) by decide)]
  refine (StableHlo.reshape_result main_arg4 main_v10 rfl Facts₀.shapeCasts_S256_S1x256 ⟨by decide, rfl⟩ ⟨by decide, rfl⟩ ((op9 (F := F)).result ((op8 (F := F)).result ((op7 (F := F)).result ((op6 (F := F)).result ((op5 (F := F)).result ((op4 (F := F)).result ((op3 (F := F)).result ((op2 (F := F)).result (V2 m d)))))))))).trans ?_
  rw [keep10_a4 m d]; try rfl
theorem Vr_v11 (d : Dev nD) : Vr m d v11' = (fun i => shapeCast S1x256 (m (d, a5')) Facts₀.shapeCasts_S256_S1x256 i) := by
  unfold Vr
  refine (StableHlo.reshape_result main_arg5 main_v11 rfl Facts₀.shapeCasts_S256_S1x256 ⟨by decide, rfl⟩ ⟨by decide, rfl⟩ ((op10 (F := F)).result ((op9 (F := F)).result ((op8 (F := F)).result ((op7 (F := F)).result ((op6 (F := F)).result ((op5 (F := F)).result ((op4 (F := F)).result ((op3 (F := F)).result ((op2 (F := F)).result (V2 m d))))))))))).trans ?_
  rw [keep11_a5 m d]; try rfl

/-- The table regrouped by byte and narrowed: the four strided slices of the table, one under the other. -/
def tabTerm (a1 : (⟨S4096x72, .f32⟩ : BufTy).Contents (Elt F)) : (⟨S4096x72, .bf16⟩ : BufTy).Contents (Elt F) :=
  truncf .bf16 (concatenate S4096x72 0
    [⟨S1024x72, Host.slice S1024x72 ![0, 0] ![4, 1] a1 Facts₀.slicesBy_S4096x72_S1024x72_0s4_0s1⟩,
     ⟨S1024x72, Host.slice S1024x72 ![1, 0] ![4, 1] a1 Facts₀.slicesBy_S4096x72_S1024x72_1s4_0s1⟩,
     ⟨S1024x72, Host.slice S1024x72 ![2, 0] ![4, 1] a1 Facts₀.slicesBy_S4096x72_S1024x72_2s4_0s1⟩,
     ⟨S1024x72, Host.slice S1024x72 ![3, 0] ![4, 1] a1 Facts₀.slicesBy_S4096x72_S1024x72_3s4_0s1⟩]
    Facts₀.concatenates_S1024x72_S1024x72_S1024x72_S1024x72_S4096x72_d0) Facts₀.bitsLt_bf16_f32

theorem Vr_v8 (d : Dev nD) : Vr m d v8' = tabTerm (m (d, a1')) := by
  unfold Vr
  rw [(op11 (F := F)).result_of_not_mem _ (b := v8') (show v8' ∉ ({Proc.devRef .tc (main_v11 : Ref sig .tc)} : Finset (DevRef τ sig)) by decide),
    (op10 (F := F)).result_of_not_mem _ (b := v8') (show v8' ∉ ({Proc.devRef .tc (main_v10 : Ref sig .tc)} : Finset (DevRef τ sig)) by decide),
    (op9 (F := F)).result_of_not_mem _ (b := v8') (show v8' ∉ ({Proc.devRef .tc (main_v9 : Ref sig .tc)} : Finset (DevRef τ sig)) by decide)]
  refine (StableHlo.unary_result main_v7 main_v8 _ ⟨by decide, rfl⟩ ⟨by decide, rfl⟩ ((op7 (F := F)).result ((op6 (F := F)).result ((op5 (F := F)).result ((op4 (F := F)).result ((op3 (F := F)).result ((op2 (F := F)).result (V2 m d)))))))).trans ?_
  rw [show ((op7 (F := F)).result ((op6 (F := F)).result ((op5 (F := F)).result ((op4 (F := F)).result ((op3 (F := F)).result ((op2 (F := F)).result (V2 m d))))))) v7' = _ from StableHlo.nary_result ![main_v3, main_v4, main_v5, main_v6] main_v7 _ (by decide) ⟨by decide, rfl⟩ ((op6 (F := F)).result ((op5 (F := F)).result ((op4 (F := F)).result ((op3 (F := F)).result ((op2 (F := F)).result (V2 m d))))))]
  have e3 : ((op6 (F := F)).result ((op5 (F := F)).result ((op4 (F := F)).result ((op3 (F := F)).result ((op2 (F := F)).result (V2 m d)))))) v3' = Host.slice S1024x72 ![0, 0] ![4, 1] (m (d, a1')) Facts₀.slicesBy_S4096x72_S1024x72_0s4_0s1 := by
    rw [(op6 (F := F)).result_of_not_mem _ (b := v3') (show v3' ∉ ({Proc.devRef .tc (main_v6 : Ref sig .tc)} : Finset (DevRef τ sig)) by decide),
      (op5 (F := F)).result_of_not_mem _ (b := v3') (show v3' ∉ ({Proc.devRef .tc (main_v5 : Ref sig .tc)} : Finset (DevRef τ sig)) by decide),
      (op4 (F := F)).result_of_not_mem _ (b := v3') (show v3' ∉ ({Proc.devRef .tc (main_v4 : Ref sig .tc)} : Finset (DevRef τ sig)) by decide)]
    refine (StableHlo.unary_result main_arg1 main_v3 _ ⟨by decide, rfl⟩ ⟨by decide, rfl⟩ ((op2 (F := F)).result (V2 m d))).trans ?_
    rw [keep3_a1 m d]
  have e4 : ((op6 (F := F)).result ((op5 (F := F)).result ((op4 (F := F)).result ((op3 (F := F)).result ((op2 (F := F)).result (V2 m d)))))) v4' = Host.slice S1024x72 ![1, 0] ![4, 1] (m (d, a1')) Facts₀.slicesBy_S4096x72_S1024x72_1s4_0s1 := by
    rw [(op6 (F := F)).result_of_not_mem _ (b := v4') (show v4' ∉ ({Proc.devRef .tc (main_v6 : Ref sig .tc)} : Finset (DevRef τ sig)) by decide),
      (op5 (F := F)).result_of_not_mem _ (b := v4') (show v4' ∉ ({Proc.devRef .tc (main_v5 : Ref sig .tc)} : Finset (DevRef τ sig)) by decide)]
    refine (StableHlo.unary_result main_arg1 main_v4 _ ⟨by decide, rfl⟩ ⟨by decide, rfl⟩ ((op3 (F := F)).result ((op2 (F := F)).result (V2 m d)))).trans ?_
    rw [keep4_a1 m d]
  have e5 : ((op6 (F := F)).result ((op5 (F := F)).result ((op4 (F := F)).result ((op3 (F := F)).result ((op2 (F := F)).result (V2 m d)))))) v5' = Host.slice S1024x72 ![2, 0] ![4, 1] (m (d, a1')) Facts₀.slicesBy_S4096x72_S1024x72_2s4_0s1 := by
    rw [(op6 (F := F)).result_of_not_mem _ (b := v5') (show v5' ∉ ({Proc.devRef .tc (main_v6 : Ref sig .tc)} : Finset (DevRef τ sig)) by decide)]
    refine (StableHlo.unary_result main_arg1 main_v5 _ ⟨by decide, rfl⟩ ⟨by decide, rfl⟩ ((op4 (F := F)).result ((op3 (F := F)).result ((op2 (F := F)).result (V2 m d))))).trans ?_
    rw [keep5_a1 m d]
  have e6 : ((op6 (F := F)).result ((op5 (F := F)).result ((op4 (F := F)).result ((op3 (F := F)).result ((op2 (F := F)).result (V2 m d)))))) v6' = Host.slice S1024x72 ![3, 0] ![4, 1] (m (d, a1')) Facts₀.slicesBy_S4096x72_S1024x72_3s4_0s1 := by
    refine (StableHlo.unary_result main_arg1 main_v6 _ ⟨by decide, rfl⟩ ⟨by decide, rfl⟩ ((op5 (F := F)).result ((op4 (F := F)).result ((op3 (F := F)).result ((op2 (F := F)).result (V2 m d)))))).trans ?_
    rw [keep6_a1 m d]
  unfold tabTerm
  show truncf .bf16 (concatenate S4096x72 0 [⟨S1024x72, ((op6 (F := F)).result ((op5 (F := F)).result ((op4 (F := F)).result ((op3 (F := F)).result ((op2 (F := F)).result (V2 m d)))))) v3'⟩, ⟨S1024x72, ((op6 (F := F)).result ((op5 (F := F)).result ((op4 (F := F)).result ((op3 (F := F)).result ((op2 (F := F)).result (V2 m d)))))) v4'⟩, ⟨S1024x72, ((op6 (F := F)).result ((op5 (F := F)).result ((op4 (F := F)).result ((op3 (F := F)).result ((op2 (F := F)).result (V2 m d)))))) v5'⟩, ⟨S1024x72, ((op6 (F := F)).result ((op5 (F := F)).result ((op4 (F := F)).result ((op3 (F := F)).result ((op2 (F := F)).result (V2 m d)))))) v6'⟩] _) _ = _
  rw [e3, e4, e5, e6]

/-! ## The result as one function of the six arguments -/

/-- The packed counts as the projection kernel reads them: the packed histograms of the tokens read in row-major
    order, as 16384 rows of 1024 words. -/
def cnt2Term (a0 : (⟨S16384x200, .i32⟩ : BufTy).Contents (Elt F)) : (⟨S16384x1024, .i32⟩ : BufTy).Contents (Elt F) :=
  fun i => shapeCast S16384x1024 (packedFlat (fun j => shapeCast S3276800 a0 Facts₀.shapeCasts_S16384x200_S3276800 j)) Facts₀.shapeCasts_S16777216_S16384x1024 i
/-- A vector of 256 features as one row. -/
def rowTerm (a : (⟨S256, .f32⟩ : BufTy).Contents (Elt F)) : (⟨S1x256, .f32⟩ : BufTy).Contents (Elt F) :=
  fun i => shapeCast S1x256 a Facts₀.shapeCasts_S256_S1x256 i

/-- The result array as a function of the six argument arrays: entry (r, k) is entry (r % 512, k) of the block
    function at rows 512 (r / 512) … of the packed counts, the regrouped table, the weights and the three rows. -/
def kerTerm (a0 : (⟨S16384x200, .i32⟩ : BufTy).Contents (Elt F)) (a1 : (⟨S4096x72, .f32⟩ : BufTy).Contents (Elt F))
    (a2 : (⟨S72x256, .f32⟩ : BufTy).Contents (Elt F)) (a3 a4 a5 : (⟨S256, .f32⟩ : BufTy).Contents (Elt F)) : S16384x256.Idx → Elt F .f32 := fun i =>
  tcOut (fun j : S512x1024.Idx => cnt2Term a0 (ValueIdx.ix2 (⟨512 * (ptOf i).val + (j 0).val, by
      have := pt_lt (ptOf i); have : (j 0).val < 512 := (j 0).isLt; omega⟩ : Fin 16384) (j 1 : Fin 1024)))
    (tabTerm a1) a2 (rowTerm a3) (rowTerm a4) (rowTerm a5)
    (ValueIdx.ix2 (⟨(i 0).val % 512, Nat.mod_lt _ (by decide)⟩ : Fin 512) (i 1 : Fin 256))

theorem tcG_kerTerm (c : Dev nD) :
    tcG (Vreg m) c = kerTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  funext i
  have e2 : Vreg m c main_v2 = cnt2Term (m ((c.tc : Thread nD τ).loc main_arg0)) := by
    show Vr m c v2' = _
    rw [Vr_v2, ids_eq]; rfl
  have e8 : Vreg m c main_v8 = tabTerm (m ((c.tc : Thread nD τ).loc main_arg1)) := Vr_v8 m c
  have ea2 : Vreg m c main_arg2 = (m ((c.tc : Thread nD τ).loc main_arg2)) := Vr_main_arg2 m c
  have e9 : Vreg m c main_v9 = rowTerm (m ((c.tc : Thread nD τ).loc main_arg3)) := Vr_v9 m c
  have e10 : Vreg m c main_v10 = rowTerm (m ((c.tc : Thread nD τ).loc main_arg4)) := Vr_v10 m c
  have e11 : Vreg m c main_v11 = rowTerm (m ((c.tc : Thread nD τ).loc main_arg5)) := Vr_v11 m c
  have e0 : iblk (Vreg m) c 0 (ptOf i) = fun j : S512x1024.Idx => cnt2Term (m ((c.tc : Thread nD τ).loc main_arg0)) (ValueIdx.ix2 (⟨512 * (ptOf i).val + (j 0).val, by
      have := pt_lt (ptOf i); have : (j 0).val < 512 := (j 0).isLt; omega⟩ : Fin 16384) (j 1 : Fin 1024)) := by
    funext j; rw [iblk0_apply, e2]
  unfold tcG kerTerm
  rw [e0, e8, ea2, e9, e10, e11]

/-- The run with the strongest post: the result array named as a function of the arguments, the arguments unchanged;
    from one task's statement and the precondition on the tokens. -/
theorem run_kernel [∀ e, Nonempty (Elt F e)] (hT : TileBody F UU) (hpre : ∀ d : Dev nD, Cert.Spec.TokOK (m ((SparseCore.T d).loc main_arg0))) :
    θ_run (Cert.KernelIdeal.defs (F := F)) (Cert.KernelIdeal.threads (F := F)) ⟨m, fun _ => 0, ρ⟩ (fun r => ∀ c : Dev nD,
      r.2.mem ((c.tc : Thread nD τ).loc main_v12) = kerTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run Cert.KernelIdeal.defs _ _).mono (fun _ h c => by rw [← tcG_kerTerm m c]; exact h c) (run_main m ρ hT (idsOK_of_tok m hpre))

/-- info: 'Cert.KernelIdeal.Hand.run_kernel' depends on axioms: [propext, Classical.choice, Quot.sound] -/
#guard_msgs in #print axioms run_kernel

end Cert.KernelIdeal.Hand

end
-- ==== Proof.BaseK.lean ====
/-
  The counting kernel's view of its two flat arrays, shared by the proof of one vector subcore's task and by the launch.

  The flat token array (3276800 words) is cut into 1024 pieces of 3200 words (sixteen queries of 200 tokens), the flat
  count array (16777216 words) into 1024 pieces of 16384 words (sixteen queries of 1024 packed words). Vector subcore s of
  SparseCore c works on the 32 consecutive pieces 64 s + 32 c + k, k < 32, one per trip of its outer loop: it copies piece
  k of the tokens into its first scratch, builds the sixteen packed histograms in its second scratch and copies them out
  to piece k of the counts. packedFlat is what the count array holds afterwards, word by word.
-/
import proofs.«207659_g70703751627518_cont_9to1_m_904_5_alg».proof.Kernel
import proofs.«207659_g70703751627518_cont_9to1_m_904_5_alg».proof.Proof.Gen.Kernel
import proofs.«207659_g70703751627518_cont_9to1_m_904_5_alg».proof.Proof.Gen.Kernel.Skeleton
import proofs.«207659_g70703751627518_cont_9to1_m_904_5_alg».proof.Proof.Spec
import Idealize.ShloMosaic.Lib.SparseCore.Launch
import Idealize.ShloMosaic.Lib.Transfers
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The two flat arrays and their pieces -/

/-- The flat tokens and the flat counts, as locations of device d. -/
abbrev idsLoc (d : Dev nD) : Loc nD τ sig := (SparseCore.T d).loc main_v0
abbrev cntLoc (d : Dev nD) : Loc nD τ sig := (SparseCore.T d).loc main_v1

theorem hdivI : 1024 ∣ S3276800.size 0 := ⟨3200, rfl⟩
theorem hdivC : 1024 ∣ S16777216.size 0 := ⟨16384, rfl⟩
/-- Piece n of the tokens (3200 words from 3200 n) and of the counts (16384 words from 16384 n). -/
abbrev ipiece (n : Fin 1024) : Rect S3276800 := Rect.part (s := S3276800) (a₀ := 0) hdivI n
abbrev cpiece (n : Fin 1024) : Rect S16777216 := Rect.part (s := S16777216) (a₀ := 0) hdivC n

/-- The piece subcore s of SparseCore c works on in trip k. -/
def pieceOf (c : Fin 2) (s : Fin 16) (k : Fin 32) : Fin 1024 := ⟨64 * s.val + 32 * c.val + k.val, by omega⟩

/-- The token a flat token word names, as a row number (reduced mod 4096: nothing changes where tokens are in range). -/
def tokAt (ids : S3276800.Idx → BitVec 32) (q : Fin 16384) (l : Fin 200) : Fin 4096 :=
  ⟨(ids (ValueIdx.ix1 ⟨200 * q.val + l.val, by omega⟩)).toNat % 4096, Nat.mod_lt _ (by decide)⟩

/-- What the counting kernel leaves in the flat counts: word 1024 q + w is word w of query q's packed histogram. -/
def packedFlat (ids : S3276800.Idx → BitVec 32) : S16777216.Idx → BitVec 32 :=
  fun j => Cert.Spec.packedQ (tokAt ids ⟨(j 0).val / 1024, by have h : (j 0).val < 16777216 := (j 0).isLt; omega⟩)
    ⟨(j 0).val % 1024, Nat.mod_lt _ (by decide)⟩

/-! ## What a task is handed and hands back -/

section Pay

variable {U : Type} [URA U]

local notation "𝕄" => MT nD τ sig (HIx 1) (Elt F) ℕ U ℕ

/-- A task's operands: its 32 pieces of the tokens at contents ids, its 32 pieces of the counts at contents cnt. -/
def taskPts (d : Dev nD) (c : Fin 2) (s : Fin 16) (ids : Buf (Elt F) (idsLoc d)) (cnt : Buf (Elt F) (cntLoc d)) : sProp 𝕄 :=
  bigSep (Finset.univ : Finset (Fin 32)) fun k =>
    iprop((idsLoc d ↦[(ipiece (pieceOf c s k)).set]{fullShare} ids) ∗ (cntLoc d ↦[(cpiece (pieceOf c s k)).set]{fullShare} cnt))

end Pay

end Cert.Kernel.Hand

end
-- ==== Proof.TcBodyK.lean ====
/-
  The projection kernel on the TensorCore: one grid of 32 points, each taking a block of 512 rows of the packed counts
  (512 x 1024 words), the whole table (4096 x 72), the whole projection matrix (72 x 256) and the three rows of 256
  (bias, scale, shift), and leaving one block of 512 rows of the result (512 x 256).

  The body reads its six inputs whole and writes its output block whole, once. So what it leaves in the output block
  is a function tcOut of the six input blocks alone, and every input block is left as it was found. This file names
  that function, states the body's triple, the data of the pipeline around it (the arrays as the region finds them,
  each input's block at each point, the output block tcOut of the input blocks) and the obligation that the body
  meets this data at every point.
-/
import proofs.«207659_g70703751627518_cont_9to1_m_904_5_alg».proof.Proof.Gen.Kernel.Launch
import proofs.«207659_g70703751627518_cont_9to1_m_904_5_alg».proof.Proof.Gen.Kernel.Points
import proofs.«207659_g70703751627518_cont_9to1_m_904_5_alg».proof.Proof.Gen.Kernel.Skeleton
import proofs.«207659_g70703751627518_cont_9to1_m_904_5_alg».proof.Proof.BaseK
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {U : Type} [URA U]

local notation "𝕄" => MT nD τ sig (HIx 1) (Elt F) ℕ U ℕ

-- The TensorCore's arrays when the region is entered: a parameter (what the counting kernel and the host operations
-- before the region left).
variable (Vv : (c : Dev nD) → (b : Ref sig .tc) → Buf (Elt F) ((c : Thread nD τ).loc b))

/-! ## The block function -/

/-- What the body leaves in its output block, from its six input blocks: 512 rows of packed counts x0, the table x1,
    the projection x2, the bias x3, the scale x4 and the shift x5. The packed counts are unpacked to 4096 counts a row,
    multiplied into the table and scaled (the mean embedding), projected and biased; each row is then centred, divided
    by its deviation, scaled, shifted and clamped below at zero. -/
def tcOut (x0 : Vec F S512x1024 .i32) (x1 : Vec F S4096x72 .bf16) (x2 : Vec F S72x256 .f32) (x3 x4 x5 : Vec F S1x256 .f32) :
    Vec F S512x256 .f32 :=
  k1_pay1 (k1_pay2 x0 x1 x2 x3) (k1_pay3 x0 x1 x2 x3) x4 x5

/-! ## The windows' blocks -/

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (Vv c (Pipeline.arrRef spec1 w))

/-- An input window's current buffer holds its block at every point, fetched there or not, for any data whose array
    is the region's and whose body leaves the block in place: unfetched, the block index has not moved. -/
theorem before0_of {c : Dev nD} (dat : Pipeline.Dat τ (Elt F) (HIx 1) ℕ U ℕ cfg1 c) (hA : dat.A 0 = Vv c (Pipeline.arrRef spec1 0))
    (hafter : ∀ t, dat.after 0 t = iblk Vv c 0 t) (t : Fin cfg1.N) (d) : dat.before 0 t d = iblk Vv c 0 t :=
  (dat.before_in_eq_fetched 0 rfl (fun _ => rfl) (fun _ _ _ => rfl) (fun t => by rw [hafter]; unfold Pipeline.Dat.blockOf iblk; rw [hA]; try rfl) t d).trans
    (by unfold Pipeline.Dat.fetched Pipeline.Dat.blockOf iblk; rw [hA]; try rfl)
theorem before1_of {c : Dev nD} (dat : Pipeline.Dat τ (Elt F) (HIx 1) ℕ U ℕ cfg1 c) (hA : dat.A 1 = Vv c (Pipeline.arrRef spec1 1))
    (hafter : ∀ t, dat.after 1 t = iblk Vv c 1 t) (t : Fin cfg1.N) (d) : dat.before 1 t d = iblk Vv c 1 t :=
  (dat.before_in_eq_fetched 1 rfl (fun _ => rfl) (fun _ _ _ => rfl) (fun t => by rw [hafter]; unfold Pipeline.Dat.blockOf iblk; rw [hA]; try rfl) t d).trans
    (by unfold Pipeline.Dat.fetched Pipeline.Dat.blockOf iblk; rw [hA]; try rfl)
theorem before2_of {c : Dev nD} (dat : Pipeline.Dat τ (Elt F) (HIx 1) ℕ U ℕ cfg1 c) (hA : dat.A 2 = Vv c (Pipeline.arrRef spec1 2))
    (hafter : ∀ t, dat.after 2 t = iblk Vv c 2 t) (t : Fin cfg1.N) (d) : dat.before 2 t d = iblk Vv c 2 t :=
  (dat.before_in_eq_fetched 2 rfl (fun _ => rfl) (fun _ _ _ => rfl) (fun t => by rw [hafter]; unfold Pipeline.Dat.blockOf iblk; rw [hA]; try rfl) t d).trans
    (by unfold Pipeline.Dat.fetched Pipeline.Dat.blockOf iblk; rw [hA]; try rfl)
theorem before3_of {c : Dev nD} (dat : Pipeline.Dat τ (Elt F) (HIx 1) ℕ U ℕ cfg1 c) (hA : dat.A 3 = Vv c (Pipeline.arrRef spec1 3))
    (hafter : ∀ t, dat.after 3 t = iblk Vv c 3 t) (t : Fin cfg1.N) (d) : dat.before 3 t d = iblk Vv c 3 t :=
  (dat.before_in_eq_fetched 3 rfl (fun _ => rfl) (fun _ _ _ => rfl) (fun t => by rw [hafter]; unfold Pipeline.Dat.blockOf iblk; rw [hA]; try rfl) t d).trans
    (by unfold Pipeline.Dat.fetched Pipeline.Dat.blockOf iblk; rw [hA]; try rfl)
theorem before4_of {c : Dev nD} (dat : Pipeline.Dat τ (Elt F) (HIx 1) ℕ U ℕ cfg1 c) (hA : dat.A 4 = Vv c (Pipeline.arrRef spec1 4))
    (hafter : ∀ t, dat.after 4 t = iblk Vv c 4 t) (t : Fin cfg1.N) (d) : dat.before 4 t d = iblk Vv c 4 t :=
  (dat.before_in_eq_fetched 4 rfl (fun _ => rfl) (fun _ _ _ => rfl) (fun t => by rw [hafter]; unfold Pipeline.Dat.blockOf iblk; rw [hA]; try rfl) t d).trans
    (by unfold Pipeline.Dat.fetched Pipeline.Dat.blockOf iblk; rw [hA]; try rfl)
theorem before5_of {c : Dev nD} (dat : Pipeline.Dat τ (Elt F) (HIx 1) ℕ U ℕ cfg1 c) (hA : dat.A 5 = Vv c (Pipeline.arrRef spec1 5))
    (hafter : ∀ t, dat.after 5 t = iblk Vv c 5 t) (t : Fin cfg1.N) (d) : dat.before 5 t d = iblk Vv c 5 t :=
  (dat.before_in_eq_fetched 5 rfl (fun _ => rfl) (fun _ _ _ => rfl) (fun t => by rw [hafter]; unfold Pipeline.Dat.blockOf iblk; rw [hA]; try rfl) t d).trans
    (by unfold Pipeline.Dat.fetched Pipeline.Dat.blockOf iblk; rw [hA]; try rfl)

/-! ## The body's accesses: each buffer whole -/

abbrev rIn0 : Rect S512x1024 := Rect.unit (s := S512x1024) ![0, 0] S512x1024.size inb_S512x1024_S512x1024_0_0
abbrev rIn1 : Rect S4096x72 := Rect.unit (s := S4096x72) ![0, 0] S4096x72.size inb_S4096x72_S4096x72_0_0
abbrev rIn2 : Rect S72x256 := Rect.unit (s := S72x256) ![0, 0] S72x256.size inb_S72x256_S72x256_0_0
abbrev rRow : Rect S1x256 := Rect.unit (s := S1x256) ![0, 0] S1x256.size inb_S1x256_S1x256_0_0
abbrev rOut : Rect S512x256 := Rect.unit (s := S512x256) ![0, 0] S512x256.size inb_S512x256_S512x256_0_0

/-! ## What the body leaves in the output block -/

/-- The output block after the body, from the input blocks: its one store, of tcOut of the six loads. -/
def out6 (x0 : Vec F S512x1024 .i32) (x1 : Vec F S4096x72 .bf16) (x2 : Vec F S72x256 .f32) (x3 x4 x5 : Vec F S1x256 .f32) :
    Vec F S512x256 .f32 :=
  View.canon [⟨rOut, tcOut (View.ld x0 rIn0) (View.ld x1 rIn1) (View.ld x2 rIn2) (View.ld x3 rRow) (View.ld x4 rRow) (View.ld x5 rRow)⟩]

/-- The one store is of the whole block, so it covers it. -/
theorem cover6 (p0 : Vec F S512x256 .f32) (y : S512x256.Idx) :
    ∃ pc ∈ ([⟨rOut, p0⟩] : List (View.Piece (Elt F) S512x256 .f32)), y ∈ pc.1.set :=
  View.cover_of_tiled [⟨rOut, p0⟩] S512x256.size (by rfl) y

/-! ## The body's triple -/

set_option maxHeartbeats 4000000 in
/-- The body on whole buffers, the inputs' at read contents x0..x5 and the output's at anything, runs to the
    continuation holding the inputs' as they were and the output's at out6 of the inputs'. -/
theorem sound_kernel (c : Dev nD) (E : Set ℕ) (i : grid1.Coords)
    (a0 : Memref sig .tc .vmem S512x1024 .i32) (h0 : a0.IsWhole) (a1 : Memref sig .tc .vmem S4096x72 .bf16) (h1 : a1.IsWhole)
    (a2 : Memref sig .tc .vmem S72x256 .f32) (h2 : a2.IsWhole) (a3 : Memref sig .tc .vmem S1x256 .f32) (h3 : a3.IsWhole)
    (a4 : Memref sig .tc .vmem S1x256 .f32) (h4 : a4.IsWhole) (a5 : Memref sig .tc .vmem S1x256 .f32) (h5 : a5.IsWhole)
    (a6 : Memref sig .tc .vmem S512x256 .f32) (h6 : a6.IsWhole)
    (x0 : Vec F S512x1024 .i32) (x1 : Vec F S4096x72 .bf16) (x2 : Vec F S72x256 .f32) (x3 x4 x5 : Vec F S1x256 .f32) (Kc : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ (∃ d, owns (c : Thread nD τ) a6 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare (out6 x0 x1 x2 x3 x4 x5)) -∗ Kc ⟨⟩))
      ⊢ wp frame (wpE (defs₀ (F := F)) Variants.none c none) E (cc1__tc_project i a0 h0 a1 h1 a2 h2 a3 h3 a4 h4 a5 h5 a6 h6) Kc := by
  simp only [cc1__tc_project_eq_skeleton]; unfold cc1__tc_project_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

/-! ## The pipeline's data -/

/-- The data of the pipeline on core c: the arrays as the region finds them; after the body at point t each input's
    buffer at its block and the output's at out6 of the six input blocks; the invariant the scoped buffers no window
    stages (there is none); nothing owed, the recorded pairs within B; full shares. -/
def tcDat (B : Set (SemLoc sig × HIx 1)) (c : Dev nD) : Pipeline.Dat τ (Elt F) (HIx 1) ℕ U ℕ cfg1 c where
  A w := Vv c (Pipeline.arrRef spec1 w)
  after w t := match w with
    | ⟨0, _⟩ => iblk Vv c 0 t
    | ⟨1, _⟩ => iblk Vv c 1 t
    | ⟨2, _⟩ => iblk Vv c 2 t
    | ⟨3, _⟩ => iblk Vv c 3 t
    | ⟨4, _⟩ => iblk Vv c 4 t
    | ⟨5, _⟩ => iblk Vv c 5 t
    | ⟨6, _⟩ => out6 (iblk Vv c 0 t) (iblk Vv c 1 t) (iblk Vv c 2 t) (iblk Vv c 3 t) (iblk Vv c 4 t) (iblk Vv c 5 t)
  Φ _ := Pipeline.scopedRest (Ix := HIx 1) (Name := ℕ) (U := U) (Lvl := ℕ) (Val := Elt F) spec1 c
  q _ := fullShare
  owed _ := 0
  recorded _ := B

variable (B : Set (SemLoc sig × HIx 1))

/-- The data's arrays are the region-entry contents. -/
theorem tcDat_A (c : Dev nD) (w : Fin cfg1.W) : (tcDat (U := U) Vv B c).A w = Vv c (Pipeline.arrRef spec1 w) := by
  dsimp only [tcDat]

/-- What the body leaves, window by window. -/
theorem tcDat_after0 (c : Dev nD) (t : Fin cfg1.N) : (tcDat (U := U) Vv B c).after 0 t = iblk Vv c 0 t := by dsimp only [tcDat]
theorem tcDat_after1 (c : Dev nD) (t : Fin cfg1.N) : (tcDat (U := U) Vv B c).after 1 t = iblk Vv c 1 t := by dsimp only [tcDat]
theorem tcDat_after2 (c : Dev nD) (t : Fin cfg1.N) : (tcDat (U := U) Vv B c).after 2 t = iblk Vv c 2 t := by dsimp only [tcDat]
theorem tcDat_after3 (c : Dev nD) (t : Fin cfg1.N) : (tcDat (U := U) Vv B c).after 3 t = iblk Vv c 3 t := by dsimp only [tcDat]
theorem tcDat_after4 (c : Dev nD) (t : Fin cfg1.N) : (tcDat (U := U) Vv B c).after 4 t = iblk Vv c 4 t := by dsimp only [tcDat]
theorem tcDat_after5 (c : Dev nD) (t : Fin cfg1.N) : (tcDat (U := U) Vv B c).after 5 t = iblk Vv c 5 t := by dsimp only [tcDat]
theorem tcDat_after6 (c : Dev nD) (t : Fin cfg1.N) :
    (tcDat (U := U) Vv B c).after 6 t = out6 (iblk Vv c 0 t) (iblk Vv c 1 t) (iblk Vv c 2 t) (iblk Vv c 3 t) (iblk Vv c 4 t) (iblk Vv c 5 t) := by
  dsimp only [tcDat]

/-- Each input's current buffer holds its block at every point, fetched there or not. -/
theorem tcDat_before0 (c : Dev nD) (t : Fin cfg1.N) (d) : (tcDat (U := U) Vv B c).before 0 t d = iblk Vv c 0 t :=
  before0_of Vv (tcDat Vv B c) (tcDat_A Vv B c 0) (tcDat_after0 Vv B c) t d
theorem tcDat_before1 (c : Dev nD) (t : Fin cfg1.N) (d) : (tcDat (U := U) Vv B c).before 1 t d = iblk Vv c 1 t :=
  before1_of Vv (tcDat Vv B c) (tcDat_A Vv B c 1) (tcDat_after1 Vv B c) t d
theorem tcDat_before2 (c : Dev nD) (t : Fin cfg1.N) (d) : (tcDat (U := U) Vv B c).before 2 t d = iblk Vv c 2 t :=
  before2_of Vv (tcDat Vv B c) (tcDat_A Vv B c 2) (tcDat_after2 Vv B c) t d
theorem tcDat_before3 (c : Dev nD) (t : Fin cfg1.N) (d) : (tcDat (U := U) Vv B c).before 3 t d = iblk Vv c 3 t :=
  before3_of Vv (tcDat Vv B c) (tcDat_A Vv B c 3) (tcDat_after3 Vv B c) t d
theorem tcDat_before4 (c : Dev nD) (t : Fin cfg1.N) (d) : (tcDat (U := U) Vv B c).before 4 t d = iblk Vv c 4 t :=
  before4_of Vv (tcDat Vv B c) (tcDat_A Vv B c 4) (tcDat_after4 Vv B c) t d
theorem tcDat_before5 (c : Dev nD) (t : Fin cfg1.N) (d) : (tcDat (U := U) Vv B c).before 5 t d = iblk Vv c 5 t :=
  before5_of Vv (tcDat Vv B c) (tcDat_A Vv B c 5) (tcDat_after5 Vv B c) t d

/-! ## The body obligation, at a generic point -/

/-- What the body is called with at point t, the windows one by one, -/
def bodyPre (c : Dev nD) (t : Fin cfg1.N) : sProp 𝕄 :=
  iprop((tcDat (U := U) Vv B c).Φ t.castSucc ∗ (tcDat (U := U) Vv B c).owesAt (none : HIx 1) t.castSucc
    ∗ (∃ d, owns (c : Thread nD τ) (st1_0 t) fullShare ((tcDat (U := U) Vv B c).before 0 t d))
    ∗ (∃ d, owns (c : Thread nD τ) (st1_1 t) fullShare ((tcDat (U := U) Vv B c).before 1 t d))
    ∗ (∃ d, owns (c : Thread nD τ) (st1_2 t) fullShare ((tcDat (U := U) Vv B c).before 2 t d))
    ∗ (∃ d, owns (c : Thread nD τ) (st1_3 t) fullShare ((tcDat (U := U) Vv B c).before 3 t d))
    ∗ (∃ d, owns (c : Thread nD τ) (st1_4 t) fullShare ((tcDat (U := U) Vv B c).before 4 t d))
    ∗ (∃ d, owns (c : Thread nD τ) (st1_5 t) fullShare ((tcDat (U := U) Vv B c).before 5 t d))
    ∗ (∃ d, owns (c : Thread nD τ) (st1_6 t) fullShare ((tcDat (U := U) Vv B c).before 6 t d)))

/-- and what it returns. -/
def bodyPost (c : Dev nD) (t : Fin cfg1.N) : sProp 𝕄 :=
  iprop((tcDat (U := U) Vv B c).Φ t.succ ∗ (tcDat (U := U) Vv B c).owesAt (none : HIx 1) t.succ
    ∗ owns (c : Thread nD τ) (st1_0 t) fullShare ((tcDat (U := U) Vv B c).after 0 t)
    ∗ owns (c : Thread nD τ) (st1_1 t) fullShare ((tcDat (U := U) Vv B c).after 1 t)
    ∗ owns (c : Thread nD τ) (st1_2 t) fullShare ((tcDat (U := U) Vv B c).after 2 t)
    ∗ owns (c : Thread nD τ) (st1_3 t) fullShare ((tcDat (U := U) Vv B c).after 3 t)
    ∗ owns (c : Thread nD τ) (st1_4 t) fullShare ((tcDat (U := U) Vv B c).after 4 t)
    ∗ owns (c : Thread nD τ) (st1_5 t) fullShare ((tcDat (U := U) Vv B c).after 5 t)
    ∗ owns (c : Thread nD τ) (st1_6 t) fullShare ((tcDat (U := U) Vv B c).after 6 t))

set_option maxHeartbeats 4000000 in
/-- The body at any point: the inputs' buffers hold their blocks, so the body's triple applies; the invariant and the
    core's owes pass through unread. -/
theorem sound_body (c : Dev nD) (t : Fin cfg1.N) :
    bodyPre (U := U) Vv B c t ⊢ wp frame (wpE (defs₀ (F := F)) Variants.none c none) Set.univ (bodyAt1 t) (fun _ => bodyPost (U := U) Vv B c t) := by
  unfold bodyPre bodyPost bodyAt1
  simp only [tcDat_before0, tcDat_before1, tcDat_before2, tcDat_before3, tcDat_before4, tcDat_before5]
  rw [show (tcDat (U := U) Vv B c).Φ t.succ = (tcDat (U := U) Vv B c).Φ t.castSucc from rfl,
    show (tcDat (U := U) Vv B c).owesAt (none : HIx 1) t.succ = (tcDat (U := U) Vv B c).owesAt (none : HIx 1) t.castSucc from rfl,
    tcDat_after0, tcDat_after1, tcDat_after2, tcDat_after3, tcDat_after4, tcDat_after5, tcDat_after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk Vv c 0 t) (iblk Vv c 1 t) (iblk Vv c 2 t) (iblk Vv c 3 t) (iblk Vv c 4 t) (iblk Vv c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem tc_body_obligation (c : Dev nD) :
    Pipeline.BodyObligation (tcDat (U := U) Vv B c) (defs₀ (F := F)) Variants.none (none : HIx 1) Set.univ := fun t => by
  rw [bigSep_W1, bigSep_W1]
  exact sound_body Vv B c t

/-- info: 'Cert.Kernel.Hand.tc_body_obligation' depends on axioms: [propext, Classical.choice, Quot.sound] -/
#guard_msgs in #print axioms tc_body_obligation

end Cert.Kernel.Hand

end
-- ==== Proof.TcBodyValueK.lean ====
/-
  The result array of the projection kernel after its 32 points.

  Point t takes rows 512 t .. 512 t + 511 of the packed counts and writes rows 512 t .. 512 t + 511 of the result; the
  other five inputs are whole at every point. So row r of the result is computed from the block r / 512 of the packed
  counts, at row r % 512 of that block: the 32 blocks written back are the blocks of ONE function tcG of the region's
  arrays, and together they cover the result. The input arrays are never written.
-/
import proofs.«207659_g70703751627518_cont_9to1_m_904_5_alg».proof.Proof.TcBodyK
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U]

variable (Vv : (c : Dev nD) → (b : Ref sig .tc) → Buf (Elt F) ((c : Thread nD τ).loc b))
variable (B : Set (SemLoc sig × HIx 1))

theorem hz2 : (![0, 0] : Fin 2 → Nat) = fun _ => 0 := funext fun a => by fin_cases a <;> rfl

/-- The block indices over the grid: the packed counts' and the result's blocks move down one block of rows a point,
    the other inputs' stay at the one block that is their whole array. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem pt_lt (t : Fin cfg1.N) : t.val < 32 := t.isLt.trans_eq N_1

/-! ## The input blocks, read -/

/-- The word at (r, w) of block t of the packed counts is the array's word at (512 t + r, w). -/
theorem iblk0_apply (c : Dev nD) (t : Fin cfg1.N) (j : S512x1024.Idx) :
    iblk Vv c 0 t j = Vv c main_v2 (ValueIdx.ix2 (⟨512 * t.val + (j 0).val, by have := pt_lt t; have : (j 0).val < 512 := (j 0).isLt; omega⟩ : Fin 16384) (j 1 : Fin 1024)) := by
  obtain ⟨e0, e1, -⟩ := idx_facts t
  show Vv c main_v2 (((cfg1.win 0).blk t).view.emb j) = _
  refine congrArg (Vv c main_v2) ?_
  funext a; apply Fin.ext
  match a with
  | ⟨0, _⟩ => show win1_0.index t (0 : Fin 2) * 512 + 1 * (j 0).val = 512 * t.val + (j 0).val; omega
  | ⟨1, _⟩ => show win1_0.index t (1 : Fin 2) * 1024 + 1 * (j 1).val = (j 1).val; omega

/-- The other inputs' one block is their whole array. -/
theorem iblk1_eq (c : Dev nD) (t : Fin cfg1.N) : (iblk Vv c 1 t : Vec F S4096x72 .bf16) = (Vv c main_v8 : Vec F S4096x72 .bf16) := by
  obtain ⟨-, -, e0, e1, -⟩ := idx_facts t
  funext j
  show Vv c main_v8 (((cfg1.win 1).blk t).view.emb j) = Vv c main_v8 j
  refine congrArg (Vv c main_v8) ?_
  funext a; apply Fin.ext
  match a with
  | ⟨0, _⟩ => show win1_1.index t (0 : Fin 2) * 4096 + 1 * (j 0).val = (j 0).val; omega
  | ⟨1, _⟩ => show win1_1.index t (1 : Fin 2) * 72 + 1 * (j 1).val = (j 1).val; omega
theorem iblk2_eq (c : Dev nD) (t : Fin cfg1.N) : (iblk Vv c 2 t : Vec F S72x256 .f32) = (Vv c main_arg2 : Vec F S72x256 .f32) := by
  obtain ⟨-, -, -, -, e0, e1, -⟩ := idx_facts t
  funext j
  show Vv c main_arg2 (((cfg1.win 2).blk t).view.emb j) = Vv c main_arg2 j
  refine congrArg (Vv c main_arg2) ?_
  funext a; apply Fin.ext
  match a with
  | ⟨0, _⟩ => show win1_2.index t (0 : Fin 2) * 72 + 1 * (j 0).val = (j 0).val; omega
  | ⟨1, _⟩ => show win1_2.index t (1 : Fin 2) * 256 + 1 * (j 1).val = (j 1).val; omega
theorem iblk3_eq (c : Dev nD) (t : Fin cfg1.N) : (iblk Vv c 3 t : Vec F S1x256 .f32) = (Vv c main_v9 : Vec F S1x256 .f32) := by
  obtain ⟨-, -, -, -, -, -, e0, e1, -⟩ := idx_facts t
  funext j
  show Vv c main_v9 (((cfg1.win 3).blk t).view.emb j) = Vv c main_v9 j
  refine congrArg (Vv c main_v9) ?_
  funext a; apply Fin.ext
  match a with
  | ⟨0, _⟩ => show win1_3.index t (0 : Fin 2) * 1 + 1 * (j 0).val = (j 0).val; omega
  | ⟨1, _⟩ => show win1_3.index t (1 : Fin 2) * 256 + 1 * (j 1).val = (j 1).val; omega
theorem iblk4_eq (c : Dev nD) (t : Fin cfg1.N) : (iblk Vv c 4 t : Vec F S1x256 .f32) = (Vv c main_v10 : Vec F S1x256 .f32) := by
  obtain ⟨-, -, -, -, -, -, -, -, e0, e1, -⟩ := idx_facts t
  funext j
  show Vv c main_v10 (((cfg1.win 4).blk t).view.emb j) = Vv c main_v10 j
  refine congrArg (Vv c main_v10) ?_
  funext a; apply Fin.ext
  match a with
  | ⟨0, _⟩ => show win1_4.index t (0 : Fin 2) * 1 + 1 * (j 0).val = (j 0).val; omega
  | ⟨1, _⟩ => show win1_4.index t (1 : Fin 2) * 256 + 1 * (j 1).val = (j 1).val; omega
theorem iblk5_eq (c : Dev nD) (t : Fin cfg1.N) : (iblk Vv c 5 t : Vec F S1x256 .f32) = (Vv c main_v11 : Vec F S1x256 .f32) := by
  obtain ⟨-, -, -, -, -, -, -, -, -, -, e0, e1, -⟩ := idx_facts t
  funext j
  show Vv c main_v11 (((cfg1.win 5).blk t).view.emb j) = Vv c main_v11 j
  refine congrArg (Vv c main_v11) ?_
  funext a; apply Fin.ext
  match a with
  | ⟨0, _⟩ => show win1_5.index t (0 : Fin 2) * 1 + 1 * (j 0).val = (j 0).val; omega
  | ⟨1, _⟩ => show win1_5.index t (1 : Fin 2) * 256 + 1 * (j 1).val = (j 1).val; omega

/-! ## The result as one function of the region's arrays -/

/-- The point whose block holds row (i 0) of the result. -/
def ptOf (i : S16384x256.Idx) : Fin cfg1.N := ⟨(i 0).val / 512, by
  have h : (i 0).val < 16384 := (i 0).isLt
  show (i 0).val / 512 < grid1.N
  rw [N_1]; omega⟩

theorem ptOf_val (i : S16384x256.Idx) : (ptOf i).val = (i 0).val / 512 := rfl

/-- The result array: entry (r, k) is entry (r % 512, k) of tcOut of block r / 512 of the packed counts and the five
    whole inputs. -/
def tcG (c : Dev nD) : S16384x256.Idx → Elt F .f32 := fun i =>
  tcOut (iblk Vv c 0 (ptOf i)) (Vv c main_v8) (Vv c main_arg2) (Vv c main_v9) (Vv c main_v10) (Vv c main_v11)
    (ValueIdx.ix2 (⟨(i 0).val % 512, Nat.mod_lt _ (by decide)⟩ : Fin 512) (i 1 : Fin 256))

/-- tcG at row 512 t + r is the block function of block t at row r. -/
theorem tcG_at (c : Dev nD) (t : Fin cfg1.N) (i : S16384x256.Idx) (j : S512x256.Idx)
    (h0 : (i 0).val = 512 * t.val + (j 0).val) (h1 : (i 1).val = (j 1).val) :
    tcG Vv c i = tcOut (iblk Vv c 0 t) (Vv c main_v8) (Vv c main_arg2) (Vv c main_v9) (Vv c main_v10) (Vv c main_v11) j := by
  have hj0 : (j 0).val < 512 := (j 0).isLt
  have hp : ptOf i = t := Fin.ext (by rw [ptOf_val]; omega)
  subst hp
  have hj : (ValueIdx.ix2 (⟨(i 0).val % 512, Nat.mod_lt _ (by decide)⟩ : Fin 512) (i 1 : Fin 256) : S512x256.Idx) = j := by
    funext a; apply Fin.ext
    match a with
    | ⟨0, _⟩ => show (i 0).val % 512 = (j 0).val; rw [ptOf_val] at h0; omega
    | ⟨1, _⟩ => exact h1
  unfold tcG
  rw [hj]

/-- What point t writes back is block t of tcG. -/
theorem flushed6_eq (c : Dev nD) (t : Fin cfg1.N) :
    (tcDat (U := U) Vv B c).flushed 6 t = ((cfg1.win 6).blk t).view.read (Elt F) (tcG Vv c) := by
  show (cfg1.win 6).cut (grid1.coords t) ((tcDat (U := U) Vv B c).after 6 t) = _
  rw [tcDat_after6]
  unfold out6
  rw [View.canon_unit_zero hz2]
  simp only [View.ld_unit_zero (S := S512x1024) hz2, View.ld_unit_zero (S := S4096x72) hz2, View.ld_unit_zero (S := S72x256) hz2,
    View.ld_unit_zero (S := S1x256) hz2]
  rw [iblk1_eq, iblk2_eq, iblk3_eq, iblk4_eq, iblk5_eq]
  obtain ⟨-, -, -, -, -, -, -, -, -, -, -, -, e0, e1⟩ := idx_facts t
  funext j
  show tcOut (iblk Vv c 0 t) (Vv c main_v8) (Vv c main_arg2) (Vv c main_v9) (Vv c main_v10) (Vv c main_v11) j
    = tcG Vv c (((cfg1.win 6).blk t).view.emb j)
  refine (tcG_at Vv c t _ j ?_ ?_).symm
  · show win1_6.index t (0 : Fin 2) * 512 + 1 * (j 0).val = 512 * t.val + (j 0).val; omega
  · show win1_6.index t (1 : Fin 2) * 256 + 1 * (j 1).val = (j 1).val; omega

/-- A row of the result is in point t's block iff it is one of rows 512 t .. 512 t + 511. -/
theorem mem_blk6 (t : Fin cfg1.N) (i : S16384x256.Idx) :
    i ∈ ((cfg1.win 6).blk t).view.set ↔ ∀ a : Fin 2, win1_6.index t a * S512x256.size a ≤ (i a).val ∧ (i a).val < win1_6.index t a * S512x256.size a + S512x256.size a := by
  show i ∈ ((View.whole main_v12).slice (win1_6.rect t)).set ↔ _
  rw [View.set_slice_whole, Rect.mem_set_unit]
  exact Iff.rfl

/-- Every entry of the result is in the block of the point r / 512, which writes it back. -/
theorem cover6_arr (i : S16384x256.Idx) : ∃ t : Fin cfg1.N, (cfg1.win 6).flush t = true ∧ i ∈ ((cfg1.win 6).blk t).view.set := by
  refine ⟨ptOf i, flush1_6 _, ?_⟩
  rw [mem_blk6]
  obtain ⟨-, -, -, -, -, -, -, -, -, -, -, -, e0, e1⟩ := idx_facts (ptOf i)
  have h0 : (i 0).val < 16384 := (i 0).isLt
  have h1 : (i 1).val < 256 := (i 1).isLt
  have hp := ptOf_val i
  intro a
  match a with
  | ⟨0, _⟩ => show win1_6.index (ptOf i) (0 : Fin 2) * 512 ≤ (i 0).val ∧ (i 0).val < win1_6.index (ptOf i) (0 : Fin 2) * 512 + 512; omega
  | ⟨1, _⟩ => show win1_6.index (ptOf i) (1 : Fin 2) * 256 ≤ (i 1).val ∧ (i 1).val < win1_6.index (ptOf i) (1 : Fin 2) * 256 + 256; omega

/-! ## The arrays after the last point -/

/-- The result array after the last point is tcG of the region's arrays. -/
theorem tcDat_arrAt6 (c : Dev nD) : (tcDat (U := U) Vv B c).arrAt 6 cfg1.N = tcG Vv c :=
  (tcDat (U := U) Vv B c).arrAt_eq_of_cover 6 (tcG Vv c) (fun t _ => flushed6_eq Vv B c t) cover6_arr

/-- Entry by entry. -/
theorem tcDat_arrAt6_apply (c : Dev nD) (i : S16384x256.Idx) :
    (tcDat (U := U) Vv B c).arrAt 6 cfg1.N i
      = tcOut (iblk Vv c 0 (ptOf i)) (Vv c main_v8) (Vv c main_arg2) (Vv c main_v9) (Vv c main_v10) (Vv c main_v11)
          (ValueIdx.ix2 (⟨(i 0).val % 512, Nat.mod_lt _ (by decide)⟩ : Fin 512) (i 1 : Fin 256)) := by
  rw [tcDat_arrAt6]; rfl

/-- The input arrays are never written. -/
theorem tcDat_arrAt0 (c : Dev nD) : (tcDat (U := U) Vv B c).arrAt 0 cfg1.N = (tcDat (U := U) Vv B c).A 0 := (tcDat (U := U) Vv B c).arrAt_in 0 rfl _
theorem tcDat_arrAt1 (c : Dev nD) : (tcDat (U := U) Vv B c).arrAt 1 cfg1.N = (tcDat (U := U) Vv B c).A 1 := (tcDat (U := U) Vv B c).arrAt_in 1 rfl _
theorem tcDat_arrAt2 (c : Dev nD) : (tcDat (U := U) Vv B c).arrAt 2 cfg1.N = (tcDat (U := U) Vv B c).A 2 := (tcDat (U := U) Vv B c).arrAt_in 2 rfl _
theorem tcDat_arrAt3 (c : Dev nD) : (tcDat (U := U) Vv B c).arrAt 3 cfg1.N = (tcDat (U := U) Vv B c).A 3 := (tcDat (U := U) Vv B c).arrAt_in 3 rfl _
theorem tcDat_arrAt4 (c : Dev nD) : (tcDat (U := U) Vv B c).arrAt 4 cfg1.N = (tcDat (U := U) Vv B c).A 4 := (tcDat (U := U) Vv B c).arrAt_in 4 rfl _
theorem tcDat_arrAt5 (c : Dev nD) : (tcDat (U := U) Vv B c).arrAt 5 cfg1.N = (tcDat (U := U) Vv B c).A 5 := (tcDat (U := U) Vv B c).arrAt_in 5 rfl _

/-- info: 'Cert.Kernel.Hand.tcDat_arrAt6' depends on axioms: [propext, Classical.choice, Quot.sound] -/
#guard_msgs in #print axioms tcDat_arrAt6

end Cert.Kernel.Hand

end
-- ==== Proof.LaunchK.lean ====
/-
  The launch of the whole program: the counting kernel on the 32 vector subcores of the two SparseCores, the host
  operations around it, and the projection kernel on the TensorCore as a pipeline over 32 blocks of 512 queries.

  The two flat arrays the counting kernel works on are cut into 1024 pieces each; piece 64 s + 32 c + k belongs to
  trip k of vector subcore s of SparseCore c, and the map (c, s, k) ↦ 64 s + 32 c + k is a bijection onto the piece
  numbers, so the whole arrays are exactly the tasks' operands taken together, before the call and after it.
-/
import proofs.«207659_g70703751627518_cont_9to1_m_904_5_alg».proof.Proof.BaseK
import proofs.«207659_g70703751627518_cont_9to1_m_904_5_alg».proof.Proof.Gen.Kernel.Launch
import proofs.«207659_g70703751627518_cont_9to1_m_904_5_alg».proof.Proof.Gen.Kernel.Points
import proofs.«207659_g70703751627518_cont_9to1_m_904_5_alg».proof.Proof.TcBodyK
import proofs.«207659_g70703751627518_cont_9to1_m_904_5_alg».proof.Proof.TcBodyValueK
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.Kernel.Hand

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within)
open Idealize.ShloMosaic.Tactic

variable {F : FTy → Type}

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds are the left factor; the pipeline's the left factor of the right one; the counters are
    found by instance in what remains. -/
abbrev EH : Emb UH (MT nD τ sig (HIx 1) (Elt F) ℕ UU ℕ) := embL
abbrev EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP embR; infer_instance

/-! ## The launch memory, the host operations and what each buffer holds when -/

variable (m : (ℓ : Loc nD τ sig) → Buf (Elt F) ℓ) (ρ : Dev nD → PrngReg)

variable [FloatOps F]

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev a5' : DevRef τ sig := Proc.devRef .tc (main_arg5 : Ref sig .tc)
abbrev v0' : DevRef τ sig := Proc.devRef .tc (main_v0 : Ref sig .tc)
abbrev v1' : DevRef τ sig := Proc.devRef .tc (main_v1 : Ref sig .tc)

/-- The twelve host operations of the program, in order: the flattening of the tokens; after the call the
    reshaping of the counts, the four strided slices of the table, their concatenation, its conversion, and the three
    row vectors. -/
abbrev op0 : HloOp τ sig (Elt F) := StableHlo.reshape main_arg0 main_v0 rfl Facts₀.shapeCasts_S16384x200_S3276800
abbrev op2 : HloOp τ sig (Elt F) := StableHlo.reshape main_v1 main_v2 rfl Facts₀.shapeCasts_S16777216_S16384x1024
abbrev op3 : HloOp τ sig (Elt F) := StableHlo.unary main_arg1 main_v3 ((Host.slice S1024x72 ![0, 0] ![4, 1] · Facts₀.slicesBy_S4096x72_S1024x72_0s4_0s1) : (⟨S4096x72, .f32⟩ : BufTy).Contents (Elt F) → (⟨S1024x72, .f32⟩ : BufTy).Contents (Elt F))
abbrev op4 : HloOp τ sig (Elt F) := StableHlo.unary main_arg1 main_v4 ((Host.slice S1024x72 ![1, 0] ![4, 1] · Facts₀.slicesBy_S4096x72_S1024x72_1s4_0s1) : (⟨S4096x72, .f32⟩ : BufTy).Contents (Elt F) → (⟨S1024x72, .f32⟩ : BufTy).Contents (Elt F))
abbrev op5 : HloOp τ sig (Elt F) := StableHlo.unary main_arg1 main_v5 ((Host.slice S1024x72 ![2, 0] ![4, 1] · Facts₀.slicesBy_S4096x72_S1024x72_2s4_0s1) : (⟨S4096x72, .f32⟩ : BufTy).Contents (Elt F) → (⟨S1024x72, .f32⟩ : BufTy).Contents (Elt F))
abbrev op6 : HloOp τ sig (Elt F) := StableHlo.unary main_arg1 main_v6 ((Host.slice S1024x72 ![3, 0] ![4, 1] · Facts₀.slicesBy_S4096x72_S1024x72_3s4_0s1) : (⟨S4096x72, .f32⟩ : BufTy).Contents (Elt F) → (⟨S1024x72, .f32⟩ : BufTy).Contents (Elt F))
abbrev op7 : HloOp τ sig (Elt F) := StableHlo.nary ![main_v3, main_v4, main_v5, main_v6] main_v7 (fun u => concatenate S4096x72 0 [⟨S1024x72, u 0⟩, ⟨S1024x72, u 1⟩, ⟨S1024x72, u 2⟩, ⟨S1024x72, u 3⟩] Facts₀.concatenates_S1024x72_S1024x72_S1024x72_S1024x72_S4096x72_d0)
abbrev op8 : HloOp τ sig (Elt F) := StableHlo.unary main_v7 main_v8 ((truncf .bf16 · Facts₀.bitsLt_bf16_f32) : (⟨S4096x72, .f32⟩ : BufTy).Contents (Elt F) → (⟨S4096x72, .bf16⟩ : BufTy).Contents (Elt F))
abbrev op9 : HloOp τ sig (Elt F) := StableHlo.reshape main_arg3 main_v9 rfl Facts₀.shapeCasts_S256_S1x256
abbrev op10 : HloOp τ sig (Elt F) := StableHlo.reshape main_arg4 main_v10 rfl Facts₀.shapeCasts_S256_S1x256
abbrev op11 : HloOp τ sig (Elt F) := StableHlo.reshape main_arg5 main_v11 rfl Facts₀.shapeCasts_S256_S1x256

/-- The launch contents, then the contents after the flattening of the tokens. -/
abbrev V0 (d : Dev nD) : Valuation τ sig (Elt F) := fun b => m (d, b)
abbrev V1 (d : Dev nD) : Valuation τ sig (Elt F) := (op0 (F := F)).result (V0 m d)

/-- The flat tokens and the flat counts when the counting kernel starts. -/
abbrev ids (d : Dev nD) : Buf (Elt F) (idsLoc d) := V1 m d v0'
abbrev cnt0 (d : Dev nD) : Buf (Elt F) (cntLoc d) := V1 m d v1'

/-- After the call the flat counts hold the packed histograms. -/
def V2 (d : Dev nD) : Valuation τ sig (Elt F) := Function.update (V1 m d) v1' (packedFlat (ids m d))

/-- The contents when the projection kernel starts: the eleven remaining host operations applied in order. -/
abbrev Vr (d : Dev nD) : Valuation τ sig (Elt F) :=
  (op11 (F := F)).result ((op10 (F := F)).result ((op9 (F := F)).result ((op8 (F := F)).result ((op7 (F := F)).result ((op6 (F := F)).result
    ((op5 (F := F)).result ((op4 (F := F)).result ((op3 (F := F)).result ((op2 (F := F)).result (V2 m d))))))))))

/-! ## One vector subcore's task, as the launch needs it -/

abbrev cVL (L : grid0.Coords) : Fin τ.nSC := (L 0).castLE Facts₀.hcore0
abbrev jVL (L : grid0.Coords) : Fin τ.nSub := (L 1).castLE Facts₀.hsub0

/-- The statement of a task: from its 32 pieces of the tokens and of the counts (at any contents) and the subcore's
    scoped storage, the kernel's function at the subcore's coordinates runs to the same pieces, the counts' at the
    packed histograms of the tokens, whatever the subcore owes passing through. -/
def TileBody (F : FTy → Type) [FloatOps F] (U : Type) [URA U] [CountersIn U] : Prop :=
  ∀ (hF : (K (F := F)).Facts) (d : Dev nD) (L : grid0.Coords)
    (ids : Buf (Elt F) (idsLoc d)) (cnt : Buf (Elt F) (cntLoc d)) (hids : ∀ i, (ids i).toNat < 4096)
    (O : CellTallies nD τ sig (HIx 1)) (W : Waits sig (HIx 1)) (hO : ∀ g, O g none = 0),
    (iprop(levAts (K (F := F)).L (K (F := F)).lev
        ∗ taskPts (U := U) d (Fin.cast (show grid0.bound 0 = 2 from rfl) (L 0)) (Fin.cast (show grid0.bound 1 = 16 from rfl) (L 1)) ids cnt
        ∗ scopedBufs (V d (cVL L) (jVL L)) ∗ scopedSems0 (V d (cVL L) (jVL L)) ∗ owes (V d (cVL L) (jVL L)) O W)
      : sProp (MT nD τ sig (HIx 1) (Elt F) ℕ U ℕ))
      ⊢ wp frame (wpE (defs₀ (F := F)) 𝒱₀ (V d (cVL L) (jVL L)) none) Set.univ
          (cc0__sc_histogram L (Memref.whole main_v0_scv) (Memref.isWhole_whole _) (Memref.whole main_v1_scv) (Memref.isWhole_whole _)
            (Memref.whole cc0_scratch0) (Memref.isWhole_whole _) (Memref.whole cc0_scratch1) (Memref.isWhole_whole _) cc0_scoped0 cc0_scoped1)
          fun _ => iprop(taskPts (U := U) d (Fin.cast (show grid0.bound 0 = 2 from rfl) (L 0)) (Fin.cast (show grid0.bound 1 = 16 from rfl) (L 1)) ids (packedFlat ids)
            ∗ scopedBufs (V d (cVL L) (jVL L)) ∗ scopedSems0 (V d (cVL L) (jVL L))
            ∗ ∃ W', ⌜∀ p ∈ W', p ∈ W ∨ p.2 = none⌝ ∗ owes (V d (cVL L) (jVL L)) O W')

/-! ## What the handshakes carry -/

instance taskPts_storable (d : Dev nD) (c : Fin 2) (s : Fin 16) (ids : Buf (Elt F) (idsLoc d)) (cnt : Buf (Elt F) (cntLoc d)) :
    BI.Storable (upEmb : UEmb _ 𝕄) (taskPts (U := UU) d c s ids cnt) := by
  unfold taskPts; infer_instance

/-- A task is handed its pieces with the counts as they stand and hands them back with the packed histograms; a
    SparseCore is handed its sixteen tasks' pieces. -/
def P : (K (F := F)).Pay (nD := nD) (Val := Elt F) (Name := ℕ) (U := UU) where
  st := fun q d c => match q with
    | 0 => bigSep Finset.univ fun i : Fin ((K (F := F)).nSub 0) => taskPts (U := UU) d (Fin.cast nCore_zero c) (Fin.cast nSub_zero i) (ids m d) (cnt0 m d)
  dn := fun q d c => match q with
    | 0 => bigSep Finset.univ fun i : Fin ((K (F := F)).nSub 0) => taskPts (U := UU) d (Fin.cast nCore_zero c) (Fin.cast nSub_zero i) (ids m d) (packedFlat (ids m d))
  go := fun q d c i => match q with
    | 0 => taskPts (U := UU) d (Fin.cast nCore_zero c) (Fin.cast nSub_zero i) (ids m d) (cnt0 m d)
  td := fun q d c i => match q with
    | 0 => taskPts (U := UU) d (Fin.cast nCore_zero c) (Fin.cast nSub_zero i) (ids m d) (packedFlat (ids m d))
  x := fun _ _ => iprop(emp)

instance P_storable : (P (F := F) m).IsStorable where
  st q d c := match q with
    | 0 => (inferInstance : BI.Storable (upEmb : UEmb _ 𝕄)
        (bigSep Finset.univ fun i : Fin ((K (F := F)).nSub 0) => taskPts (U := UU) d (Fin.cast nCore_zero c) (Fin.cast nSub_zero i) (ids m d) (cnt0 m d)))
  dn q d c := match q with
    | 0 => (inferInstance : BI.Storable (upEmb : UEmb _ 𝕄)
        (bigSep Finset.univ fun i : Fin ((K (F := F)).nSub 0) => taskPts (U := UU) d (Fin.cast nCore_zero c) (Fin.cast nSub_zero i) (ids m d) (packedFlat (ids m d))))
  go q d c i := match q with
    | 0 => (inferInstance : BI.Storable (upEmb : UEmb _ 𝕄) (taskPts (U := UU) d (Fin.cast nCore_zero c) (Fin.cast nSub_zero i) (ids m d) (cnt0 m d)))
  td q d c i := match q with
    | 0 => (inferInstance : BI.Storable (upEmb : UEmb _ 𝕄) (taskPts (U := UU) d (Fin.cast nCore_zero c) (Fin.cast nSub_zero i) (ids m d) (packedFlat (ids m d))))

/-- The payloads, as equations. -/
theorem P_st (d : Dev nD) (c : Fin ((K (F := F)).nCore 0)) : (P m).st 0 d c
    = bigSep Finset.univ fun i : Fin ((K (F := F)).nSub 0) => taskPts (U := UU) d (Fin.cast nCore_zero c) (Fin.cast nSub_zero i) (ids m d) (cnt0 m d) := by unfold P; rfl
theorem P_dn (d : Dev nD) (c : Fin ((K (F := F)).nCore 0)) : (P m).dn 0 d c
    = bigSep Finset.univ fun i : Fin ((K (F := F)).nSub 0) => taskPts (U := UU) d (Fin.cast nCore_zero c) (Fin.cast nSub_zero i) (ids m d) (packedFlat (ids m d)) := by unfold P; rfl
theorem P_go (d : Dev nD) (c : Fin ((K (F := F)).nCore 0)) (i : Fin ((K (F := F)).nSub 0)) : (P m).go 0 d c i
    = taskPts (U := UU) d (Fin.cast nCore_zero c) (Fin.cast nSub_zero i) (ids m d) (cnt0 m d) := by unfold P; rfl
theorem P_td (d : Dev nD) (c : Fin ((K (F := F)).nCore 0)) (i : Fin ((K (F := F)).nSub 0)) : (P m).td 0 d c i
    = taskPts (U := UU) d (Fin.cast nCore_zero c) (Fin.cast nSub_zero i) (ids m d) (packedFlat (ids m d)) := by unfold P; rfl
theorem P_x (q : Fin 1) (thr : Thread nD τ) : (P m).x q thr = iprop(emp) := by unfold P; rfl

/-! ## The launch theorem's obligations for the counting kernel -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile Facts₀.hcore0 Facts₀.hsub0 (fun c s => cc0__sc_histogram (coordsV c s)
          (Memref.whole main_v0_scv) (Memref.isWhole_whole _) (Memref.whole main_v1_scv) (Memref.isWhole_whole _)
          (Memref.whole cc0_scratch0) (Memref.isWhole_whole _) (Memref.whole cc0_scratch1) (Memref.isWhole_whole _) cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The flat tokens name rows of the table. -/
def IdsOK : Prop := ∀ (d : Dev nD) i, ((ids m d) i).toNat < 4096

theorem tileObl (hT : TileBody F UU) (hF : (K (F := F)).Facts) (hids : IdsOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [P_go, P_td]
  refine BI.Entails.trans ?_ ((hT hF d (coordsV ⟨_, hc.1⟩ ⟨_, hc.2⟩) (ids m d) (cnt0 m d) (hids d) O W hO).trans (wp_mono frame _ _ fun _ => obl_post))
  show (iprop(_ ∗ _ ∗ _ ∗ _ ∗ _ ∗ _) : sProp 𝕄) ⊢ iprop(_ ∗ _ ∗ _ ∗ _ ∗ _)
  iintro ⟨Hl, -, Hgo, Hb, Hs, Ho⟩
  isplitl [Hl]; · iexact Hl
  isplitl [Hgo]; · iexact Hgo
  isplitl [Hb]; · iexact Hb
  isplitl [Hs]; · iexact Hs
  iexact Ho

/-- A SparseCore's operands are by definition its sixteen tasks' taken together, both ways. -/
theorem vecSplit : (K (F := F)).VecSplit' (P m) 0 := by
  intro d c
  rw [P_st, P_dn]
  simp only [P_go, P_td]
  show (_ : sProp 𝕄) ⊢ _
  iintro H; imodintro
  isplitl [H]; · iexact H
  iintro H; iexact H

/-! ## The two flat arrays as the tasks' pieces -/

omit [FloatOps F] in
theorem ids_cover (d : Dev nD) (f : Buf (Elt F) (idsLoc d)) :
    (idsLoc d ↦{fullShare} f : sProp 𝕄) = bigSep Finset.univ fun n : Fin 1024 => idsLoc d ↦[(ipiece n).set]{fullShare} f := by
  rw [← pointsTo_biUnion Finset.univ (ℓ := idsLoc d) (fun n : Fin 1024 => (ipiece n).set) (fun i _ j _ h => Rect.part_disjoint hdivI h),
    Rect.biUnion_part hdivI]; try rfl
omit [FloatOps F] in
theorem cnt_cover (d : Dev nD) (f : Buf (Elt F) (cntLoc d)) :
    (cntLoc d ↦{fullShare} f : sProp 𝕄) = bigSep Finset.univ fun n : Fin 1024 => cntLoc d ↦[(cpiece n).set]{fullShare} f := by
  rw [← pointsTo_biUnion Finset.univ (ℓ := cntLoc d) (fun n : Fin 1024 => (cpiece n).set) (fun i _ j _ h => Rect.part_disjoint hdivC h),
    Rect.biUnion_part hdivC]; try rfl

/-- (c, s, k) ↦ 64 s + 32 c + k is a bijection from 2 × 16 × 32 onto the 1024 piece numbers. -/
def pieceEquiv : Fin 2 × (Fin 16 × Fin 32) ≃ Fin 1024 where
  toFun x := pieceOf x.1 x.2.1 x.2.2
  invFun n := (⟨n.val % 64 / 32, by have := n.isLt; omega⟩, ⟨n.val / 64, by have := n.isLt; omega⟩, ⟨n.val % 32, by omega⟩)
  left_inv := by
    rintro ⟨⟨c, hc⟩, ⟨s, hs⟩, ⟨k, hk⟩⟩
    refine Prod.ext (Fin.ext ?_) (Prod.ext (Fin.ext ?_) (Fin.ext ?_))
    · show (64 * s + 32 * c + k) % 64 / 32 = c; omega
    · show (64 * s + 32 * c + k) / 64 = s; omega
    · show (64 * s + 32 * c + k) % 32 = k; omega
  right_inv := by
    rintro ⟨n, hn⟩
    refine Fin.ext ?_
    show 64 * (n / 64) + 32 * (n % 64 / 32) + n % 32 = n; omega

omit [FloatOps F] in
theorem pieces_tasks (Φ : Fin 1024 → sProp 𝕄) :
    bigSep Finset.univ Φ = bigSep Finset.univ fun c : Fin 2 => bigSep Finset.univ fun s : Fin 16 => bigSep Finset.univ fun k : Fin 32 => Φ (pieceOf c s k) := by
  rw [bigSep_univ_equiv pieceEquiv Φ, bigSep_univ_prod]
  refine bigSep_congr fun c _ => ?_
  rw [bigSep_univ_prod]; rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- The two whole arrays are the 32 tasks' operands taken together. -/
theorem whole_tasks (d : Dev nD) (f : Buf (Elt F) (idsLoc d)) (g : Buf (Elt F) (cntLoc d)) :
    (bigSep Finset.univ fun c : Fin ((K (F := F)).nCore 0) => bigSep Finset.univ fun i : Fin ((K (F := F)).nSub 0) =>
        taskPts (U := UU) d (Fin.cast nCore_zero c) (Fin.cast nSub_zero i) f g)
      = (iprop((idsLoc d ↦{fullShare} f) ∗ (cntLoc d ↦{fullShare} g)) : sProp 𝕄) := by
  rw [ids_cover, cnt_cover, ← bigSep_sep', pieces_tasks]
  rw [bigSep_cores (F := F) (fun c => bigSep Finset.univ fun i : Fin ((K (F := F)).nSub 0) => taskPts (U := UU) d c (Fin.cast nSub_zero i) f g)]
  refine bigSep_congr fun c _ => ?_
  rw [bigSep_tasks (F := F) (fun s => taskPts (U := UU) d c s f g)]
  rfl

theorem st0_eq (d : Dev nD) : (bigSep Finset.univ fun c : Fin ((K (F := F)).nCore 0) => (P m).st 0 d c)
    = (iprop((idsLoc d ↦{fullShare} ids m d) ∗ (cntLoc d ↦{fullShare} cnt0 m d)) : sProp 𝕄) := by
  simp only [P_st]; exact whole_tasks d _ _
theorem dn0_eq (d : Dev nD) : (bigSep Finset.univ fun c : Fin ((K (F := F)).nCore 0) => (P m).dn 0 d c)
    = (iprop((idsLoc d ↦{fullShare} ids m d) ∗ (cntLoc d ↦{fullShare} packedFlat (ids m d))) : sProp 𝕄) := by
  simp only [P_dn]; exact whole_tasks d _ _

/-! ## The launch element: the handshakes' rounds, the pipeline's cells, the counters -/

def u₀ : UU := (initOf (K (F := F)).hsCells (K (F := F)).hsToks,
  (initOf (Pipeline.cells (nD := nD) (τ := τ) cfgs cellOf_inj) (Pipeline.launchToks (nD := nD) (τ := τ) cfgs cellOf_inj), 1))

/-- What @main starts from on each device beyond what the launch deals it: the projection pipeline's staging cells'
    ghost state and its duty tokens. -/
abbrev G (d : Dev nD) : sProp 𝕄 := iprop(Pipeline.cellsGhost cfgs (EP (F := F)) 0 d ∗ Pipeline.toksInit cfgs (EP (F := F)) 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  have e1 : (bigSep Finset.univ fun c : Dev nD => bigSep Finset.univ fun p : Fin 1 => (Pipeline.cellsGhost cfgs (EP (F := F)) p c : sProp 𝕄))
      = bigSep Finset.univ fun c : Dev nD => Pipeline.cellsGhost cfgs (EP (F := F)) 0 c := bigSep_congr fun c _ => bigSep_univ_of_subsingleton (0 : Fin 1)
  have e2 : (bigSep Finset.univ fun c : Dev nD => bigSep Finset.univ fun p : Fin 1 => (Pipeline.toksInit cfgs (EP (F := F)) p c : sProp 𝕄))
      = bigSep Finset.univ fun c : Dev nD => Pipeline.toksInit cfgs (EP (F := F)) 0 c := bigSep_congr fun c _ => bigSep_univ_of_subsingleton (0 : Fin 1)
  unfold u₀
  iintro Hu
  ihave H := (ownU_pair _ _) $$ Hu
  icases H with ⟨HH, HR⟩
  ihave H2 := (own_pair_emb (embR : Emb (UP × Counters) 𝕄) _ _) $$ HR
  icases H2 with ⟨HP, -⟩
  imod (Pipeline.fund_ghost cfgs (EP (F := F)) cellOf_inj) $$ HP with ⟨Hg, Ht⟩
  imodintro
  isplitl [HH]; · iexact HH
  isplitl [Hg Ht]
  · rw [bigSep_sep']
    isplitl [Hg]
    · iapply (Entails.of_eq e1); iexact Hg
    · iapply (Entails.of_eq e2); iexact Ht
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The TensorCore's unscoped buffers, as device buffers. -/
def SU : Finset (DevRef τ sig) :=
  (Finset.univ.filter fun b : Ref sig .tc => ¬ b.isScoped).map ⟨Proc.devRef (sig := sig) (.tc : Proc τ), Proc.devRef_injective _⟩

theorem mem_SU (b : Ref sig .tc) (h : ¬ b.isScoped) : Proc.devRef (τ := τ) .tc b ∈ SU :=
  Finset.mem_map_of_mem _ (Finset.mem_filter.2 ⟨Finset.mem_univ b, h⟩)

theorem pair_sub (x y : Ref sig .tc) (hx : ¬ x.isScoped) (hy : ¬ y.isScoped) :
    ({Proc.devRef (τ := τ) .tc x, Proc.devRef .tc y} : Finset (DevRef τ sig)) ⊆ SU :=
  Finset.insert_subset_iff.2 ⟨mem_SU x hx, Finset.singleton_subset_iff.2 (mem_SU y hy)⟩

omit [FloatOps F] in
theorem unscoped_held (d : Dev nD) (Vv : Valuation τ sig (Elt F)) :
    (unscopedBufs d (fun b => Vv (Proc.devRef .tc b)) : sProp 𝕄) = held (SparseCore.T d) SU Vv := by
  unfold unscopedBufs held SU; rw [bigSep_map]; rfl

theorem h0 : (op0 (F := F)).bufs ⊆ SU := pair_sub _ _ (by decide) (by decide)
theorem h2 : (op2 (F := F)).bufs ⊆ SU := pair_sub _ _ (by decide) (by decide)
theorem h3 : (op3 (F := F)).bufs ⊆ SU := pair_sub _ _ (by decide) (by decide)
theorem h4 : (op4 (F := F)).bufs ⊆ SU := pair_sub _ _ (by decide) (by decide)
theorem h5 : (op5 (F := F)).bufs ⊆ SU := pair_sub _ _ (by decide) (by decide)
theorem h6 : (op6 (F := F)).bufs ⊆ SU := pair_sub _ _ (by decide) (by decide)
theorem h7 : (op7 (F := F)).bufs ⊆ SU := by
  intro b hb
  rcases Finset.mem_insert.mp hb with rfl | hb
  · exact mem_SU _ (by decide)
  · obtain ⟨k, -, rfl⟩ := Finset.mem_image.mp hb
    fin_cases k <;> exact mem_SU _ (by decide)
theorem h8 : (op8 (F := F)).bufs ⊆ SU := pair_sub _ _ (by decide) (by decide)
theorem h9 : (op9 (F := F)).bufs ⊆ SU := pair_sub _ _ (by decide) (by decide)
theorem h10 : (op10 (F := F)).bufs ⊆ SU := pair_sub _ _ (by decide) (by decide)
theorem h11 : (op11 (F := F)).bufs ⊆ SU := pair_sub _ _ (by decide) (by decide)

omit [FloatOps F] in
/-- The two flat arrays taken out of the unscoped buffers. -/
theorem held_split2 (d : Dev nD) (Vv : Valuation τ sig (Elt F)) :
    (held (SparseCore.T d) SU Vv : sProp 𝕄)
      = iprop(((idsLoc d ↦{fullShare} Vv v0') ∗ (cntLoc d ↦{fullShare} Vv v1')) ∗ held (SparseCore.T d) (SU \ {v0', v1'}) Vv) := by
  rw [held_sub_split (SparseCore.T d) (T := {v0', v1'}) (S := SU) (pair_sub _ _ (by decide) (by decide)) Vv]
  rw [show (held (SparseCore.T d) {v0', v1'} Vv : sProp 𝕄) = iprop((idsLoc d ↦{fullShare} Vv v0') ∗ (cntLoc d ↦{fullShare} Vv v1')) from by
    unfold held; rw [SparseCore.bigSep_insert' (by decide), bigSep_singleton]]

theorem held_V2 (d : Dev nD) :
    (iprop(((idsLoc d ↦{fullShare} ids m d) ∗ (cntLoc d ↦{fullShare} packedFlat (ids m d))) ∗ held (SparseCore.T d) (SU \ {v0', v1'}) (V1 m d)) : sProp 𝕄)
      = held (SparseCore.T d) SU (V2 m d) := by
  rw [held_split2 d (V2 m d), show V2 m d v0' = ids m d from Function.update_of_ne (show v0' ≠ v1' by decide) _ _,
    show V2 m d v1' = packedFlat (ids m d) from Function.update_self _ _ _,
    held_congr (SparseCore.T d) (S := SU \ {v0', v1'}) (V := V2 m d) (V' := V1 m d) (fun b hb => Function.update_of_ne (fun e => by
      subst e; simp at hb) _ _)]

/-! ### The projection kernel's region -/

/-- The pairs the TensorCore may have recorded waiting on: all within level 8, the end of the one call's band. -/
abbrev BT (d : Dev nD) : Set (SemLoc sig × HIx 1) := {p | (K (F := F)).lev (SparseCore.T d, p.1) p.2 ≤ 8 * 1}

/-- What each TensorCore buffer holds when the projection kernel starts, per reference. -/
abbrev Vreg (c : Dev nD) (b : Ref sig .tc) : Buf (Elt F) ((c.tc : Thread nD τ).loc b) := Vr m c (Proc.devRef .tc b)

/-- The pipeline's proof data on device c: its arrays at those contents. -/
abbrev dat (c : Dev nD) : Pipeline.Dat τ (Elt F) (HIx 1) ℕ UU ℕ cfg1 c := tcDat (U := UU) (Vreg m) (BT (F := F) c) c

/-- What @main leaves the claim: the pipeline's seven arrays as the pipeline leaves them, and the other unscoped
    buffers as the region found them. -/
def FIN (d : Dev nD) : sProp 𝕄 :=
  iprop((dat m d).arrays ((dat m d).arrAt · cfg1.N) ∗ Pipeline.unscopedRest (Ix := HIx 1) (Name := ℕ) (U := UU) (Lvl := ℕ) spec1 d (Vreg m d))

/-- The TensorCore owing nothing after the call, its recorded pairs within level 8. -/
def owesT (d : Dev nD) : sProp 𝕄 := iprop(∃ W, ⌜(K (F := F)).WBelow (SparseCore.T d) W (8 * 1)⌝ ∗ owes (SparseCore.T d) 0 W)

def adm : (p : Fin 1) → (pcfgs (F := F) p).Adm := fun p => (cfgs p).toPCfg_adm

def Rg : Pipeline.RegionSeg (pcfgs (F := F)) (adm (F := F)) (fun _ c => dat m c) (none : HIx 1) (defs₀ (F := F)) 𝒱₀ (K (F := F)).L (K (F := F)).lev (0 : Fin 1) where
  win := winFacts1.to₀
  block_pos := block_pos1
  stage_whole := stage_whole1
  K := PEmpty
  osem := fun k => k.elim
  ho := Pipeline.OwnSemFacts.none _
  hbody := fun c => (tc_body_obligation (U := UU) (Vreg m) (BT (F := F) c) c).loose
  hwaits := fun c => Pipeline.hwaits_of_owed_zero (pcfgs (F := F)) (adm (F := F)) (fun _ c => dat m c) (none : HIx 1) (K (F := F)).L (K (F := F)).lev 0 (fun _ _ => rfl) c
  pre := fun c => iprop(unscopedBufs c (Vreg m c) ∗ owesT (F := F) c)
  post := fun c => iprop(FIN m c ∗ owesT (F := F) c)
  X := fun _ => iprop(emp)
  Y := fun _ => iprop(emp)
  Z := fun c => Pipeline.unscopedRest (Ix := HIx 1) (Name := ℕ) (U := UU) (Lvl := ℕ) spec1 c (Vreg m c)
  hentry := fun c => by
    unfold owesT
    iintro ⟨⟨Hu, %W, %hW, HO⟩, -, -⟩
    imodintro
    ihave H := (Pipeline.arrays_of_unscopedBufs (pcfgs (F := F)) (adm (F := F)) (fun _ c => dat m c) (p := 0) winFacts1 arr_whole1 c
      ((dat m c).share_full fun _ => rfl) (Vreg m c) (tcDat_A (U := UU) (Vreg m) (BT (F := F) c) c)) $$ Hu
    icases H with ⟨Ha, Hr⟩
    isplitl [Ha]; · iexact Ha
    isplitr
    · unfold Pipeline.prefHeld
      rw [show (Finset.univ : Finset (Fin (pcfgs (F := F) 0).pre.K)) = ∅ from rfl, bigSep_empty]; iempintro
    isplitl [HO]
    · iexists W; isplitr
      · ipureintro; exact fun p hp => Or.inl (hW p hp)
      · iexact HO
    isplitr; · iempintro
    iexact Hr
  hin := fun c => by
    show (iprop(_ ∗ _ ∗ Pipeline.scopedRest (Ix := HIx 1) (Name := ℕ) (U := UU) (Lvl := ℕ) (Val := Elt F) spec1 c) : sProp 𝕄)
      ⊢ Pipeline.scopedRest (Ix := HIx 1) (Name := ℕ) (U := UU) (Lvl := ℕ) (Val := Elt F) spec1 c
    iintro ⟨-, -, H⟩; iexact H
  hout := fun c => by
    show (Pipeline.scopedRest (Ix := HIx 1) (Name := ℕ) (U := UU) (Lvl := ℕ) (Val := Elt F) spec1 c : sProp 𝕄)
      ⊢ iprop(emp ∗ Pipeline.ownSems0 (fun k : PEmpty => k.elim) c ∗ Pipeline.scopedRest (Ix := HIx 1) (Name := ℕ) (U := UU) (Lvl := ℕ) (Val := Elt F) spec1 c)
    rw [Pipeline.ownSems0_none]
    iintro H
    isplitr; · iempintro
    isplitr; · iempintro
    iexact H
  hexit := fun c => by
    iintro ⟨Ha, ⟨%W, %hW, HO⟩, -, Hz⟩
    imodintro
    isplitl [Ha Hz]
    · unfold FIN
      isplitl [Ha]; · iexact Ha
      iexact Hz
    unfold owesT
    iexists W; isplitr
    · ipureintro
      intro p hp
      rcases hW hp with h | ⟨w, s, rfl⟩
      · exact h
      · exact Nat.zero_le _
    · iexact HO

/-- The TensorCore's state after the one call, opened at what it owes (nothing) and closed again. -/
theorem tcSt_open (d : Dev nD) :
    ((K (F := F)).tcSt (EH (F := F)) d ((0 : Fin 1).val + 1) : sProp 𝕄) ⊢ iprop(owesT (F := F) d ∗ (owesT (F := F) d -∗ (K (F := F)).tcSt (EH (F := F)) d 1)) := by
  show ((K (F := F)).tcSt (EH (F := F)) d 1 : sProp 𝕄) ⊢ _
  unfold SparseCore.Cfg.tcSt owesT
  rw [(K (F := F)).Otc_end d (le_refl 1)]
  iintro ⟨H, R⟩
  isplitl [H]; · iexact H
  iintro H
  isplitl [H]; · iexact H
  iexact R

set_option maxHeartbeats 2000000 in
set_option backward.isDefEq.respectTransparency.types false in
/-- @main on device d's TensorCore: the tokens flattened, the counting kernel's call (the two flat arrays out to the
    32 tasks and back), the ten host operations that follow, the projection kernel's region. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = held (SparseCore.T d) SU (V0 m d) from unscoped_held d (V0 m d)]
  simp only [main, wp_bind, wp_pure]
  iintro ⟨#Hctx, Hst, ⟨Hb, Hheld, -, -⟩, ⟨Hg, Ht⟩⟩
  -- the tokens flattened
  iapply (wp_hlo_within 𝒱 (SparseCore.T d) none Set.univ (op := op0 (F := F)) (S := SU) h0) $$ [Hb Hheld]
  · isplitl [Hb]; · iexact Hb
    iexact Hheld
  iintro ⟨Hb, Hheld⟩
  rw [wp_ret]; imodintro
  -- the call
  ihave Hh := (Entails.of_eq (held_split2 (F := F) d (V1 m d))) $$ Hheld
  icases Hh with ⟨⟨Hi, Hc⟩, Hrest⟩
  iapply ((K (F := F)).wp_run (D (F := F)) 𝒱 (EH := EH) (P := P m) κ d 0) $$ [Hst Hi Hc Hb Hrest Hg Ht]
  isplitr; · iexact Hctx
  isplitl [Hst]; · iexact Hst
  isplitl [Hi Hc]
  · rw [st0_eq]
    isplitl [Hi]; · iexact Hi
    iexact Hc
  iintro ⟨Hst, Hdn⟩
  ihave Hdn' := (Entails.of_eq (dn0_eq m d)) $$ Hdn
  icases Hdn' with ⟨Hi, Hc⟩
  ihave Hheld := (Entails.of_eq (held_V2 m d)) $$ [Hi Hc Hrest]
  · isplitl [Hi Hc]
    · isplitl [Hi]; · iexact Hi
      iexact Hc
    iexact Hrest
  -- the ten host operations
  iapply (wp_hlo_within 𝒱 (SparseCore.T d) none Set.univ (op := op2 (F := F)) (S := SU) h2) $$ [Hb Hheld]
  · isplitl [Hb]; · iexact Hb
    iexact Hheld
  iintro ⟨Hb, Hheld⟩
  rw [wp_ret]; imodintro
  iapply (wp_hlo_within 𝒱 (SparseCore.T d) none Set.univ (op := op3 (F := F)) (S := SU) h3) $$ [Hb Hheld]
  · isplitl [Hb]; · iexact Hb
    iexact Hheld
  iintro ⟨Hb, Hheld⟩
  rw [wp_ret]; imodintro
  iapply (wp_hlo_within 𝒱 (SparseCore.T d) none Set.univ (op := op4 (F := F)) (S := SU) h4) $$ [Hb Hheld]
  · isplitl [Hb]; · iexact Hb
    iexact Hheld
  iintro ⟨Hb, Hheld⟩
  rw [wp_ret]; imodintro
  iapply (wp_hlo_within 𝒱 (SparseCore.T d) none Set.univ (op := op5 (F := F)) (S := SU) h5) $$ [Hb Hheld]
  · isplitl [Hb]; · iexact Hb
    iexact Hheld
  iintro ⟨Hb, Hheld⟩
  rw [wp_ret]; imodintro
  iapply (wp_hlo_within 𝒱 (SparseCore.T d) none Set.univ (op := op6 (F := F)) (S := SU) h6) $$ [Hb Hheld]
  · isplitl [Hb]; · iexact Hb
    iexact Hheld
  iintro ⟨Hb, Hheld⟩
  rw [wp_ret]; imodintro
  iapply (wp_hlo_within 𝒱 (SparseCore.T d) none Set.univ (op := op7 (F := F)) (S := SU) h7) $$ [Hb Hheld]
  · isplitl [Hb]; · iexact Hb
    iexact Hheld
  iintro ⟨Hb, Hheld⟩
  rw [wp_ret]; imodintro
  iapply (wp_hlo_within 𝒱 (SparseCore.T d) none Set.univ (op := op8 (F := F)) (S := SU) h8) $$ [Hb Hheld]
  · isplitl [Hb]; · iexact Hb
    iexact Hheld
  iintro ⟨Hb, Hheld⟩
  rw [wp_ret]; imodintro
  iapply (wp_hlo_within 𝒱 (SparseCore.T d) none Set.univ (op := op9 (F := F)) (S := SU) h9) $$ [Hb Hheld]
  · isplitl [Hb]; · iexact Hb
    iexact Hheld
  iintro ⟨Hb, Hheld⟩
  rw [wp_ret]; imodintro
  iapply (wp_hlo_within 𝒱 (SparseCore.T d) none Set.univ (op := op10 (F := F)) (S := SU) h10) $$ [Hb Hheld]
  · isplitl [Hb]; · iexact Hb
    iexact Hheld
  iintro ⟨Hb, Hheld⟩
  rw [wp_ret]; imodintro
  iapply (wp_hlo_within 𝒱 (SparseCore.T d) none Set.univ (op := op11 (F := F)) (S := SU) h11) $$ [Hb Hheld]
  · isplitl [Hb]; · iexact Hb
    iexact Hheld
  iintro ⟨Hb, Hheld⟩
  rw [wp_ret]; imodintro
  -- the region
  ihave Hu := (Entails.of_eq (unscoped_held (F := F) d (Vr m d)).symm) $$ Hheld
  ihave Ho := (tcSt_open (F := F) d) $$ Hst
  icases Ho with ⟨HoT, Hback⟩
  ihave Hlev := (SparseCore.Cfg.ctx_levAts (K := K (F := F)) (EH := EH) (P := P m) κ) $$ Hctx
  iapply ((K (F := F)).wp_liftProg (D (F := F)) 𝒱 (SparseCore.T d) Set.univ none (Prog.op (.customCall (Pipeline.entry 0) ()) Prog.ret) _)
  iapply (Pipeline.RegionSeg.wp (pcfgs (F := F)) (adm (F := F)) (fun _ c => dat m c) (none : HIx 1) cellOf_inj (EP (F := F)) (defs₀ (F := F)) 𝒱₀
      (K (F := F)).L (K (F := F)).lev (Rg m) d none (fun u hu => nomatch hu) Prog.ret _) $$ [Hb Hu HoT Hlev Hg Ht Hback]
  isplitl [Hback]
  · iintro ⟨Hb, Hpost⟩
    rw [wp_ret]; imodintro; imodintro
    ihave Hp := (show (Rg m).post d ⊢ iprop(FIN m d ∗ owesT (F := F) d) from BI.Entails.refl _) $$ Hpost
    icases Hp with ⟨Hfin, HoT⟩
    isplitl [Hback HoT]
    · iapply Hback; iexact HoT
    iexact Hfin
  isplitl [Hb]; · iexact Hb
  isplitl [Hu HoT]
  · iapply (show (iprop(unscopedBufs d (Vreg m d) ∗ owesT (F := F) d) : sProp 𝕄) ⊢ (Rg m).pre d from BI.Entails.refl _)
    isplitl [Hu]; · iexact Hu
    iexact HoT
  isplitl [Hlev]; · iexact Hlev
  isplitl [Hg]; · iexact Hg
  iexact Ht

/-! ## The arguments survive the host operations -/

theorem Vr_main_arg0 (d : Dev nD) : Vr m d a0' = m (d, a0') := by
  unfold Vr
  rw [(op11 (F := F)).result_of_not_mem _ (b := a0') (show a0' ∉ ({Proc.devRef .tc (main_v11 : Ref sig .tc)} : Finset (DevRef τ sig)) by decide),
    (op10 (F := F)).result_of_not_mem _ (b := a0') (show a0' ∉ ({Proc.devRef .tc (main_v10 : Ref sig .tc)} : Finset (DevRef τ sig)) by decide),
    (op9 (F := F)).result_of_not_mem _ (b := a0') (show a0' ∉ ({Proc.devRef .tc (main_v9 : Ref sig .tc)} : Finset (DevRef τ sig)) by decide),
    (op8 (F := F)).result_of_not_mem _ (b := a0') (show a0' ∉ ({Proc.devRef .tc (main_v8 : Ref sig .tc)} : Finset (DevRef τ sig)) by decide),
    (op7 (F := F)).result_of_not_mem _ (b := a0') (show a0' ∉ ({Proc.devRef .tc (main_v7 : Ref sig .tc)} : Finset (DevRef τ sig)) by decide),
    (op6 (F := F)).result_of_not_mem _ (b := a0') (show a0' ∉ ({Proc.devRef .tc (main_v6 : Ref sig .tc)} : Finset (DevRef τ sig)) by decide),
    (op5 (F := F)).result_of_not_mem _ (b := a0') (show a0' ∉ ({Proc.devRef .tc (main_v5 : Ref sig .tc)} : Finset (DevRef τ sig)) by decide),
    (op4 (F := F)).result_of_not_mem _ (b := a0') (show a0' ∉ ({Proc.devRef .tc (main_v4 : Ref sig .tc)} : Finset (DevRef τ sig)) by decide),
    (op3 (F := F)).result_of_not_mem _ (b := a0') (show a0' ∉ ({Proc.devRef .tc (main_v3 : Ref sig .tc)} : Finset (DevRef τ sig)) by decide),
    (op2 (F := F)).result_of_not_mem _ (b := a0') (show a0' ∉ ({Proc.devRef .tc (main_v2 : Ref sig .tc)} : Finset (DevRef τ sig)) by decide)]
  unfold V2; rw [Function.update_of_ne (show a0' ≠ v1' by decide)]
  unfold V1; rw [(op0 (F := F)).result_of_not_mem _ (b := a0') (show a0' ∉ ({Proc.devRef .tc (main_v0 : Ref sig .tc)} : Finset (DevRef τ sig)) by decide)]
theorem Vr_main_arg1 (d : Dev nD) : Vr m d a1' = m (d, a1') := by
  unfold Vr
  rw [(op11 (F := F)).result_of_not_mem _ (b := a1') (show a1' ∉ ({Proc.devRef .tc (main_v11 : Ref sig .tc)} : Finset (DevRef τ sig)) by decide),
    (op10 (F := F)).result_of_not_mem _ (b := a1') (show a1' ∉ ({Proc.devRef .tc (main_v10 : Ref sig .tc)} : Finset (DevRef τ sig)) by decide),
    (op9 (F := F)).result_of_not_mem _ (b := a1') (show a1' ∉ ({Proc.devRef .tc (main_v9 : Ref sig .tc)} : Finset (DevRef τ sig)) by decide),
    (op8 (F := F)).result_of_not_mem _ (b := a1') (show a1' ∉ ({Proc.devRef .tc (main_v8 : Ref sig .tc)} : Finset (DevRef τ sig)) by decide),
    (op7 (F := F)).result_of_not_mem _ (b := a1') (show a1' ∉ ({Proc.devRef .tc (main_v7 : Ref sig .tc)} : Finset (DevRef τ sig)) by decide),
    (op6 (F := F)).result_of_not_mem _ (b := a1') (show a1' ∉ ({Proc.devRef .tc (main_v6 : Ref sig .tc)} : Finset (DevRef τ sig)) by decide),
    (op5 (F := F)).result_of_not_mem _ (b := a1') (show a1' ∉ ({Proc.devRef .tc (main_v5 : Ref sig .tc)} : Finset (DevRef τ sig)) by decide),
    (op4 (F := F)).result_of_not_mem _ (b := a1') (show a1' ∉ ({Proc.devRef .tc (main_v4 : Ref sig .tc)} : Finset (DevRef τ sig)) by decide),
    (op3 (F := F)).result_of_not_mem _ (b := a1') (show a1' ∉ ({Proc.devRef .tc (main_v3 : Ref sig .tc)} : Finset (DevRef τ sig)) by decide),
    (op2 (F := F)).result_of_not_mem _ (b := a1') (show a1' ∉ ({Proc.devRef .tc (main_v2 : Ref sig .tc)} : Finset (DevRef τ sig)) by decide)]
  unfold V2; rw [Function.update_of_ne (show a1' ≠ v1' by decide)]
  unfold V1; rw [(op0 (F := F)).result_of_not_mem _ (b := a1') (show a1' ∉ ({Proc.devRef .tc (main_v0 : Ref sig .tc)} : Finset (DevRef τ sig)) by decide)]
theorem Vr_main_arg2 (d : Dev nD) : Vr m d a2' = m (d, a2') := by
  unfold Vr
  rw [(op11 (F := F)).result_of_not_mem _ (b := a2') (show a2' ∉ ({Proc.devRef .tc (main_v11 : Ref sig .tc)} : Finset (DevRef τ sig)) by decide),
    (op10 (F := F)).result_of_not_mem _ (b := a2') (show a2' ∉ ({Proc.devRef .tc (main_v10 : Ref sig .tc)} : Finset (DevRef τ sig)) by decide),
    (op9 (F := F)).result_of_not_mem _ (b := a2') (show a2' ∉ ({Proc.devRef .tc (main_v9 : Ref sig .tc)} : Finset (DevRef τ sig)) by decide),
    (op8 (F := F)).result_of_not_mem _ (b := a2') (show a2' ∉ ({Proc.devRef .tc (main_v8 : Ref sig .tc)} : Finset (DevRef τ sig)) by decide),
    (op7 (F := F)).result_of_not_mem _ (b := a2') (show a2' ∉ ({Proc.devRef .tc (main_v7 : Ref sig .tc)} : Finset (DevRef τ sig)) by decide),
    (op6 (F := F)).result_of_not_mem _ (b := a2') (show a2' ∉ ({Proc.devRef .tc (main_v6 : Ref sig .tc)} : Finset (DevRef τ sig)) by decide),
    (op5 (F := F)).result_of_not_mem _ (b := a2') (show a2' ∉ ({Proc.devRef .tc (main_v5 : Ref sig .tc)} : Finset (DevRef τ sig)) by decide),
    (op4 (F := F)).result_of_not_mem _ (b := a2') (show a2' ∉ ({Proc.devRef .tc (main_v4 : Ref sig .tc)} : Finset (DevRef τ sig)) by decide),
    (op3 (F := F)).result_of_not_mem _ (b := a2') (show a2' ∉ ({Proc.devRef .tc (main_v3 : Ref sig .tc)} : Finset (DevRef τ sig)) by decide),
    (op2 (F := F)).result_of_not_mem _ (b := a2') (show a2' ∉ ({Proc.devRef .tc (main_v2 : Ref sig .tc)} : Finset (DevRef τ sig)) by decide)]
  unfold V2; rw [Function.update_of_ne (show a2' ≠ v1' by decide)]
  unfold V1; rw [(op0 (F := F)).result_of_not_mem _ (b := a2') (show a2' ∉ ({Proc.devRef .tc (main_v0 : Ref sig .tc)} : Finset (DevRef τ sig)) by decide)]
theorem Vr_main_arg3 (d : Dev nD) : Vr m d a3' = m (d, a3') := by
  unfold Vr
  rw [(op11 (F := F)).result_of_not_mem _ (b := a3') (show a3' ∉ ({Proc.devRef .tc (main_v11 : Ref sig .tc)} : Finset (DevRef τ sig)) by decide),
    (op10 (F := F)).result_of_not_mem _ (b := a3') (show a3' ∉ ({Proc.devRef .tc (main_v10 : Ref sig .tc)} : Finset (DevRef τ sig)) by decide),
    (op9 (F := F)).result_of_not_mem _ (b := a3') (show a3' ∉ ({Proc.devRef .tc (main_v9 : Ref sig .tc)} : Finset (DevRef τ sig)) by decide),
    (op8 (F := F)).result_of_not_mem _ (b := a3') (show a3' ∉ ({Proc.devRef .tc (main_v8 : Ref sig .tc)} : Finset (DevRef τ sig)) by decide),
    (op7 (F := F)).result_of_not_mem _ (b := a3') (show a3' ∉ ({Proc.devRef .tc (main_v7 : Ref sig .tc)} : Finset (DevRef τ sig)) by decide),
    (op6 (F := F)).result_of_not_mem _ (b := a3') (show a3' ∉ ({Proc.devRef .tc (main_v6 : Ref sig .tc)} : Finset (DevRef τ sig)) by decide),
    (op5 (F := F)).result_of_not_mem _ (b := a3') (show a3' ∉ ({Proc.devRef .tc (main_v5 : Ref sig .tc)} : Finset (DevRef τ sig)) by decide),
    (op4 (F := F)).result_of_not_mem _ (b := a3') (show a3' ∉ ({Proc.devRef .tc (main_v4 : Ref sig .tc)} : Finset (DevRef τ sig)) by decide),
    (op3 (F := F)).result_of_not_mem _ (b := a3') (show a3' ∉ ({Proc.devRef .tc (main_v3 : Ref sig .tc)} : Finset (DevRef τ sig)) by decide),
    (op2 (F := F)).result_of_not_mem _ (b := a3') (show a3' ∉ ({Proc.devRef .tc (main_v2 : Ref sig .tc)} : Finset (DevRef τ sig)) by decide)]
  unfold V2; rw [Function.update_of_ne (show a3' ≠ v1' by decide)]
  unfold V1; rw [(op0 (F := F)).result_of_not_mem _ (b := a3') (show a3' ∉ ({Proc.devRef .tc (main_v0 : Ref sig .tc)} : Finset (DevRef τ sig)) by decide)]
theorem Vr_main_arg4 (d : Dev nD) : Vr m d a4' = m (d, a4') := by
  unfold Vr
  rw [(op11 (F := F)).result_of_not_mem _ (b := a4') (show a4' ∉ ({Proc.devRef .tc (main_v11 : Ref sig .tc)} : Finset (DevRef τ sig)) by decide),
    (op10 (F := F)).result_of_not_mem _ (b := a4') (show a4' ∉ ({Proc.devRef .tc (main_v10 : Ref sig .tc)} : Finset (DevRef τ sig)) by decide),
    (op9 (F := F)).result_of_not_mem _ (b := a4') (show a4' ∉ ({Proc.devRef .tc (main_v9 : Ref sig .tc)} : Finset (DevRef τ sig)) by decide),
    (op8 (F := F)).result_of_not_mem _ (b := a4') (show a4' ∉ ({Proc.devRef .tc (main_v8 : Ref sig .tc)} : Finset (DevRef τ sig)) by decide),
    (op7 (F := F)).result_of_not_mem _ (b := a4') (show a4' ∉ ({Proc.devRef .tc (main_v7 : Ref sig .tc)} : Finset (DevRef τ sig)) by decide),
    (op6 (F := F)).result_of_not_mem _ (b := a4') (show a4' ∉ ({Proc.devRef .tc (main_v6 : Ref sig .tc)} : Finset (DevRef τ sig)) by decide),
    (op5 (F := F)).result_of_not_mem _ (b := a4') (show a4' ∉ ({Proc.devRef .tc (main_v5 : Ref sig .tc)} : Finset (DevRef τ sig)) by decide),
    (op4 (F := F)).result_of_not_mem _ (b := a4') (show a4' ∉ ({Proc.devRef .tc (main_v4 : Ref sig .tc)} : Finset (DevRef τ sig)) by decide),
    (op3 (F := F)).result_of_not_mem _ (b := a4') (show a4' ∉ ({Proc.devRef .tc (main_v3 : Ref sig .tc)} : Finset (DevRef τ sig)) by decide),
    (op2 (F := F)).result_of_not_mem _ (b := a4') (show a4' ∉ ({Proc.devRef .tc (main_v2 : Ref sig .tc)} : Finset (DevRef τ sig)) by decide)]
  unfold V2; rw [Function.update_of_ne (show a4' ≠ v1' by decide)]
  unfold V1; rw [(op0 (F := F)).result_of_not_mem _ (b := a4') (show a4' ∉ ({Proc.devRef .tc (main_v0 : Ref sig .tc)} : Finset (DevRef τ sig)) by decide)]
theorem Vr_main_arg5 (d : Dev nD) : Vr m d a5' = m (d, a5') := by
  unfold Vr
  rw [(op11 (F := F)).result_of_not_mem _ (b := a5') (show a5' ∉ ({Proc.devRef .tc (main_v11 : Ref sig .tc)} : Finset (DevRef τ sig)) by decide),
    (op10 (F := F)).result_of_not_mem _ (b := a5') (show a5' ∉ ({Proc.devRef .tc (main_v10 : Ref sig .tc)} : Finset (DevRef τ sig)) by decide),
    (op9 (F := F)).result_of_not_mem _ (b := a5') (show a5' ∉ ({Proc.devRef .tc (main_v9 : Ref sig .tc)} : Finset (DevRef τ sig)) by decide),
    (op8 (F := F)).result_of_not_mem _ (b := a5') (show a5' ∉ ({Proc.devRef .tc (main_v8 : Ref sig .tc)} : Finset (DevRef τ sig)) by decide),
    (op7 (F := F)).result_of_not_mem _ (b := a5') (show a5' ∉ ({Proc.devRef .tc (main_v7 : Ref sig .tc)} : Finset (DevRef τ sig)) by decide),
    (op6 (F := F)).result_of_not_mem _ (b := a5') (show a5' ∉ ({Proc.devRef .tc (main_v6 : Ref sig .tc)} : Finset (DevRef τ sig)) by decide),
    (op5 (F := F)).result_of_not_mem _ (b := a5') (show a5' ∉ ({Proc.devRef .tc (main_v5 : Ref sig .tc)} : Finset (DevRef τ sig)) by decide),
    (op4 (F := F)).result_of_not_mem _ (b := a5') (show a5' ∉ ({Proc.devRef .tc (main_v4 : Ref sig .tc)} : Finset (DevRef τ sig)) by decide),
    (op3 (F := F)).result_of_not_mem _ (b := a5') (show a5' ∉ ({Proc.devRef .tc (main_v3 : Ref sig .tc)} : Finset (DevRef τ sig)) by decide),
    (op2 (F := F)).result_of_not_mem _ (b := a5') (show a5' ∉ ({Proc.devRef .tc (main_v2 : Ref sig .tc)} : Finset (DevRef τ sig)) by decide)]
  unfold V2; rw [Function.update_of_ne (show a5' ≠ v1' by decide)]
  unfold V1; rw [(op0 (F := F)).result_of_not_mem _ (b := a5') (show a5' ∉ ({Proc.devRef .tc (main_v0 : Ref sig .tc)} : Finset (DevRef τ sig)) by decide)]

/-! ## The final memory -/

/-- What is read off the final memory of device d: the result array at the pipeline's closed form over the contents
    the projection kernel started from, and the six arguments as launched. -/
def fq (d : Dev nD) (s' : Phys nD τ sig (Elt F)) : Prop :=
  s'.mem.mem ((d.tc : Thread nD τ).loc main_v12) = tcG (Vreg m) d
    ∧ s'.mem.mem ((d.tc : Thread nD τ).loc main_arg0) = m ((d.tc : Thread nD τ).loc main_arg0)
    ∧ s'.mem.mem ((d.tc : Thread nD τ).loc main_arg1) = m ((d.tc : Thread nD τ).loc main_arg1)
    ∧ s'.mem.mem ((d.tc : Thread nD τ).loc main_arg2) = m ((d.tc : Thread nD τ).loc main_arg2)
    ∧ s'.mem.mem ((d.tc : Thread nD τ).loc main_arg3) = m ((d.tc : Thread nD τ).loc main_arg3)
    ∧ s'.mem.mem ((d.tc : Thread nD τ).loc main_arg4) = m ((d.tc : Thread nD τ).loc main_arg4)
    ∧ s'.mem.mem ((d.tc : Thread nD τ).loc main_arg5) = m ((d.tc : Thread nD τ).loc main_arg5)

theorem hfin (d : Dev nD) (s' : Phys nD τ sig (Elt F)) : iprop(FIN m d ∗ SI s') ⊢ (⌜fq m d s'⌝ : sProp 𝕄) := by
  unfold FIN
  rw [unscopedRest1_eq]
  iintro ⟨⟨Ha, H0, H1, H3, H4, H5, -⟩, HSI⟩
  ihave Hr := (Pipeline.arrays_read (pcfgs (F := F)) (adm (F := F)) (fun _ c => dat m c) (p := 0) arr_whole1 d ((dat m d).share_full fun _ => rfl) _ s') $$ [Ha HSI]
  · isplitl [Ha] <;> iassumption
  icases Hr with ⟨%ha, HSI⟩
  ihave H := (persistent_entails_right (SI_pointsTo_agree (st := s') (ℓ := ((d.tc : Thread nD τ).loc main_arg0)) (I := Finset.univ) (q := fullShare) (f := Vreg m d main_arg0))) $$ [HSI H0]
  · isplitl [HSI] <;> iassumption
  icases H with ⟨%h0, HSI, -⟩
  ihave H := (persistent_entails_right (SI_pointsTo_agree (st := s') (ℓ := ((d.tc : Thread nD τ).loc main_arg1)) (I := Finset.univ) (q := fullShare) (f := Vreg m d main_arg1))) $$ [HSI H1]
  · isplitl [HSI] <;> iassumption
  icases H with ⟨%h1, HSI, -⟩
  ihave H := (persistent_entails_right (SI_pointsTo_agree (st := s') (ℓ := ((d.tc : Thread nD τ).loc main_arg3)) (I := Finset.univ) (q := fullShare) (f := Vreg m d main_arg3))) $$ [HSI H3]
  · isplitl [HSI] <;> iassumption
  icases H with ⟨%h3, HSI, -⟩
  ihave H := (persistent_entails_right (SI_pointsTo_agree (st := s') (ℓ := ((d.tc : Thread nD τ).loc main_arg4)) (I := Finset.univ) (q := fullShare) (f := Vreg m d main_arg4))) $$ [HSI H4]
  · isplitl [HSI] <;> iassumption
  icases H with ⟨%h4, HSI, -⟩
  ihave H := (SI_pointsTo_agree (st := s') (ℓ := ((d.tc : Thread nD τ).loc main_arg5)) (I := Finset.univ) (q := fullShare) (f := Vreg m d main_arg5)) $$ [HSI H5]
  · isplitl [HSI] <;> iassumption
  icases H with %h5
  ipureintro
  refine ⟨?_, ?_, ?_, ?_, ?_, ?_, ?_⟩
  · exact (ha 6).trans (tcDat_arrAt6 (U := UU) (Vreg m) (BT (F := F) d) d)
  · exact (funext fun i => h0 i (Finset.mem_univ i)).trans (Vr_main_arg0 m d)
  · exact (funext fun i => h1 i (Finset.mem_univ i)).trans (Vr_main_arg1 m d)
  · exact (ha 2).trans ((tcDat_arrAt2 (U := UU) (Vreg m) (BT (F := F) d) d).trans ((tcDat_A (U := UU) (Vreg m) (BT (F := F) d) d 2).trans (Vr_main_arg2 m d)))
  · exact (funext fun i => h3 i (Finset.mem_univ i)).trans (Vr_main_arg3 m d)
  · exact (funext fun i => h4 i (Finset.mem_univ i)).trans (Vr_main_arg4 m d)
  · exact (funext fun i => h5 i (Finset.mem_univ i)).trans (Vr_main_arg5 m d)

/-! ## The program's run -/

def QC : PUnit × MemSt nD τ sig (Elt F) → Prop := fun r => ∀ c : Dev nD,
  r.2.mem ((c.tc : Thread nD τ).loc main_v12) = tcG (Vreg m) c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)

/-- Every weakly fair execution of the whole program terminates, nothing faulting, and ends with the result array at
    the closed form and the arguments unchanged: from one task's statement and the tokens naming rows of the table. -/
theorem run_main [∀ e, Nonempty (Elt F e)] (hT : TileBody F UU) (hids : IdsOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hT facts hids)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h => h)

/-! ## What the projection kernel reads, as functions of the arguments -/

abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)
abbrev v8' : DevRef τ sig := Proc.devRef .tc (main_v8 : Ref sig .tc)
abbrev v9' : DevRef τ sig := Proc.devRef .tc (main_v9 : Ref sig .tc)
abbrev v10' : DevRef τ sig := Proc.devRef .tc (main_v10 : Ref sig .tc)
abbrev v11' : DevRef τ sig := Proc.devRef .tc (main_v11 : Ref sig .tc)

theorem keep3_a1 (d : Dev nD) : ((op2 (F := F)).result (V2 m d)) a1' = m (d, a1') := by
  rw [(op2 (F := F)).result_of_not_mem _ (b := a1') (show a1' ∉ ({Proc.devRef .tc (main_v2 : Ref sig .tc)} : Finset (DevRef τ sig)) by decide)]
  unfold V2; rw [Function.update_of_ne (show a1' ≠ v1' by decide)]
  unfold V1; rw [(op0 (F := F)).result_of_not_mem _ (b := a1') (show a1' ∉ ({Proc.devRef .tc (main_v0 : Ref sig .tc)} : Finset (DevRef τ sig)) by decide)]
theorem keep4_a1 (d : Dev nD) : ((op3 (F := F)).result ((op2 (F := F)).result (V2 m d))) a1' = m (d, a1') := by
  rw [(op3 (F := F)).result_of_not_mem _ (b := a1') (show a1' ∉ ({Proc.devRef .tc (main_v3 : Ref sig .tc)} : Finset (DevRef τ sig)) by decide),
    (op2 (F := F)).result_of_not_mem _ (b := a1') (show a1' ∉ ({Proc.devRef .tc (main_v2 : Ref sig .tc)} : Finset (DevRef τ sig)) by decide)]
  unfold V2; rw [Function.update_of_ne (show a1' ≠ v1' by decide)]
  unfold V1; rw [(op0 (F := F)).result_of_not_mem _ (b := a1') (show a1' ∉ ({Proc.devRef .tc (main_v0 : Ref sig .tc)} : Finset (DevRef τ sig)) by decide)]
theorem keep5_a1 (d : Dev nD) : ((op4 (F := F)).result ((op3 (F := F)).result ((op2 (F := F)).result (V2 m d)))) a1' = m (d, a1') := by
  rw [(op4 (F := F)).result_of_not_mem _ (b := a1') (show a1' ∉ ({Proc.devRef .tc (main_v4 : Ref sig .tc)} : Finset (DevRef τ sig)) by decide),
    (op3 (F := F)).result_of_not_mem _ (b := a1') (show a1' ∉ ({Proc.devRef .tc (main_v3 : Ref sig .tc)} : Finset (DevRef τ sig)) by decide),
    (op2 (F := F)).result_of_not_mem _ (b := a1') (show a1' ∉ ({Proc.devRef .tc (main_v2 : Ref sig .tc)} : Finset (DevRef τ sig)) by decide)]
  unfold V2; rw [Function.update_of_ne (show a1' ≠ v1' by decide)]
  unfold V1; rw [(op0 (F := F)).result_of_not_mem _ (b := a1') (show a1' ∉ ({Proc.devRef .tc (main_v0 : Ref sig .tc)} : Finset (DevRef τ sig)) by decide)]
theorem keep6_a1 (d : Dev nD) : ((op5 (F := F)).result ((op4 (F := F)).result ((op3 (F := F)).result ((op2 (F := F)).result (V2 m d))))) a1' = m (d, a1') := by
  rw [(op5 (F := F)).result_of_not_mem _ (b := a1') (show a1' ∉ ({Proc.devRef .tc (main_v5 : Ref sig .tc)} : Finset (DevRef τ sig)) by decide),
    (op4 (F := F)).result_of_not_mem _ (b := a1') (show a1' ∉ ({Proc.devRef .tc (main_v4 : Ref sig .tc)} : Finset (DevRef τ sig)) by decide),
    (op3 (F := F)).result_of_not_mem _ (b := a1') (show a1' ∉ ({Proc.devRef .tc (main_v3 : Ref sig .tc)} : Finset (DevRef τ sig)) by decide),
    (op2 (F := F)).result_of_not_mem _ (b := a1') (show a1' ∉ ({Proc.devRef .tc (main_v2 : Ref sig .tc)} : Finset (DevRef τ sig)) by decide)]
  unfold V2; rw [Function.update_of_ne (show a1' ≠ v1' by decide)]
  unfold V1; rw [(op0 (F := F)).result_of_not_mem _ (b := a1') (show a1' ∉ ({Proc.devRef .tc (main_v0 : Ref sig .tc)} : Finset (DevRef τ sig)) by decide)]
theorem keep9_a3 (d : Dev nD) : ((op8 (F := F)).result ((op7 (F := F)).result ((op6 (F := F)).result ((op5 (F := F)).result ((op4 (F := F)).result ((op3 (F := F)).result ((op2 (F := F)).result (V2 m d)))))))) a3' = m (d, a3') := by
  rw [(op8 (F := F)).result_of_not_mem _ (b := a3') (show a3' ∉ ({Proc.devRef .tc (main_v8 : Ref sig .tc)} : Finset (DevRef τ sig)) by decide),
    (op7 (F := F)).result_of_not_mem _ (b := a3') (show a3' ∉ ({Proc.devRef .tc (main_v7 : Ref sig .tc)} : Finset (DevRef τ sig)) by decide),
    (op6 (F := F)).result_of_not_mem _ (b := a3') (show a3' ∉ ({Proc.devRef .tc (main_v6 : Ref sig .tc)} : Finset (DevRef τ sig)) by decide),
    (op5 (F := F)).result_of_not_mem _ (b := a3') (show a3' ∉ ({Proc.devRef .tc (main_v5 : Ref sig .tc)} : Finset (DevRef τ sig)) by decide),
    (op4 (F := F)).result_of_not_mem _ (b := a3') (show a3' ∉ ({Proc.devRef .tc (main_v4 : Ref sig .tc)} : Finset (DevRef τ sig)) by decide),
    (op3 (F := F)).result_of_not_mem _ (b := a3') (show a3' ∉ ({Proc.devRef .tc (main_v3 : Ref sig .tc)} : Finset (DevRef τ sig)) by decide),
    (op2 (F := F)).result_of_not_mem _ (b := a3') (show a3' ∉ ({Proc.devRef .tc (main_v2 : Ref sig .tc)} : Finset (DevRef τ sig)) by decide)]
  unfold V2; rw [Function.update_of_ne (show a3' ≠ v1' by decide)]
  unfold V1; rw [(op0 (F := F)).result_of_not_mem _ (b := a3') (show a3' ∉ ({Proc.devRef .tc (main_v0 : Ref sig .tc)} : Finset (DevRef τ sig)) by decide)]
theorem keep10_a4 (d : Dev nD) : ((op9 (F := F)).result ((op8 (F := F)).result ((op7 (F := F)).result ((op6 (F := F)).result ((op5 (F := F)).result ((op4 (F := F)).result ((op3 (F := F)).result ((op2 (F := F)).result (V2 m d))))))))) a4' = m (d, a4') := by
  rw [(op9 (F := F)).result_of_not_mem _ (b := a4') (show a4' ∉ ({Proc.devRef .tc (main_v9 : Ref sig .tc)} : Finset (DevRef τ sig)) by decide),
    (op8 (F := F)).result_of_not_mem _ (b := a4') (show a4' ∉ ({Proc.devRef .tc (main_v8 : Ref sig .tc)} : Finset (DevRef τ sig)) by decide),
    (op7 (F := F)).result_of_not_mem _ (b := a4') (show a4' ∉ ({Proc.devRef .tc (main_v7 : Ref sig .tc)} : Finset (DevRef τ sig)) by decide),
    (op6 (F := F)).result_of_not_mem _ (b := a4') (show a4' ∉ ({Proc.devRef .tc (main_v6 : Ref sig .tc)} : Finset (DevRef τ sig)) by decide),
    (op5 (F := F)).result_of_not_mem _ (b := a4') (show a4' ∉ ({Proc.devRef .tc (main_v5 : Ref sig .tc)} : Finset (DevRef τ sig)) by decide),
    (op4 (F := F)).result_of_not_mem _ (b := a4') (show a4' ∉ ({Proc.devRef .tc (main_v4 : Ref sig .tc)} : Finset (DevRef τ sig)) by decide),
    (op3 (F := F)).result_of_not_mem _ (b := a4') (show a4' ∉ ({Proc.devRef .tc (main_v3 : Ref sig .tc)} : Finset (DevRef τ sig)) by decide),
    (op2 (F := F)).result_of_not_mem _ (b := a4') (show a4' ∉ ({Proc.devRef .tc (main_v2 : Ref sig .tc)} : Finset (DevRef τ sig)) by decide)]
  unfold V2; rw [Function.update_of_ne (show a4' ≠ v1' by decide)]
  unfold V1; rw [(op0 (F := F)).result_of_not_mem _ (b := a4') (show a4' ∉ ({Proc.devRef .tc (main_v0 : Ref sig .tc)} : Finset (DevRef τ sig)) by decide)]
theorem keep11_a5 (d : Dev nD) : ((op10 (F := F)).result ((op9 (F := F)).result ((op8 (F := F)).result ((op7 (F := F)).result ((op6 (F := F)).result ((op5 (F := F)).result ((op4 (F := F)).result ((op3 (F := F)).result ((op2 (F := F)).result (V2 m d)))))))))) a5' = m (d, a5') := by
  rw [(op10 (F := F)).result_of_not_mem _ (b := a5') (show a5' ∉ ({Proc.devRef .tc (main_v10 : Ref sig .tc)} : Finset (DevRef τ sig)) by decide),
    (op9 (F := F)).result_of_not_mem _ (b := a5') (show a5' ∉ ({Proc.devRef .tc (main_v9 : Ref sig .tc)} : Finset (DevRef τ sig)) by decide),
    (op8 (F := F)).result_of_not_mem _ (b := a5') (show a5' ∉ ({Proc.devRef .tc (main_v8 : Ref sig .tc)} : Finset (DevRef τ sig)) by decide),
    (op7 (F := F)).result_of_not_mem _ (b := a5') (show a5' ∉ ({Proc.devRef .tc (main_v7 : Ref sig .tc)} : Finset (DevRef τ sig)) by decide),
    (op6 (F := F)).result_of_not_mem _ (b := a5') (show a5' ∉ ({Proc.devRef .tc (main_v6 : Ref sig .tc)} : Finset (DevRef τ sig)) by decide),
    (op5 (F := F)).result_of_not_mem _ (b := a5') (show a5' ∉ ({Proc.devRef .tc (main_v5 : Ref sig .tc)} : Finset (DevRef τ sig)) by decide),
    (op4 (F := F)).result_of_not_mem _ (b := a5') (show a5' ∉ ({Proc.devRef .tc (main_v4 : Ref sig .tc)} : Finset (DevRef τ sig)) by decide),
    (op3 (F := F)).result_of_not_mem _ (b := a5') (show a5' ∉ ({Proc.devRef .tc (main_v3 : Ref sig .tc)} : Finset (DevRef τ sig)) by decide),
    (op2 (F := F)).result_of_not_mem _ (b := a5') (show a5' ∉ ({Proc.devRef .tc (main_v2 : Ref sig .tc)} : Finset (DevRef τ sig)) by decide)]
  unfold V2; rw [Function.update_of_ne (show a5' ≠ v1' by decide)]
  unfold V1; rw [(op0 (F := F)).result_of_not_mem _ (b := a5') (show a5' ∉ ({Proc.devRef .tc (main_v0 : Ref sig .tc)} : Finset (DevRef τ sig)) by decide)]

/-- The flat tokens are the tokens read in row-major order. -/
theorem ids_eq (d : Dev nD) : ids m d = (fun i => shapeCast S3276800 (m (d, a0')) Facts₀.shapeCasts_S16384x200_S3276800 i) :=
  (StableHlo.reshape_result main_arg0 main_v0 rfl Facts₀.shapeCasts_S16384x200_S3276800 ⟨by decide, rfl⟩ ⟨by decide, rfl⟩ (V0 m d)).trans rfl

/-- Tokens that name rows of the table give flat tokens that do. -/
theorem idsOK_of_tok (hpre : ∀ d : Dev nD, Cert.Spec.TokOK (m ((SparseCore.T d).loc main_arg0))) : IdsOK m := by
  intro d i
  rw [ids_eq]
  exact hpre d _

/-- The 2-d packed counts: the packed histograms of the flat tokens, reshaped. -/
theorem Vr_v2 (d : Dev nD) : Vr m d v2' = (fun i => shapeCast S16384x1024 (packedFlat (ids m d)) Facts₀.shapeCasts_S16777216_S16384x1024 i) := by
  unfold Vr
  rw [(op11 (F := F)).result_of_not_mem _ (b := v2') (show v2' ∉ ({Proc.devRef .tc (main_v11 : Ref sig .tc)} : Finset (DevRef τ sig)) by decide),
    (op10 (F := F)).result_of_not_mem _ (b := v2') (show v2' ∉ ({Proc.devRef .tc (main_v10 : Ref sig .tc)} : Finset (DevRef τ sig)) by decide),
    (op9 (F := F)).result_of_not_mem _ (b := v2') (show v2' ∉ ({Proc.devRef .tc (main_v9 : Ref sig .tc)} : Finset (DevRef τ sig)) by decide),
    (op8 (F := F)).result_of_not_mem _ (b := v2') (show v2' ∉ ({Proc.devRef .tc (main_v8 : Ref sig .tc)} : Finset (DevRef τ sig)) by decide),
    (op7 (F := F)).result_of_not_mem _ (b := v2') (show v2' ∉ ({Proc.devRef .tc (main_v7 : Ref sig .tc)} : Finset (DevRef τ sig)) by decide),
    (op6 (F := F)).result_of_not_mem _ (b := v2') (show v2' ∉ ({Proc.devRef .tc (main_v6 : Ref sig .tc)} : Finset (DevRef τ sig)) by decide),
    (op5 (F := F)).result_of_not_mem _ (b := v2') (show v2' ∉ ({Proc.devRef .tc (main_v5 : Ref sig .tc)} : Finset (DevRef τ sig)) by decide),
    (op4 (F := F)).result_of_not_mem _ (b := v2') (show v2' ∉ ({Proc.devRef .tc (main_v4 : Ref sig .tc)} : Finset (DevRef τ sig)) by decide),
    (op3 (F := F)).result_of_not_mem _ (b := v2') (show v2' ∉ ({Proc.devRef .tc (main_v3 : Ref sig .tc)} : Finset (DevRef τ sig)) by decide)]
  refine (StableHlo.reshape_result main_v1 main_v2 rfl Facts₀.shapeCasts_S16777216_S16384x1024 ⟨by decide, rfl⟩ ⟨by decide, rfl⟩ (V2 m d)).trans ?_
  unfold V2; rw [Function.update_self]; try rfl

/-- The three row vectors: the bias, the scale and the shift reshaped to one row. -/
theorem Vr_v9 (d : Dev nD) : Vr m d v9' = (fun i => shapeCast S1x256 (m (d, a3')) Facts₀.shapeCasts_S256_S1x256 i) := by
  unfold Vr
  rw [(op11 (F := F)).result_of_not_mem _ (b := v9') (show v9' ∉ ({Proc.devRef .tc (main_v11 : Ref sig .tc)} : Finset (DevRef τ sig)) by decide),
    (op10 (F := F)).result_of_not_mem _ (b := v9') (show v9' ∉ ({Proc.devRef .tc (main_v10 : Ref sig .tc)} : Finset (DevRef τ sig)) by decide)]
  refine (StableHlo.reshape_result main_arg3 main_v9 rfl Facts₀.shapeCasts_S256_S1x256 ⟨by decide, rfl⟩ ⟨by decide, rfl⟩ ((op8 (F := F)).result ((op7 (F := F)).result ((op6 (F := F)).result ((op5 (F := F)).result ((op4 (F := F)).result ((op3 (F := F)).result ((op2 (F := F)).result (V2 m d))))))))).trans ?_
  rw [keep9_a3 m d]; try rfl
theorem Vr_v10 (d : Dev nD) : Vr m d v10' = (fun i => shapeCast S1x256 (m (d, a4')) Facts₀.shapeCasts_S256_S1x256 i) := by
  unfold Vr
  rw [(op11 (F := F)).result_of_not_mem _ (b := v10') (show v10' ∉ ({Proc.devRef .tc (main_v11 : Ref sig .tc)} : Finset (DevRef τ sig)) by decide)]
  refine (StableHlo.reshape_result main_arg4 main_v10 rfl Facts₀.shapeCasts_S256_S1x256 ⟨by decide, rfl⟩ ⟨by decide, rfl⟩ ((op9 (F := F)).result ((op8 (F := F)).result ((op7 (F := F)).result ((op6 (F := F)).result ((op5 (F := F)).result ((op4 (F := F)).result ((op3 (F := F)).result ((op2 (F := F)).result (V2 m d)))))))))).trans ?_
  rw [keep10_a4 m d]; try rfl
theorem Vr_v11 (d : Dev nD) : Vr m d v11' = (fun i => shapeCast S1x256 (m (d, a5')) Facts₀.shapeCasts_S256_S1x256 i) := by
  unfold Vr
  refine (StableHlo.reshape_result main_arg5 main_v11 rfl Facts₀.shapeCasts_S256_S1x256 ⟨by decide, rfl⟩ ⟨by decide, rfl⟩ ((op10 (F := F)).result ((op9 (F := F)).result ((op8 (F := F)).result ((op7 (F := F)).result ((op6 (F := F)).result ((op5 (F := F)).result ((op4 (F := F)).result ((op3 (F := F)).result ((op2 (F := F)).result (V2 m d))))))))))).trans ?_
  rw [keep11_a5 m d]; try rfl

/-- The table regrouped by byte and narrowed: the four strided slices of the table, one under the other. -/
def tabTerm (a1 : (⟨S4096x72, .f32⟩ : BufTy).Contents (Elt F)) : (⟨S4096x72, .bf16⟩ : BufTy).Contents (Elt F) :=
  truncf .bf16 (concatenate S4096x72 0
    [⟨S1024x72, Host.slice S1024x72 ![0, 0] ![4, 1] a1 Facts₀.slicesBy_S4096x72_S1024x72_0s4_0s1⟩,
     ⟨S1024x72, Host.slice S1024x72 ![1, 0] ![4, 1] a1 Facts₀.slicesBy_S4096x72_S1024x72_1s4_0s1⟩,
     ⟨S1024x72, Host.slice S1024x72 ![2, 0] ![4, 1] a1 Facts₀.slicesBy_S4096x72_S1024x72_2s4_0s1⟩,
     ⟨S1024x72, Host.slice S1024x72 ![3, 0] ![4, 1] a1 Facts₀.slicesBy_S4096x72_S1024x72_3s4_0s1⟩]
    Facts₀.concatenates_S1024x72_S1024x72_S1024x72_S1024x72_S4096x72_d0) Facts₀.bitsLt_bf16_f32

theorem Vr_v8 (d : Dev nD) : Vr m d v8' = tabTerm (m (d, a1')) := by
  unfold Vr
  rw [(op11 (F := F)).result_of_not_mem _ (b := v8') (show v8' ∉ ({Proc.devRef .tc (main_v11 : Ref sig .tc)} : Finset (DevRef τ sig)) by decide),
    (op10 (F := F)).result_of_not_mem _ (b := v8') (show v8' ∉ ({Proc.devRef .tc (main_v10 : Ref sig .tc)} : Finset (DevRef τ sig)) by decide),
    (op9 (F := F)).result_of_not_mem _ (b := v8') (show v8' ∉ ({Proc.devRef .tc (main_v9 : Ref sig .tc)} : Finset (DevRef τ sig)) by decide)]
  refine (StableHlo.unary_result main_v7 main_v8 _ ⟨by decide, rfl⟩ ⟨by decide, rfl⟩ ((op7 (F := F)).result ((op6 (F := F)).result ((op5 (F := F)).result ((op4 (F := F)).result ((op3 (F := F)).result ((op2 (F := F)).result (V2 m d)))))))).trans ?_
  rw [show ((op7 (F := F)).result ((op6 (F := F)).result ((op5 (F := F)).result ((op4 (F := F)).result ((op3 (F := F)).result ((op2 (F := F)).result (V2 m d))))))) v7' = _ from StableHlo.nary_result ![main_v3, main_v4, main_v5, main_v6] main_v7 _ (by decide) ⟨by decide, rfl⟩ ((op6 (F := F)).result ((op5 (F := F)).result ((op4 (F := F)).result ((op3 (F := F)).result ((op2 (F := F)).result (V2 m d))))))]
  have e3 : ((op6 (F := F)).result ((op5 (F := F)).result ((op4 (F := F)).result ((op3 (F := F)).result ((op2 (F := F)).result (V2 m d)))))) v3' = Host.slice S1024x72 ![0, 0] ![4, 1] (m (d, a1')) Facts₀.slicesBy_S4096x72_S1024x72_0s4_0s1 := by
    rw [(op6 (F := F)).result_of_not_mem _ (b := v3') (show v3' ∉ ({Proc.devRef .tc (main_v6 : Ref sig .tc)} : Finset (DevRef τ sig)) by decide),
      (op5 (F := F)).result_of_not_mem _ (b := v3') (show v3' ∉ ({Proc.devRef .tc (main_v5 : Ref sig .tc)} : Finset (DevRef τ sig)) by decide),
      (op4 (F := F)).result_of_not_mem _ (b := v3') (show v3' ∉ ({Proc.devRef .tc (main_v4 : Ref sig .tc)} : Finset (DevRef τ sig)) by decide)]
    refine (StableHlo.unary_result main_arg1 main_v3 _ ⟨by decide, rfl⟩ ⟨by decide, rfl⟩ ((op2 (F := F)).result (V2 m d))).trans ?_
    rw [keep3_a1 m d]
  have e4 : ((op6 (F := F)).result ((op5 (F := F)).result ((op4 (F := F)).result ((op3 (F := F)).result ((op2 (F := F)).result (V2 m d)))))) v4' = Host.slice S1024x72 ![1, 0] ![4, 1] (m (d, a1')) Facts₀.slicesBy_S4096x72_S1024x72_1s4_0s1 := by
    rw [(op6 (F := F)).result_of_not_mem _ (b := v4') (show v4' ∉ ({Proc.devRef .tc (main_v6 : Ref sig .tc)} : Finset (DevRef τ sig)) by decide),
      (op5 (F := F)).result_of_not_mem _ (b := v4') (show v4' ∉ ({Proc.devRef .tc (main_v5 : Ref sig .tc)} : Finset (DevRef τ sig)) by decide)]
    refine (StableHlo.unary_result main_arg1 main_v4 _ ⟨by decide, rfl⟩ ⟨by decide, rfl⟩ ((op3 (F := F)).result ((op2 (F := F)).result (V2 m d)))).trans ?_
    rw [keep4_a1 m d]
  have e5 : ((op6 (F := F)).result ((op5 (F := F)).result ((op4 (F := F)).result ((op3 (F := F)).result ((op2 (F := F)).result (V2 m d)))))) v5' = Host.slice S1024x72 ![2, 0] ![4, 1] (m (d, a1')) Facts₀.slicesBy_S4096x72_S1024x72_2s4_0s1 := by
    rw [(op6 (F := F)).result_of_not_mem _ (b := v5') (show v5' ∉ ({Proc.devRef .tc (main_v6 : Ref sig .tc)} : Finset (DevRef τ sig)) by decide)]
    refine (StableHlo.unary_result main_arg1 main_v5 _ ⟨by decide, rfl⟩ ⟨by decide, rfl⟩ ((op4 (F := F)).result ((op3 (F := F)).result ((op2 (F := F)).result (V2 m d))))).trans ?_
    rw [keep5_a1 m d]
  have e6 : ((op6 (F := F)).result ((op5 (F := F)).result ((op4 (F := F)).result ((op3 (F := F)).result ((op2 (F := F)).result (V2 m d)))))) v6' = Host.slice S1024x72 ![3, 0] ![4, 1] (m (d, a1')) Facts₀.slicesBy_S4096x72_S1024x72_3s4_0s1 := by
    refine (StableHlo.unary_result main_arg1 main_v6 _ ⟨by decide, rfl⟩ ⟨by decide, rfl⟩ ((op5 (F := F)).result ((op4 (F := F)).result ((op3 (F := F)).result ((op2 (F := F)).result (V2 m d)))))).trans ?_
    rw [keep6_a1 m d]
  unfold tabTerm
  show truncf .bf16 (concatenate S4096x72 0 [⟨S1024x72, ((op6 (F := F)).result ((op5 (F := F)).result ((op4 (F := F)).result ((op3 (F := F)).result ((op2 (F := F)).result (V2 m d)))))) v3'⟩, ⟨S1024x72, ((op6 (F := F)).result ((op5 (F := F)).result ((op4 (F := F)).result ((op3 (F := F)).result ((op2 (F := F)).result (V2 m d)))))) v4'⟩, ⟨S1024x72, ((op6 (F := F)).result ((op5 (F := F)).result ((op4 (F := F)).result ((op3 (F := F)).result ((op2 (F := F)).result (V2 m d)))))) v5'⟩, ⟨S1024x72, ((op6 (F := F)).result ((op5 (F := F)).result ((op4 (F := F)).result ((op3 (F := F)).result ((op2 (F := F)).result (V2 m d)))))) v6'⟩] _) _ = _
  rw [e3, e4, e5, e6]

/-! ## The result as one function of the six arguments -/

/-- The packed counts as the projection kernel reads them: the packed histograms of the tokens read in row-major
    order, as 16384 rows of 1024 words. -/
def cnt2Term (a0 : (⟨S16384x200, .i32⟩ : BufTy).Contents (Elt F)) : (⟨S16384x1024, .i32⟩ : BufTy).Contents (Elt F) :=
  fun i => shapeCast S16384x1024 (packedFlat (fun j => shapeCast S3276800 a0 Facts₀.shapeCasts_S16384x200_S3276800 j)) Facts₀.shapeCasts_S16777216_S16384x1024 i
/-- A vector of 256 features as one row. -/
def rowTerm (a : (⟨S256, .f32⟩ : BufTy).Contents (Elt F)) : (⟨S1x256, .f32⟩ : BufTy).Contents (Elt F) :=
  fun i => shapeCast S1x256 a Facts₀.shapeCasts_S256_S1x256 i

/-- The result array as a function of the six argument arrays: entry (r, k) is entry (r % 512, k) of the block
    function at rows 512 (r / 512) … of the packed counts, the regrouped table, the weights and the three rows. -/
def kerTerm (a0 : (⟨S16384x200, .i32⟩ : BufTy).Contents (Elt F)) (a1 : (⟨S4096x72, .f32⟩ : BufTy).Contents (Elt F))
    (a2 : (⟨S72x256, .f32⟩ : BufTy).Contents (Elt F)) (a3 a4 a5 : (⟨S256, .f32⟩ : BufTy).Contents (Elt F)) : S16384x256.Idx → Elt F .f32 := fun i =>
  tcOut (fun j : S512x1024.Idx => cnt2Term a0 (ValueIdx.ix2 (⟨512 * (ptOf i).val + (j 0).val, by
      have := pt_lt (ptOf i); have : (j 0).val < 512 := (j 0).isLt; omega⟩ : Fin 16384) (j 1 : Fin 1024)))
    (tabTerm a1) a2 (rowTerm a3) (rowTerm a4) (rowTerm a5)
    (ValueIdx.ix2 (⟨(i 0).val % 512, Nat.mod_lt _ (by decide)⟩ : Fin 512) (i 1 : Fin 256))

theorem tcG_kerTerm (c : Dev nD) :
    tcG (Vreg m) c = kerTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  funext i
  have e2 : Vreg m c main_v2 = cnt2Term (m ((c.tc : Thread nD τ).loc main_arg0)) := by
    show Vr m c v2' = _
    rw [Vr_v2, ids_eq]; rfl
  have e8 : Vreg m c main_v8 = tabTerm (m ((c.tc : Thread nD τ).loc main_arg1)) := Vr_v8 m c
  have ea2 : Vreg m c main_arg2 = (m ((c.tc : Thread nD τ).loc main_arg2)) := Vr_main_arg2 m c
  have e9 : Vreg m c main_v9 = rowTerm (m ((c.tc : Thread nD τ).loc main_arg3)) := Vr_v9 m c
  have e10 : Vreg m c main_v10 = rowTerm (m ((c.tc : Thread nD τ).loc main_arg4)) := Vr_v10 m c
  have e11 : Vreg m c main_v11 = rowTerm (m ((c.tc : Thread nD τ).loc main_arg5)) := Vr_v11 m c
  have e0 : iblk (Vreg m) c 0 (ptOf i) = fun j : S512x1024.Idx => cnt2Term (m ((c.tc : Thread nD τ).loc main_arg0)) (ValueIdx.ix2 (⟨512 * (ptOf i).val + (j 0).val, by
      have := pt_lt (ptOf i); have : (j 0).val < 512 := (j 0).isLt; omega⟩ : Fin 16384) (j 1 : Fin 1024)) := by
    funext j; rw [iblk0_apply, e2]
  unfold tcG kerTerm
  rw [e0, e8, ea2, e9, e10, e11]

/-- The run with the strongest post: the result array named as a function of the arguments, the arguments unchanged;
    from one task's statement and the precondition on the tokens. -/
theorem run_kernel [∀ e, Nonempty (Elt F e)] (hT : TileBody F UU) (hpre : ∀ d : Dev nD, Cert.Spec.TokOK (m ((SparseCore.T d).loc main_arg0))) :
    θ_run (Cert.Kernel.defs (F := F)) (Cert.Kernel.threads (F := F)) ⟨m, fun _ => 0, ρ⟩ (fun r => ∀ c : Dev nD,
      r.2.mem ((c.tc : Thread nD τ).loc main_v12) = kerTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run Cert.Kernel.defs _ _).mono (fun _ h c => by rw [← tcG_kerTerm m c]; exact h c) (run_main m ρ hT (idsOK_of_tok m hpre))

/-- info: 'Cert.Kernel.Hand.run_kernel' depends on axioms: [propext, Classical.choice, Quot.sound] -/
#guard_msgs in #print axioms run_kernel

end Cert.Kernel.Hand

end
-- ==== Proof.TileMath.lean ====
/-
  Pure facts the counting kernel's inner loops rest on: an indexed store that adds, on 32-bit words, leaves at each
  element the old word plus the sum of the lanes' values whose index names it (wrapping addition commutes, so the
  order of the lanes does not matter).
-/
import Idealize.ShloMosaic.PureOps
import proofs.«207659_g70703751627518_cont_9to1_m_904_5_alg».proof.Proof.Gen.KernelIdeal.Skeleton
import Mathlib.Data.BitVec
import Mathlib.Algebra.BigOperators.Fin

noncomputable section

namespace Cert.TileMath

open Idealize.ShloMosaic

variable {F : FTy → Type} [FloatOps F]

/-- One lane's step of the adding store, read at an element. -/
theorem storeIdx_add_i32 {s : Shape} {d : Fin 1 → Nat} (f : Vec F s .i32) (idxs : Fin s.rank → IVec ⟨1, d⟩ 32)
    (v : Vec F ⟨1, d⟩ .i32) (h : ∀ a x, (idxs a x).toNat < s.size a) (j : s.Idx) :
    (storeIdx f idxs v (fun _ => 1#1) true h j : BitVec 32)
      = (f j : BitVec 32) + ∑ k : Fin (d 0), (if (∀ a, (j a).val = (idxAt idxs h (Shape.ofLane k) a).val) then (v (Shape.ofLane k) : BitVec 32) else 0#32) := by
  unfold storeIdx
  rw [Fin.sum_univ_def]
  generalize List.finRange (d 0) = l
  induction l generalizing f with
  | nil => simp
  | cons k l ih =>
    rw [List.foldl_cons, ih, List.map_cons, List.sum_cons, ← add_assoc]
    congr 1
    rw [if_pos (show (1#1 : BitVec 1) = 1 from rfl)]
    by_cases hj : ∀ a, (j a).val = (idxAt idxs h (Shape.ofLane k) a).val
    · have e : j = idxAt idxs h (Shape.ofLane k) := funext fun a => Fin.ext (hj a)
      rw [if_pos hj, if_pos hj, if_pos (rfl : true = true), e]; rfl
    · rw [if_neg hj, if_neg hj]; exact (BitVec.add_zero _).symm

/-! ## The lanes' index vectors

Lane x of the token loop reads word 200 x + l of the first scratch at trip l, and adds into word 1024 x + t / 4 of the
second scratch, where t is the token it read. -/

open Cert.KernelIdeal Cert.KernelIdeal.Gen

theorem lane_lt (x : S16.Idx) : (x 0).val < 16 := (x 0).isLt

theorem pay2_toNat (l : Fin k0_t3_loop.trips) (x : S16.Idx) : (k0_pay2 l x).toNat = 200 * (x 0).val + l.val := by
  have hl : l.val < 200 := lt_of_lt_of_le l.isLt k0_t3_abs.2.1
  have hx : (x 0).val < 16 := (x 0).isLt
  unfold k0_pay2
  simp only [addi, muli, iota, broadcast, IntOp.addi, IntOp.muli, Scf.iv, List.foldl_cons, List.foldl_nil]
  simp only [BitVec.toNat_add, BitVec.toNat_mul, BitVec.toNat_ofNat, zero_mul, zero_add]
  omega

theorem chk1_all (l : Fin k0_t3_loop.trips) : k0_chk1 (k0_pay2 l) := by
  intro a x
  have hl : l.val < 200 := lt_of_lt_of_le l.isLt k0_t3_abs.2.1
  have hx : (x 0).val < 16 := (x 0).isLt
  obtain rfl : a = 0 := Subsingleton.elim _ _
  show (k0_pay2 l x).toNat < 3200
  rw [pay2_toNat]; omega

theorem pay4_toNat (v : Vec F S16 .i32) (x : S16.Idx) (hv : (v x).toNat < 4096) :
    (k0_pay4 v x).toNat = 1024 * (x 0).val + (v x).toNat / 4 := by
  have hx : (x 0).val < 16 := (x 0).isLt
  have hs : IntOp.shrui .vector (v x) 2#32 = (v x : BitVec 32) >>> (2 : Nat) := by
    unfold IntOp.shrui; rw [if_pos (by decide)]; rfl
  have e : k0_pay4 v x = BitVec.ofNat 32 (x 0).val * 1024#32 + ((v x : BitVec 32) >>> (2 : Nat)) := by
    unfold k0_pay4
    simp only [addi, muli, shrui, iota, broadcast, IntOp.addi, IntOp.muli, List.foldl_cons, List.foldl_nil, hs]
    congr 2
    simp
  rw [e]
  have h4 : (v x).toNat / 4 < 1024 := by omega
  simp only [BitVec.toNat_add, BitVec.toNat_mul, BitVec.toNat_ofNat, BitVec.toNat_ushiftRight, Nat.shiftRight_eq_div_pow]
  omega

theorem chk2_of_range (v : Vec F S16 .i32) (hv : ∀ x, (v x).toNat < 4096) : k0_chk2 (k0_pay4 v) := by
  intro a x
  have hx : (x 0).val < 16 := (x 0).isLt
  obtain rfl : a = 0 := Subsingleton.elim _ _
  show (k0_pay4 v x).toNat < 16384
  rw [pay4_toNat v x (hv x)]
  have := hv x
  omega

end Cert.TileMath

end
-- ==== Proof.TileDefs.lean ====
/-
  One vector subcore's task of the counting kernel: 32 trips, each copying sixteen queries' tokens into the first scratch,
  clearing the second scratch, adding one to a byte of a word of it per token (sixteen queries at a time, one per lane,
  lane x in words 1024 x .. 1024 x + 1023), and copying the second scratch out to the counts.
-/
import proofs.«207659_g70703751627518_cont_9to1_m_904_5_alg».proof.Proof.Base
import Idealize.ShloMosaic.Lib.SparseCore.Ops
import Idealize.ShloMosaic.Lib.Pipeline.Kit
import proofs.«207659_g70703751627518_cont_9to1_m_904_5_alg».proof.Proof.TileMath

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F] {U : Type} [URA U] [CountersIn U]

local notation "𝕄" => MT nD τ sig (HIx 1) (Elt F) ℕ U ℕ

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl

-- the kernel's memrefs, spelt as the body table passes them
local notation "idsW" => (Memref.whole Cert.KernelIdeal.main_v0_scv : Memref Cert.KernelIdeal.sig Kind.scVector Space.hbm Cert.KernelIdeal.S3276800 EltTy.i32)
local notation "cntW" => (Memref.whole Cert.KernelIdeal.main_v1_scv : Memref Cert.KernelIdeal.sig Kind.scVector Space.hbm Cert.KernelIdeal.S16777216 EltTy.i32)
local notation "sI" => (Memref.whole Cert.KernelIdeal.cc0_scratch0 : Memref Cert.KernelIdeal.sig Kind.scVector Space.vmem Cert.KernelIdeal.S3200 EltTy.i32)
local notation "sB" => (Memref.whole Cert.KernelIdeal.cc0_scratch1 : Memref Cert.KernelIdeal.sig Kind.scVector Space.vmem Cert.KernelIdeal.S16384 EltTy.i32)

section Tile

variable (d : Dev nD) (L : grid0.Coords)

abbrev thr : Thread nD τ := V d (cV L) (jV L)
abbrev c0cell : GSem nD τ sig := (thr d L, .dma cc0_scoped0.sem)
abbrev c1cell : GSem nD τ sig := (thr d L, .dma cc0_scoped1.sem)
/-- The piece this subcore works on in trip k. -/
abbrev pc (k : Fin 32) : Fin 1024 := pieceOf (Fin.cast bound_zero (L 0)) (Fin.cast bound_one (L 1)) k

omit [FloatOps F] [Named F] [CountersIn U] in
theorem ownSems0_V :
    (ownSems0 (thr d L) : sProp 𝕄)
      = iprop(semVal (c0cell d L) 0 ∗ semVal (c1cell d L) 0
          ∗ bigSep (((ownCells (thr d L)).erase (c0cell d L)).erase (c1cell d L)) fun g => semVal g 0) := by
  unfold SparseCore.Cfg.ownSems0
  rw [SparseCore.bigSep_erase' ((mem_ownCells (g := c0cell d L)).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d L)).mpr ⟨rfl, by
      show (SemLoc.dma cc0_scoped1.sem : SemLoc sig).isScoped .scVector = true; decide⟩⟩)]

omit [FloatOps F] [Named F] [CountersIn U] in
/-- The two scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The outer loop's invariant before trip k: the pieces of the tokens as they were, the pieces of the counts done before
    trip k at the packed histograms and the others as they were, the two scratches at some contents, both counters at zero. -/
def invO (ids : Buf (Elt F) (idsLoc d)) (cnt : Buf (Elt F) (cntLoc d)) (O : CellTallies nD τ sig (HIx 1)) (W : Waits sig (HIx 1))
    (k : Nat) (_ : BitVec 32) : sProp 𝕄 :=
  iprop(Transfers.MayWaits (thr d L) (none : HIx 1) O
    ∗ (bigSep (Finset.univ : Finset (Fin 32)) fun k' => iprop((idsLoc d ↦[(ipiece (pc L k')).set]{fullShare} ids)
        ∗ (cntLoc d ↦[(cpiece (pc L k')).set]{fullShare} (if k'.val < k then packedFlat ids else cnt))))
    ∗ (∃ f, (sI).view.loc (thr d L) ↦{fullShare} f)
    ∗ (∃ f, (sB).view.loc (thr d L) ↦{fullShare} f)
    ∗ semVal (c0cell d L) 0 ∗ semVal (c1cell d L) 0
    ∗ ∃ W', ⌜∀ p ∈ W', p ∈ W ∨ p.2 = none⌝ ∗ owes (thr d L) O W')

/-- k as one of the 32 trips. -/
def k32 (k : Fin k0_t1_loop.trips) : Fin 32 := ⟨k.val, lt_of_lt_of_le k.isLt k0_t1_abs.2.1⟩

abbrev idsSl (k : Fin k0_t1_loop.trips) : Memref sig .scVector .hbm S3200 .i32 :=
  (idsW).slice (Rect.unit (s := S3276800) (k0_off1 L k) S3200.size (k0_off1_inb L k)) (fun _ => rfl)
abbrev cntSl (k : Fin k0_t1_loop.trips) : Memref sig .scVector .hbm S16384 .i32 :=
  (cntW).slice (Rect.unit (s := S16777216) (k0_off3 L k) S16384.size (k0_off3_inb L k)) (fun _ => rfl)

omit [FloatOps F] [Named F] [CountersIn U] in
theorem idsRect_eq (k : Fin k0_t1_loop.trips) :
    Rect.unit (s := S3276800) (k0_off1 L k) S3200.size (k0_off1_inb L k) = ipiece (pc L (k32 k)) := by
  unfold ipiece Rect.part Rect.block
  congr 1 <;> funext a
  · rw [k0_off1_eq]
    match a with
    | 0 =>
      have hp : (pc L (k32 k)).val = 64 * (L 1).val + 32 * (L 0).val + k.val := rfl
      simp [Shape.partIx, Shape.partSize, hp]
      try omega
  · match a with
    | 0 => simp [Shape.partSize]

omit [FloatOps F] [Named F] [CountersIn U] in
theorem cntRect_eq (k : Fin k0_t1_loop.trips) :
    Rect.unit (s := S16777216) (k0_off3 L k) S16384.size (k0_off3_inb L k) = cpiece (pc L (k32 k)) := by
  unfold cpiece Rect.part Rect.block
  congr 1 <;> funext a
  · rw [k0_off3_eq]
    match a with
    | 0 =>
      have hp : (pc L (k32 k)).val = 64 * (L 1).val + 32 * (L 0).val + k.val := rfl
      simp [Shape.partIx, Shape.partSize, hp]
      try omega
  · match a with
    | 0 => simp [Shape.partSize]

omit [FloatOps F] [Named F] [CountersIn U] in
theorem set_idsSl (k : Fin k0_t1_loop.trips) : (idsSl L k).view.set = (ipiece (pc L (k32 k))).set := by
  show ((View.whole (main_v0_scv : Ref sig .scVector)).slice (Rect.unit (s := S3276800) (k0_off1 L k) S3200.size (k0_off1_inb L k))).set = _
  rw [View.set_slice_whole, idsRect_eq]
omit [FloatOps F] [Named F] [CountersIn U] in
theorem set_cntSl (k : Fin k0_t1_loop.trips) : (cntSl L k).view.set = (cpiece (pc L (k32 k))).set := by
  show ((View.whole (main_v1_scv : Ref sig .scVector)).slice (Rect.unit (s := S16777216) (k0_off3 L k) S16384.size (k0_off3_inb L k))).set = _
  rw [View.set_slice_whole, cntRect_eq]

omit [FloatOps F] [Named F] [CountersIn U] in
theorem pts_ids (k : Fin k0_t1_loop.trips) (f : Buf (Elt F) (idsLoc d)) :
    ((idsSl L k).view.loc (thr d L) ↦[(idsSl L k).view.set]{fullShare} f : sProp 𝕄) = idsLoc d ↦[(ipiece (pc L (k32 k))).set]{fullShare} f := by
  rw [set_idsSl]
omit [FloatOps F] [Named F] [CountersIn U] in
theorem pts_cnt (k : Fin k0_t1_loop.trips) (f : Buf (Elt F) (cntLoc d)) :
    ((cntSl L k).view.loc (thr d L) ↦[(cntSl L k).view.set]{fullShare} f : sProp 𝕄) = cntLoc d ↦[(cpiece (pc L (k32 k))).set]{fullShare} f := by
  rw [set_cntSl]

/-! ### The clearing loop -/

/-- One trip of the clearing loop: sixteen words from 16 k2 set to zero. -/
def zstep (k2 : Fin k0_t2_loop.trips) (f : Buf (Elt F) ((sB).view.loc (thr d L))) : Buf (Elt F) ((sB).view.loc (thr d L)) :=
  (sB).view.writes (Elt F) f [⟨Rect.unit (s := S16384) (k0_off2 k2) S16.size (k0_off2_inb k2), (k0_pay1 : IVec S16 32)⟩]

/-- The second scratch before trip n of the clearing loop, from its contents f0 at the loop's entry. -/
def zfill (f0 : Buf (Elt F) ((sB).view.loc (thr d L))) : ℕ → Buf (Elt F) ((sB).view.loc (thr d L))
  | 0 => f0
  | n + 1 => if h : n < k0_t2_loop.trips then zstep d L ⟨n, h⟩ (zfill f0 n) else zfill f0 n

omit [Named F] [CountersIn U] in
theorem zfill_zero (f0 : Buf (Elt F) ((sB).view.loc (thr d L))) : zfill d L f0 0 = f0 := rfl

omit [Named F] [CountersIn U] in
theorem zfill_succ (f0 : Buf (Elt F) ((sB).view.loc (thr d L))) (k2 : Fin k0_t2_loop.trips) :
    zfill d L f0 (k2.val + 1) = zstep d L k2 (zfill d L f0 k2.val) := by
  show (if h : k2.val < k0_t2_loop.trips then zstep d L ⟨k2.val, h⟩ (zfill d L f0 k2.val) else zfill d L f0 k2.val) = _
  rw [dif_pos k2.isLt]

attribute [irreducible] zfill

def invZ (f0 : Buf (Elt F) ((sB).view.loc (thr d L))) (k2 : Nat) (_ : BitVec 32) : sProp 𝕄 :=
  iprop((sB).view.loc (thr d L) ↦{fullShare} zfill d L f0 k2)

theorem zero_trip (f0 : Buf (Elt F) ((sB).view.loc (thr d L))) (k2 : Fin k0_t2_loop.trips) (acc : BitVec 32) :
    (invZ (U := U) d L f0 k2.val acc)
      ⊢ wp frame (wpE (defs₀ (F := F)) 𝒱₀ (thr d L) none) Set.univ
          (k0_t2_body L idsW (Memref.isWhole_whole _) cntW (Memref.isWhole_whole _) sI (Memref.isWhole_whole _) sB (Memref.isWhole_whole _) cc0_scoped0 cc0_scoped1 k2 acc)
          fun r => invZ (U := U) d L f0 (k2.val + 1) r := by
  unfold invZ k0_t2_body
  iintro Hb
  sl_exec
  sl_step
  rw [zfill_succ]
  iexact Hb

/-! ### The token loop -/

open Cert.TileMath (chk1_all chk2_of_range)

/-- The sixteen tokens of position l, one per lane, read out of the first scratch at contents P. -/
abbrev ldTok (P : Buf (Elt F) ((sI).view.loc (thr d L))) (l : Fin k0_t3_loop.trips) : Vec F S16 .i32 :=
  loadIdx (View.read (Elt F) ((sI).access (Rect.whole (cc0_scratch0 : Ref sig .scVector).ty.shape)) P) ![k0_pay2 l] (k0_idx1_inb (k0_pay2 l) (chk1_all l))

theorem ldTok_range (P : Buf (Elt F) ((sI).view.loc (thr d L))) (hP : ∀ i, (P i).toNat < 4096) (l : Fin k0_t3_loop.trips) :
    ∀ x, (ldTok d L P l x).toNat < 4096 := fun x => hP _

/-- One trip of the token loop on the second scratch: each lane's byte of its word gets one more. -/
def tstep (P : Buf (Elt F) ((sI).view.loc (thr d L))) (hP : ∀ i, (P i).toNat < 4096) (l : Fin k0_t3_loop.trips)
    (f : Buf (Elt F) ((sB).view.loc (thr d L))) : Buf (Elt F) ((sB).view.loc (thr d L)) :=
  ((sB).access (Rect.whole (cc0_scratch1 : Ref sig .scVector).ty.shape)).write (Elt F) f
    (storeIdx (((sB).access (Rect.whole (cc0_scratch1 : Ref sig .scVector).ty.shape)).read (Elt F) f) ![k0_pay4 (ldTok d L P l)] (k0_pay3 (ldTok d L P l)) (fun _ => 1#1) true
      (k0_idx2_inb (k0_pay4 (ldTok d L P l)) (chk2_of_range _ (ldTok_range d L P hP l)))) Finset.univ

/-- The second scratch before trip n of the token loop, from its contents g0 at the loop's entry. -/
def hist (P : Buf (Elt F) ((sI).view.loc (thr d L))) (hP : ∀ i, (P i).toNat < 4096) (g0 : Buf (Elt F) ((sB).view.loc (thr d L))) :
    ℕ → Buf (Elt F) ((sB).view.loc (thr d L))
  | 0 => g0
  | n + 1 => if h : n < k0_t3_loop.trips then tstep d L P hP ⟨n, h⟩ (hist P hP g0 n) else hist P hP g0 n

theorem hist_zero (P : Buf (Elt F) ((sI).view.loc (thr d L))) (hP : ∀ i, (P i).toNat < 4096) (g0 : Buf (Elt F) ((sB).view.loc (thr d L))) :
    hist d L P hP g0 0 = g0 := rfl

theorem hist_succ (P : Buf (Elt F) ((sI).view.loc (thr d L))) (hP : ∀ i, (P i).toNat < 4096) (g0 : Buf (Elt F) ((sB).view.loc (thr d L)))
    (l : Fin k0_t3_loop.trips) : hist d L P hP g0 (l.val + 1) = tstep d L P hP l (hist d L P hP g0 l.val) := by
  show (if h : l.val < k0_t3_loop.trips then tstep d L P hP ⟨l.val, h⟩ (hist d L P hP g0 l.val) else hist d L P hP g0 l.val) = _
  rw [dif_pos l.isLt]

attribute [irreducible] hist

def invT (P : Buf (Elt F) ((sI).view.loc (thr d L))) (hP : ∀ i, (P i).toNat < 4096) (g0 : Buf (Elt F) ((sB).view.loc (thr d L)))
    (l : Nat) (_ : BitVec 32) : sProp 𝕄 :=
  iprop(((sI).view.loc (thr d L) ↦{fullShare} P) ∗ ((sB).view.loc (thr d L) ↦{fullShare} hist d L P hP g0 l))

omit [FloatOps F] [Named F] [CountersIn U] in
theorem pts_sI_access (f : Buf (Elt F) ((sI).view.loc (thr d L))) :
    ((((sI).access (Rect.whole (cc0_scratch0 : Ref sig .scVector).ty.shape)).loc (thr d L) ↦{fullShare} f : sProp 𝕄)) = ((sI).view.loc (thr d L) ↦{fullShare} f) := rfl
omit [FloatOps F] [Named F] [CountersIn U] in
theorem pts_sB_access (f : Buf (Elt F) ((sB).view.loc (thr d L))) :
    ((((sB).access (Rect.whole (cc0_scratch1 : Ref sig .scVector).ty.shape)).loc (thr d L) ↦[((sB).access (Rect.whole (cc0_scratch1 : Ref sig .scVector).ty.shape)).set]{fullShare} f : sProp 𝕄)) = ((sB).view.loc (thr d L) ↦{fullShare} f) := by
  rw [show ((sB).access (Rect.whole (cc0_scratch1 : Ref sig .scVector).ty.shape)).set = Finset.univ from by
    show ((View.whole (cc0_scratch1 : Ref sig .scVector)).slice (Rect.whole S16384)).set = _
    rw [View.set_slice_whole]; exact Rect.set_whole _]

theorem tok_trip (P : Buf (Elt F) ((sI).view.loc (thr d L))) (hP : ∀ i, (P i).toNat < 4096) (g0 : Buf (Elt F) ((sB).view.loc (thr d L)))
    (l : Fin k0_t3_loop.trips) (acc : BitVec 32) :
    (invT (U := U) d L P hP g0 l.val acc)
      ⊢ wp frame (wpE (defs₀ (F := F)) 𝒱₀ (thr d L) none) Set.univ
          (k0_t3_body L idsW (Memref.isWhole_whole _) cntW (Memref.isWhole_whole _) sI (Memref.isWhole_whole _) sB (Memref.isWhole_whole _) cc0_scoped0 cc0_scoped1 l acc)
          fun r => invT (U := U) d L P hP g0 (l.val + 1) r := by
  unfold invT k0_t3_body
  iintro ⟨Hs, Hb⟩
  simp only [Prog.lift, Prog.bind_op, Prog.bind_ret, Prog.pure_eq_ret, bind_assoc]
  rw [wp_assume_of _ _ _ _ (chk1_all l)]
  ihave Hs' := (Entails.of_eq (pts_sI_access (U := U) d L P).symm) $$ Hs
  iapply (SparseCore.wp_vectorLoadIdx 𝒱₀ (thr d L) none Set.univ (base := sI) (S := Finset.univ) (q := fullShare) (Finset.subset_univ _)) $$ Hs'; iintro Hs'
  have h2 : k0_chk2 (k0_pay4 (ldTok d L P l)) := chk2_of_range _ (ldTok_range d L P hP l)
  rw [wp_assume_of _ _ _ _ h2]
  ihave Hb' := (Entails.of_eq (pts_sB_access (U := U) d L _).symm) $$ Hb
  iapply (SparseCore.wp_vectorStoreIdx 𝒱₀ (thr d L) none Set.univ (base := sB)) $$ Hb'; iintro Hb'
  rw [wp_ret]; imodintro
  rw [hist_succ]
  isplitl [Hs']
  · iapply (Entails.of_eq (pts_sI_access (U := U) d L P)); iexact Hs'
  · iapply (Entails.of_eq (pts_sB_access (U := U) d L _)); iexact Hb'

omit [FloatOps F] [Named F] [CountersIn U] in
theorem sI_landed (fs' w : Buf (Elt F) ((sI).view.loc (thr d L))) :
    ((sI).view.loc (thr d L) ↦{fullShare} View.write (Elt F) (sI).view fs' w Finset.univ : sProp 𝕄) = ((sI).view.loc (thr d L) ↦{fullShare} w) := by
  rw [show View.write (Elt F) (sI).view fs' w Finset.univ = w from View.write_whole_univ _ _ _]

omit [FloatOps F] [Named F] [CountersIn U] in
theorem pts_name {ℓ : Loc nD τ sig} (w : Buf (Elt F) ℓ) : (ℓ ↦{fullShare} w : sProp 𝕄) ⊢ iprop(∃ P, ⌜P = w⌝ ∗ ℓ ↦{fullShare} P) := by
  iintro H; iexists w; isplitr; · ipureintro; rfl
  iexact H

theorem trips1 : k0_t1_loop.trips = 32 := by decide
theorem trips2 : k0_t2_loop.trips = 1024 := by decide
theorem trips3 : k0_t3_loop.trips = 200 := by decide

omit [FloatOps F] [Named F] [CountersIn U] in
theorem name_writes {ℓ : Loc nD τ sig} {S : Finset ℓ.ty.Idx} (G : (S16384.Idx → Elt F .i32) → Buf (Elt F) ℓ) (X : S16384.Idx → Elt F .i32) :
    (ℓ ↦[S]{fullShare} G X : sProp 𝕄) ⊢ iprop(∃ X', ⌜X' = X⌝ ∗ ℓ ↦[S]{fullShare} G X') := by
  iintro H; iexists X; isplitr; · ipureintro; rfl
  iexact H

omit [FloatOps F] [Named F] [CountersIn U] in
theorem pieces_step (ids : Buf (Elt F) (idsLoc d)) (cnt : Buf (Elt F) (cntLoc d)) (k : Fin k0_t1_loop.trips) :
    ∀ k' ∈ (Finset.univ : Finset (Fin 32)).erase (k32 k),
      (iprop((idsLoc d ↦[(ipiece (pc L k')).set]{fullShare} ids) ∗ (cntLoc d ↦[(cpiece (pc L k')).set]{fullShare} (if k'.val < k.val then packedFlat ids else cnt))) : sProp 𝕄)
        = iprop((idsLoc d ↦[(ipiece (pc L k')).set]{fullShare} ids) ∗ (cntLoc d ↦[(cpiece (pc L k')).set]{fullShare} (if k'.val < k.val + 1 then packedFlat ids else cnt))) := by
  intro k' hk'
  have hne : k'.val ≠ k.val := fun e => (Finset.mem_erase.mp hk').1 (Fin.ext e)
  by_cases h : k'.val < k.val
  · rw [if_pos h, if_pos (by omega)]
  · rw [if_neg h, if_neg (by omega)]

end Tile

end Cert.KernelIdeal.Hand

end
-- ==== Proof.HistLaws.lean ====
/-
  The counting kernel's inner loop, abstractly, and the word it adds.

  Sixteen lanes x work on one query each; the loop makes 200 trips l. At trip l lane x adds the word
  1 <<< (8 (t % 4)) into word 1024 x + t / 4 of a buffer of 16384 words, t = tok x l being the lane's token
  (below 4096). Since t / 4 < 1024, word j is only ever written by lane j / 1024, and only by the trips whose
  token t has t / 4 = j % 1024: after the 200 trips word j is word j % 1024 of the packed histogram of the
  query of lane j / 1024.

  The word added is printed as 1 shifted left by ((t and 3) shifted left by 3): the inner amount is
  8 (t % 4), at most 24, so neither shift reaches the width.
-/
import proofs.«207659_g70703751627518_cont_9to1_m_904_5_alg».proof.Proof.Spec
import proofs.«207659_g70703751627518_cont_9to1_m_904_5_alg».proof.Proof.Gen.KernelIdeal.Skeleton
import Mathlib.Algebra.BigOperators.Group.Finset.Basic
import Mathlib.Data.Fintype.BigOperators
import Mathlib.Tactic.NormNum

noncomputable section

namespace Cert.HistLaws

open Idealize.ShloMosaic Idealize.SL.Sem

/-! ### The loop -/

/-- One trip: every lane adds its word into its place. -/
def pstep (tok : Fin 16 → Fin 200 → ℕ) (l : Fin 200) (f : Fin 16384 → BitVec 32) : Fin 16384 → BitVec 32 :=
  fun j => f j + ∑ x : Fin 16, if j.val = 1024 * x.val + tok x l / 4 then (1#32 <<< (8 * (tok x l % 4))) else 0#32

/-- The buffer after n trips, from the zero buffer. -/
def phist (tok : Fin 16 → Fin 200 → ℕ) : ℕ → (Fin 16384 → BitVec 32)
  | 0 => fun _ => 0#32
  | n + 1 => if h : n < 200 then pstep tok ⟨n, h⟩ (phist tok n) else phist tok n

/-- What trip l adds into word j: the word of lane j / 1024, if that lane's token lands in word j. -/
def lane (tok : Fin 16 → Fin 200 → ℕ) (j : Fin 16384) (l : Fin 200) : BitVec 32 :=
  if tok ⟨j.val / 1024, by have := j.isLt; omega⟩ l / 4 = j.val % 1024
    then (1#32 <<< (8 * (tok ⟨j.val / 1024, by have := j.isLt; omega⟩ l % 4))) else 0#32

/-- Of the sixteen lanes only lane j / 1024 can write word j (a token's word number is below 1024). -/
theorem lane_sum (tok : Fin 16 → Fin 200 → ℕ) (htok : ∀ x l, tok x l < 4096) (j : Fin 16384) (l : Fin 200) :
    (∑ x : Fin 16, if j.val = 1024 * x.val + tok x l / 4 then (1#32 <<< (8 * (tok x l % 4))) else 0#32)
      = lane tok j l := by
  have hj := j.isLt
  have hx0 : j.val / 1024 < 16 := by omega
  refine (Finset.sum_eq_single (⟨j.val / 1024, hx0⟩ : Fin 16) ?_ ?_).trans ?_
  · intro x _ hx
    have ht := htok x l
    have hxv : x.val ≠ j.val / 1024 := fun e => hx (Fin.ext e)
    exact if_neg (by omega)
  · intro hh
    exact absurd (Finset.mem_univ _) hh
  · have ht := htok ⟨j.val / 1024, hx0⟩ l
    have hiff : (j.val = 1024 * (j.val / 1024) + tok ⟨j.val / 1024, hx0⟩ l / 4) ↔
        (tok ⟨j.val / 1024, hx0⟩ l / 4 = j.val % 1024) := by omega
    exact if_congr hiff rfl rfl

/-- The sum over the trips before n + 1 is the sum over the trips before n, plus trip n's term. -/
theorem sum_lt_succ {M : Type} [AddCommMonoid M] (t : Fin 200 → M) (n : ℕ) (h : n < 200) :
    (∑ l : Fin 200, if l.val < n + 1 then t l else 0)
      = (∑ l : Fin 200, if l.val < n then t l else 0) + t ⟨n, h⟩ := by
  have hsplit : ∀ l : Fin 200, (if l.val < n + 1 then t l else 0) =
      (if l.val < n then t l else 0) + (if l.val = n then t l else 0) := by
    intro l
    split_ifs <;> first | omega | simp
  have hone : (∑ l : Fin 200, if l.val = n then t l else 0) = t ⟨n, h⟩ := by
    refine (Finset.sum_eq_single (⟨n, h⟩ : Fin 200) ?_ ?_).trans ?_
    · intro l _ hl
      exact if_neg (fun e => hl (Fin.ext e))
    · intro hh
      exact absurd (Finset.mem_univ _) hh
    · exact if_pos rfl
  rw [Fintype.sum_congr _ _ hsplit, Finset.sum_add_distrib, hone]

/-- After n trips (n at most 200) word j holds what the trips before n added into it. -/
theorem phist_eq (tok : Fin 16 → Fin 200 → ℕ) (htok : ∀ x l, tok x l < 4096) (j : Fin 16384) :
    ∀ n : ℕ, n ≤ 200 → phist tok n j = ∑ l : Fin 200, if l.val < n then lane tok j l else 0
  | 0, _ => (Finset.sum_eq_zero (fun l _ => if_neg (Nat.not_lt_zero _))).symm
  | n + 1, hn => by
    have h : n < 200 := by omega
    show (if h' : n < 200 then pstep tok ⟨n, h'⟩ (phist tok n) else phist tok n) j = _
    rw [dif_pos h]
    show phist tok n j + (∑ x : Fin 16, if j.val = 1024 * x.val + tok x ⟨n, h⟩ / 4
        then (1#32 <<< (8 * (tok x ⟨n, h⟩ % 4))) else 0#32) = _
    rw [lane_sum tok htok j ⟨n, h⟩, phist_eq tok htok j n (by omega), sum_lt_succ (lane tok j) n h]

/-- After the 200 trips word j is word j % 1024 of the packed histogram of lane j / 1024's query. -/
theorem phist_final (tok : Fin 16 → Fin 200 → ℕ) (htok : ∀ x l, tok x l < 4096) (j : Fin 16384) :
    phist tok 200 j = Cert.Spec.packedQ (fun l => ⟨tok ⟨j.val / 1024, by have := j.isLt; omega⟩ l, htok _ _⟩) ⟨j.val % 1024, Nat.mod_lt _ (by decide)⟩ := by
  rw [phist_eq tok htok j 200 le_rfl]
  unfold Cert.Spec.packedQ
  apply Fintype.sum_congr
  intro l
  rw [if_pos l.isLt]
  rfl

/-! ### The word added -/

/-- One shifted left by ((a and 3) shifted left by 3) is one shifted left by 8 (a % 4): the inner amount
    is 8 (a % 4), at most 24, so both shifts are below the width. -/
theorem shl_pay (a : BitVec 32) :
    IntOp.shli .vector (1#32) (IntOp.shli .vector (IntOp.andi a 3#32) 3#32) = 1#32 <<< (8 * (a.toNat % 4)) := by
  have hv : (a &&& 3#32).toNat = a.toNat % 4 := by
    rw [BitVec.toNat_and]
    exact Nat.and_two_pow_sub_one_eq_mod a.toNat 2
  have hin : ((a &&& 3#32) <<< (3#32 : BitVec 32)).toNat = 8 * (a.toNat % 4) := by
    show ((a &&& 3#32) <<< (3#32 : BitVec 32).toNat).toNat = _
    rw [BitVec.toNat_shiftLeft, hv, Nat.shiftLeft_eq]
    show a.toNat % 4 * 2 ^ 3 % 2 ^ 32 = _
    omega
  unfold IntOp.shli IntOp.andi
  rw [if_pos (show (3#32 : BitVec 32).toNat < 32 by decide)]
  rw [if_pos (show ((a &&& 3#32) <<< (3#32 : BitVec 32)).toNat < 32 by rw [hin]; omega)]
  show (1#32 : BitVec 32) <<< ((a &&& 3#32) <<< (3#32 : BitVec 32)).toNat = _
  rw [hin]

/-- The printed payload of the indexed store, lane by lane. -/
theorem pay3_eq {F : FTy → Type} [FloatOps F] [Named F] (v : Vec F Cert.KernelIdeal.S16 .i32) (x : Cert.KernelIdeal.S16.Idx) :
    (Cert.KernelIdeal.Gen.k0_pay3 v x : BitVec 32) = 1#32 <<< (8 * ((v x : BitVec 32).toNat % 4)) :=
  shl_pay (v x)

end Cert.HistLaws

end
-- ==== Proof.TileValue.lean ====
/-
  The value of one outer trip of the counting kernel: after the clearing loop the second scratch is all zeros, each
  trip of the token loop adds one lane's word per lane, and after its 200 trips word y of the second scratch is the
  word of the packed histograms that the flat counts hold at the place the trip's copy puts word y.
-/
import proofs.«207659_g70703751627518_cont_9to1_m_904_5_alg».proof.Proof.TileDefs
import proofs.«207659_g70703751627518_cont_9to1_m_904_5_alg».proof.Proof.TileMath
import proofs.«207659_g70703751627518_cont_9to1_m_904_5_alg».proof.Proof.HistLaws
import Idealize.ShloMosaic.Lib.WritesUnit

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F] {U : Type} [URA U] [CountersIn U]

local notation "𝕄" => MT nD τ sig (HIx 1) (Elt F) ℕ U ℕ

-- the kernel's memrefs, spelt as the body table passes them
local notation "idsW" => (Memref.whole Cert.KernelIdeal.main_v0_scv : Memref Cert.KernelIdeal.sig Kind.scVector Space.hbm Cert.KernelIdeal.S3276800 EltTy.i32)
local notation "cntW" => (Memref.whole Cert.KernelIdeal.main_v1_scv : Memref Cert.KernelIdeal.sig Kind.scVector Space.hbm Cert.KernelIdeal.S16777216 EltTy.i32)
local notation "sI" => (Memref.whole Cert.KernelIdeal.cc0_scratch0 : Memref Cert.KernelIdeal.sig Kind.scVector Space.vmem Cert.KernelIdeal.S3200 EltTy.i32)
local notation "sB" => (Memref.whole Cert.KernelIdeal.cc0_scratch1 : Memref Cert.KernelIdeal.sig Kind.scVector Space.vmem Cert.KernelIdeal.S16384 EltTy.i32)

section Tile

variable (d : Dev nD) (L : grid0.Coords)

/-! ### Words and lanes -/

/-- The second scratch's contents as words. -/
abbrev wd (f : Buf (Elt F) ((sB).view.loc (thr d L))) : S16384.Idx → BitVec 32 := f
/-- The first scratch's contents as words. -/
abbrev wdI (P : Buf (Elt F) ((sI).view.loc (thr d L))) : S3200.Idx → BitVec 32 := P
/-- The flat tokens' contents as words. -/
abbrev wdT (ids : Buf (Elt F) (idsLoc d)) : S3276800.Idx → BitVec 32 := ids

/-- Lane x as an index of the sixteen-lane vectors. -/
abbrev lane16 (x : Fin 16) : S16.Idx := Shape.ofLane (d := ![16]) x

/-! ### The clearing loop: all zeros -/

/-- One trip of the clearing loop zeroes the sixteen words from 16 k2 and keeps the others. -/
theorem zstep_apply (k2 : Fin k0_t2_loop.trips) (f : Buf (Elt F) ((sB).view.loc (thr d L))) (y : S16384.Idx) :
    wd d L (zstep d L k2 f) y
      = if 16 * k2.val ≤ (y 0).val ∧ (y 0).val < 16 * k2.val + 16 then 0#32 else wd d L f y := by
  have h := View.read_writes_cons_unit (sB).view f (k0_off2_inb k2) (k0_pay1 : IVec S16 32) [] y (k0_off2_eq k2)
  by_cases hc : 16 * k2.val ≤ (y 0).val ∧ (y 0).val < 16 * k2.val + 16
  · rw [if_pos hc]
    have hall : ∀ a : Fin 1, (![16 * k2.val] : Fin 1 → ℕ) a ≤ (y a).val
        ∧ (y a).val < (![16 * k2.val] : Fin 1 → ℕ) a + S16.size a := by
      intro a; obtain rfl : a = 0 := Subsingleton.elim _ _; exact hc
    exact h.trans (dif_pos hall)
  · rw [if_neg hc]
    have hall : ¬ ∀ a : Fin 1, (![16 * k2.val] : Fin 1 → ℕ) a ≤ (y a).val
        ∧ (y a).val < (![16 * k2.val] : Fin 1 → ℕ) a + S16.size a := fun hh => hc (hh 0)
    exact h.trans (dif_neg hall)

/-- After n trips of the clearing loop the first 16 n words are zero. -/
theorem zfill_clear (fb' : Buf (Elt F) ((sB).view.loc (thr d L))) :
    ∀ n : ℕ, n ≤ 1024 → ∀ y : S16384.Idx, (y 0).val < 16 * n → wd d L (zfill d L fb' n) y = 0#32
  | 0, _, y, hy => absurd hy (by omega)
  | n + 1, hn, y, hy => by
    have h : n < k0_t2_loop.trips := by rw [trips2]; omega
    rw [show zfill d L fb' (n + 1) = zstep d L ⟨n, h⟩ (zfill d L fb' n) from zfill_succ d L fb' ⟨n, h⟩, zstep_apply]
    by_cases hc : 16 * n ≤ (y 0).val ∧ (y 0).val < 16 * n + 16
    · exact if_pos hc
    · exact (if_neg hc).trans (zfill_clear fb' n (by omega) y (by omega))

/-! ### One trip of the token loop, word by word -/

/-- One trip of the token loop adds, into word y, the word of every lane whose token lands there. -/
theorem tstep_apply (P : Buf (Elt F) ((sI).view.loc (thr d L))) (hP : ∀ i, (P i).toNat < 4096) (l : Fin k0_t3_loop.trips)
    (f : Buf (Elt F) ((sB).view.loc (thr d L))) (y : S16384.Idx) :
    wd d L (tstep d L P hP l f) y = wd d L f y + ∑ x : Fin 16,
      if (y 0).val = 1024 * x.val + BitVec.toNat (ldTok d L P l (lane16 x)) / 4
      then (1#32 <<< (8 * (BitVec.toNat (ldTok d L P l (lane16 x)) % 4))) else 0#32 := by
  dsimp only [wd]
  unfold tstep
  rw [Memref.write_access_whole_univ, Memref.read_access_whole, Cert.TileMath.storeIdx_add_i32]
  refine congrArg (HAdd.hAdd (wd d L f y)) ?_
  show (∑ x : Fin 16, _) = _
  apply Fintype.sum_congr
  intro x
  have hv := ldTok_range d L P hP l (lane16 x)
  have h4 := Cert.TileMath.pay4_toNat (ldTok d L P l) (lane16 x) hv
  have h3 := Cert.HistLaws.pay3_eq (ldTok d L P l) (lane16 x)
  have hx0 : ((lane16 x) 0).val = x.val := rfl
  refine (if_congr ?_ h3 rfl)
  constructor
  · intro h
    have h0 : (y 0).val = (k0_pay4 (ldTok d L P l) (lane16 x)).toNat := h (0 : Fin 1)
    rw [h0, h4, hx0]
  · intro h a
    have ha : a = (0 : Fin 1) := Subsingleton.elim (α := Fin 1) a 0
    subst ha
    show (y 0).val = (k0_pay4 (ldTok d L P l) (lane16 x)).toNat
    rw [h4, hx0]; exact h

/-! ### The token loop is the abstract loop -/

/-- Lane x's token at position l, as a number, read out of the first scratch at contents P. -/
def tk (P : Buf (Elt F) ((sI).view.loc (thr d L))) (x : Fin 16) (l : Fin 200) : ℕ :=
  BitVec.toNat (ldTok d L P ⟨l.val, lt_of_lt_of_eq l.isLt trips3.symm⟩ (lane16 x))

theorem tk_lt (P : Buf (Elt F) ((sI).view.loc (thr d L))) (hP : ∀ i, (P i).toNat < 4096) (x : Fin 16) (l : Fin 200) :
    tk d L P x l < 4096 := ldTok_range d L P hP _ _

/-- From the zero buffer, n trips of the token loop leave what n trips of the abstract loop leave. -/
theorem hist_eq_phist (P : Buf (Elt F) ((sI).view.loc (thr d L))) (hP : ∀ i, (P i).toNat < 4096)
    (g0 : Buf (Elt F) ((sB).view.loc (thr d L))) (hg0 : ∀ y, wd d L g0 y = 0#32) :
    ∀ n : ℕ, n ≤ 200 → ∀ j : Fin 16384,
      wd d L (hist d L P hP g0 n) (ValueIdx.ix1 j) = Cert.HistLaws.phist (tk d L P) n j
  | 0, _, j => by rw [hist_zero]; exact hg0 _
  | n + 1, hn, j => by
    have h : n < 200 := by omega
    have h' : n < k0_t3_loop.trips := by rw [trips3]; exact h
    rw [show hist d L P hP g0 (n + 1) = tstep d L P hP ⟨n, h'⟩ (hist d L P hP g0 n) from hist_succ d L P hP g0 ⟨n, h'⟩,
      tstep_apply, hist_eq_phist P hP g0 hg0 n (by omega) j]
    show _ = (if h'' : n < 200 then Cert.HistLaws.pstep (tk d L P) ⟨n, h''⟩ (Cert.HistLaws.phist (tk d L P) n)
      else Cert.HistLaws.phist (tk d L P) n) j
    rw [dif_pos h]
    rfl

/-! ### Where the two copies put their words -/

/-- The place in the flat counts of word y of trip k's piece. -/
abbrev cntAt (k : Fin k0_t1_loop.trips) (y : S16384.Idx) : S16777216.Idx := (cntSl L k).view.emb y
/-- The place in the flat tokens of word i of trip k's piece. -/
abbrev idsAt (k : Fin k0_t1_loop.trips) (i : S3200.Idx) : S3276800.Idx := (idsSl L k).view.emb i

omit [FloatOps F] [Named F] in
theorem cntAt_val (k : Fin k0_t1_loop.trips) (y : S16384.Idx) :
    (cntAt L k y 0).val = 1048576 * (L 1).val + 524288 * (L 0).val + 16384 * k.val + (y 0).val := by
  have h : (cntAt L k y 0).val = k0_off3 L k 0 + 1 * (y 0).val := rfl
  have h2 : k0_off3 L k 0 = 1048576 * (L 1).val + 524288 * (L 0).val + 16384 * k.val := by rw [k0_off3_eq]; rfl
  rw [h, h2]; omega

omit [FloatOps F] [Named F] in
theorem idsAt_val (k : Fin k0_t1_loop.trips) (i : S3200.Idx) :
    (idsAt L k i 0).val = 204800 * (L 1).val + 102400 * (L 0).val + 3200 * k.val + (i 0).val := by
  have h : (idsAt L k i 0).val = k0_off1 L k 0 + 1 * (i 0).val := rfl
  have h2 : k0_off1 L k 0 = 204800 * (L 1).val + 102400 * (L 0).val + 3200 * k.val := by rw [k0_off1_eq]; rfl
  rw [h, h2]; omega

/-- What a lane reads at a trip is the word of the first scratch its index vector names. -/
theorem ldTok_eq (P : Buf (Elt F) ((sI).view.loc (thr d L))) (l : Fin k0_t3_loop.trips) (X : S16.Idx) (i : S3200.Idx)
    (hi : (i 0).val = 200 * (X 0).val + l.val) : (ldTok d L P l X : BitVec 32) = wdI d L P i := by
  have e1 : ldTok d L P l X = (View.read (Elt F) ((sI).access (Rect.whole (cc0_scratch0 : Ref sig .scVector).ty.shape)) P)
      (idxAt ![k0_pay2 l] (k0_idx1_inb (k0_pay2 l) (Cert.TileMath.chk1_all l)) X) := rfl
  rw [e1, Memref.read_access_whole]
  refine congrArg (wdI d L P) (funext fun a => ?_)
  have ha : a = (0 : Fin 1) := Subsingleton.elim (α := Fin 1) a 0
  subst ha
  apply Fin.ext
  show (k0_pay2 l X).toNat = (i 0).val
  rw [Cert.TileMath.pay2_toNat, hi]

omit [FloatOps F] [Named F] in
theorem packedQ_congr {t1 t2 : Fin 200 → Fin 4096} {w1 w2 : Fin 1024} (ht : ∀ l, (t1 l).val = (t2 l).val) (hw : w1.val = w2.val) :
    Cert.Spec.packedQ t1 w1 = Cert.Spec.packedQ t2 w2 := by
  rw [show t1 = t2 from funext fun l => Fin.ext (ht l), show w1 = w2 from Fin.ext hw]

/-! ### The value of one outer trip -/

/-- After the clearing loop and the token loop, word y of the second scratch is the word of the packed histograms
    that the flat counts hold where trip k's copy puts word y. -/
theorem tile_value (ids : Buf (Elt F) (idsLoc d)) (hids : ∀ i, (ids i).toNat < 4096) (k : Fin k0_t1_loop.trips)
    (Pk : Buf (Elt F) ((sI).view.loc (thr d L))) (hPk : ∀ i, (Pk i).toNat < 4096) (ePk : ∀ i, Pk i = ids ((idsSl L k).view.emb i))
    (fb' : Buf (Elt F) ((sB).view.loc (thr d L))) (y : S16384.Idx) :
    hist d L Pk hPk (zfill d L fb' k0_t2_loop.trips) k0_t3_loop.trips y = packedFlat ids ((cntSl L k).view.emb y) := by
  have hy : (y 0).val < 16384 := (y 0).isLt
  have hk : k.val < 32 := lt_of_lt_of_le k.isLt k0_t1_abs.2.1
  have hL0 : (L 0).val < 2 := (L 0).isLt
  have hL1 : (L 1).val < 16 := (L 1).isLt
  have hz : ∀ y', wd d L (zfill d L fb' k0_t2_loop.trips) y' = 0#32 := by
    intro y'
    have hy' : (y' 0).val < 16384 := (y' 0).isLt
    rw [trips2]
    exact zfill_clear d L fb' 1024 le_rfl y' (by omega)
  have h1 := hist_eq_phist d L Pk hPk _ hz 200 le_rfl (y 0)
  have ey : (@ValueIdx.ix1 16384 (y 0) : S16384.Idx) = y := (ValueIdx.eq_ix1 y).symm
  rw [ey, Cert.HistLaws.phist_final (tk d L Pk) (tk_lt d L Pk hPk) (y 0)] at h1
  rw [trips3]
  refine h1.trans ?_
  show _ = Cert.Spec.packedQ (tokAt (wdT d ids) ⟨(cntAt L k y 0).val / 1024, _⟩) ⟨(cntAt L k y 0).val % 1024, _⟩
  have hc := cntAt_val L k y
  apply packedQ_congr
  · intro l
    have hl : l.val < 200 := l.isLt
    have hx : (y 0).val / 1024 < 16 := by omega
    have e1 : tk d L Pk ⟨(y 0).val / 1024, hx⟩ l
        = BitVec.toNat (wdI d L Pk (ValueIdx.ix1 ⟨200 * ((y 0).val / 1024) + l.val, by omega⟩)) :=
      congrArg BitVec.toNat (ldTok_eq d L Pk ⟨l.val, lt_of_lt_of_eq l.isLt trips3.symm⟩ (lane16 ⟨(y 0).val / 1024, hx⟩)
        (ValueIdx.ix1 ⟨200 * ((y 0).val / 1024) + l.val, by omega⟩) rfl)
    have e2 : wdI d L Pk (ValueIdx.ix1 ⟨200 * ((y 0).val / 1024) + l.val, by omega⟩)
        = wdT d ids (idsAt L k (ValueIdx.ix1 ⟨200 * ((y 0).val / 1024) + l.val, by omega⟩)) := ePk _
    have e3 : idsAt L k (ValueIdx.ix1 ⟨200 * ((y 0).val / 1024) + l.val, by omega⟩)
        = ValueIdx.ix1 ⟨200 * ((cntAt L k y 0).val / 1024) + l.val, by omega⟩ := by
      funext a
      have ha : a = (0 : Fin 1) := Subsingleton.elim (α := Fin 1) a 0
      subst ha
      apply Fin.ext
      rw [idsAt_val]
      show _ + (200 * ((y 0).val / 1024) + l.val) = 200 * ((cntAt L k y 0).val / 1024) + l.val
      omega
    have e4 : BitVec.toNat (wdI d L Pk (ValueIdx.ix1 ⟨200 * ((y 0).val / 1024) + l.val, by omega⟩)) < 4096 := hPk _
    show tk d L Pk ⟨(y 0).val / 1024, hx⟩ l
      = BitVec.toNat (wdT d ids (ValueIdx.ix1 ⟨200 * ((cntAt L k y 0).val / 1024) + l.val, by omega⟩)) % 4096
    rw [← e3, ← e2, Nat.mod_eq_of_lt e4, e1]
  · show (y 0).val % 1024 = (cntAt L k y 0).val % 1024
    omega

/-! ### The copy out -/

/-- The piece of the flat counts after trip k's copy of X, when X is the packed histograms' words at the places the
    copy puts them: the piece at the packed histograms. -/
theorem cnt_landed (k : Fin k0_t1_loop.trips) (ids : Buf (Elt F) (idsLoc d)) (cnt : Buf (Elt F) (cntLoc d)) (X : S16384.Idx → Elt F .i32)
    (eX : ∀ y, X y = packedFlat ids ((cntSl L k).view.emb y)) :
    ((cntSl L k).view.loc (thr d L) ↦[(cntSl L k).view.set]{fullShare} (cntSl L k).view.writes (Elt F) cnt [⟨Rect.whole S16384, X⟩] : sProp 𝕄)
      = (cntLoc d ↦[(cpiece (pc L (k32 k))).set]{fullShare} packedFlat ids) := by
  refine Eq.trans ?_ (pts_cnt (U := U) d L k (packedFlat ids))
  refine pointsTo_congr fun i hi => ?_
  have hi' : ∀ a, k0_off3 L k a ≤ (i a).val ∧ (i a).val < k0_off3 L k a + S16384.size a := by
    have hi2 : i ∈ ((View.whole (main_v1_scv : Ref sig .scVector)).slice
        (Rect.unit (s := S16777216) (k0_off3 L k) S16384.size (k0_off3_inb L k))).set := hi
    rw [View.set_slice_whole, Rect.mem_set_unit] at hi2
    exact hi2
  obtain ⟨y, ey⟩ : ∃ y : S16384.Idx, (cntSl L k).view.emb y = i :=
    ⟨Rect.unitLocal (s := S16777216) (off := k0_off3 L k) (size := S16384.size) i hi', funext fun a => Fin.ext (by
      show k0_off3 L k a + 1 * ((i a).val - k0_off3 L k a) = (i a).val
      have := hi' a
      omega)⟩
  subst ey
  rw [View.writes_singleton]
  have he : ((cntSl L k).view.slice (Rect.whole S16384)).emb y = (cntSl L k).view.emb y := by
    show (cntSl L k).view.emb ((Rect.whole S16384).emb y) = _
    rw [Rect.emb_whole_apply]
  have hw := View.write_emb_of_mem (v := (cntSl L k).view.slice (Rect.whole S16384)) (Val := Elt F) cnt X
    (M := Finset.univ) (x := y) (Finset.mem_univ _)
  rw [he] at hw
  rw [hw, cast_eq, eX]

end Tile

end Cert.KernelIdeal.Hand

end
-- ==== Proof.Tile.lean ====
/-
  One vector subcore's whole task of the counting kernel. In trip k of its 32 trips it copies piece k of its tokens into
  the first scratch, clears the second scratch, runs the 200 token positions (each adding one to a byte of a word per lane),
  and copies the second scratch out to piece k of the counts; what lands there is the sixteen queries' packed histograms.
  The loop's invariant: the pieces of the counts of the trips done hold the packed histograms, the others are untouched.
-/
import proofs.«207659_g70703751627518_cont_9to1_m_904_5_alg».proof.Proof.TileDefs
import proofs.«207659_g70703751627518_cont_9to1_m_904_5_alg».proof.Proof.TileValue

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F] {U : Type} [URA U] [CountersIn U]

local notation "𝕄" => MT nD τ sig (HIx 1) (Elt F) ℕ U ℕ

-- the kernel's memrefs, spelt as the body table passes them
local notation "idsW" => (Memref.whole Cert.KernelIdeal.main_v0_scv : Memref Cert.KernelIdeal.sig Kind.scVector Space.hbm Cert.KernelIdeal.S3276800 EltTy.i32)
local notation "cntW" => (Memref.whole Cert.KernelIdeal.main_v1_scv : Memref Cert.KernelIdeal.sig Kind.scVector Space.hbm Cert.KernelIdeal.S16777216 EltTy.i32)
local notation "sI" => (Memref.whole Cert.KernelIdeal.cc0_scratch0 : Memref Cert.KernelIdeal.sig Kind.scVector Space.vmem Cert.KernelIdeal.S3200 EltTy.i32)
local notation "sB" => (Memref.whole Cert.KernelIdeal.cc0_scratch1 : Memref Cert.KernelIdeal.sig Kind.scVector Space.vmem Cert.KernelIdeal.S16384 EltTy.i32)

section Tile

variable (d : Dev nD) (L : grid0.Coords)

omit [FloatOps F] [Named F] [CountersIn U] in
theorem pieces_zero (ids : Buf (Elt F) (idsLoc d)) (cnt : Buf (Elt F) (cntLoc d)) :
    ∀ k' ∈ (Finset.univ : Finset (Fin 32)),
      (iprop((idsLoc d ↦[(ipiece (pc L k')).set]{fullShare} ids) ∗ (cntLoc d ↦[(cpiece (pc L k')).set]{fullShare} cnt)) : sProp 𝕄)
        = iprop((idsLoc d ↦[(ipiece (pc L k')).set]{fullShare} ids) ∗ (cntLoc d ↦[(cpiece (pc L k')).set]{fullShare} (if k'.val < 0 then packedFlat ids else cnt))) := by
  intro k' _
  rw [if_neg (Nat.not_lt_zero _)]

omit [FloatOps F] [Named F] [CountersIn U] in
theorem pieces_done (ids : Buf (Elt F) (idsLoc d)) (cnt : Buf (Elt F) (cntLoc d)) :
    ∀ k' ∈ (Finset.univ : Finset (Fin 32)),
      (iprop((idsLoc d ↦[(ipiece (pc L k')).set]{fullShare} ids) ∗ (cntLoc d ↦[(cpiece (pc L k')).set]{fullShare} (if k'.val < k0_t1_loop.trips then packedFlat ids else cnt))) : sProp 𝕄)
        = iprop((idsLoc d ↦[(ipiece (pc L k')).set]{fullShare} ids) ∗ (cntLoc d ↦[(cpiece (pc L k')).set]{fullShare} packedFlat ids)) := by
  intro k' _
  rw [if_pos (show k'.val < k0_t1_loop.trips by rw [trips1]; exact k'.isLt)]

theorem tile_body (hF : (K (F := F)).Facts)
    (ids : Buf (Elt F) (idsLoc d)) (cnt : Buf (Elt F) (cntLoc d)) (hids : ∀ i, (ids i).toNat < 4096)
    (O : CellTallies nD τ sig (HIx 1)) (W : Waits sig (HIx 1)) (hO : ∀ g, O g none = 0) :
    iprop(levAts (K (F := F)).L (K (F := F)).lev ∗ taskPts (U := U) d (Fin.cast bound_zero (L 0)) (Fin.cast bound_one (L 1)) ids cnt
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_histogram L (Memref.whole main_v0_scv) (Memref.isWhole_whole _) (Memref.whole main_v1_scv) (Memref.isWhole_whole _)
            (Memref.whole cc0_scratch0) (Memref.isWhole_whole _) (Memref.whole cc0_scratch1) (Memref.isWhole_whole _) cc0_scoped0 cc0_scoped1)
          fun _ => iprop(taskPts (U := U) d (Fin.cast bound_zero (L 0)) (Fin.cast bound_one (L 1)) ids (packedFlat ids)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_histogram_eq_skeleton]; unfold cc0__sc_histogram_skel
  rw [(K (F := F)).scopedBufs_V hF d (cV L) (jV L), SparseCore.Cfg.scopedSems0_V (Val := Elt F) d (cV L) (jV L), ownSems0_V, ownBufs_V]
  unfold taskPts
  iintro ⟨#Hlv, Hpts, ⟨⟨%fs, Hs⟩, ⟨%fb, Hb⟩, Hbufs⟩, ⟨Hsem0, Hsem1, Hsems⟩, HO⟩
  ihave Hmw := ((K (F := F)).mayWaits_none (thr := thr d L) hO) $$ Hlv
  sl_exec
  sl_for (invO d L ids cnt O W) $$ [Hmw Hpts Hs Hb Hsem0 Hsem1 HO]
  case region =>
    intro k acc
    unfold invO
    iintro ⟨Hmw, Hpts, ⟨%fs', Hs⟩, ⟨%fb', Hb⟩, Hsem0, Hsem1, %W', %hW', HO⟩
    ihave Hp := (Entails.of_eq (SparseCore.bigSep_erase' (Finset.mem_univ (k32 k)))) $$ Hpts
    icases Hp with ⟨⟨Hi, Hc⟩, Hrest⟩
    ihave Hi' := (Entails.of_eq (pts_ids d L k ids).symm) $$ Hi
    have hlt : ¬ ((k32 k).val < k.val) := by simp [k32]
    rw [if_neg hlt]
    ihave Hc' := (Entails.of_eq (pts_cnt d L k cnt).symm) $$ Hc
    sl_exec
    sl_for (invZ d L fb') $$ [Hb]
    case region => intro k2 acc2; exact zero_trip d L fb' k2 acc2
    · unfold invZ; rw [zfill_zero]; iexact Hb
    iintro %_ HZ
    unfold invZ
    ihave Hs2 := (Entails.of_eq (sI_landed d L _ _)) $$ Hs
    ihave Hs3 := (pts_name _) $$ Hs2
    icases Hs3 with ⟨%Pk, %hPk, Hs⟩
    have ePk : ∀ i, Pk i = ids ((idsSl L k).view.emb i) := by
      intro i; rw [hPk]; exact (View.read_apply _ _).trans (cast_eq _ _)
    have hPk' : ∀ i, (Pk i).toNat < 4096 := fun i => by rw [ePk]; exact hids _
    sl_exec
    sl_for (invT d L Pk hPk' (zfill d L fb' k0_t2_loop.trips)) $$ [Hs HZ]
    case region => intro l acc3; exact tok_trip d L Pk hPk' _ l acc3
    · unfold invT; rw [hist_zero]; isplitl [Hs]; · iexact Hs
      iexact HZ
    iintro %_ HT
    unfold invT
    icases HT with ⟨Hs, Hb⟩
    sl_exec
    sl_step
    isplitl [Hmw]; · iexact Hmw
    isplitl [Hi' Hc' Hrest]
    · rw [SparseCore.bigSep_erase' (Finset.mem_univ (k32 k))]
      isplitl [Hi' Hc']
      · isplitl [Hi']; · iapply (Entails.of_eq (pts_ids d L k ids)); iexact Hi'
        rw [if_pos (show (k32 k).val < k.val + 1 by simp [k32])]
        have eX : ∀ y, tile_body.sl.dma0_1 d L fb' Pk hPk' y = packedFlat ids ((cntSl L k).view.emb y) := by
          intro y
          refine ((View.read_apply _ _).trans (cast_eq _ _)).trans ?_
          exact tile_value d L ids hids k Pk hPk' ePk fb' y
        iapply (Entails.of_eq (cnt_landed d L k ids cnt _ eX)); iexact Hc'
      · iapply (Entails.of_eq (bigSep_congr (pieces_step d L ids cnt k))); iexact Hrest
    isplitl [Hs]; · iexists _; iexact Hs
    isplitl [Hb]; · iexists _; iexact Hb
    isplitl [Hsem0]; · iexact Hsem0
    isplitl [Hsem1]; · iexact Hsem1
    iexists (insert (SemLoc.dma cc0_scoped1.sem, (default : HIx 1)) (insert (SemLoc.dma cc0_scoped0.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invO
    isplitl [Hmw]; · iexact Hmw
    isplitl [Hpts]
    · iapply (Entails.of_eq (bigSep_congr (pieces_zero d L ids cnt))); iexact Hpts
    isplitl [Hs]; · iexists _; iexact Hs
    isplitl [Hb]; · iexists _; iexact Hb
    isplitl [Hsem0]; · iexact Hsem0
    isplitl [Hsem1]; · iexact Hsem1
    iexists W; isplitr
    · ipureintro; exact fun p hp => .inl hp
    · iexact HO
  iintro %_ HI
  unfold invO
  icases HI with ⟨-, Hpts, ⟨%fs2, Hs⟩, ⟨%fb2, Hb⟩, Hsem0, Hsem1, %W', %hW', HO⟩
  sl_exec
  sl_step
  isplitl [Hpts]
  · iapply (Entails.of_eq (bigSep_congr (pieces_done d L ids cnt))); iexact Hpts
  isplitl [Hs Hb Hbufs]
  · isplitl [Hs]; · iexists _; iexact Hs
    isplitl [Hb]; · iexists _; iexact Hb
    iexact Hbufs
  isplitl [Hsem0 Hsem1 Hsems]
  · isplitl [Hsem0]; · iexact Hsem0
    isplitl [Hsem1]; · iexact Hsem1
    iexact Hsems
  iexists W'; isplitr
  · ipureintro; exact hW'
  · iexact HO

end Tile

end Cert.KernelIdeal.Hand

end
-- ==== Proof.TileMathK.lean ====
/-
  Pure facts the counting kernel's inner loops rest on: an indexed store that adds, on 32-bit words, leaves at each
  element the old word plus the sum of the lanes' values whose index names it (wrapping addition commutes, so the
  order of the lanes does not matter).
-/
import Idealize.ShloMosaic.PureOps
import proofs.«207659_g70703751627518_cont_9to1_m_904_5_alg».proof.Proof.Gen.Kernel.Skeleton
import Mathlib.Data.BitVec
import Mathlib.Algebra.BigOperators.Fin

noncomputable section

namespace Cert.TileMathK

open Idealize.ShloMosaic

variable {F : FTy → Type} [FloatOps F]

/-- One lane's step of the adding store, read at an element. -/
theorem storeIdx_add_i32 {s : Shape} {d : Fin 1 → Nat} (f : Vec F s .i32) (idxs : Fin s.rank → IVec ⟨1, d⟩ 32)
    (v : Vec F ⟨1, d⟩ .i32) (h : ∀ a x, (idxs a x).toNat < s.size a) (j : s.Idx) :
    (storeIdx f idxs v (fun _ => 1#1) true h j : BitVec 32)
      = (f j : BitVec 32) + ∑ k : Fin (d 0), (if (∀ a, (j a).val = (idxAt idxs h (Shape.ofLane k) a).val) then (v (Shape.ofLane k) : BitVec 32) else 0#32) := by
  unfold storeIdx
  rw [Fin.sum_univ_def]
  generalize List.finRange (d 0) = l
  induction l generalizing f with
  | nil => simp
  | cons k l ih =>
    rw [List.foldl_cons, ih, List.map_cons, List.sum_cons, ← add_assoc]
    congr 1
    rw [if_pos (show (1#1 : BitVec 1) = 1 from rfl)]
    by_cases hj : ∀ a, (j a).val = (idxAt idxs h (Shape.ofLane k) a).val
    · have e : j = idxAt idxs h (Shape.ofLane k) := funext fun a => Fin.ext (hj a)
      rw [if_pos hj, if_pos hj, if_pos (rfl : true = true), e]; rfl
    · rw [if_neg hj, if_neg hj]; exact (BitVec.add_zero _).symm

/-! ## The lanes' index vectors

Lane x of the token loop reads word 200 x + l of the first scratch at trip l, and adds into word 1024 x + t / 4 of the
second scratch, where t is the token it read. -/

open Cert.Kernel Cert.Kernel.Gen

theorem lane_lt (x : S16.Idx) : (x 0).val < 16 := (x 0).isLt

theorem pay2_toNat (l : Fin k0_t3_loop.trips) (x : S16.Idx) : (k0_pay2 l x).toNat = 200 * (x 0).val + l.val := by
  have hl : l.val < 200 := lt_of_lt_of_le l.isLt k0_t3_abs.2.1
  have hx : (x 0).val < 16 := (x 0).isLt
  unfold k0_pay2
  simp only [addi, muli, iota, broadcast, IntOp.addi, IntOp.muli, Scf.iv, List.foldl_cons, List.foldl_nil]
  simp only [BitVec.toNat_add, BitVec.toNat_mul, BitVec.toNat_ofNat, zero_mul, zero_add]
  omega

theorem chk1_all (l : Fin k0_t3_loop.trips) : k0_chk1 (k0_pay2 l) := by
  intro a x
  have hl : l.val < 200 := lt_of_lt_of_le l.isLt k0_t3_abs.2.1
  have hx : (x 0).val < 16 := (x 0).isLt
  obtain rfl : a = 0 := Subsingleton.elim _ _
  show (k0_pay2 l x).toNat < 3200
  rw [pay2_toNat]; omega

theorem pay4_toNat (v : Vec F S16 .i32) (x : S16.Idx) (hv : (v x).toNat < 4096) :
    (k0_pay4 v x).toNat = 1024 * (x 0).val + (v x).toNat / 4 := by
  have hx : (x 0).val < 16 := (x 0).isLt
  have hs : IntOp.shrui .vector (v x) 2#32 = (v x : BitVec 32) >>> (2 : Nat) := by
    unfold IntOp.shrui; rw [if_pos (by decide)]; rfl
  have e : k0_pay4 v x = BitVec.ofNat 32 (x 0).val * 1024#32 + ((v x : BitVec 32) >>> (2 : Nat)) := by
    unfold k0_pay4
    simp only [addi, muli, shrui, iota, broadcast, IntOp.addi, IntOp.muli, List.foldl_cons, List.foldl_nil, hs]
    congr 2
    simp
  rw [e]
  have h4 : (v x).toNat / 4 < 1024 := by omega
  simp only [BitVec.toNat_add, BitVec.toNat_mul, BitVec.toNat_ofNat, BitVec.toNat_ushiftRight, Nat.shiftRight_eq_div_pow]
  omega

theorem chk2_of_range (v : Vec F S16 .i32) (hv : ∀ x, (v x).toNat < 4096) : k0_chk2 (k0_pay4 v) := by
  intro a x
  have hx : (x 0).val < 16 := (x 0).isLt
  obtain rfl : a = 0 := Subsingleton.elim _ _
  show (k0_pay4 v x).toNat < 16384
  rw [pay4_toNat v x (hv x)]
  have := hv x
  omega

end Cert.TileMathK

end
-- ==== Proof.TileDefsK.lean ====
/-
  One vector subcore's task of the counting kernel: 32 trips, each copying sixteen queries' tokens into the first scratch,
  clearing the second scratch, adding one to a byte of a word of it per token (sixteen queries at a time, one per lane,
  lane x in words 1024 x .. 1024 x + 1023), and copying the second scratch out to the counts.
-/
import proofs.«207659_g70703751627518_cont_9to1_m_904_5_alg».proof.Proof.BaseK
import Idealize.ShloMosaic.Lib.SparseCore.Ops
import Idealize.ShloMosaic.Lib.Pipeline.Kit
import proofs.«207659_g70703751627518_cont_9to1_m_904_5_alg».proof.Proof.TileMathK

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] {U : Type} [URA U] [CountersIn U]

local notation "𝕄" => MT nD τ sig (HIx 1) (Elt F) ℕ U ℕ

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl

-- the kernel's memrefs, spelt as the body table passes them
local notation "idsW" => (Memref.whole Cert.Kernel.main_v0_scv : Memref Cert.Kernel.sig Kind.scVector Space.hbm Cert.Kernel.S3276800 EltTy.i32)
local notation "cntW" => (Memref.whole Cert.Kernel.main_v1_scv : Memref Cert.Kernel.sig Kind.scVector Space.hbm Cert.Kernel.S16777216 EltTy.i32)
local notation "sI" => (Memref.whole Cert.Kernel.cc0_scratch0 : Memref Cert.Kernel.sig Kind.scVector Space.vmem Cert.Kernel.S3200 EltTy.i32)
local notation "sB" => (Memref.whole Cert.Kernel.cc0_scratch1 : Memref Cert.Kernel.sig Kind.scVector Space.vmem Cert.Kernel.S16384 EltTy.i32)

section Tile

variable (d : Dev nD) (L : grid0.Coords)

abbrev thr : Thread nD τ := V d (cV L) (jV L)
abbrev c0cell : GSem nD τ sig := (thr d L, .dma cc0_scoped0.sem)
abbrev c1cell : GSem nD τ sig := (thr d L, .dma cc0_scoped1.sem)
/-- The piece this subcore works on in trip k. -/
abbrev pc (k : Fin 32) : Fin 1024 := pieceOf (Fin.cast bound_zero (L 0)) (Fin.cast bound_one (L 1)) k

omit [FloatOps F] [CountersIn U] in
theorem ownSems0_V :
    (ownSems0 (thr d L) : sProp 𝕄)
      = iprop(semVal (c0cell d L) 0 ∗ semVal (c1cell d L) 0
          ∗ bigSep (((ownCells (thr d L)).erase (c0cell d L)).erase (c1cell d L)) fun g => semVal g 0) := by
  unfold SparseCore.Cfg.ownSems0
  rw [SparseCore.bigSep_erase' ((mem_ownCells (g := c0cell d L)).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d L)).mpr ⟨rfl, by
      show (SemLoc.dma cc0_scoped1.sem : SemLoc sig).isScoped .scVector = true; decide⟩⟩)]

omit [FloatOps F] [CountersIn U] in
/-- The two scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The outer loop's invariant before trip k: the pieces of the tokens as they were, the pieces of the counts done before
    trip k at the packed histograms and the others as they were, the two scratches at some contents, both counters at zero. -/
def invO (ids : Buf (Elt F) (idsLoc d)) (cnt : Buf (Elt F) (cntLoc d)) (O : CellTallies nD τ sig (HIx 1)) (W : Waits sig (HIx 1))
    (k : Nat) (_ : BitVec 32) : sProp 𝕄 :=
  iprop(Transfers.MayWaits (thr d L) (none : HIx 1) O
    ∗ (bigSep (Finset.univ : Finset (Fin 32)) fun k' => iprop((idsLoc d ↦[(ipiece (pc L k')).set]{fullShare} ids)
        ∗ (cntLoc d ↦[(cpiece (pc L k')).set]{fullShare} (if k'.val < k then packedFlat ids else cnt))))
    ∗ (∃ f, (sI).view.loc (thr d L) ↦{fullShare} f)
    ∗ (∃ f, (sB).view.loc (thr d L) ↦{fullShare} f)
    ∗ semVal (c0cell d L) 0 ∗ semVal (c1cell d L) 0
    ∗ ∃ W', ⌜∀ p ∈ W', p ∈ W ∨ p.2 = none⌝ ∗ owes (thr d L) O W')

/-- k as one of the 32 trips. -/
def k32 (k : Fin k0_t1_loop.trips) : Fin 32 := ⟨k.val, lt_of_lt_of_le k.isLt k0_t1_abs.2.1⟩

abbrev idsSl (k : Fin k0_t1_loop.trips) : Memref sig .scVector .hbm S3200 .i32 :=
  (idsW).slice (Rect.unit (s := S3276800) (k0_off1 L k) S3200.size (k0_off1_inb L k)) (fun _ => rfl)
abbrev cntSl (k : Fin k0_t1_loop.trips) : Memref sig .scVector .hbm S16384 .i32 :=
  (cntW).slice (Rect.unit (s := S16777216) (k0_off3 L k) S16384.size (k0_off3_inb L k)) (fun _ => rfl)

omit [FloatOps F] [CountersIn U] in
theorem idsRect_eq (k : Fin k0_t1_loop.trips) :
    Rect.unit (s := S3276800) (k0_off1 L k) S3200.size (k0_off1_inb L k) = ipiece (pc L (k32 k)) := by
  unfold ipiece Rect.part Rect.block
  congr 1 <;> funext a
  · rw [k0_off1_eq]
    match a with
    | 0 =>
      have hp : (pc L (k32 k)).val = 64 * (L 1).val + 32 * (L 0).val + k.val := rfl
      simp [Shape.partIx, Shape.partSize, hp]
      try omega
  · match a with
    | 0 => simp [Shape.partSize]

omit [FloatOps F] [CountersIn U] in
theorem cntRect_eq (k : Fin k0_t1_loop.trips) :
    Rect.unit (s := S16777216) (k0_off3 L k) S16384.size (k0_off3_inb L k) = cpiece (pc L (k32 k)) := by
  unfold cpiece Rect.part Rect.block
  congr 1 <;> funext a
  · rw [k0_off3_eq]
    match a with
    | 0 =>
      have hp : (pc L (k32 k)).val = 64 * (L 1).val + 32 * (L 0).val + k.val := rfl
      simp [Shape.partIx, Shape.partSize, hp]
      try omega
  · match a with
    | 0 => simp [Shape.partSize]

omit [FloatOps F] [CountersIn U] in
theorem set_idsSl (k : Fin k0_t1_loop.trips) : (idsSl L k).view.set = (ipiece (pc L (k32 k))).set := by
  show ((View.whole (main_v0_scv : Ref sig .scVector)).slice (Rect.unit (s := S3276800) (k0_off1 L k) S3200.size (k0_off1_inb L k))).set = _
  rw [View.set_slice_whole, idsRect_eq]
omit [FloatOps F] [CountersIn U] in
theorem set_cntSl (k : Fin k0_t1_loop.trips) : (cntSl L k).view.set = (cpiece (pc L (k32 k))).set := by
  show ((View.whole (main_v1_scv : Ref sig .scVector)).slice (Rect.unit (s := S16777216) (k0_off3 L k) S16384.size (k0_off3_inb L k))).set = _
  rw [View.set_slice_whole, cntRect_eq]

omit [FloatOps F] [CountersIn U] in
theorem pts_ids (k : Fin k0_t1_loop.trips) (f : Buf (Elt F) (idsLoc d)) :
    ((idsSl L k).view.loc (thr d L) ↦[(idsSl L k).view.set]{fullShare} f : sProp 𝕄) = idsLoc d ↦[(ipiece (pc L (k32 k))).set]{fullShare} f := by
  rw [set_idsSl]
omit [FloatOps F] [CountersIn U] in
theorem pts_cnt (k : Fin k0_t1_loop.trips) (f : Buf (Elt F) (cntLoc d)) :
    ((cntSl L k).view.loc (thr d L) ↦[(cntSl L k).view.set]{fullShare} f : sProp 𝕄) = cntLoc d ↦[(cpiece (pc L (k32 k))).set]{fullShare} f := by
  rw [set_cntSl]

/-! ### The clearing loop -/

/-- One trip of the clearing loop: sixteen words from 16 k2 set to zero. -/
def zstep (k2 : Fin k0_t2_loop.trips) (f : Buf (Elt F) ((sB).view.loc (thr d L))) : Buf (Elt F) ((sB).view.loc (thr d L)) :=
  (sB).view.writes (Elt F) f [⟨Rect.unit (s := S16384) (k0_off2 k2) S16.size (k0_off2_inb k2), (k0_pay1 : IVec S16 32)⟩]

/-- The second scratch before trip n of the clearing loop, from its contents f0 at the loop's entry. -/
def zfill (f0 : Buf (Elt F) ((sB).view.loc (thr d L))) : ℕ → Buf (Elt F) ((sB).view.loc (thr d L))
  | 0 => f0
  | n + 1 => if h : n < k0_t2_loop.trips then zstep d L ⟨n, h⟩ (zfill f0 n) else zfill f0 n

omit [CountersIn U] in
theorem zfill_zero (f0 : Buf (Elt F) ((sB).view.loc (thr d L))) : zfill d L f0 0 = f0 := rfl

omit [CountersIn U] in
theorem zfill_succ (f0 : Buf (Elt F) ((sB).view.loc (thr d L))) (k2 : Fin k0_t2_loop.trips) :
    zfill d L f0 (k2.val + 1) = zstep d L k2 (zfill d L f0 k2.val) := by
  show (if h : k2.val < k0_t2_loop.trips then zstep d L ⟨k2.val, h⟩ (zfill d L f0 k2.val) else zfill d L f0 k2.val) = _
  rw [dif_pos k2.isLt]

attribute [irreducible] zfill

def invZ (f0 : Buf (Elt F) ((sB).view.loc (thr d L))) (k2 : Nat) (_ : BitVec 32) : sProp 𝕄 :=
  iprop((sB).view.loc (thr d L) ↦{fullShare} zfill d L f0 k2)

theorem zero_trip (f0 : Buf (Elt F) ((sB).view.loc (thr d L))) (k2 : Fin k0_t2_loop.trips) (acc : BitVec 32) :
    (invZ (U := U) d L f0 k2.val acc)
      ⊢ wp frame (wpE (defs₀ (F := F)) 𝒱₀ (thr d L) none) Set.univ
          (k0_t2_body L idsW (Memref.isWhole_whole _) cntW (Memref.isWhole_whole _) sI (Memref.isWhole_whole _) sB (Memref.isWhole_whole _) cc0_scoped0 cc0_scoped1 k2 acc)
          fun r => invZ (U := U) d L f0 (k2.val + 1) r := by
  unfold invZ k0_t2_body
  iintro Hb
  sl_exec
  sl_step
  rw [zfill_succ]
  iexact Hb

/-! ### The token loop -/

open Cert.TileMathK (chk1_all chk2_of_range)

/-- The sixteen tokens of position l, one per lane, read out of the first scratch at contents P. -/
abbrev ldTok (P : Buf (Elt F) ((sI).view.loc (thr d L))) (l : Fin k0_t3_loop.trips) : Vec F S16 .i32 :=
  loadIdx (View.read (Elt F) ((sI).access (Rect.whole (cc0_scratch0 : Ref sig .scVector).ty.shape)) P) ![k0_pay2 l] (k0_idx1_inb (k0_pay2 l) (chk1_all l))

theorem ldTok_range (P : Buf (Elt F) ((sI).view.loc (thr d L))) (hP : ∀ i, (P i).toNat < 4096) (l : Fin k0_t3_loop.trips) :
    ∀ x, (ldTok d L P l x).toNat < 4096 := fun x => hP _

/-- One trip of the token loop on the second scratch: each lane's byte of its word gets one more. -/
def tstep (P : Buf (Elt F) ((sI).view.loc (thr d L))) (hP : ∀ i, (P i).toNat < 4096) (l : Fin k0_t3_loop.trips)
    (f : Buf (Elt F) ((sB).view.loc (thr d L))) : Buf (Elt F) ((sB).view.loc (thr d L)) :=
  ((sB).access (Rect.whole (cc0_scratch1 : Ref sig .scVector).ty.shape)).write (Elt F) f
    (storeIdx (((sB).access (Rect.whole (cc0_scratch1 : Ref sig .scVector).ty.shape)).read (Elt F) f) ![k0_pay4 (ldTok d L P l)] (k0_pay3 (ldTok d L P l)) (fun _ => 1#1) true
      (k0_idx2_inb (k0_pay4 (ldTok d L P l)) (chk2_of_range _ (ldTok_range d L P hP l)))) Finset.univ

/-- The second scratch before trip n of the token loop, from its contents g0 at the loop's entry. -/
def hist (P : Buf (Elt F) ((sI).view.loc (thr d L))) (hP : ∀ i, (P i).toNat < 4096) (g0 : Buf (Elt F) ((sB).view.loc (thr d L))) :
    ℕ → Buf (Elt F) ((sB).view.loc (thr d L))
  | 0 => g0
  | n + 1 => if h : n < k0_t3_loop.trips then tstep d L P hP ⟨n, h⟩ (hist P hP g0 n) else hist P hP g0 n

theorem hist_zero (P : Buf (Elt F) ((sI).view.loc (thr d L))) (hP : ∀ i, (P i).toNat < 4096) (g0 : Buf (Elt F) ((sB).view.loc (thr d L))) :
    hist d L P hP g0 0 = g0 := rfl

theorem hist_succ (P : Buf (Elt F) ((sI).view.loc (thr d L))) (hP : ∀ i, (P i).toNat < 4096) (g0 : Buf (Elt F) ((sB).view.loc (thr d L)))
    (l : Fin k0_t3_loop.trips) : hist d L P hP g0 (l.val + 1) = tstep d L P hP l (hist d L P hP g0 l.val) := by
  show (if h : l.val < k0_t3_loop.trips then tstep d L P hP ⟨l.val, h⟩ (hist d L P hP g0 l.val) else hist d L P hP g0 l.val) = _
  rw [dif_pos l.isLt]

attribute [irreducible] hist

def invT (P : Buf (Elt F) ((sI).view.loc (thr d L))) (hP : ∀ i, (P i).toNat < 4096) (g0 : Buf (Elt F) ((sB).view.loc (thr d L)))
    (l : Nat) (_ : BitVec 32) : sProp 𝕄 :=
  iprop(((sI).view.loc (thr d L) ↦{fullShare} P) ∗ ((sB).view.loc (thr d L) ↦{fullShare} hist d L P hP g0 l))

omit [FloatOps F] [CountersIn U] in
theorem pts_sI_access (f : Buf (Elt F) ((sI).view.loc (thr d L))) :
    ((((sI).access (Rect.whole (cc0_scratch0 : Ref sig .scVector).ty.shape)).loc (thr d L) ↦{fullShare} f : sProp 𝕄)) = ((sI).view.loc (thr d L) ↦{fullShare} f) := rfl
omit [FloatOps F] [CountersIn U] in
theorem pts_sB_access (f : Buf (Elt F) ((sB).view.loc (thr d L))) :
    ((((sB).access (Rect.whole (cc0_scratch1 : Ref sig .scVector).ty.shape)).loc (thr d L) ↦[((sB).access (Rect.whole (cc0_scratch1 : Ref sig .scVector).ty.shape)).set]{fullShare} f : sProp 𝕄)) = ((sB).view.loc (thr d L) ↦{fullShare} f) := by
  rw [show ((sB).access (Rect.whole (cc0_scratch1 : Ref sig .scVector).ty.shape)).set = Finset.univ from by
    show ((View.whole (cc0_scratch1 : Ref sig .scVector)).slice (Rect.whole S16384)).set = _
    rw [View.set_slice_whole]; exact Rect.set_whole _]

theorem tok_trip (P : Buf (Elt F) ((sI).view.loc (thr d L))) (hP : ∀ i, (P i).toNat < 4096) (g0 : Buf (Elt F) ((sB).view.loc (thr d L)))
    (l : Fin k0_t3_loop.trips) (acc : BitVec 32) :
    (invT (U := U) d L P hP g0 l.val acc)
      ⊢ wp frame (wpE (defs₀ (F := F)) 𝒱₀ (thr d L) none) Set.univ
          (k0_t3_body L idsW (Memref.isWhole_whole _) cntW (Memref.isWhole_whole _) sI (Memref.isWhole_whole _) sB (Memref.isWhole_whole _) cc0_scoped0 cc0_scoped1 l acc)
          fun r => invT (U := U) d L P hP g0 (l.val + 1) r := by
  unfold invT k0_t3_body
  iintro ⟨Hs, Hb⟩
  simp only [Prog.lift, Prog.bind_op, Prog.bind_ret, Prog.pure_eq_ret, bind_assoc]
  rw [wp_assume_of _ _ _ _ (chk1_all l)]
  ihave Hs' := (Entails.of_eq (pts_sI_access (U := U) d L P).symm) $$ Hs
  iapply (SparseCore.wp_vectorLoadIdx 𝒱₀ (thr d L) none Set.univ (base := sI) (S := Finset.univ) (q := fullShare) (Finset.subset_univ _)) $$ Hs'; iintro Hs'
  have h2 : k0_chk2 (k0_pay4 (ldTok d L P l)) := chk2_of_range _ (ldTok_range d L P hP l)
  rw [wp_assume_of _ _ _ _ h2]
  ihave Hb' := (Entails.of_eq (pts_sB_access (U := U) d L _).symm) $$ Hb
  iapply (SparseCore.wp_vectorStoreIdx 𝒱₀ (thr d L) none Set.univ (base := sB)) $$ Hb'; iintro Hb'
  rw [wp_ret]; imodintro
  rw [hist_succ]
  isplitl [Hs']
  · iapply (Entails.of_eq (pts_sI_access (U := U) d L P)); iexact Hs'
  · iapply (Entails.of_eq (pts_sB_access (U := U) d L _)); iexact Hb'

omit [FloatOps F] [CountersIn U] in
theorem sI_landed (fs' w : Buf (Elt F) ((sI).view.loc (thr d L))) :
    ((sI).view.loc (thr d L) ↦{fullShare} View.write (Elt F) (sI).view fs' w Finset.univ : sProp 𝕄) = ((sI).view.loc (thr d L) ↦{fullShare} w) := by
  rw [show View.write (Elt F) (sI).view fs' w Finset.univ = w from View.write_whole_univ _ _ _]

omit [FloatOps F] [CountersIn U] in
theorem pts_name {ℓ : Loc nD τ sig} (w : Buf (Elt F) ℓ) : (ℓ ↦{fullShare} w : sProp 𝕄) ⊢ iprop(∃ P, ⌜P = w⌝ ∗ ℓ ↦{fullShare} P) := by
  iintro H; iexists w; isplitr; · ipureintro; rfl
  iexact H

theorem trips1 : k0_t1_loop.trips = 32 := by decide
theorem trips2 : k0_t2_loop.trips = 1024 := by decide
theorem trips3 : k0_t3_loop.trips = 200 := by decide

omit [FloatOps F] [CountersIn U] in
theorem name_writes {ℓ : Loc nD τ sig} {S : Finset ℓ.ty.Idx} (G : (S16384.Idx → Elt F .i32) → Buf (Elt F) ℓ) (X : S16384.Idx → Elt F .i32) :
    (ℓ ↦[S]{fullShare} G X : sProp 𝕄) ⊢ iprop(∃ X', ⌜X' = X⌝ ∗ ℓ ↦[S]{fullShare} G X') := by
  iintro H; iexists X; isplitr; · ipureintro; rfl
  iexact H

omit [FloatOps F] [CountersIn U] in
theorem pieces_step (ids : Buf (Elt F) (idsLoc d)) (cnt : Buf (Elt F) (cntLoc d)) (k : Fin k0_t1_loop.trips) :
    ∀ k' ∈ (Finset.univ : Finset (Fin 32)).erase (k32 k),
      (iprop((idsLoc d ↦[(ipiece (pc L k')).set]{fullShare} ids) ∗ (cntLoc d ↦[(cpiece (pc L k')).set]{fullShare} (if k'.val < k.val then packedFlat ids else cnt))) : sProp 𝕄)
        = iprop((idsLoc d ↦[(ipiece (pc L k')).set]{fullShare} ids) ∗ (cntLoc d ↦[(cpiece (pc L k')).set]{fullShare} (if k'.val < k.val + 1 then packedFlat ids else cnt))) := by
  intro k' hk'
  have hne : k'.val ≠ k.val := fun e => (Finset.mem_erase.mp hk').1 (Fin.ext e)
  by_cases h : k'.val < k.val
  · rw [if_pos h, if_pos (by omega)]
  · rw [if_neg h, if_neg (by omega)]

end Tile

end Cert.Kernel.Hand

end
-- ==== Proof.HistLawsK.lean ====
/-
  The counting kernel's inner loop, abstractly, and the word it adds.

  Sixteen lanes x work on one query each; the loop makes 200 trips l. At trip l lane x adds the word
  1 <<< (8 (t % 4)) into word 1024 x + t / 4 of a buffer of 16384 words, t = tok x l being the lane's token
  (below 4096). Since t / 4 < 1024, word j is only ever written by lane j / 1024, and only by the trips whose
  token t has t / 4 = j % 1024: after the 200 trips word j is word j % 1024 of the packed histogram of the
  query of lane j / 1024.

  The word added is printed as 1 shifted left by ((t and 3) shifted left by 3): the inner amount is
  8 (t % 4), at most 24, so neither shift reaches the width.
-/
import proofs.«207659_g70703751627518_cont_9to1_m_904_5_alg».proof.Proof.Spec
import proofs.«207659_g70703751627518_cont_9to1_m_904_5_alg».proof.Proof.Gen.Kernel.Skeleton
import Mathlib.Algebra.BigOperators.Group.Finset.Basic
import Mathlib.Data.Fintype.BigOperators
import Mathlib.Tactic.NormNum

noncomputable section

namespace Cert.HistLawsK

open Idealize.ShloMosaic Idealize.SL.Sem

/-! ### The loop -/

/-- One trip: every lane adds its word into its place. -/
def pstep (tok : Fin 16 → Fin 200 → ℕ) (l : Fin 200) (f : Fin 16384 → BitVec 32) : Fin 16384 → BitVec 32 :=
  fun j => f j + ∑ x : Fin 16, if j.val = 1024 * x.val + tok x l / 4 then (1#32 <<< (8 * (tok x l % 4))) else 0#32

/-- The buffer after n trips, from the zero buffer. -/
def phist (tok : Fin 16 → Fin 200 → ℕ) : ℕ → (Fin 16384 → BitVec 32)
  | 0 => fun _ => 0#32
  | n + 1 => if h : n < 200 then pstep tok ⟨n, h⟩ (phist tok n) else phist tok n

/-- What trip l adds into word j: the word of lane j / 1024, if that lane's token lands in word j. -/
def lane (tok : Fin 16 → Fin 200 → ℕ) (j : Fin 16384) (l : Fin 200) : BitVec 32 :=
  if tok ⟨j.val / 1024, by have := j.isLt; omega⟩ l / 4 = j.val % 1024
    then (1#32 <<< (8 * (tok ⟨j.val / 1024, by have := j.isLt; omega⟩ l % 4))) else 0#32

/-- Of the sixteen lanes only lane j / 1024 can write word j (a token's word number is below 1024). -/
theorem lane_sum (tok : Fin 16 → Fin 200 → ℕ) (htok : ∀ x l, tok x l < 4096) (j : Fin 16384) (l : Fin 200) :
    (∑ x : Fin 16, if j.val = 1024 * x.val + tok x l / 4 then (1#32 <<< (8 * (tok x l % 4))) else 0#32)
      = lane tok j l := by
  have hj := j.isLt
  have hx0 : j.val / 1024 < 16 := by omega
  refine (Finset.sum_eq_single (⟨j.val / 1024, hx0⟩ : Fin 16) ?_ ?_).trans ?_
  · intro x _ hx
    have ht := htok x l
    have hxv : x.val ≠ j.val / 1024 := fun e => hx (Fin.ext e)
    exact if_neg (by omega)
  · intro hh
    exact absurd (Finset.mem_univ _) hh
  · have ht := htok ⟨j.val / 1024, hx0⟩ l
    have hiff : (j.val = 1024 * (j.val / 1024) + tok ⟨j.val / 1024, hx0⟩ l / 4) ↔
        (tok ⟨j.val / 1024, hx0⟩ l / 4 = j.val % 1024) := by omega
    exact if_congr hiff rfl rfl

/-- The sum over the trips before n + 1 is the sum over the trips before n, plus trip n's term. -/
theorem sum_lt_succ {M : Type} [AddCommMonoid M] (t : Fin 200 → M) (n : ℕ) (h : n < 200) :
    (∑ l : Fin 200, if l.val < n + 1 then t l else 0)
      = (∑ l : Fin 200, if l.val < n then t l else 0) + t ⟨n, h⟩ := by
  have hsplit : ∀ l : Fin 200, (if l.val < n + 1 then t l else 0) =
      (if l.val < n then t l else 0) + (if l.val = n then t l else 0) := by
    intro l
    split_ifs <;> first | omega | simp
  have hone : (∑ l : Fin 200, if l.val = n then t l else 0) = t ⟨n, h⟩ := by
    refine (Finset.sum_eq_single (⟨n, h⟩ : Fin 200) ?_ ?_).trans ?_
    · intro l _ hl
      exact if_neg (fun e => hl (Fin.ext e))
    · intro hh
      exact absurd (Finset.mem_univ _) hh
    · exact if_pos rfl
  rw [Fintype.sum_congr _ _ hsplit, Finset.sum_add_distrib, hone]

/-- After n trips (n at most 200) word j holds what the trips before n added into it. -/
theorem phist_eq (tok : Fin 16 → Fin 200 → ℕ) (htok : ∀ x l, tok x l < 4096) (j : Fin 16384) :
    ∀ n : ℕ, n ≤ 200 → phist tok n j = ∑ l : Fin 200, if l.val < n then lane tok j l else 0
  | 0, _ => (Finset.sum_eq_zero (fun l _ => if_neg (Nat.not_lt_zero _))).symm
  | n + 1, hn => by
    have h : n < 200 := by omega
    show (if h' : n < 200 then pstep tok ⟨n, h'⟩ (phist tok n) else phist tok n) j = _
    rw [dif_pos h]
    show phist tok n j + (∑ x : Fin 16, if j.val = 1024 * x.val + tok x ⟨n, h⟩ / 4
        then (1#32 <<< (8 * (tok x ⟨n, h⟩ % 4))) else 0#32) = _
    rw [lane_sum tok htok j ⟨n, h⟩, phist_eq tok htok j n (by omega), sum_lt_succ (lane tok j) n h]

/-- After the 200 trips word j is word j % 1024 of the packed histogram of lane j / 1024's query. -/
theorem phist_final (tok : Fin 16 → Fin 200 → ℕ) (htok : ∀ x l, tok x l < 4096) (j : Fin 16384) :
    phist tok 200 j = Cert.Spec.packedQ (fun l => ⟨tok ⟨j.val / 1024, by have := j.isLt; omega⟩ l, htok _ _⟩) ⟨j.val % 1024, Nat.mod_lt _ (by decide)⟩ := by
  rw [phist_eq tok htok j 200 le_rfl]
  unfold Cert.Spec.packedQ
  apply Fintype.sum_congr
  intro l
  rw [if_pos l.isLt]
  rfl

/-! ### The word added -/

/-- One shifted left by ((a and 3) shifted left by 3) is one shifted left by 8 (a % 4): the inner amount
    is 8 (a % 4), at most 24, so both shifts are below the width. -/
theorem shl_pay (a : BitVec 32) :
    IntOp.shli .vector (1#32) (IntOp.shli .vector (IntOp.andi a 3#32) 3#32) = 1#32 <<< (8 * (a.toNat % 4)) := by
  have hv : (a &&& 3#32).toNat = a.toNat % 4 := by
    rw [BitVec.toNat_and]
    exact Nat.and_two_pow_sub_one_eq_mod a.toNat 2
  have hin : ((a &&& 3#32) <<< (3#32 : BitVec 32)).toNat = 8 * (a.toNat % 4) := by
    show ((a &&& 3#32) <<< (3#32 : BitVec 32).toNat).toNat = _
    rw [BitVec.toNat_shiftLeft, hv, Nat.shiftLeft_eq]
    show a.toNat % 4 * 2 ^ 3 % 2 ^ 32 = _
    omega
  unfold IntOp.shli IntOp.andi
  rw [if_pos (show (3#32 : BitVec 32).toNat < 32 by decide)]
  rw [if_pos (show ((a &&& 3#32) <<< (3#32 : BitVec 32)).toNat < 32 by rw [hin]; omega)]
  show (1#32 : BitVec 32) <<< ((a &&& 3#32) <<< (3#32 : BitVec 32)).toNat = _
  rw [hin]

/-- The printed payload of the indexed store, lane by lane. -/
theorem pay3_eq {F : FTy → Type} [FloatOps F] (v : Vec F Cert.Kernel.S16 .i32) (x : Cert.Kernel.S16.Idx) :
    (Cert.Kernel.Gen.k0_pay3 v x : BitVec 32) = 1#32 <<< (8 * ((v x : BitVec 32).toNat % 4)) :=
  shl_pay (v x)

end Cert.HistLawsK

end
-- ==== Proof.TileValueK.lean ====
/-
  The value of one outer trip of the counting kernel: after the clearing loop the second scratch is all zeros, each
  trip of the token loop adds one lane's word per lane, and after its 200 trips word y of the second scratch is the
  word of the packed histograms that the flat counts hold at the place the trip's copy puts word y.
-/
import proofs.«207659_g70703751627518_cont_9to1_m_904_5_alg».proof.Proof.TileDefsK
import proofs.«207659_g70703751627518_cont_9to1_m_904_5_alg».proof.Proof.TileMathK
import proofs.«207659_g70703751627518_cont_9to1_m_904_5_alg».proof.Proof.HistLawsK
import Idealize.ShloMosaic.Lib.WritesUnit

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] {U : Type} [URA U] [CountersIn U]

local notation "𝕄" => MT nD τ sig (HIx 1) (Elt F) ℕ U ℕ

-- the kernel's memrefs, spelt as the body table passes them
local notation "idsW" => (Memref.whole Cert.Kernel.main_v0_scv : Memref Cert.Kernel.sig Kind.scVector Space.hbm Cert.Kernel.S3276800 EltTy.i32)
local notation "cntW" => (Memref.whole Cert.Kernel.main_v1_scv : Memref Cert.Kernel.sig Kind.scVector Space.hbm Cert.Kernel.S16777216 EltTy.i32)
local notation "sI" => (Memref.whole Cert.Kernel.cc0_scratch0 : Memref Cert.Kernel.sig Kind.scVector Space.vmem Cert.Kernel.S3200 EltTy.i32)
local notation "sB" => (Memref.whole Cert.Kernel.cc0_scratch1 : Memref Cert.Kernel.sig Kind.scVector Space.vmem Cert.Kernel.S16384 EltTy.i32)

section Tile

variable (d : Dev nD) (L : grid0.Coords)

/-! ### Words and lanes -/

/-- The second scratch's contents as words. -/
abbrev wd (f : Buf (Elt F) ((sB).view.loc (thr d L))) : S16384.Idx → BitVec 32 := f
/-- The first scratch's contents as words. -/
abbrev wdI (P : Buf (Elt F) ((sI).view.loc (thr d L))) : S3200.Idx → BitVec 32 := P
/-- The flat tokens' contents as words. -/
abbrev wdT (ids : Buf (Elt F) (idsLoc d)) : S3276800.Idx → BitVec 32 := ids

/-- Lane x as an index of the sixteen-lane vectors. -/
abbrev lane16 (x : Fin 16) : S16.Idx := Shape.ofLane (d := ![16]) x

/-! ### The clearing loop: all zeros -/

/-- One trip of the clearing loop zeroes the sixteen words from 16 k2 and keeps the others. -/
theorem zstep_apply (k2 : Fin k0_t2_loop.trips) (f : Buf (Elt F) ((sB).view.loc (thr d L))) (y : S16384.Idx) :
    wd d L (zstep d L k2 f) y
      = if 16 * k2.val ≤ (y 0).val ∧ (y 0).val < 16 * k2.val + 16 then 0#32 else wd d L f y := by
  have h := View.read_writes_cons_unit (sB).view f (k0_off2_inb k2) (k0_pay1 : IVec S16 32) [] y (k0_off2_eq k2)
  by_cases hc : 16 * k2.val ≤ (y 0).val ∧ (y 0).val < 16 * k2.val + 16
  · rw [if_pos hc]
    have hall : ∀ a : Fin 1, (![16 * k2.val] : Fin 1 → ℕ) a ≤ (y a).val
        ∧ (y a).val < (![16 * k2.val] : Fin 1 → ℕ) a + S16.size a := by
      intro a; obtain rfl : a = 0 := Subsingleton.elim _ _; exact hc
    exact h.trans (dif_pos hall)
  · rw [if_neg hc]
    have hall : ¬ ∀ a : Fin 1, (![16 * k2.val] : Fin 1 → ℕ) a ≤ (y a).val
        ∧ (y a).val < (![16 * k2.val] : Fin 1 → ℕ) a + S16.size a := fun hh => hc (hh 0)
    exact h.trans (dif_neg hall)

/-- After n trips of the clearing loop the first 16 n words are zero. -/
theorem zfill_clear (fb' : Buf (Elt F) ((sB).view.loc (thr d L))) :
    ∀ n : ℕ, n ≤ 1024 → ∀ y : S16384.Idx, (y 0).val < 16 * n → wd d L (zfill d L fb' n) y = 0#32
  | 0, _, y, hy => absurd hy (by omega)
  | n + 1, hn, y, hy => by
    have h : n < k0_t2_loop.trips := by rw [trips2]; omega
    rw [show zfill d L fb' (n + 1) = zstep d L ⟨n, h⟩ (zfill d L fb' n) from zfill_succ d L fb' ⟨n, h⟩, zstep_apply]
    by_cases hc : 16 * n ≤ (y 0).val ∧ (y 0).val < 16 * n + 16
    · exact if_pos hc
    · exact (if_neg hc).trans (zfill_clear fb' n (by omega) y (by omega))

/-! ### One trip of the token loop, word by word -/

/-- One trip of the token loop adds, into word y, the word of every lane whose token lands there. -/
theorem tstep_apply (P : Buf (Elt F) ((sI).view.loc (thr d L))) (hP : ∀ i, (P i).toNat < 4096) (l : Fin k0_t3_loop.trips)
    (f : Buf (Elt F) ((sB).view.loc (thr d L))) (y : S16384.Idx) :
    wd d L (tstep d L P hP l f) y = wd d L f y + ∑ x : Fin 16,
      if (y 0).val = 1024 * x.val + BitVec.toNat (ldTok d L P l (lane16 x)) / 4
      then (1#32 <<< (8 * (BitVec.toNat (ldTok d L P l (lane16 x)) % 4))) else 0#32 := by
  dsimp only [wd]
  unfold tstep
  rw [Memref.write_access_whole_univ, Memref.read_access_whole, Cert.TileMathK.storeIdx_add_i32]
  refine congrArg (HAdd.hAdd (wd d L f y)) ?_
  show (∑ x : Fin 16, _) = _
  apply Fintype.sum_congr
  intro x
  have hv := ldTok_range d L P hP l (lane16 x)
  have h4 := Cert.TileMathK.pay4_toNat (ldTok d L P l) (lane16 x) hv
  have h3 := Cert.HistLawsK.pay3_eq (ldTok d L P l) (lane16 x)
  have hx0 : ((lane16 x) 0).val = x.val := rfl
  refine (if_congr ?_ h3 rfl)
  constructor
  · intro h
    have h0 : (y 0).val = (k0_pay4 (ldTok d L P l) (lane16 x)).toNat := h (0 : Fin 1)
    rw [h0, h4, hx0]
  · intro h a
    have ha : a = (0 : Fin 1) := Subsingleton.elim (α := Fin 1) a 0
    subst ha
    show (y 0).val = (k0_pay4 (ldTok d L P l) (lane16 x)).toNat
    rw [h4, hx0]; exact h

/-! ### The token loop is the abstract loop -/

/-- Lane x's token at position l, as a number, read out of the first scratch at contents P. -/
def tk (P : Buf (Elt F) ((sI).view.loc (thr d L))) (x : Fin 16) (l : Fin 200) : ℕ :=
  BitVec.toNat (ldTok d L P ⟨l.val, lt_of_lt_of_eq l.isLt trips3.symm⟩ (lane16 x))

theorem tk_lt (P : Buf (Elt F) ((sI).view.loc (thr d L))) (hP : ∀ i, (P i).toNat < 4096) (x : Fin 16) (l : Fin 200) :
    tk d L P x l < 4096 := ldTok_range d L P hP _ _

/-- From the zero buffer, n trips of the token loop leave what n trips of the abstract loop leave. -/
theorem hist_eq_phist (P : Buf (Elt F) ((sI).view.loc (thr d L))) (hP : ∀ i, (P i).toNat < 4096)
    (g0 : Buf (Elt F) ((sB).view.loc (thr d L))) (hg0 : ∀ y, wd d L g0 y = 0#32) :
    ∀ n : ℕ, n ≤ 200 → ∀ j : Fin 16384,
      wd d L (hist d L P hP g0 n) (ValueIdx.ix1 j) = Cert.HistLawsK.phist (tk d L P) n j
  | 0, _, j => by rw [hist_zero]; exact hg0 _
  | n + 1, hn, j => by
    have h : n < 200 := by omega
    have h' : n < k0_t3_loop.trips := by rw [trips3]; exact h
    rw [show hist d L P hP g0 (n + 1) = tstep d L P hP ⟨n, h'⟩ (hist d L P hP g0 n) from hist_succ d L P hP g0 ⟨n, h'⟩,
      tstep_apply, hist_eq_phist P hP g0 hg0 n (by omega) j]
    show _ = (if h'' : n < 200 then Cert.HistLawsK.pstep (tk d L P) ⟨n, h''⟩ (Cert.HistLawsK.phist (tk d L P) n)
      else Cert.HistLawsK.phist (tk d L P) n) j
    rw [dif_pos h]
    rfl

/-! ### Where the two copies put their words -/

/-- The place in the flat counts of word y of trip k's piece. -/
abbrev cntAt (k : Fin k0_t1_loop.trips) (y : S16384.Idx) : S16777216.Idx := (cntSl L k).view.emb y
/-- The place in the flat tokens of word i of trip k's piece. -/
abbrev idsAt (k : Fin k0_t1_loop.trips) (i : S3200.Idx) : S3276800.Idx := (idsSl L k).view.emb i

omit [FloatOps F] in
theorem cntAt_val (k : Fin k0_t1_loop.trips) (y : S16384.Idx) :
    (cntAt L k y 0).val = 1048576 * (L 1).val + 524288 * (L 0).val + 16384 * k.val + (y 0).val := by
  have h : (cntAt L k y 0).val = k0_off3 L k 0 + 1 * (y 0).val := rfl
  have h2 : k0_off3 L k 0 = 1048576 * (L 1).val + 524288 * (L 0).val + 16384 * k.val := by rw [k0_off3_eq]; rfl
  rw [h, h2]; omega

omit [FloatOps F] in
theorem idsAt_val (k : Fin k0_t1_loop.trips) (i : S3200.Idx) :
    (idsAt L k i 0).val = 204800 * (L 1).val + 102400 * (L 0).val + 3200 * k.val + (i 0).val := by
  have h : (idsAt L k i 0).val = k0_off1 L k 0 + 1 * (i 0).val := rfl
  have h2 : k0_off1 L k 0 = 204800 * (L 1).val + 102400 * (L 0).val + 3200 * k.val := by rw [k0_off1_eq]; rfl
  rw [h, h2]; omega

/-- What a lane reads at a trip is the word of the first scratch its index vector names. -/
theorem ldTok_eq (P : Buf (Elt F) ((sI).view.loc (thr d L))) (l : Fin k0_t3_loop.trips) (X : S16.Idx) (i : S3200.Idx)
    (hi : (i 0).val = 200 * (X 0).val + l.val) : (ldTok d L P l X : BitVec 32) = wdI d L P i := by
  have e1 : ldTok d L P l X = (View.read (Elt F) ((sI).access (Rect.whole (cc0_scratch0 : Ref sig .scVector).ty.shape)) P)
      (idxAt ![k0_pay2 l] (k0_idx1_inb (k0_pay2 l) (Cert.TileMathK.chk1_all l)) X) := rfl
  rw [e1, Memref.read_access_whole]
  refine congrArg (wdI d L P) (funext fun a => ?_)
  have ha : a = (0 : Fin 1) := Subsingleton.elim (α := Fin 1) a 0
  subst ha
  apply Fin.ext
  show (k0_pay2 l X).toNat = (i 0).val
  rw [Cert.TileMathK.pay2_toNat, hi]

omit [FloatOps F] in
theorem packedQ_congr {t1 t2 : Fin 200 → Fin 4096} {w1 w2 : Fin 1024} (ht : ∀ l, (t1 l).val = (t2 l).val) (hw : w1.val = w2.val) :
    Cert.Spec.packedQ t1 w1 = Cert.Spec.packedQ t2 w2 := by
  rw [show t1 = t2 from funext fun l => Fin.ext (ht l), show w1 = w2 from Fin.ext hw]

/-! ### The value of one outer trip -/

/-- After the clearing loop and the token loop, word y of the second scratch is the word of the packed histograms
    that the flat counts hold where trip k's copy puts word y. -/
theorem tile_value (ids : Buf (Elt F) (idsLoc d)) (hids : ∀ i, (ids i).toNat < 4096) (k : Fin k0_t1_loop.trips)
    (Pk : Buf (Elt F) ((sI).view.loc (thr d L))) (hPk : ∀ i, (Pk i).toNat < 4096) (ePk : ∀ i, Pk i = ids ((idsSl L k).view.emb i))
    (fb' : Buf (Elt F) ((sB).view.loc (thr d L))) (y : S16384.Idx) :
    hist d L Pk hPk (zfill d L fb' k0_t2_loop.trips) k0_t3_loop.trips y = packedFlat ids ((cntSl L k).view.emb y) := by
  have hy : (y 0).val < 16384 := (y 0).isLt
  have hk : k.val < 32 := lt_of_lt_of_le k.isLt k0_t1_abs.2.1
  have hL0 : (L 0).val < 2 := (L 0).isLt
  have hL1 : (L 1).val < 16 := (L 1).isLt
  have hz : ∀ y', wd d L (zfill d L fb' k0_t2_loop.trips) y' = 0#32 := by
    intro y'
    have hy' : (y' 0).val < 16384 := (y' 0).isLt
    rw [trips2]
    exact zfill_clear d L fb' 1024 le_rfl y' (by omega)
  have h1 := hist_eq_phist d L Pk hPk _ hz 200 le_rfl (y 0)
  have ey : (@ValueIdx.ix1 16384 (y 0) : S16384.Idx) = y := (ValueIdx.eq_ix1 y).symm
  rw [ey, Cert.HistLawsK.phist_final (tk d L Pk) (tk_lt d L Pk hPk) (y 0)] at h1
  rw [trips3]
  refine h1.trans ?_
  show _ = Cert.Spec.packedQ (tokAt (wdT d ids) ⟨(cntAt L k y 0).val / 1024, _⟩) ⟨(cntAt L k y 0).val % 1024, _⟩
  have hc := cntAt_val L k y
  apply packedQ_congr
  · intro l
    have hl : l.val < 200 := l.isLt
    have hx : (y 0).val / 1024 < 16 := by omega
    have e1 : tk d L Pk ⟨(y 0).val / 1024, hx⟩ l
        = BitVec.toNat (wdI d L Pk (ValueIdx.ix1 ⟨200 * ((y 0).val / 1024) + l.val, by omega⟩)) :=
      congrArg BitVec.toNat (ldTok_eq d L Pk ⟨l.val, lt_of_lt_of_eq l.isLt trips3.symm⟩ (lane16 ⟨(y 0).val / 1024, hx⟩)
        (ValueIdx.ix1 ⟨200 * ((y 0).val / 1024) + l.val, by omega⟩) rfl)
    have e2 : wdI d L Pk (ValueIdx.ix1 ⟨200 * ((y 0).val / 1024) + l.val, by omega⟩)
        = wdT d ids (idsAt L k (ValueIdx.ix1 ⟨200 * ((y 0).val / 1024) + l.val, by omega⟩)) := ePk _
    have e3 : idsAt L k (ValueIdx.ix1 ⟨200 * ((y 0).val / 1024) + l.val, by omega⟩)
        = ValueIdx.ix1 ⟨200 * ((cntAt L k y 0).val / 1024) + l.val, by omega⟩ := by
      funext a
      have ha : a = (0 : Fin 1) := Subsingleton.elim (α := Fin 1) a 0
      subst ha
      apply Fin.ext
      rw [idsAt_val]
      show _ + (200 * ((y 0).val / 1024) + l.val) = 200 * ((cntAt L k y 0).val / 1024) + l.val
      omega
    have e4 : BitVec.toNat (wdI d L Pk (ValueIdx.ix1 ⟨200 * ((y 0).val / 1024) + l.val, by omega⟩)) < 4096 := hPk _
    show tk d L Pk ⟨(y 0).val / 1024, hx⟩ l
      = BitVec.toNat (wdT d ids (ValueIdx.ix1 ⟨200 * ((cntAt L k y 0).val / 1024) + l.val, by omega⟩)) % 4096
    rw [← e3, ← e2, Nat.mod_eq_of_lt e4, e1]
  · show (y 0).val % 1024 = (cntAt L k y 0).val % 1024
    omega

/-! ### The copy out -/

/-- The piece of the flat counts after trip k's copy of X, when X is the packed histograms' words at the places the
    copy puts them: the piece at the packed histograms. -/
theorem cnt_landed (k : Fin k0_t1_loop.trips) (ids : Buf (Elt F) (idsLoc d)) (cnt : Buf (Elt F) (cntLoc d)) (X : S16384.Idx → Elt F .i32)
    (eX : ∀ y, X y = packedFlat ids ((cntSl L k).view.emb y)) :
    ((cntSl L k).view.loc (thr d L) ↦[(cntSl L k).view.set]{fullShare} (cntSl L k).view.writes (Elt F) cnt [⟨Rect.whole S16384, X⟩] : sProp 𝕄)
      = (cntLoc d ↦[(cpiece (pc L (k32 k))).set]{fullShare} packedFlat ids) := by
  refine Eq.trans ?_ (pts_cnt (U := U) d L k (packedFlat ids))
  refine pointsTo_congr fun i hi => ?_
  have hi' : ∀ a, k0_off3 L k a ≤ (i a).val ∧ (i a).val < k0_off3 L k a + S16384.size a := by
    have hi2 : i ∈ ((View.whole (main_v1_scv : Ref sig .scVector)).slice
        (Rect.unit (s := S16777216) (k0_off3 L k) S16384.size (k0_off3_inb L k))).set := hi
    rw [View.set_slice_whole, Rect.mem_set_unit] at hi2
    exact hi2
  obtain ⟨y, ey⟩ : ∃ y : S16384.Idx, (cntSl L k).view.emb y = i :=
    ⟨Rect.unitLocal (s := S16777216) (off := k0_off3 L k) (size := S16384.size) i hi', funext fun a => Fin.ext (by
      show k0_off3 L k a + 1 * ((i a).val - k0_off3 L k a) = (i a).val
      have := hi' a
      omega)⟩
  subst ey
  rw [View.writes_singleton]
  have he : ((cntSl L k).view.slice (Rect.whole S16384)).emb y = (cntSl L k).view.emb y := by
    show (cntSl L k).view.emb ((Rect.whole S16384).emb y) = _
    rw [Rect.emb_whole_apply]
  have hw := View.write_emb_of_mem (v := (cntSl L k).view.slice (Rect.whole S16384)) (Val := Elt F) cnt X
    (M := Finset.univ) (x := y) (Finset.mem_univ _)
  rw [he] at hw
  rw [hw, cast_eq, eX]

end Tile

end Cert.Kernel.Hand

end
-- ==== Proof.TileK.lean ====
/-
  One vector subcore's whole task of the counting kernel. In trip k of its 32 trips it copies piece k of its tokens into
  the first scratch, clears the second scratch, runs the 200 token positions (each adding one to a byte of a word per lane),
  and copies the second scratch out to piece k of the counts; what lands there is the sixteen queries' packed histograms.
  The loop's invariant: the pieces of the counts of the trips done hold the packed histograms, the others are untouched.
-/
import proofs.«207659_g70703751627518_cont_9to1_m_904_5_alg».proof.Proof.TileDefsK
import proofs.«207659_g70703751627518_cont_9to1_m_904_5_alg».proof.Proof.TileValueK

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] {U : Type} [URA U] [CountersIn U]

local notation "𝕄" => MT nD τ sig (HIx 1) (Elt F) ℕ U ℕ

-- the kernel's memrefs, spelt as the body table passes them
local notation "idsW" => (Memref.whole Cert.Kernel.main_v0_scv : Memref Cert.Kernel.sig Kind.scVector Space.hbm Cert.Kernel.S3276800 EltTy.i32)
local notation "cntW" => (Memref.whole Cert.Kernel.main_v1_scv : Memref Cert.Kernel.sig Kind.scVector Space.hbm Cert.Kernel.S16777216 EltTy.i32)
local notation "sI" => (Memref.whole Cert.Kernel.cc0_scratch0 : Memref Cert.Kernel.sig Kind.scVector Space.vmem Cert.Kernel.S3200 EltTy.i32)
local notation "sB" => (Memref.whole Cert.Kernel.cc0_scratch1 : Memref Cert.Kernel.sig Kind.scVector Space.vmem Cert.Kernel.S16384 EltTy.i32)

section Tile

variable (d : Dev nD) (L : grid0.Coords)

omit [FloatOps F] [CountersIn U] in
theorem pieces_zero (ids : Buf (Elt F) (idsLoc d)) (cnt : Buf (Elt F) (cntLoc d)) :
    ∀ k' ∈ (Finset.univ : Finset (Fin 32)),
      (iprop((idsLoc d ↦[(ipiece (pc L k')).set]{fullShare} ids) ∗ (cntLoc d ↦[(cpiece (pc L k')).set]{fullShare} cnt)) : sProp 𝕄)
        = iprop((idsLoc d ↦[(ipiece (pc L k')).set]{fullShare} ids) ∗ (cntLoc d ↦[(cpiece (pc L k')).set]{fullShare} (if k'.val < 0 then packedFlat ids else cnt))) := by
  intro k' _
  rw [if_neg (Nat.not_lt_zero _)]

omit [FloatOps F] [CountersIn U] in
theorem pieces_done (ids : Buf (Elt F) (idsLoc d)) (cnt : Buf (Elt F) (cntLoc d)) :
    ∀ k' ∈ (Finset.univ : Finset (Fin 32)),
      (iprop((idsLoc d ↦[(ipiece (pc L k')).set]{fullShare} ids) ∗ (cntLoc d ↦[(cpiece (pc L k')).set]{fullShare} (if k'.val < k0_t1_loop.trips then packedFlat ids else cnt))) : sProp 𝕄)
        = iprop((idsLoc d ↦[(ipiece (pc L k')).set]{fullShare} ids) ∗ (cntLoc d ↦[(cpiece (pc L k')).set]{fullShare} packedFlat ids)) := by
  intro k' _
  rw [if_pos (show k'.val < k0_t1_loop.trips by rw [trips1]; exact k'.isLt)]

theorem tile_body (hF : (K (F := F)).Facts)
    (ids : Buf (Elt F) (idsLoc d)) (cnt : Buf (Elt F) (cntLoc d)) (hids : ∀ i, (ids i).toNat < 4096)
    (O : CellTallies nD τ sig (HIx 1)) (W : Waits sig (HIx 1)) (hO : ∀ g, O g none = 0) :
    iprop(levAts (K (F := F)).L (K (F := F)).lev ∗ taskPts (U := U) d (Fin.cast bound_zero (L 0)) (Fin.cast bound_one (L 1)) ids cnt
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_histogram L (Memref.whole main_v0_scv) (Memref.isWhole_whole _) (Memref.whole main_v1_scv) (Memref.isWhole_whole _)
            (Memref.whole cc0_scratch0) (Memref.isWhole_whole _) (Memref.whole cc0_scratch1) (Memref.isWhole_whole _) cc0_scoped0 cc0_scoped1)
          fun _ => iprop(taskPts (U := U) d (Fin.cast bound_zero (L 0)) (Fin.cast bound_one (L 1)) ids (packedFlat ids)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_histogram_eq_skeleton]; unfold cc0__sc_histogram_skel
  rw [(K (F := F)).scopedBufs_V hF d (cV L) (jV L), SparseCore.Cfg.scopedSems0_V (Val := Elt F) d (cV L) (jV L), ownSems0_V, ownBufs_V]
  unfold taskPts
  iintro ⟨#Hlv, Hpts, ⟨⟨%fs, Hs⟩, ⟨%fb, Hb⟩, Hbufs⟩, ⟨Hsem0, Hsem1, Hsems⟩, HO⟩
  ihave Hmw := ((K (F := F)).mayWaits_none (thr := thr d L) hO) $$ Hlv
  sl_exec
  sl_for (invO d L ids cnt O W) $$ [Hmw Hpts Hs Hb Hsem0 Hsem1 HO]
  case region =>
    intro k acc
    unfold invO
    iintro ⟨Hmw, Hpts, ⟨%fs', Hs⟩, ⟨%fb', Hb⟩, Hsem0, Hsem1, %W', %hW', HO⟩
    ihave Hp := (Entails.of_eq (SparseCore.bigSep_erase' (Finset.mem_univ (k32 k)))) $$ Hpts
    icases Hp with ⟨⟨Hi, Hc⟩, Hrest⟩
    ihave Hi' := (Entails.of_eq (pts_ids d L k ids).symm) $$ Hi
    have hlt : ¬ ((k32 k).val < k.val) := by simp [k32]
    rw [if_neg hlt]
    ihave Hc' := (Entails.of_eq (pts_cnt d L k cnt).symm) $$ Hc
    sl_exec
    sl_for (invZ d L fb') $$ [Hb]
    case region => intro k2 acc2; exact zero_trip d L fb' k2 acc2
    · unfold invZ; rw [zfill_zero]; iexact Hb
    iintro %_ HZ
    unfold invZ
    ihave Hs2 := (Entails.of_eq (sI_landed d L _ _)) $$ Hs
    ihave Hs3 := (pts_name _) $$ Hs2
    icases Hs3 with ⟨%Pk, %hPk, Hs⟩
    have ePk : ∀ i, Pk i = ids ((idsSl L k).view.emb i) := by
      intro i; rw [hPk]; exact (View.read_apply _ _).trans (cast_eq _ _)
    have hPk' : ∀ i, (Pk i).toNat < 4096 := fun i => by rw [ePk]; exact hids _
    sl_exec
    sl_for (invT d L Pk hPk' (zfill d L fb' k0_t2_loop.trips)) $$ [Hs HZ]
    case region => intro l acc3; exact tok_trip d L Pk hPk' _ l acc3
    · unfold invT; rw [hist_zero]; isplitl [Hs]; · iexact Hs
      iexact HZ
    iintro %_ HT
    unfold invT
    icases HT with ⟨Hs, Hb⟩
    sl_exec
    sl_step
    isplitl [Hmw]; · iexact Hmw
    isplitl [Hi' Hc' Hrest]
    · rw [SparseCore.bigSep_erase' (Finset.mem_univ (k32 k))]
      isplitl [Hi' Hc']
      · isplitl [Hi']; · iapply (Entails.of_eq (pts_ids d L k ids)); iexact Hi'
        rw [if_pos (show (k32 k).val < k.val + 1 by simp [k32])]
        have eX : ∀ y, tile_body.sl.dma0_1 d L fb' Pk hPk' y = packedFlat ids ((cntSl L k).view.emb y) := by
          intro y
          refine ((View.read_apply _ _).trans (cast_eq _ _)).trans ?_
          exact tile_value d L ids hids k Pk hPk' ePk fb' y
        iapply (Entails.of_eq (cnt_landed d L k ids cnt _ eX)); iexact Hc'
      · iapply (Entails.of_eq (bigSep_congr (pieces_step d L ids cnt k))); iexact Hrest
    isplitl [Hs]; · iexists _; iexact Hs
    isplitl [Hb]; · iexists _; iexact Hb
    isplitl [Hsem0]; · iexact Hsem0
    isplitl [Hsem1]; · iexact Hsem1
    iexists (insert (SemLoc.dma cc0_scoped1.sem, (default : HIx 1)) (insert (SemLoc.dma cc0_scoped0.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold invO
    isplitl [Hmw]; · iexact Hmw
    isplitl [Hpts]
    · iapply (Entails.of_eq (bigSep_congr (pieces_zero d L ids cnt))); iexact Hpts
    isplitl [Hs]; · iexists _; iexact Hs
    isplitl [Hb]; · iexists _; iexact Hb
    isplitl [Hsem0]; · iexact Hsem0
    isplitl [Hsem1]; · iexact Hsem1
    iexists W; isplitr
    · ipureintro; exact fun p hp => .inl hp
    · iexact HO
  iintro %_ HI
  unfold invO
  icases HI with ⟨-, Hpts, ⟨%fs2, Hs⟩, ⟨%fb2, Hb⟩, Hsem0, Hsem1, %W', %hW', HO⟩
  sl_exec
  sl_step
  isplitl [Hpts]
  · iapply (Entails.of_eq (bigSep_congr (pieces_done d L ids cnt))); iexact Hpts
  isplitl [Hs Hb Hbufs]
  · isplitl [Hs]; · iexists _; iexact Hs
    isplitl [Hb]; · iexists _; iexact Hb
    iexact Hbufs
  isplitl [Hsem0 Hsem1 Hsems]
  · isplitl [Hsem0]; · iexact Hsem0
    isplitl [Hsem1]; · iexact Hsem1
    iexact Hsems
  iexists W'; isplitr
  · ipureintro; exact hW'
  · iexact HO

end Tile

end Cert.Kernel.Hand

end
-- ==== Proof.PreTok.lean ====
/-
  From the precondition to the token range.

  The precondition is a conjunction of six "all" tests over the argument arrays, computed as one bit. Its last
  conjunct says of every token t that 0 ≤ t and t ≤ 4095, both read as signed 32-bit words. A word that is
  non-negative as a signed integer is its own unsigned value, so every token is below 4096 unsigned: each names a
  row of the 4096-row table.
-/
import proofs.«207659_g70703751627518_cont_9to1_m_904_5_alg».proof.Pre_input_domain
import proofs.«207659_g70703751627518_cont_9to1_m_904_5_alg».proof.Proof.Spec
import Idealize.ShloMosaic.Lib.ReduceAll
import Idealize.ShloMosaic.Lib.ValueIdx

noncomputable section

namespace Cert.PreTok

open Idealize.ShloMosaic

/-- The shape of a single bit has one index. -/
instance : Subsingleton Cert.Pre_input_domain.S_.Idx := ⟨fun a b => funext fun d => d.elim0⟩

/-- A word between 0 and 4095 as a signed integer is below 4096 as an unsigned one. -/
theorem toNat_lt_of_signed_range (v : BitVec 32) (h0 : IntOp.cmpi .sge v 0#32 = 1#1) (h1 : IntOp.cmpi .sle v 4095#32 = 1#1) :
    v.toNat < 4096 := by
  rw [IntOp.cmpi_sge] at h0
  rw [IntOp.cmpi_sle] at h1
  simp only [BitVec.toInt_eq_toNat_cond, BitVec.toNat_ofNat, Nat.reducePow, Nat.reduceMod] at h0 h1
  have := v.isLt
  split at h1 <;> simp at h0 h1 <;> omega

/-- Under the precondition every token names a row of the table. -/
theorem tokOK_of_pre {F : FTy → Type} [FloatOps F] [Cert.Pre_input_domain.Facts]
    (a0 : IVec Cert.Pre_input_domain.S16384x200 32) (a1 : FVec F Cert.Pre_input_domain.S4096x72 .f32)
    (a2 : FVec F Cert.Pre_input_domain.S72x256 .f32) (a3 a4 a5 : FVec F Cert.Pre_input_domain.S256 .f32)
    (h : Cert.Pre_input_domain.fn (F := F) a0 a1 a2 a3 a4 a5 = fun _ => 1#1) : Cert.Spec.TokOK a0 := by
  intro i
  have e := congrFun h ValueIdx.ix0
  dsimp only [Cert.Pre_input_domain.fn, Cert.Pre_input_domain.fn_part1] at e
  -- the last conjunct of the conjunction is the test over all tokens
  have e2 := (IntOp.andi_eq_one.1 e).2
  have e3 := Host.reduce_andi_all _ _ _ _ _ e2 i
  have e4 := IntOp.andi_eq_one.1 e3
  exact toNat_lt_of_signed_range (a0 i) e4.1 e4.2

end Cert.PreTok

end
-- ==== Proof.RefRun.lean ====
/-
  The reference program's run, read back as one pure term of its argument arrays.

  The program is a straight line of 79 tensor operations once its calls are unfolded: the row lookup (23 operations:
  a negative token is moved up by the table's height, the rows are gathered, and a row whose token is still out of
  range is replaced by a not-a-number), the mean over a query's 200 rows, the linear layer, the mean and the variance
  of its 256 features (the variance by 23 operations of its own, with a correction term that is 0 here), the
  normalisation, scale, shift and the clip at 0 (3 operations). Every run of it ends with the result buffer at the
  composition of these operations over the arguments, and the arguments as they were.

  The composition is named in stages: the looked-up rows (rowsT), the linear layer's output (linT), the mean and the
  variance of a [16384, 256] array (meanT, varT), and the last stage (normT); refTerm is their composition.
-/
import proofs.«207659_g70703751627518_cont_9to1_m_904_5_alg».proof.Defs
import proofs.«207659_g70703751627518_cont_9to1_m_904_5_alg».proof.Proof.Gen.ReferenceIdeal
import proofs.«207659_g70703751627518_cont_9to1_m_904_5_alg».proof.Proof.Gen.Pre_input_domain
import Idealize.ShloMosaic.Lib.StableHlo.Run

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The tokens as row numbers: a negative token is moved up by 4096; with a trailing unit axis. -/
def tokIdxT (a0 : IVec S16384x200 32) : IVec S16384x200x1 32 :=
  let c : IVec S_ 32 := constantI S_ 32 0#32
  let v0 : IVec S16384x200 32 := broadcastInDim S16384x200 ![] bcast_S_S16384x200 c
  let v1 : IVec S16384x200 1 := cmpi .slt a0 v0
  let c_0 : IVec S_ 32 := constantI S_ 32 4096#32
  let v2 : IVec S16384x200 32 := broadcastInDim S16384x200 ![] bcast_S_S16384x200 c_0
  let v3 : IVec S16384x200 32 := addi a0 v2
  let v4 : IVec S16384x200 32 := select v1 v3 a0
  broadcastInDim S16384x200x1 ![0, 1] bcast_S16384x200_S16384x200x1_0_1 v4

/-- Which row numbers are in range: between 0 and 4095. -/
def tokMaskT (v5 : IVec S16384x200x1 32) : IVec S16384x200 1 :=
  let c_1 : IVec S1 32 := constantI S1 32 4095#32
  let c_2 : IVec S_ 32 := constantI S_ 32 0#32
  let v6 : IVec S16384x200x1 32 := broadcastInDim S16384x200x1 ![] bcast_S_S16384x200x1 c_2
  let v7 : IVec S16384x200x1 1 := cmpi .sge v5 v6
  let v8 : IVec S1x1x1 32 := broadcastInDim S1x1x1 ![2] bcast_S1_S1x1x1_2 c_1
  let v9 : IVec S16384x200x1 32 := broadcastInDim S16384x200x1 ![0, 1, 2] bcast_S1x1x1_S16384x200x1_0_1_2 v8
  let v10 : IVec S16384x200x1 1 := cmpi .sle v5 v9
  let v11 : IVec S16384x200x1 1 := andi v7 v10
  let c_3 : IVec S_ 1 := constantI S_ 1 1#1
  Host.reduce IntOp.andi v11 c_3 reducesTo_S16384x200x1_S16384x200_d2 h_S_

/-- The looked-up rows: row (query, position) is the table's row at that token, or not-a-number where the token is
    out of range. -/
def rowsT (a0 : IVec S16384x200 32) (a1 : FVec F S4096x72 .f32) : FVec F S16384x200x72 .f32 :=
  let v5 : IVec S16384x200x1 32 := tokIdxT a0
  let v12 : IVec S16384x200 1 := tokMaskT v5
  let v13 : FVec F S16384x200x72 .f32 := Host.gather gather_S4096x72_S16384x200x1_S16384x200x72_2_0_n_n_0_2_172 a1 v5
  let v14 : IVec S16384x200x72 1 := broadcastInDim S16384x200x72 ![0, 1] bcast_S16384x200_S16384x200x72_0_1 v12
  let cst : FVec F S_ .f32 := constant S_ .f32 0x7FC00000#32
  let v15 : FVec F S16384x200x72 .f32 := broadcastInDim S16384x200x72 ![] bcast_S_S16384x200x72 cst
  select v14 v13 v15

/-- The mean of a query's rows, then the linear layer. -/
def linT (r : FVec F S16384x200x72 .f32) (a2 : FVec F S72x256 .f32) (a3 : FVec F S256 .f32) : FVec F S16384x256 .f32 :=
  let cst : FVec F S_ .f32 := constant S_ .f32 0x00000000#32
  let v1 : FVec F S16384x72 .f32 := Host.reduceAdd r cst reducesTo_S16384x200x72_S16384x72_d1 h_S_
  let cst_0 : FVec F S_ .f32 := constant S_ .f32 0x43480000#32
  let v2 : FVec F S16384x72 .f32 := broadcastInDim S16384x72 ![] bcast_S_S16384x72 cst_0
  let v3 : FVec F S16384x72 .f32 := Host.divf v1 v2
  let v4 : FVec F S16384x256 .f32 := Host.dotGeneral dot_S16384x72_S72x256_S16384x256_1_0_0_1_n_n none v3 a2
  let v5 : FVec F S1x256 .f32 := broadcastInDim S1x256 ![1] bcast_S256_S1x256_1 a3
  let v6 : FVec F S16384x256 .f32 := broadcastInDim S16384x256 ![0, 1] bcast_S1x256_S16384x256_0_1 v5
  addf v4 v6

/-- The mean of each query's 256 features, as a column. -/
def meanT (h : FVec F S16384x256 .f32) : FVec F S16384x1 .f32 :=
  let cst_1 : FVec F S_ .f32 := constant S_ .f32 0x00000000#32
  let v8 : FVec F S16384 .f32 := Host.reduceAdd h cst_1 reducesTo_S16384x256_S16384_d1 h_S_
  let v9 : FVec F S16384x1 .f32 := broadcastInDim S16384x1 ![0] bcast_S16384_S16384x1_0 v8
  let cst_2 : FVec F S_ .f32 := constant S_ .f32 0x43800000#32
  let v10 : FVec F S16384x1 .f32 := broadcastInDim S16384x1 ![] bcast_S_S16384x1 cst_2
  Host.divf v9 v10

/-- The variance of each query's 256 features, as a column: the mean of the squared deviations from the mean,
    with the divisor 256 - 0 (a correction of 0 degrees of freedom), and not-a-number were that divisor not positive. -/
def varT (h : FVec F S16384x256 .f32) : FVec F S16384x1 .f32 :=
  let c : IVec S_ 32 := constantI S_ 32 0#32
  let v3 : FVec F S16384x1 .f32 := meanT h
  let v4 : FVec F S16384x256 .f32 := broadcastInDim S16384x256 ![0, 1] bcast_S16384x1_S16384x256_0_1 v3
  let v5 : FVec F S16384x256 .f32 := subf h v4
  let v6 : FVec F S16384x256 .f32 := mulf v5 v5
  let v7 : FVec F S_ .f32 := sitofp .f32 c
  let cst_1 : FVec F S_ .f32 := constant S_ .f32 0x43800000#32
  let v8 : FVec F S_ .f32 := subf cst_1 v7
  let cst_2 : FVec F S_ .f32 := constant S_ .f32 0x00000000#32
  let v9 : FVec F S16384 .f32 := Host.reduceAdd v6 cst_2 reducesTo_S16384x256_S16384_d1 h_S_
  let v10 : FVec F S16384x1 .f32 := broadcastInDim S16384x1 ![0] bcast_S16384_S16384x1_0 v9
  let v11 : FVec F S16384x1 .f32 := broadcastInDim S16384x1 ![] bcast_S_S16384x1 v8
  let v12 : FVec F S16384x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let w1 : FVec F S16384x1 .f32 := broadcastInDim S16384x1 ![] bcast_S_S16384x1 cst_4
  select (broadcastInDim S16384x1 ![] bcast_S_S16384x1 v13) v12 w1

/-- The last stage: centre, divide by the root of the variance plus a constant, scale, shift, clip at 0. -/
def normT (h : FVec F S16384x256 .f32) (mu va : FVec F S16384x1 .f32) (a4 a5 : FVec F S256 .f32) : FVec F S16384x256 .f32 :=
  let v13 : FVec F S16384x256 .f32 := broadcastInDim S16384x256 ![0, 1] bcast_S16384x1_S16384x256_0_1 mu
  let v14 : FVec F S16384x256 .f32 := subf h v13
  let cst_3 : FVec F S_ .f32 := constant S_ .f32 0x3727C5AC#32
  let v15 : FVec F S16384x1 .f32 := broadcastInDim S16384x1 ![] bcast_S_S16384x1 cst_3
  let v16 : FVec F S16384x1 .f32 := addf va v15
  let v17 : FVec F S16384x1 .f32 := Host.sqrt v16
  let v18 : FVec F S16384x256 .f32 := broadcastInDim S16384x256 ![0, 1] bcast_S16384x1_S16384x256_0_1 v17
  let v19 : FVec F S16384x256 .f32 := Host.divf v14 v18
  let v20 : FVec F S1x256 .f32 := broadcastInDim S1x256 ![1] bcast_S256_S1x256_1 a4
  let v21 : FVec F S16384x256 .f32 := broadcastInDim S16384x256 ![0, 1] bcast_S1x256_S16384x256_0_1 v20
  let v22 : FVec F S16384x256 .f32 := mulf v19 v21
  let v23 : FVec F S1x256 .f32 := broadcastInDim S1x256 ![1] bcast_S256_S1x256_1 a5
  let v24 : FVec F S16384x256 .f32 := broadcastInDim S16384x256 ![0, 1] bcast_S1x256_S16384x256_0_1 v23
  let v25 : FVec F S16384x256 .f32 := addf v22 v24
  let cst : FVec F S_ .f32 := constant S_ .f32 0x00000000#32
  let w0 : FVec F S16384x256 .f32 := broadcastInDim S16384x256 ![] bcast_S_S16384x256 cst
  maximumf v25 w0

/-- The reference's result as one pure term of its arguments. -/
def refTerm (a0 : IVec S16384x200 32) (a1 : FVec F S4096x72 .f32) (a2 : FVec F S72x256 .f32) (a3 a4 a5 : FVec F S256 .f32) :
    FVec F S16384x256 .f32 :=
  let h : FVec F S16384x256 .f32 := linT (rowsT a0 a1) a2 a3
  normT h (meanT h) (varT h) a4 a5

/-! ## The program as a list of operations -/

/-- The program's 79 operations in order, the calls unfolded: each called function's operations over the buffers that
    call names. -/
abbrev ops : List (HloOp τ sig (Elt F)) :=
  [
    TRef.nullary main_call0.c (constantI S_ 32 0#32),
    TRef.unary main_call0.c main_call0.v0 (broadcastInDim S16384x200 ![] bcast_S_S16384x200),
    TRef.binary (.of main_arg0) main_call0.v0 main_call0.v1 (cmpi .slt),
    TRef.nullary main_call0.c_0 (constantI S_ 32 4096#32),
    TRef.unary main_call0.c_0 main_call0.v2 (broadcastInDim S16384x200 ![] bcast_S_S16384x200),
    TRef.binary (.of main_arg0) main_call0.v2 main_call0.v3 addi,
    TRef.ternary main_call0.v1 main_call0.v3 (.of main_arg0) main_call0.call0.v0 select,
    TRef.unary main_call0.call0.v0 main_call0.v5 (broadcastInDim S16384x200x1 ![0, 1] bcast_S16384x200_S16384x200x1_0_1),
    TRef.nullary main_call0.c_1 (constantI S1 32 4095#32),
    TRef.nullary main_call0.c_2 (constantI S_ 32 0#32),
    TRef.unary main_call0.c_2 main_call0.v6 (broadcastInDim S16384x200x1 ![] bcast_S_S16384x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x200x1 ![0, 1, 2] bcast_S1x1x1_S16384x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x200x1_S16384x200_d2 h_S_),
    TRef.binary (.of main_arg1) main_call0.v5 main_call0.v13 (fun x i => Host.gather gather_S4096x72_S16384x200x1_S16384x200x72_2_0_n_n_0_2_172 x i),
    TRef.unary main_call0.v12 main_call0.v14 (broadcastInDim S16384x200x72 ![0, 1] bcast_S16384x200_S16384x200x72_0_1),
    TRef.nullary main_call0.cst (constant S_ .f32 0x7FC00000#32),
    TRef.unary main_call0.cst main_call0.v15 (broadcastInDim S16384x200x72 ![] bcast_S_S16384x200x72),
    TRef.ternary main_call0.v14 main_call0.v13 main_call0.v15 main_call0.v16 select,
    nullary main_cst (constant S_ .f32 0x00000000#32),
    binary main_v0 main_cst main_v1 ((fun x v => Host.reduceAdd x v reducesTo_S16384x200x72_S16384x72_d1 h_S_) : (⟨S16384x200x72, .f32⟩ : BufTy).Contents (Elt F) → (⟨S_, .f32⟩ : BufTy).Contents (Elt F) → (⟨S16384x72, .f32⟩ : BufTy).Contents (Elt F)),
    nullary main_cst_0 (constant S_ .f32 0x43480000#32),
    unary main_cst_0 main_v2 (broadcastInDim S16384x72 ![] bcast_S_S16384x72 : (⟨S_, .f32⟩ : BufTy).Contents (Elt F) → (⟨S16384x72, .f32⟩ : BufTy).Contents (Elt F)),
    binary main_v1 main_v2 main_v3 (Host.divf : (⟨S16384x72, .f32⟩ : BufTy).Contents (Elt F) → (⟨S16384x72, .f32⟩ : BufTy).Contents (Elt F) → (⟨S16384x72, .f32⟩ : BufTy).Contents (Elt F)),
    binary main_v3 main_arg2 main_v4 ((fun l r => Host.dotGeneral dot_S16384x72_S72x256_S16384x256_1_0_0_1_n_n none l r) : (⟨S16384x72, .f32⟩ : BufTy).Contents (Elt F) → (⟨S72x256, .f32⟩ : BufTy).Contents (Elt F) → (⟨S16384x256, .f32⟩ : BufTy).Contents (Elt F)),
    unary main_arg3 main_v5 (broadcastInDim S1x256 ![1] bcast_S256_S1x256_1 : (⟨S256, .f32⟩ : BufTy).Contents (Elt F) → (⟨S1x256, .f32⟩ : BufTy).Contents (Elt F)),
    unary main_v5 main_v6 (broadcastInDim S16384x256 ![0, 1] bcast_S1x256_S16384x256_0_1 : (⟨S1x256, .f32⟩ : BufTy).Contents (Elt F) → (⟨S16384x256, .f32⟩ : BufTy).Contents (Elt F)),
    binary main_v4 main_v6 main_v7 (addf : (⟨S16384x256, .f32⟩ : BufTy).Contents (Elt F) → (⟨S16384x256, .f32⟩ : BufTy).Contents (Elt F) → (⟨S16384x256, .f32⟩ : BufTy).Contents (Elt F)),
    nullary main_cst_1 (constant S_ .f32 0x00000000#32),
    binary main_v7 main_cst_1 main_v8 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    unary main_v8 main_v9 (broadcastInDim S16384x1 ![0] bcast_S16384_S16384x1_0 : (⟨S16384, .f32⟩ : BufTy).Contents (Elt F) → (⟨S16384x1, .f32⟩ : BufTy).Contents (Elt F)),
    nullary main_cst_2 (constant S_ .f32 0x43800000#32),
    unary main_cst_2 main_v10 (broadcastInDim S16384x1 ![] bcast_S_S16384x1 : (⟨S_, .f32⟩ : BufTy).Contents (Elt F) → (⟨S16384x1, .f32⟩ : BufTy).Contents (Elt F)),
    binary main_v9 main_v10 main_v11 (Host.divf : (⟨S16384x1, .f32⟩ : BufTy).Contents (Elt F) → (⟨S16384x1, .f32⟩ : BufTy).Contents (Elt F) → (⟨S16384x1, .f32⟩ : BufTy).Contents (Elt F)),
    nullary main_c (constantI S_ 32 0#32),
    TRef.nullary main_call1.cst (constant S_ .f32 0x00000000#32),
    TRef.binary (.of main_v7) main_call1.cst main_call1.v0 (fun x v => Host.reduceAdd x v reducesTo_S16384x256_S16384_d1 h_S_),
    TRef.unary main_call1.v0 main_call1.v1 (broadcastInDim S16384x1 ![0] bcast_S16384_S16384x1_0),
    TRef.nullary main_call1.cst_0 (constant S_ .f32 0x43800000#32),
    TRef.unary main_call1.cst_0 main_call1.v2 (broadcastInDim S16384x1 ![] bcast_S_S16384x1),
    TRef.binary main_call1.v1 main_call1.v2 main_call1.v3 Host.divf,
    TRef.unary main_call1.v3 main_call1.v4 (broadcastInDim S16384x256 ![0, 1] bcast_S16384x1_S16384x256_0_1),
    TRef.binary (.of main_v7) main_call1.v4 main_call1.v5 subf,
    TRef.binary main_call1.v5 main_call1.v5 main_call1.v6 mulf,
    TRef.unary (.of main_c) main_call1.v7 (sitofp .f32),
    TRef.nullary main_call1.cst_1 (constant S_ .f32 0x43800000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S16384x256_S16384_d1 h_S_),
    TRef.unary main_call1.v9 main_call1.v10 (broadcastInDim S16384x1 ![0] bcast_S16384_S16384x1_0),
    TRef.unary main_call1.v8 main_call1.v11 (broadcastInDim S16384x1 ![] bcast_S_S16384x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S16384x1 ![] bcast_S_S16384x1),
    TRef.ternary main_call1.v13 main_call1.v12 main_call1.call0.v1 main_call1.call0.v2 (fun p a b => select (broadcastInDim S16384x1 ![] bcast_S_S16384x1 p) a b),
    unary main_v11 main_v13 (broadcastInDim S16384x256 ![0, 1] bcast_S16384x1_S16384x256_0_1 : (⟨S16384x1, .f32⟩ : BufTy).Contents (Elt F) → (⟨S16384x256, .f32⟩ : BufTy).Contents (Elt F)),
    binary main_v7 main_v13 main_v14 (subf : (⟨S16384x256, .f32⟩ : BufTy).Contents (Elt F) → (⟨S16384x256, .f32⟩ : BufTy).Contents (Elt F) → (⟨S16384x256, .f32⟩ : BufTy).Contents (Elt F)),
    nullary main_cst_3 (constant S_ .f32 0x3727C5AC#32),
    unary main_cst_3 main_v15 (broadcastInDim S16384x1 ![] bcast_S_S16384x1 : (⟨S_, .f32⟩ : BufTy).Contents (Elt F) → (⟨S16384x1, .f32⟩ : BufTy).Contents (Elt F)),
    binary main_v12 main_v15 main_v16 (addf : (⟨S16384x1, .f32⟩ : BufTy).Contents (Elt F) → (⟨S16384x1, .f32⟩ : BufTy).Contents (Elt F) → (⟨S16384x1, .f32⟩ : BufTy).Contents (Elt F)),
    unary main_v16 main_v17 (Host.sqrt : (⟨S16384x1, .f32⟩ : BufTy).Contents (Elt F) → (⟨S16384x1, .f32⟩ : BufTy).Contents (Elt F)),
    unary main_v17 main_v18 (broadcastInDim S16384x256 ![0, 1] bcast_S16384x1_S16384x256_0_1 : (⟨S16384x1, .f32⟩ : BufTy).Contents (Elt F) → (⟨S16384x256, .f32⟩ : BufTy).Contents (Elt F)),
    binary main_v14 main_v18 main_v19 (Host.divf : (⟨S16384x256, .f32⟩ : BufTy).Contents (Elt F) → (⟨S16384x256, .f32⟩ : BufTy).Contents (Elt F) → (⟨S16384x256, .f32⟩ : BufTy).Contents (Elt F)),
    unary main_arg4 main_v20 (broadcastInDim S1x256 ![1] bcast_S256_S1x256_1 : (⟨S256, .f32⟩ : BufTy).Contents (Elt F) → (⟨S1x256, .f32⟩ : BufTy).Contents (Elt F)),
    unary main_v20 main_v21 (broadcastInDim S16384x256 ![0, 1] bcast_S1x256_S16384x256_0_1 : (⟨S1x256, .f32⟩ : BufTy).Contents (Elt F) → (⟨S16384x256, .f32⟩ : BufTy).Contents (Elt F)),
    binary main_v19 main_v21 main_v22 (mulf : (⟨S16384x256, .f32⟩ : BufTy).Contents (Elt F) → (⟨S16384x256, .f32⟩ : BufTy).Contents (Elt F) → (⟨S16384x256, .f32⟩ : BufTy).Contents (Elt F)),
    unary main_arg5 main_v23 (broadcastInDim S1x256 ![1] bcast_S256_S1x256_1 : (⟨S256, .f32⟩ : BufTy).Contents (Elt F) → (⟨S1x256, .f32⟩ : BufTy).Contents (Elt F)),
    unary main_v23 main_v24 (broadcastInDim S16384x256 ![0, 1] bcast_S1x256_S16384x256_0_1 : (⟨S1x256, .f32⟩ : BufTy).Contents (Elt F) → (⟨S16384x256, .f32⟩ : BufTy).Contents (Elt F)),
    binary main_v22 main_v24 main_v25 (addf : (⟨S16384x256, .f32⟩ : BufTy).Contents (Elt F) → (⟨S16384x256, .f32⟩ : BufTy).Contents (Elt F) → (⟨S16384x256, .f32⟩ : BufTy).Contents (Elt F)),
    TRef.nullary main_call2.cst (constant S_ .f32 0x00000000#32),
    TRef.unary main_call2.cst main_call2.v0 (broadcastInDim S16384x256 ![] bcast_S_S16384x256),
    TRef.binary (.of main_v25) main_call2.v0 main_call2.v1 maximumf ]

-- both sides are one chain of 79 steps once sequencing is evaluated: deep, not wide
set_option maxRecDepth 8192 in
set_option maxHeartbeats 400000 in
/-- The program is that straight line: the called functions unfolded where they are called, the sequencing
    re-associated (both by computation). -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    binary_bufs_sub .., nullary_bufs_sub .., unary_bufs_sub .., binary_bufs_sub .., binary_bufs_sub .., unary_bufs_sub ..,
    unary_bufs_sub .., binary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub ..⟩

/-! ## The run, stage by stage

The 79 operations are five stretches, one per stage; after a stretch its result buffer holds the stage's term over the
buffers the stretch reads, and the buffers a later stretch reads are as they were. -/

abbrev opsA : List (HloOp τ sig (Elt F)) :=
  [
    TRef.nullary main_call0.c (constantI S_ 32 0#32),
    TRef.unary main_call0.c main_call0.v0 (broadcastInDim S16384x200 ![] bcast_S_S16384x200),
    TRef.binary (.of main_arg0) main_call0.v0 main_call0.v1 (cmpi .slt),
    TRef.nullary main_call0.c_0 (constantI S_ 32 4096#32),
    TRef.unary main_call0.c_0 main_call0.v2 (broadcastInDim S16384x200 ![] bcast_S_S16384x200),
    TRef.binary (.of main_arg0) main_call0.v2 main_call0.v3 addi,
    TRef.ternary main_call0.v1 main_call0.v3 (.of main_arg0) main_call0.call0.v0 select,
    TRef.unary main_call0.call0.v0 main_call0.v5 (broadcastInDim S16384x200x1 ![0, 1] bcast_S16384x200_S16384x200x1_0_1),
    TRef.nullary main_call0.c_1 (constantI S1 32 4095#32),
    TRef.nullary main_call0.c_2 (constantI S_ 32 0#32),
    TRef.unary main_call0.c_2 main_call0.v6 (broadcastInDim S16384x200x1 ![] bcast_S_S16384x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x200x1 ![0, 1, 2] bcast_S1x1x1_S16384x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x200x1_S16384x200_d2 h_S_),
    TRef.binary (.of main_arg1) main_call0.v5 main_call0.v13 (fun x i => Host.gather gather_S4096x72_S16384x200x1_S16384x200x72_2_0_n_n_0_2_172 x i),
    TRef.unary main_call0.v12 main_call0.v14 (broadcastInDim S16384x200x72 ![0, 1] bcast_S16384x200_S16384x200x72_0_1),
    TRef.nullary main_call0.cst (constant S_ .f32 0x7FC00000#32),
    TRef.unary main_call0.cst main_call0.v15 (broadcastInDim S16384x200x72 ![] bcast_S_S16384x200x72),
    TRef.ternary main_call0.v14 main_call0.v13 main_call0.v15 main_call0.v16 select ]

abbrev opsB : List (HloOp τ sig (Elt F)) :=
  [
    nullary main_cst (constant S_ .f32 0x00000000#32),
    binary main_v0 main_cst main_v1 ((fun x v => Host.reduceAdd x v reducesTo_S16384x200x72_S16384x72_d1 h_S_) : (⟨S16384x200x72, .f32⟩ : BufTy).Contents (Elt F) → (⟨S_, .f32⟩ : BufTy).Contents (Elt F) → (⟨S16384x72, .f32⟩ : BufTy).Contents (Elt F)),
    nullary main_cst_0 (constant S_ .f32 0x43480000#32),
    unary main_cst_0 main_v2 (broadcastInDim S16384x72 ![] bcast_S_S16384x72 : (⟨S_, .f32⟩ : BufTy).Contents (Elt F) → (⟨S16384x72, .f32⟩ : BufTy).Contents (Elt F)),
    binary main_v1 main_v2 main_v3 (Host.divf : (⟨S16384x72, .f32⟩ : BufTy).Contents (Elt F) → (⟨S16384x72, .f32⟩ : BufTy).Contents (Elt F) → (⟨S16384x72, .f32⟩ : BufTy).Contents (Elt F)),
    binary main_v3 main_arg2 main_v4 ((fun l r => Host.dotGeneral dot_S16384x72_S72x256_S16384x256_1_0_0_1_n_n none l r) : (⟨S16384x72, .f32⟩ : BufTy).Contents (Elt F) → (⟨S72x256, .f32⟩ : BufTy).Contents (Elt F) → (⟨S16384x256, .f32⟩ : BufTy).Contents (Elt F)),
    unary main_arg3 main_v5 (broadcastInDim S1x256 ![1] bcast_S256_S1x256_1 : (⟨S256, .f32⟩ : BufTy).Contents (Elt F) → (⟨S1x256, .f32⟩ : BufTy).Contents (Elt F)),
    unary main_v5 main_v6 (broadcastInDim S16384x256 ![0, 1] bcast_S1x256_S16384x256_0_1 : (⟨S1x256, .f32⟩ : BufTy).Contents (Elt F) → (⟨S16384x256, .f32⟩ : BufTy).Contents (Elt F)),
    binary main_v4 main_v6 main_v7 (addf : (⟨S16384x256, .f32⟩ : BufTy).Contents (Elt F) → (⟨S16384x256, .f32⟩ : BufTy).Contents (Elt F) → (⟨S16384x256, .f32⟩ : BufTy).Contents (Elt F)) ]

abbrev opsC : List (HloOp τ sig (Elt F)) :=
  [
    nullary main_cst_1 (constant S_ .f32 0x00000000#32),
    binary main_v7 main_cst_1 main_v8 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    unary main_v8 main_v9 (broadcastInDim S16384x1 ![0] bcast_S16384_S16384x1_0 : (⟨S16384, .f32⟩ : BufTy).Contents (Elt F) → (⟨S16384x1, .f32⟩ : BufTy).Contents (Elt F)),
    nullary main_cst_2 (constant S_ .f32 0x43800000#32),
    unary main_cst_2 main_v10 (broadcastInDim S16384x1 ![] bcast_S_S16384x1 : (⟨S_, .f32⟩ : BufTy).Contents (Elt F) → (⟨S16384x1, .f32⟩ : BufTy).Contents (Elt F)),
    binary main_v9 main_v10 main_v11 (Host.divf : (⟨S16384x1, .f32⟩ : BufTy).Contents (Elt F) → (⟨S16384x1, .f32⟩ : BufTy).Contents (Elt F) → (⟨S16384x1, .f32⟩ : BufTy).Contents (Elt F)) ]

abbrev opsD : List (HloOp τ sig (Elt F)) :=
  [
    nullary main_c (constantI S_ 32 0#32),
    TRef.nullary main_call1.cst (constant S_ .f32 0x00000000#32),
    TRef.binary (.of main_v7) main_call1.cst main_call1.v0 (fun x v => Host.reduceAdd x v reducesTo_S16384x256_S16384_d1 h_S_),
    TRef.unary main_call1.v0 main_call1.v1 (broadcastInDim S16384x1 ![0] bcast_S16384_S16384x1_0),
    TRef.nullary main_call1.cst_0 (constant S_ .f32 0x43800000#32),
    TRef.unary main_call1.cst_0 main_call1.v2 (broadcastInDim S16384x1 ![] bcast_S_S16384x1),
    TRef.binary main_call1.v1 main_call1.v2 main_call1.v3 Host.divf,
    TRef.unary main_call1.v3 main_call1.v4 (broadcastInDim S16384x256 ![0, 1] bcast_S16384x1_S16384x256_0_1),
    TRef.binary (.of main_v7) main_call1.v4 main_call1.v5 subf,
    TRef.binary main_call1.v5 main_call1.v5 main_call1.v6 mulf,
    TRef.unary (.of main_c) main_call1.v7 (sitofp .f32),
    TRef.nullary main_call1.cst_1 (constant S_ .f32 0x43800000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S16384x256_S16384_d1 h_S_),
    TRef.unary main_call1.v9 main_call1.v10 (broadcastInDim S16384x1 ![0] bcast_S16384_S16384x1_0),
    TRef.unary main_call1.v8 main_call1.v11 (broadcastInDim S16384x1 ![] bcast_S_S16384x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S16384x1 ![] bcast_S_S16384x1),
    TRef.ternary main_call1.v13 main_call1.v12 main_call1.call0.v1 main_call1.call0.v2 (fun p a b => select (broadcastInDim S16384x1 ![] bcast_S_S16384x1 p) a b) ]

abbrev opsE : List (HloOp τ sig (Elt F)) :=
  [
    unary main_v11 main_v13 (broadcastInDim S16384x256 ![0, 1] bcast_S16384x1_S16384x256_0_1 : (⟨S16384x1, .f32⟩ : BufTy).Contents (Elt F) → (⟨S16384x256, .f32⟩ : BufTy).Contents (Elt F)),
    binary main_v7 main_v13 main_v14 (subf : (⟨S16384x256, .f32⟩ : BufTy).Contents (Elt F) → (⟨S16384x256, .f32⟩ : BufTy).Contents (Elt F) → (⟨S16384x256, .f32⟩ : BufTy).Contents (Elt F)),
    nullary main_cst_3 (constant S_ .f32 0x3727C5AC#32),
    unary main_cst_3 main_v15 (broadcastInDim S16384x1 ![] bcast_S_S16384x1 : (⟨S_, .f32⟩ : BufTy).Contents (Elt F) → (⟨S16384x1, .f32⟩ : BufTy).Contents (Elt F)),
    binary main_v12 main_v15 main_v16 (addf : (⟨S16384x1, .f32⟩ : BufTy).Contents (Elt F) → (⟨S16384x1, .f32⟩ : BufTy).Contents (Elt F) → (⟨S16384x1, .f32⟩ : BufTy).Contents (Elt F)),
    unary main_v16 main_v17 (Host.sqrt : (⟨S16384x1, .f32⟩ : BufTy).Contents (Elt F) → (⟨S16384x1, .f32⟩ : BufTy).Contents (Elt F)),
    unary main_v17 main_v18 (broadcastInDim S16384x256 ![0, 1] bcast_S16384x1_S16384x256_0_1 : (⟨S16384x1, .f32⟩ : BufTy).Contents (Elt F) → (⟨S16384x256, .f32⟩ : BufTy).Contents (Elt F)),
    binary main_v14 main_v18 main_v19 (Host.divf : (⟨S16384x256, .f32⟩ : BufTy).Contents (Elt F) → (⟨S16384x256, .f32⟩ : BufTy).Contents (Elt F) → (⟨S16384x256, .f32⟩ : BufTy).Contents (Elt F)),
    unary main_arg4 main_v20 (broadcastInDim S1x256 ![1] bcast_S256_S1x256_1 : (⟨S256, .f32⟩ : BufTy).Contents (Elt F) → (⟨S1x256, .f32⟩ : BufTy).Contents (Elt F)),
    unary main_v20 main_v21 (broadcastInDim S16384x256 ![0, 1] bcast_S1x256_S16384x256_0_1 : (⟨S1x256, .f32⟩ : BufTy).Contents (Elt F) → (⟨S16384x256, .f32⟩ : BufTy).Contents (Elt F)),
    binary main_v19 main_v21 main_v22 (mulf : (⟨S16384x256, .f32⟩ : BufTy).Contents (Elt F) → (⟨S16384x256, .f32⟩ : BufTy).Contents (Elt F) → (⟨S16384x256, .f32⟩ : BufTy).Contents (Elt F)),
    unary main_arg5 main_v23 (broadcastInDim S1x256 ![1] bcast_S256_S1x256_1 : (⟨S256, .f32⟩ : BufTy).Contents (Elt F) → (⟨S1x256, .f32⟩ : BufTy).Contents (Elt F)),
    unary main_v23 main_v24 (broadcastInDim S16384x256 ![0, 1] bcast_S1x256_S16384x256_0_1 : (⟨S1x256, .f32⟩ : BufTy).Contents (Elt F) → (⟨S16384x256, .f32⟩ : BufTy).Contents (Elt F)),
    binary main_v22 main_v24 main_v25 (addf : (⟨S16384x256, .f32⟩ : BufTy).Contents (Elt F) → (⟨S16384x256, .f32⟩ : BufTy).Contents (Elt F) → (⟨S16384x256, .f32⟩ : BufTy).Contents (Elt F)),
    TRef.nullary main_call2.cst (constant S_ .f32 0x00000000#32),
    TRef.unary main_call2.cst main_call2.v0 (broadcastInDim S16384x256 ![] bcast_S_S16384x256),
    TRef.binary (.of main_v25) main_call2.v0 main_call2.v1 maximumf ]

theorem ops_split : (ops : List (HloOp τ sig (Elt F))) = opsA ++ (opsB ++ (opsC ++ (opsD ++ opsE))) := rfl

/-- Running two stretches one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons]; exact ih _

/-! The row lookup's stretch is three shorter ones: the row numbers, the in-range mask, the gather and its select. -/

abbrev opsA1 : List (HloOp τ sig (Elt F)) :=
  [
    TRef.nullary main_call0.c (constantI S_ 32 0#32),
    TRef.unary main_call0.c main_call0.v0 (broadcastInDim S16384x200 ![] bcast_S_S16384x200),
    TRef.binary (.of main_arg0) main_call0.v0 main_call0.v1 (cmpi .slt),
    TRef.nullary main_call0.c_0 (constantI S_ 32 4096#32),
    TRef.unary main_call0.c_0 main_call0.v2 (broadcastInDim S16384x200 ![] bcast_S_S16384x200),
    TRef.binary (.of main_arg0) main_call0.v2 main_call0.v3 addi,
    TRef.ternary main_call0.v1 main_call0.v3 (.of main_arg0) main_call0.call0.v0 select,
    TRef.unary main_call0.call0.v0 main_call0.v5 (broadcastInDim S16384x200x1 ![0, 1] bcast_S16384x200_S16384x200x1_0_1) ]

abbrev opsA2 : List (HloOp τ sig (Elt F)) :=
  [
    TRef.nullary main_call0.c_1 (constantI S1 32 4095#32),
    TRef.nullary main_call0.c_2 (constantI S_ 32 0#32),
    TRef.unary main_call0.c_2 main_call0.v6 (broadcastInDim S16384x200x1 ![] bcast_S_S16384x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x200x1 ![0, 1, 2] bcast_S1x1x1_S16384x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x200x1_S16384x200_d2 h_S_) ]

abbrev opsA3 : List (HloOp τ sig (Elt F)) :=
  [
    TRef.binary (.of main_arg1) main_call0.v5 main_call0.v13 (fun x i => Host.gather gather_S4096x72_S16384x200x1_S16384x200x72_2_0_n_n_0_2_172 x i),
    TRef.unary main_call0.v12 main_call0.v14 (broadcastInDim S16384x200x72 ![0, 1] bcast_S16384x200_S16384x200x72_0_1),
    TRef.nullary main_call0.cst (constant S_ .f32 0x7FC00000#32),
    TRef.unary main_call0.cst main_call0.v15 (broadcastInDim S16384x200x72 ![] bcast_S_S16384x200x72),
    TRef.ternary main_call0.v14 main_call0.v13 main_call0.v15 main_call0.v16 select ]

theorem opsA_split : (opsA : List (HloOp τ sig (Elt F))) = opsA1 ++ (opsA2 ++ opsA3) := rfl

theorem outA1 (V : Valuation τ sig (Elt F)) : after opsA1 V (main_call0_v5 : DevRef τ sig) = tokIdxT (V (main_arg0 : DevRef τ sig)) := by
  after_results_simp
  rfl

-- the and-reduce is a fold over a full-size array: it is compared by its arguments, never opened
attribute [local irreducible] Host.reduce in
theorem outA2 (V : Valuation τ sig (Elt F)) : after opsA2 V (main_call0_v12 : DevRef τ sig) = tokMaskT (V (main_call0_v5 : DevRef τ sig)) := by
  after_results_simp
  rfl

theorem outA3 (V : Valuation τ sig (Elt F)) :
    after opsA3 V (main_v0 : DevRef τ sig)
      = select (broadcastInDim S16384x200x72 ![0, 1] bcast_S16384x200_S16384x200x72_0_1 (V (main_call0_v12 : DevRef τ sig)))
          (Host.gather gather_S4096x72_S16384x200x1_S16384x200x72_2_0_n_n_0_2_172 (V (main_arg1 : DevRef τ sig)) (V (main_call0_v5 : DevRef τ sig)))
          (broadcastInDim S16384x200x72 ![] bcast_S_S16384x200x72 (constant S_ .f32 0x7FC00000#32)) := by
  after_results_simp
  rfl

theorem keepA1_main_arg1 (V : Valuation τ sig (Elt F)) : after opsA1 V (main_arg1 : DevRef τ sig) = V (main_arg1 : DevRef τ sig) := by after_results_simp
theorem keepA2_main_arg1 (V : Valuation τ sig (Elt F)) : after opsA2 V (main_arg1 : DevRef τ sig) = V (main_arg1 : DevRef τ sig) := by after_results_simp
theorem keepA2_main_call0_v5 (V : Valuation τ sig (Elt F)) : after opsA2 V (main_call0_v5 : DevRef τ sig) = V (main_call0_v5 : DevRef τ sig) := by after_results_simp

theorem outA (V : Valuation τ sig (Elt F)) : after opsA V (main_v0 : DevRef τ sig) = rowsT (V (main_arg0 : DevRef τ sig)) (V (main_arg1 : DevRef τ sig)) := by
  rw [opsA_split, after_append, after_append, outA3, outA2, keepA2_main_call0_v5, keepA2_main_arg1, outA1, keepA1_main_arg1]
  rfl

set_option maxHeartbeats 1000000 in
theorem outB (V : Valuation τ sig (Elt F)) :
    after opsB V (main_v7 : DevRef τ sig) = linT (V (main_v0 : DevRef τ sig)) (V (main_arg2 : DevRef τ sig)) (V (main_arg3 : DevRef τ sig)) := by
  after_results_simp
  rfl

set_option maxHeartbeats 1000000 in
theorem outC (V : Valuation τ sig (Elt F)) : after opsC V (main_v11 : DevRef τ sig) = meanT (V (main_v7 : DevRef τ sig)) := by
  after_results_simp
  rfl

set_option maxHeartbeats 1000000 in
theorem outD (V : Valuation τ sig (Elt F)) : after opsD V (main_v12 : DevRef τ sig) = varT (V (main_v7 : DevRef τ sig)) := by
  after_results_simp
  rfl

set_option maxHeartbeats 1000000 in
theorem outE (V : Valuation τ sig (Elt F)) :
    after opsE V (main_v26 : DevRef τ sig) = normT (V (main_v7 : DevRef τ sig)) (V (main_v11 : DevRef τ sig)) (V (main_v12 : DevRef τ sig)) (V (main_arg4 : DevRef τ sig)) (V (main_arg5 : DevRef τ sig)) := by
  after_results_simp
  rfl

theorem keepA_main_arg2 (V : Valuation τ sig (Elt F)) : after opsA V (main_arg2 : DevRef τ sig) = V (main_arg2 : DevRef τ sig) := by after_results_simp
theorem keepA_main_arg3 (V : Valuation τ sig (Elt F)) : after opsA V (main_arg3 : DevRef τ sig) = V (main_arg3 : DevRef τ sig) := by after_results_simp
theorem keepA_main_arg4 (V : Valuation τ sig (Elt F)) : after opsA V (main_arg4 : DevRef τ sig) = V (main_arg4 : DevRef τ sig) := by after_results_simp
theorem keepA_main_arg5 (V : Valuation τ sig (Elt F)) : after opsA V (main_arg5 : DevRef τ sig) = V (main_arg5 : DevRef τ sig) := by after_results_simp
theorem keepB_main_arg4 (V : Valuation τ sig (Elt F)) : after opsB V (main_arg4 : DevRef τ sig) = V (main_arg4 : DevRef τ sig) := by after_results_simp
theorem keepB_main_arg5 (V : Valuation τ sig (Elt F)) : after opsB V (main_arg5 : DevRef τ sig) = V (main_arg5 : DevRef τ sig) := by after_results_simp
theorem keepC_main_v7 (V : Valuation τ sig (Elt F)) : after opsC V (main_v7 : DevRef τ sig) = V (main_v7 : DevRef τ sig) := by after_results_simp
theorem keepC_main_arg4 (V : Valuation τ sig (Elt F)) : after opsC V (main_arg4 : DevRef τ sig) = V (main_arg4 : DevRef τ sig) := by after_results_simp
theorem keepC_main_arg5 (V : Valuation τ sig (Elt F)) : after opsC V (main_arg5 : DevRef τ sig) = V (main_arg5 : DevRef τ sig) := by after_results_simp
theorem keepD_main_v7 (V : Valuation τ sig (Elt F)) : after opsD V (main_v7 : DevRef τ sig) = V (main_v7 : DevRef τ sig) := by after_results_simp
theorem keepD_main_v11 (V : Valuation τ sig (Elt F)) : after opsD V (main_v11 : DevRef τ sig) = V (main_v11 : DevRef τ sig) := by after_results_simp
theorem keepD_main_arg4 (V : Valuation τ sig (Elt F)) : after opsD V (main_arg4 : DevRef τ sig) = V (main_arg4 : DevRef τ sig) := by after_results_simp
theorem keepD_main_arg5 (V : Valuation τ sig (Elt F)) : after opsD V (main_arg5 : DevRef τ sig) = V (main_arg5 : DevRef τ sig) := by after_results_simp

/-- What the result buffer holds after the operations: the stages' composition over the arguments' contents. -/
theorem out_eq (V : Valuation τ sig (Elt F)) :
    after ops V (main_v26 : DevRef τ sig) = refTerm (V (main_arg0 : DevRef τ sig)) (V (main_arg1 : DevRef τ sig)) (V (main_arg2 : DevRef τ sig)) (V (main_arg3 : DevRef τ sig)) (V (main_arg4 : DevRef τ sig)) (V (main_arg5 : DevRef τ sig)) := by
  rw [ops_split, after_append, after_append, after_append, after_append, outE, outD, keepD_main_v7, keepD_main_v11,
    keepD_main_arg4, keepD_main_arg5, outC, keepC_main_v7, keepC_main_arg4, keepC_main_arg5, outB, keepB_main_arg4,
    keepB_main_arg5, outA, keepA_main_arg2, keepA_main_arg3, keepA_main_arg4, keepA_main_arg5]
  rfl

/-! No operation writes an argument's buffer. -/

set_option maxHeartbeats 1000000 in
theorem arg0_eq (V : Valuation τ sig (Elt F)) : after ops V (main_arg0 : DevRef τ sig) = V (main_arg0 : DevRef τ sig) := by
  after_results_simp

set_option maxHeartbeats 1000000 in
theorem arg1_eq (V : Valuation τ sig (Elt F)) : after ops V (main_arg1 : DevRef τ sig) = V (main_arg1 : DevRef τ sig) := by
  after_results_simp

set_option maxHeartbeats 1000000 in
theorem arg2_eq (V : Valuation τ sig (Elt F)) : after ops V (main_arg2 : DevRef τ sig) = V (main_arg2 : DevRef τ sig) := by
  after_results_simp

set_option maxHeartbeats 1000000 in
theorem arg3_eq (V : Valuation τ sig (Elt F)) : after ops V (main_arg3 : DevRef τ sig) = V (main_arg3 : DevRef τ sig) := by
  after_results_simp

set_option maxHeartbeats 1000000 in
theorem arg4_eq (V : Valuation τ sig (Elt F)) : after ops V (main_arg4 : DevRef τ sig) = V (main_arg4 : DevRef τ sig) := by
  after_results_simp

set_option maxHeartbeats 1000000 in
theorem arg5_eq (V : Valuation τ sig (Elt F)) : after ops V (main_arg5 : DevRef τ sig) = V (main_arg5 : DevRef τ sig) := by
  after_results_simp

/-- On every device, from any memory with zero counters: every weakly fair execution of the program terminates with the
    result buffer at the stages' composition over the arguments' launch contents, and the arguments unchanged. -/
theorem run (m : (ℓ : Loc nD τ sig) → Buf (Elt F) ℓ) (ρ : Dev nD → PrngReg) :
    θ_run (Cert.ReferenceIdeal.defs (F := F)) (onTc (τ := Cert.ReferenceIdeal.τ) (Cert.ReferenceIdeal.main (F := F))) ⟨m, fun _ => 0, ρ⟩ (fun r => ∀ c : Dev nD,
      r.2.mem ((c.tc : Thread nD τ).loc main_v26) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v26).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

/-- The reference runs and leaves its arguments as they were, whatever the memory: the run with the result dropped. -/
theorem frame : Cert.frame_ReferenceIdeal (hReferenceIdeal := Cert.ReferenceIdeal.Gen.facts) (hPre_input_domain := Cert.Pre_input_domain.Gen.facts) :=
  fun m ρ _ => (θ_run _ _ _).mono (fun _ h c => (h c).2) (run m ρ)

end Cert.RefHand

end
-- ==== Proof.RefValue.lean ====
/-
  The reference's term read index by index is the specification.

  Each stage of the term is read at one index. The row lookup: under the token range every token is a row number as
  it stands (it is not negative, so it is not moved up; it is at most 4095, so the in-range mask is 1 and the clamp of
  the gather changes nothing), so entry (q, l, d) of the looked-up rows is the table's entry (token of (q, l), d). A
  sum over one axis from the initial value 0 is the plain sum over that axis's coordinates; the matrix product is the
  sum over its one contracted coordinate; a broadcast reads its operand at the coordinates it keeps. The float words
  0x43480000 and 0x43800000 are 200 and 256, and the variance's divisor 256 - 0 is positive, so its guard keeps the
  quotient. What is left is the specification's formula, term for term.
-/
import proofs.«207659_g70703751627518_cont_9to1_m_904_5_alg».proof.Proof.RefRun
import proofs.«207659_g70703751627518_cont_9to1_m_904_5_alg».proof.Proof.Spec
import Idealize.ShloMosaic.Lib.ValueIdx
import Idealize.ShloMosaic.Lib.IdealHost
import Idealize.ShloMosaic.Lib.Pipeline.Value
import Idealize.ShloMosaic.Lib.Affine
import Idealize.ShloMosaic.PureOps.Ideal.Laws

noncomputable section

open scoped BigOperators

namespace Cert.RefHand

open Cert.ReferenceIdeal Cert.ReferenceIdeal.Gen Idealize.ShloMosaic Idealize.ShloMosaic.ValueIdx

/-! ## Words -/

/-- The float word 0x43800000 is 256. -/
theorem word256 : Ideal.ofBits .f32 0x43800000#32 = ((256 : ℝ) : EReal) := by
  simp [Ideal.ofBits, Ideal.ieee, -EReal.coe_mul]; norm_num

/-- The float word 0x43480000 is 200. -/
theorem word200 : Ideal.ofBits .f32 0x43480000#32 = ((200 : ℝ) : EReal) := by
  simp [Ideal.ofBits, Ideal.ieee, -EReal.coe_mul]; norm_num

/-- A word below 4096 unsigned is its own value read signed. -/
theorem toInt_of_lt (v : BitVec 32) (h : v.toNat < 4096) : v.toInt = (v.toNat : Int) := by
  rw [BitVec.toInt_eq_toNat_cond]
  split <;> omega

/-- A left fold by "and" from 1 over 1s is 1. -/
theorem foldl_andi_one {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-! ## Broadcasts read at an index -/

section Bcast
variable {α : Type}

/-- [16384, 200] with a trailing unit axis. -/
theorem bc_tok_unit (x : S16384x200.Idx → α) (q : Fin 16384) (l : Fin 200) (k : Fin 1) :
    broadcastInDim S16384x200x1 ![0, 1] bcast_S16384x200_S16384x200x1_0_1 x (ix3 q l k) = x (ix2 q l) :=
  broadcastInDim_apply _ _ x (ix3 q l k) (ix2 q l) (fun a => by match a with | ⟨0, _⟩ => rfl | ⟨1, _⟩ => rfl)

/-- [16384, 200] along 72 columns. -/
theorem bc_tok_cols (x : S16384x200.Idx → α) (q : Fin 16384) (l : Fin 200) (d : Fin 72) :
    broadcastInDim S16384x200x72 ![0, 1] bcast_S16384x200_S16384x200x72_0_1 x (ix3 q l d) = x (ix2 q l) :=
  broadcastInDim_apply _ _ x (ix3 q l d) (ix2 q l) (fun a => by match a with | ⟨0, _⟩ => rfl | ⟨1, _⟩ => rfl)

/-- A vector of 256 as one row. -/
theorem bc_vec_row (x : S256.Idx → α) (k : Fin 1) (f : Fin 256) :
    broadcastInDim S1x256 ![1] bcast_S256_S1x256_1 x (ix2 k f) = x (ix1 f) :=
  broadcastInDim_apply _ _ x (ix2 k f) (ix1 f) (fun a => by match a with | ⟨0, _⟩ => rfl)

/-- One row along 16384 rows. -/
theorem bc_row_all (x : S1x256.Idx → α) (q : Fin 16384) (f : Fin 256) :
    broadcastInDim S16384x256 ![0, 1] bcast_S1x256_S16384x256_0_1 x (ix2 q f) = x (ix2 (0 : Fin 1) f) :=
  broadcastInDim_apply _ _ x (ix2 q f) (ix2 (0 : Fin 1) f) (fun a => by match a with | ⟨0, _⟩ => rfl | ⟨1, _⟩ => rfl)

/-- A vector of 16384 as one column. -/
theorem bc_vec_col (x : S16384.Idx → α) (q : Fin 16384) (k : Fin 1) :
    broadcastInDim S16384x1 ![0] bcast_S16384_S16384x1_0 x (ix2 q k) = x (ix1 q) :=
  broadcastInDim_apply _ _ x (ix2 q k) (ix1 q) (fun a => by match a with | ⟨0, _⟩ => rfl)

/-- One column along 256 columns. -/
theorem bc_col_all (x : S16384x1.Idx → α) (q : Fin 16384) (f : Fin 256) :
    broadcastInDim S16384x256 ![0, 1] bcast_S16384x1_S16384x256_0_1 x (ix2 q f) = x (ix2 q (0 : Fin 1)) :=
  broadcastInDim_apply _ _ x (ix2 q f) (ix2 q (0 : Fin 1)) (fun a => by match a with | ⟨0, _⟩ => rfl | ⟨1, _⟩ => rfl)

end Bcast

/-! ## The row lookup -/

/-- Under the token range the row number at (q, l) is the token itself. -/
theorem tokIdxT_apply (a0 : IVec S16384x200 32) (h : Cert.Spec.TokOK a0) (q : Fin 16384) (l : Fin 200) (k : Fin 1) :
    tokIdxT a0 (ix3 q l k) = a0 (ix2 q l) := by
  unfold tokIdxT
  dsimp only
  rw [bc_tok_unit, select_apply]
  have hz : cmpi .slt a0 (broadcastInDim S16384x200 ![] bcast_S_S16384x200 (constantI S_ 32 0#32)) (ix2 q l) = 0#1 := by
    apply eq_zero_of_ne_one
    show ¬ IntOp.cmpi .slt (a0 (ix2 q l)) 0#32 = 1#1
    rw [IntOp.cmpi_slt, toInt_of_lt _ (h (ix2 q l))]
    have h0 : (0#32 : BitVec 32).toInt = 0 := by decide
    omega
  rw [hz, select_zero]

/-- Row numbers below 4096 are all in range: the mask is 1. -/
theorem tokMaskT_one (v5 : IVec S16384x200x1 32) (hv : ∀ i, (v5 i).toNat < 4096) (j : S16384x200.Idx) :
    tokMaskT v5 j = 1#1 := by
  unfold tokMaskT
  dsimp only
  rw [Host.reduce_eq_foldl]
  refine foldl_andi_one _ (fun i => ?_) _
  show IntOp.andi (IntOp.cmpi .sge (v5 i) 0#32) (IntOp.cmpi .sle (v5 i) 4095#32) = 1#1
  rw [IntOp.andi_eq_one, IntOp.cmpi_sge, IntOp.cmpi_sle, toInt_of_lt _ (hv i)]
  have h0 : (0#32 : BitVec 32).toInt = 0 := by decide
  have h1 : (4095#32 : BitVec 32).toInt = 4095 := by decide
  have := hv i
  constructor <;> omega

/-- The gather read at (q, l, d): the table's row at the row number of (q, l), read signed and clamped into
    [0, 4095], at column d. -/
theorem gather_rows_apply {α : Type} (x : S4096x72.Idx → α) (idx : IVec S16384x200x1 32) (q : Fin 16384) (l : Fin 200) (d : Fin 72) :
    Host.gather gather_S4096x72_S16384x200x1_S16384x200x72_2_0_n_n_0_2_172 x idx (ix3 q l d)
      = x (ix2 (⟨min (idx (ix3 q l (0 : Fin 1))).toInt.toNat 4095, by omega⟩ : Fin 4096) d) := by
  unfold Host.gather
  congr 1
  funext a
  refine Fin.ext ?_
  match a with
  | ⟨0, _⟩ =>
    show gather_S4096x72_S16384x200x1_S16384x200x72_2_0_n_n_0_2_172.start (ix3 q l d) idx 0
        + gather_S4096x72_S16384x200x1_S16384x200x72_2_0_n_n_0_2_172.batchCoord (ix3 q l d) 0
        + gather_S4096x72_S16384x200x1_S16384x200x72_2_0_n_n_0_2_172.offCoord (ix3 q l d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S4096x72_S16384x200x1_S16384x200x72_2_0_n_n_0_2_172.startIndexMap from List.mem_singleton.mpr rfl)]
    have hsi : gather_S4096x72_S16384x200x1_S16384x200x72_2_0_n_n_0_2_172.siIdx (ix3 q l d)
        ⟨List.idxOf (0 : Fin 2) gather_S4096x72_S16384x200x1_S16384x200x72_2_0_n_n_0_2_172.startIndexMap,
          List.idxOf_lt_length_iff.2 (List.mem_singleton.mpr rfl)⟩ = ix3 q l (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S4096x72_S16384x200x1_S16384x200x72_2_0_n_n_0_2_172.start (ix3 q l d) idx 1
        + gather_S4096x72_S16384x200x1_S16384x200x72_2_0_n_n_0_2_172.batchCoord (ix3 q l d) 1
        + gather_S4096x72_S16384x200x1_S16384x200x72_2_0_n_n_0_2_172.offCoord (ix3 q l d) 1 = d.val
    have hs : gather_S4096x72_S16384x200x1_S16384x200x72_2_0_n_n_0_2_172.start (ix3 q l d) idx 1 = 0 := by
      unfold GatherDims.start
      exact dif_neg (by decide)
    have ho : gather_S4096x72_S16384x200x1_S16384x200x72_2_0_n_n_0_2_172.offCoord (ix3 q l d) 1 = d.val := by
      unfold GatherDims.offCoord
      rw [dif_pos (by decide)]
      rfl
    rw [GatherDims.batchCoord_eq_zero _ _ _ List.not_mem_nil, hs, ho]
    omega

/-- Under the token range entry (q, l, d) of the looked-up rows is the table's entry (token of (q, l), d). -/
theorem rowsT_apply (a0 : IVec S16384x200 32) (a1 : FVec Ideal S4096x72 .f32) (h : Cert.Spec.TokOK a0)
    (q : Fin 16384) (l : Fin 200) (d : Fin 72) :
    rowsT a0 a1 (ix3 q l d) = a1 (ix2 (Cert.Spec.tokF a0 q l) d) := by
  have hv : ∀ i, (tokIdxT a0 i).toNat < 4096 := fun i => by
    obtain ⟨q', l', k', rfl⟩ : ∃ (q' : Fin 16384) (l' : Fin 200) (k' : Fin 1), i = ix3 q' l' k' := ⟨i 0, i 1, i 2, eq_ix3 i⟩
    rw [tokIdxT_apply a0 h]; exact h _
  unfold rowsT
  dsimp only
  rw [select_apply, bc_tok_cols, tokMaskT_one _ hv, select_one, gather_rows_apply]
  refine congrArg a1 (congrArg (fun t => ix2 t d) (Fin.ext ?_))
  show min (tokIdxT a0 (ix3 q l (0 : Fin 1))).toInt.toNat 4095 = (a0 (ix2 q l)).toNat % 4096
  rw [tokIdxT_apply a0 h]
  have := h (ix2 q l)
  rw [toInt_of_lt _ this]
  omega

/-! ## Sums and the matrix product -/

/-- The sum over a query's 200 positions, from the initial value 0. -/
theorem sum200_apply (r : FVec Ideal S16384x200x72 .f32) (q : Fin 16384) (d : Fin 72) :
    Host.reduceAdd r (constant S_ .f32 0x00000000#32) reducesTo_S16384x200x72_S16384x72_d1 h_S_ (ix2 q d)
      = ∑ l : Fin 200, r (ix3 q l d) := by
  rw [hostReduceAdd_apply, Ideal.hostReduceAdd_single _ (by decide : S16384x200x72.Reduces [1] S16384x72)]
  rw [constant_apply, Ideal.ofBits_zero_f32, zero_add]
  refine Finset.sum_congr rfl fun l _ => congrArg r ?_
  funext a; refine Fin.ext ?_
  match a with
  | ⟨0, _⟩ => rfl
  | ⟨1, _⟩ => rfl
  | ⟨2, _⟩ => rfl

/-- The sum over a query's 256 features, from the initial value 0. -/
theorem sum256_apply (x : FVec Ideal S16384x256 .f32) (q : Fin 16384) :
    Host.reduceAdd x (constant S_ .f32 0x00000000#32) reducesTo_S16384x256_S16384_d1 h_S_ (ix1 q)
      = ∑ f : Fin 256, x (ix2 q f) := by
  rw [hostReduceAdd_apply, Ideal.hostReduceAdd_single _ (by decide : S16384x256.Reduces [1] S16384)]
  rw [constant_apply, Ideal.ofBits_zero_f32, zero_add]
  refine Finset.sum_congr rfl fun f _ => congrArg x ?_
  funext a; refine Fin.ext ?_
  match a with
  | ⟨0, _⟩ => rfl
  | ⟨1, _⟩ => rfl

/-- The matrix product at (q, f): the sum over the 72 contracted coordinates. -/
theorem dot_apply (u : FVec Ideal S16384x72 .f32) (w : FVec Ideal S72x256 .f32) (q : Fin 16384) (f : Fin 256) :
    Host.dotGeneral dot_S16384x72_S72x256_S16384x256_1_0_0_1_n_n none u w (ix2 q f)
      = ∑ d : Fin 72, u (ix2 q d) * w (ix2 d f) := by
  show FloatOps.dotGeneral dot_S16384x72_S72x256_S16384x256_1_0_0_1_n_n none _ u w (ix2 q f) = _
  rw [Ideal.dotGeneral_apply]
  rw [← Equiv.sum_comp (contrEquiv1 dot_S16384x72_S72x256_S16384x256_1_0_0_1_n_n 72 rfl rfl).symm]
  refine Finset.sum_congr rfl fun d _ => ?_
  have hl : dot_S16384x72_S72x256_S16384x256_1_0_0_1_n_n.lhsIdx (ix2 q f)
      ((contrEquiv1 dot_S16384x72_S72x256_S16384x256_1_0_0_1_n_n 72 rfl rfl).symm d) = ix2 q d := by
    funext a; refine Fin.ext ?_
    match a with
    | ⟨0, _⟩ => rfl
    | ⟨1, _⟩ =>
      exact (DotDims.lhsIdx_val_of_single _ (cl := (1 : Fin 2)) rfl _ _).trans
        (contrEquiv1_symm_val dot_S16384x72_S72x256_S16384x256_1_0_0_1_n_n 72 rfl rfl d)
  have hr : dot_S16384x72_S72x256_S16384x256_1_0_0_1_n_n.rhsIdx (ix2 q f)
      ((contrEquiv1 dot_S16384x72_S72x256_S16384x256_1_0_0_1_n_n 72 rfl rfl).symm d) = ix2 d f := by
    funext a; refine Fin.ext ?_
    match a with
    | ⟨0, _⟩ =>
      exact (DotDims.rhsIdx_val_of_single _ (cr := (0 : Fin 2)) rfl _ _).trans
        (contrEquiv1_symm_val dot_S16384x72_S72x256_S16384x256_1_0_0_1_n_n 72 rfl rfl d)
    | ⟨1, _⟩ => rfl
  rw [hl, hr]

/-! ## The stages at an index -/

/-- The linear layer's output at (q, f). -/
theorem linT_apply (r : FVec Ideal S16384x200x72 .f32) (a2 : FVec Ideal S72x256 .f32) (a3 : FVec Ideal S256 .f32)
    (q : Fin 16384) (f : Fin 256) :
    linT r a2 a3 (ix2 q f)
      = (∑ d : Fin 72, Ideal.div (∑ l : Fin 200, r (ix3 q l d)) ((200 : ℝ) : EReal) * a2 (ix2 d f)) + a3 (ix1 f) := by
  unfold linT
  dsimp only
  rw [addf_apply, dot_apply, bc_row_all, bc_vec_row]
  refine congrArg (· + a3 (ix1 f)) (Finset.sum_congr rfl fun d _ => congrArg (· * a2 (ix2 d f)) ?_)
  rw [hostDivf_apply, sum200_apply, broadcastInDim_scalar_apply, constant_apply, word200]

/-- The mean of query q's features. -/
theorem meanT_apply (x : FVec Ideal S16384x256 .f32) (q : Fin 16384) (k : Fin 1) :
    meanT x (ix2 q k) = Ideal.div (∑ f : Fin 256, x (ix2 q f)) ((256 : ℝ) : EReal) := by
  unfold meanT
  dsimp only
  rw [hostDivf_apply, bc_vec_col, sum256_apply, broadcastInDim_scalar_apply, constant_apply, word256]

/-- The variance's divisor, 256 - 0, is 256. -/
theorem varDiv :
    (subf (constant S_ .f32 0x43800000#32) (sitofp .f32 (constantI S_ 32 0#32)) : FVec Ideal S_ .f32) ix0 = ((256 : ℝ) : EReal) := by
  show Ideal.ofBits .f32 0x43800000#32 - (((0#32 : BitVec 32).toInt : ℝ) : EReal) = _
  rw [word256, show (0#32 : BitVec 32).toInt = 0 from by decide]
  simp

/-- The variance of query q's features. -/
theorem varT_apply (x : FVec Ideal S16384x256 .f32) (q : Fin 16384) (k : Fin 1) :
    varT x (ix2 q k)
      = Ideal.div (∑ f : Fin 256, (x (ix2 q f) - meanT x (ix2 q (0 : Fin 1))) * (x (ix2 q f) - meanT x (ix2 q (0 : Fin 1))))
          ((256 : ℝ) : EReal) := by
  unfold varT
  dsimp only
  have hg : (cmpf .ogt (subf (constant S_ .f32 0x43800000#32) (sitofp .f32 (constantI S_ 32 0#32)) : FVec Ideal S_ .f32)
      (constant S_ .f32 0x00000000#32)) ix0 = 1#1 := by
    show Ideal.cmp .ogt ((subf (constant S_ .f32 0x43800000#32) (sitofp .f32 (constantI S_ 32 0#32)) : FVec Ideal S_ .f32) ix0)
      (Ideal.ofBits .f32 0x00000000#32) = 1#1
    rw [varDiv, Ideal.ofBits_zero_f32]
    have : (0 : EReal) < ((256 : ℝ) : EReal) := by exact_mod_cast (by norm_num : (0 : ℝ) < 256)
    simp [Ideal.cmp, this]
  rw [select_apply, hostDivf_apply, bc_vec_col, sum256_apply]
  repeat rw [broadcastInDim_scalar_apply]
  rw [hg, select_one, varDiv]
  refine congrArg (fun s => Ideal.div s ((256 : ℝ) : EReal)) (Finset.sum_congr rfl fun f _ => ?_)
  rw [mulf_apply, subf_apply, bc_col_all]

/-- The last stage at (q, f). -/
theorem normT_apply (x : FVec Ideal S16384x256 .f32) (mu va : FVec Ideal S16384x1 .f32) (a4 a5 : FVec Ideal S256 .f32)
    (q : Fin 16384) (f : Fin 256) :
    normT x mu va a4 a5 (ix2 q f)
      = max (Ideal.div (x (ix2 q f) - mu (ix2 q (0 : Fin 1)))
              (Ideal.sqrt (va (ix2 q (0 : Fin 1)) + Ideal.ofBits .f32 0x3727C5AC#32)) * a4 (ix1 f) + a5 (ix1 f)) 0 := by
  unfold normT
  dsimp only
  rw [maximumf_apply, addf_apply, mulf_apply, hostDivf_apply, subf_apply, bc_col_all, bc_col_all, bc_row_all, bc_vec_row,
    bc_row_all, bc_vec_row, broadcastInDim_scalar_apply, constant_apply, Ideal.ofBits_zero_f32]
  rfl

/-! ## The term is the specification -/

/-- Under the token range the reference's term is the specification's array. -/
theorem refTerm_eq (a0 : IVec S16384x200 32) (a1 : FVec Ideal S4096x72 .f32) (a2 : FVec Ideal S72x256 .f32)
    (a3 a4 a5 : FVec Ideal S256 .f32) (h : Cert.Spec.TokOK a0) :
    Cert.RefHand.refTerm a0 a1 a2 a3 a4 a5 = Cert.Spec.refArr a0 a1 a2 a3 a4 a5 := by
  funext i
  obtain ⟨q, f, rfl⟩ : ∃ (q : Fin 16384) (f : Fin 256), i = ix2 q f := ⟨i 0, i 1, eq_ix2 i⟩
  show normT (linT (rowsT a0 a1) a2 a3) (meanT (linT (rowsT a0 a1) a2 a3)) (varT (linT (rowsT a0 a1) a2 a3)) a4 a5 (ix2 q f) = _
  rw [normT_apply, varT_apply, meanT_apply]
  simp only [linT_apply, rowsT_apply a0 a1 h]
  rfl

end Cert.RefHand

end
-- ==== Proof.TcValue.lean ====
/-
  What the second kernel's body computes, and the host's re-layouts around the two kernels, read at coordinates.

  The body loads a block of 512 queries' packed counts (1024 words each, four byte counts to a word), the table
  regrouped by byte, the weights and three rows (bias, scale, shift). It unpacks the four byte planes and lays them
  side by side, so that column j of a row holds the count of token 4 (j % 1024) + j / 1024; multiplies with the
  regrouped table and with 1/200 (the mean over a query's tokens); applies the linear layer; subtracts each row's mean
  over its 256 lanes; divides by the root of the mean square plus a small constant (as a product with the reciprocal
  root); scales, shifts and clips at zero. Read at row r and lane f this is the specification's outKQ for the
  query of row r. Every step is read at coordinates: the pointwise operations directly, the two matrix products as
  sums over the contracted coordinate, the lane sums as sums over the 256 lanes, the concatenation of the four
  planes as plane j / 1024 at word j % 1024.

  The host operations are pure re-indexings: the table's rows taken at stride four from each of the four residues
  and stacked (row j of the result is row 4 (j % 1024) + j / 1024 of the table), and three reshapes.
-/
import proofs.«207659_g70703751627518_cont_9to1_m_904_5_alg».proof.KernelIdeal
import proofs.«207659_g70703751627518_cont_9to1_m_904_5_alg».proof.Proof.Gen.KernelIdeal
import proofs.«207659_g70703751627518_cont_9to1_m_904_5_alg».proof.Proof.Gen.KernelIdeal.Skeleton
import proofs.«207659_g70703751627518_cont_9to1_m_904_5_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.TcValue

open Idealize.ShloMosaic Idealize.ShloMosaic.ValueIdx
open Cert.KernelIdeal

/-! ## Layout operations of a row statistic, read at coordinates -/

section Layout
variable {α : Type}

/-- A vector of a entries viewed as a column [a, 1] reads, at (p, u), the vector at p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] spread over b columns reads, at (p, c), the column at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The sum over the 256 lanes of a row: a lane reduction of a [512, 256] block read at row p. -/
theorem rowSum_apply (src : FVec Ideal S512x256 .f32) (h : S512x256.Reduces [1] S512) (hφ : FKind.Formats .f32)
    (hacc : (0x00000000#32 : BitVec 32) = 0x00000000#32) (p : Fin 512) :
    multiReduction (F := Ideal) .add [1] S512 src 0x00000000#32 h hφ hacc (ix1 p) = ∑ c : Fin 256, src (ix2 p c) := by
  refine (Ideal.multiReduction_add_single src 0x00000000#32 h hφ hacc (ix1 p)).trans ?_
  refine Finset.sum_congr rfl fun c _ => congrArg src (funext fun a => Fin.ext ?_)
  match a with
  | ⟨0, _⟩ => rfl
  | ⟨1, _⟩ => rfl

/-! ## The two matrix products into a zero accumulator, read at coordinates -/

/-- The counts times the regrouped table: entry (p, q) is the sum over the 4096 columns. -/
theorem matmul_cnt_apply (lhs : FVec Ideal S512x4096 .bf16) (rhs : FVec Ideal S4096x72 .bf16) (p : Fin 512) (q : Fin 72) :
    matmul (F := Ideal) dot_S512x4096_S4096x72_S512x72_1_0_0_1_n_n none lhs rhs (constant S512x72 .f32 0x00000000#32) (ix2 p q)
      = ∑ k : Fin 4096, lhs (ix2 p k) * rhs (ix2 k q) := by
  refine (Ideal.matmul_constant_zero_apply dot_S512x4096_S4096x72_S512x72_1_0_0_1_n_n none lhs rhs (ix2 p q)).trans ?_
  rw [← Equiv.sum_comp (contrEquiv1 dot_S512x4096_S4096x72_S512x72_1_0_0_1_n_n 4096 rfl rfl).symm]
  refine Finset.sum_congr rfl fun k _ => ?_
  have hk := contrEquiv1_symm_val dot_S512x4096_S4096x72_S512x72_1_0_0_1_n_n 4096 rfl rfl k
  have el : dot_S512x4096_S4096x72_S512x72_1_0_0_1_n_n.lhsIdx (ix2 p q)
      ((contrEquiv1 dot_S512x4096_S4096x72_S512x72_1_0_0_1_n_n 4096 rfl rfl).symm k) = ix2 p k :=
    funext fun a => Fin.ext (by
      match a with
      | ⟨0, _⟩ => rfl
      | ⟨1, _⟩ => exact (DotDims.lhsIdx_val_of_single (d := dot_S512x4096_S4096x72_S512x72_1_0_0_1_n_n) rfl _ _).trans hk)
  have er : dot_S512x4096_S4096x72_S512x72_1_0_0_1_n_n.rhsIdx (ix2 p q)
      ((contrEquiv1 dot_S512x4096_S4096x72_S512x72_1_0_0_1_n_n 4096 rfl rfl).symm k) = ix2 k q :=
    funext fun a => Fin.ext (by
      match a with
      | ⟨0, _⟩ => exact (DotDims.rhsIdx_val_of_single (d := dot_S512x4096_S4096x72_S512x72_1_0_0_1_n_n) rfl _ _).trans hk
      | ⟨1, _⟩ => rfl)
  rw [el, er]

/-- The pooled rows times the weights: entry (p, q) is the sum over the 72 coordinates. -/
theorem matmul_lin_apply (lhs : FVec Ideal S512x72 .f32) (rhs : FVec Ideal S72x256 .f32) (p : Fin 512) (q : Fin 256) :
    matmul (F := Ideal) dot_S512x72_S72x256_S512x256_1_0_0_1_n_n none lhs rhs (constant S512x256 .f32 0x00000000#32) (ix2 p q)
      = ∑ k : Fin 72, lhs (ix2 p k) * rhs (ix2 k q) := by
  refine (Ideal.matmul_constant_zero_apply dot_S512x72_S72x256_S512x256_1_0_0_1_n_n none lhs rhs (ix2 p q)).trans ?_
  rw [← Equiv.sum_comp (contrEquiv1 dot_S512x72_S72x256_S512x256_1_0_0_1_n_n 72 rfl rfl).symm]
  refine Finset.sum_congr rfl fun k _ => ?_
  have hk := contrEquiv1_symm_val dot_S512x72_S72x256_S512x256_1_0_0_1_n_n 72 rfl rfl k
  have el : dot_S512x72_S72x256_S512x256_1_0_0_1_n_n.lhsIdx (ix2 p q)
      ((contrEquiv1 dot_S512x72_S72x256_S512x256_1_0_0_1_n_n 72 rfl rfl).symm k) = ix2 p k :=
    funext fun a => Fin.ext (by
      match a with
      | ⟨0, _⟩ => rfl
      | ⟨1, _⟩ => exact (DotDims.lhsIdx_val_of_single (d := dot_S512x72_S72x256_S512x256_1_0_0_1_n_n) rfl _ _).trans hk)
  have er : dot_S512x72_S72x256_S512x256_1_0_0_1_n_n.rhsIdx (ix2 p q)
      ((contrEquiv1 dot_S512x72_S72x256_S512x256_1_0_0_1_n_n 72 rfl rfl).symm k) = ix2 k q :=
    funext fun a => Fin.ext (by
      match a with
      | ⟨0, _⟩ => exact (DotDims.rhsIdx_val_of_single (d := dot_S512x72_S72x256_S512x256_1_0_0_1_n_n) rfl _ _).trans hk
      | ⟨1, _⟩ => rfl)
  rw [el, er]

/-! ## The unpacked counts: the four byte planes side by side -/

/-- One byte plane at a word: the word shifted right by a multiple of eight below 32 (the vector unit's logical
    shift by a constant) and masked to its low byte. -/
theorem byte_plane (x : BitVec 32) (k : ℕ) (hk : k < 4) :
    IntOp.andi (IntOp.shrui .vector x (BitVec.ofNat 32 (8 * k))) 255#32 = (x >>> (8 * k)) &&& 255#32 := by
  have h8 : 8 * k < 32 := by omega
  have ht : (BitVec.ofNat 32 (8 * k)).toNat = 8 * k := by
    rw [BitVec.toNat_ofNat]; exact Nat.mod_eq_of_lt (by omega)
  unfold IntOp.andi IntOp.shrui
  rw [if_pos (by rw [ht]; exact h8)]
  show (x >>> (BitVec.ofNat 32 (8 * k)).toNat) &&& 255#32 = _
  rw [ht]

/-- Four blocks of 1024 columns side by side: column 1024 k + w of the result is column w of block k. -/
theorem concat4_cols_apply {α : Type} (y : Fin 4 → (S512x1024.Idx → α))
    (h : Shape.Concatenates [S512x1024, S512x1024, S512x1024, S512x1024] S512x4096 1)
    (p : Fin 512) (j : Fin 4096) (k : Fin 4) (w : Fin 1024) (hj : j.val = 1024 * k.val + w.val) :
    concatenate S512x4096 1 [⟨S512x1024, y 0⟩, ⟨S512x1024, y 1⟩, ⟨S512x1024, y 2⟩, ⟨S512x1024, y 3⟩] h (ix2 p j)
      = y k (ix2 p w) := by
  have hi : ∀ b : Fin S512x1024.rank, b.cast (rfl : S512x1024.rank = S512x4096.rank) ≠ (1 : Fin S512x4096.rank) →
      ((ix2 p w : S512x1024.Idx) b).val = ((ix2 p j : S512x4096.Idx) (b.cast rfl)).val := fun b hb => by
    match b with
    | ⟨0, _⟩ => rfl
    | ⟨1, _⟩ => exact absurd rfl hb
  match k, hj with
  | ⟨0, _⟩, hj =>
    have hj' : j.val = 1024 * 0 + w.val := hj
    exact concatenate_apply_piece (1 : Fin S512x4096.rank)
      [⟨S512x1024, y 0⟩, ⟨S512x1024, y 1⟩, ⟨S512x1024, y 2⟩, ⟨S512x1024, y 3⟩] h (ix2 p j) 0 (by show 0 < 4; omega)
      S512x1024 (y 0) rfl rfl 0 rfl (ix2 p w) hi (by show 0 + w.val = j.val; omega)
  | ⟨1, _⟩, hj =>
    have hj' : j.val = 1024 * 1 + w.val := hj
    exact concatenate_apply_piece (1 : Fin S512x4096.rank)
      [⟨S512x1024, y 0⟩, ⟨S512x1024, y 1⟩, ⟨S512x1024, y 2⟩, ⟨S512x1024, y 3⟩] h (ix2 p j) 1 (by show 1 < 4; omega)
      S512x1024 (y 1) rfl rfl 1024 rfl (ix2 p w) hi (by show 1024 + w.val = j.val; omega)
  | ⟨2, _⟩, hj =>
    have hj' : j.val = 1024 * 2 + w.val := hj
    exact concatenate_apply_piece (1 : Fin S512x4096.rank)
      [⟨S512x1024, y 0⟩, ⟨S512x1024, y 1⟩, ⟨S512x1024, y 2⟩, ⟨S512x1024, y 3⟩] h (ix2 p j) 2 (by show 2 < 4; omega)
      S512x1024 (y 2) rfl rfl 2048 rfl (ix2 p w) hi (by show 2048 + w.val = j.val; omega)
  | ⟨3, _⟩, hj =>
    have hj' : j.val = 1024 * 3 + w.val := hj
    exact concatenate_apply_piece (1 : Fin S512x4096.rank)
      [⟨S512x1024, y 0⟩, ⟨S512x1024, y 1⟩, ⟨S512x1024, y 2⟩, ⟨S512x1024, y 3⟩] h (ix2 p j) 3 (by show 3 < 4; omega)
      S512x1024 (y 3) rfl rfl 3072 rfl (ix2 p w) hi (by show 3072 + w.val = j.val; omega)

/-- The unpacked counts of a row: column j holds byte j / 1024 of the row's word j % 1024. -/
theorem planes_apply (x0 : IVec S512x1024 32)
    (h : Shape.Concatenates [S512x1024, S512x1024, S512x1024, S512x1024] S512x4096 1) (p : Fin 512) (j : Fin 4096) :
    concatenate S512x4096 1
      [⟨S512x1024, andi (shrui x0 (broadcast S512x1024 0#32)) (broadcast S512x1024 255#32)⟩,
       ⟨S512x1024, andi (shrui x0 (broadcast S512x1024 8#32)) (broadcast S512x1024 255#32)⟩,
       ⟨S512x1024, andi (shrui x0 (broadcast S512x1024 16#32)) (broadcast S512x1024 255#32)⟩,
       ⟨S512x1024, andi (shrui x0 (broadcast S512x1024 24#32)) (broadcast S512x1024 255#32)⟩] h (ix2 p j)
      = Cert.Spec.plane (fun w => x0 (ix2 p w)) j := by
  have hjl := j.isLt
  refine (concat4_cols_apply
    (fun k => andi (shrui x0 (broadcast S512x1024 (BitVec.ofNat 32 (8 * k.val)))) (broadcast S512x1024 255#32)) h p j
    ⟨j.val / 1024, by omega⟩ ⟨j.val % 1024, Nat.mod_lt _ (by decide)⟩ (by show j.val = 1024 * (j.val / 1024) + j.val % 1024; omega)).trans ?_
  exact byte_plane _ (j.val / 1024) (by omega)

/-! ## The constants -/

/-- The word 0x43800000 is the float 256. -/
theorem ofBits_256 : Ideal.ofBits .f32 0x43800000#32 = ((256 : ℝ) : EReal) := by
  simp [Ideal.ofBits, Ideal.ieee, -EReal.coe_mul]; norm_num

/-- The body's reciprocal of the number of tokens is the rational 1/200, by the certificate's table. -/
theorem inv_200 : Named.named (F := Ideal) κ "inv_200" (φ := .f32) 0x3BA3D70A#32 = ((1 / 200 : ℝ) : EReal) :=
  IdealRules.named_const.ideal_named_scalar _ _ _ _ rfl

/-- A reciprocal root at an index is the reciprocal root of the element. -/
theorem rsqrt_apply {s : Shape} {φ : FTy} (a : FVec Ideal s φ) (i : s.Idx) : rsqrt a i = Ideal.rsqrt (a i) := rfl

/-! ## The body's stages -/

/-- The unpacked counts as floats: the four byte planes of the block of packed words, side by side. -/
def cntV (x0 : IVec S512x1024 32) : FVec Ideal S512x4096 .bf16 :=
  sitofp .bf16 (concatenate S512x4096 1
    [⟨S512x1024, andi (shrui (shapeCast S512x1024 x0 Gen.shapeCasts_S512x1024_S512x1024) (broadcast S512x1024 0#32)) (broadcast S512x1024 255#32)⟩,
     ⟨S512x1024, andi (shrui (shapeCast S512x1024 x0 Gen.shapeCasts_S512x1024_S512x1024) (broadcast S512x1024 8#32)) (broadcast S512x1024 255#32)⟩,
     ⟨S512x1024, andi (shrui (shapeCast S512x1024 x0 Gen.shapeCasts_S512x1024_S512x1024) (broadcast S512x1024 16#32)) (broadcast S512x1024 255#32)⟩,
     ⟨S512x1024, andi (shrui (shapeCast S512x1024 x0 Gen.shapeCasts_S512x1024_S512x1024) (broadcast S512x1024 24#32)) (broadcast S512x1024 255#32)⟩]
    Gen.concatenates_S512x1024_S512x1024_S512x1024_S512x1024_S512x4096_d1)

/-- The pooled rows: the counts times the regrouped table, scaled by the reciprocal of the number of tokens. -/
def pooledV (c : FVec Ideal S512x4096 .bf16) (x1 : FVec Ideal S4096x72 .bf16) : FVec Ideal S512x72 .f32 :=
  mulf (matmul dot_S512x4096_S4096x72_S512x72_1_0_0_1_n_n none c (shapeCast S4096x72 x1 Gen.shapeCasts_S4096x72_S4096x72)
      (constant S512x72 .f32 0x00000000#32))
    (broadcast S512x72 (Named.named κ "inv_200" (φ := .f32) 0x3BA3D70A#32))

/-- The linear layer: the pooled rows times the weights, plus the bias row. -/
def linV (pl : FVec Ideal S512x72 .f32) (x2 : FVec Ideal S72x256 .f32) (x3 : FVec Ideal S1x256 .f32) : FVec Ideal S512x256 .f32 :=
  addf (matmul dot_S512x72_S72x256_S512x256_1_0_0_1_n_n none pl x2 (constant S512x256 .f32 0x00000000#32))
    (broadcastTo S512x256 (shapeCast S1x256 x3 Gen.shapeCasts_S1x256_S1x256) Gen.broadcasts_S1x256_S512x256)

/-- The mean of each row over its 256 lanes, as a column. -/
def rowMeanV (hV : FVec Ideal S512x256 .f32) : FVec Ideal S512x1 .f32 :=
  divf (shapeCast S512x1 (multiReduction .add [1] S512 hV 0x00000000#32 Gen.reduces_S512x256_S512 (.inl rfl) rfl)
      Gen.shapeCasts_S512_S512x1)
    (broadcast S512x1 (Scalar.ofBits .f32 0x43800000#32))

theorem cntV_apply (x0 : IVec S512x1024 32) (r : Fin 512) (j : Fin 4096) :
    cntV x0 (ix2 r j) = Cert.Spec.cntE (fun w => x0 (ix2 r w)) j := by
  unfold cntV
  refine (sitofp_apply _ _).trans ?_
  rw [shapeCast_self, planes_apply]
  rfl

theorem pooledV_apply (c : FVec Ideal S512x4096 .bf16) (x1 : FVec Ideal S4096x72 .bf16) (r : Fin 512) (d : Fin 72) :
    pooledV c x1 (ix2 r d) = (∑ j : Fin 4096, c (ix2 r j) * x1 (ix2 j d)) * ((1 / 200 : ℝ) : EReal) := by
  unfold pooledV
  rw [mulf_apply, broadcast_apply, matmul_cnt_apply, shapeCast_self, inv_200]

theorem linV_apply (pl : FVec Ideal S512x72 .f32) (x2 : FVec Ideal S72x256 .f32) (x3 : FVec Ideal S1x256 .f32)
    (r : Fin 512) (f : Fin 256) :
    linV pl x2 x3 (ix2 r f) = (∑ d : Fin 72, pl (ix2 r d) * x2 (ix2 d f)) + x3 (ix2 (0 : Fin 1) f) := by
  unfold linV
  rw [addf_apply, matmul_lin_apply, broadcastTo_1b_ab_apply, shapeCast_self]

theorem rowMeanV_apply (hV : FVec Ideal S512x256 .f32) (r : Fin 512) (u : Fin 1) :
    rowMeanV hV (ix2 r u) = Ideal.div (∑ f : Fin 256, hV (ix2 r f)) ((256 : ℝ) : EReal) := by
  unfold rowMeanV
  rw [divf_apply, broadcast_apply, shapeCast_a_a1_apply]
  exact congrArg₂ Ideal.div (rowSum_apply hV _ _ _ r) ofBits_256

/-! ## The value the body stores, at a row and a lane -/

/-- What the second kernel's body stores into its output block, as one function of the six blocks it loads: the
    block of packed counts, the regrouped table, the weights, and the bias, scale and shift rows. -/
def tcOut {F : FTy → Type} [FloatOps F] [Named F] (x0 : Vec F S512x1024 .i32) (x1 : Vec F S4096x72 .bf16)
    (x2 : Vec F S72x256 .f32) (x3 x4 x5 : Vec F S1x256 .f32) : FVec F S512x256 .f32 :=
  Gen.k1_pay1 (Gen.k1_pay2 x0 x1 x2 x3) (Gen.k1_pay3 x0 x1 x2 x3) x4 x5

section Assembly
variable (x0 : IVec S512x1024 32) (x1 : FVec Ideal S4096x72 .bf16) (x2 : FVec Ideal S72x256 .f32)
  (x3 x4 x5 : FVec Ideal S1x256 .f32)

/-- The centred rows are the linear layer's rows less their means. -/
theorem pay2_eq : Gen.k1_pay2 (F := Ideal) x0 x1 x2 x3
    = subf (linV (pooledV (cntV x0) x1) x2 x3)
        (broadcastTo S512x256 (rowMeanV (linV (pooledV (cntV x0) x1) x2 x3)) Gen.broadcasts_S512x1_S512x256) := rfl

/-- Their squares. -/
theorem pay3_eq : Gen.k1_pay3 (F := Ideal) x0 x1 x2 x3
    = mulf (Gen.k1_pay2 (F := Ideal) x0 x1 x2 x3) (Gen.k1_pay2 (F := Ideal) x0 x1 x2 x3) := rfl

/-- The stored value: the centred rows times the reciprocal root of the mean square plus the small constant, scaled,
    shifted and clipped at zero. -/
theorem pay1_eq (v36 v37 : FVec Ideal S512x256 .f32) (v47 v51 : FVec Ideal S1x256 .f32) :
    Gen.k1_pay1 (F := Ideal) v36 v37 v47 v51
      = maximumf (addf (mulf (mulf v36 (broadcastTo S512x256
                (rsqrt (addf (rowMeanV v37) (broadcast S512x1 (Scalar.ofBits .f32 0x3727C5AC#32))))
                Gen.broadcasts_S512x1_S512x256))
              (broadcastTo S512x256 (shapeCast S1x256 v47 Gen.shapeCasts_S1x256_S1x256) Gen.broadcasts_S1x256_S512x256))
            (broadcastTo S512x256 (shapeCast S1x256 v51 Gen.shapeCasts_S1x256_S1x256) Gen.broadcasts_S1x256_S512x256))
          (broadcast S512x256 (Scalar.ofBits .f32 0x00000000#32)) := rfl

theorem lin_eq (r : Fin 512) (f : Fin 256) :
    linV (pooledV (cntV x0) x1) x2 x3 (ix2 r f)
      = Cert.Spec.linK (fun d f => x2 (ix2 d f)) (fun f => x3 (ix2 (0 : Fin 1) f)) (fun j d => x1 (ix2 j d))
          (fun w => x0 (ix2 r w)) f := by
  rw [linV_apply]
  simp only [pooledV_apply, cntV_apply]
  rfl

theorem pay2_apply (r : Fin 512) (f : Fin 256) :
    Gen.k1_pay2 (F := Ideal) x0 x1 x2 x3 (ix2 r f)
      = Cert.Spec.ctrK (fun d f => x2 (ix2 d f)) (fun f => x3 (ix2 (0 : Fin 1) f)) (fun j d => x1 (ix2 j d))
          (fun w => x0 (ix2 r w)) f := by
  rw [pay2_eq, subf_apply, broadcastTo_a1_ab_apply, rowMeanV_apply]
  simp only [lin_eq]
  rfl

/-- THE BODY'S STORED VALUE at row r and lane f is the specification's formula for the query of that row. -/
theorem tcOut_apply (r : Fin 512) (f : Fin 256) :
    tcOut (F := Ideal) x0 x1 x2 x3 x4 x5 (ix2 r f)
      = Cert.Spec.outKQ (fun d f => x2 (ix2 d f)) (fun f => x3 (ix2 0 f)) (fun f => x4 (ix2 0 f)) (fun f => x5 (ix2 0 f))
          (fun j d => x1 (ix2 j d)) (fun w => x0 (ix2 r w)) f := by
  unfold tcOut
  rw [pay1_eq, maximumf_apply, addf_apply, mulf_apply, mulf_apply, broadcastTo_a1_ab_apply, rsqrt_apply, addf_apply,
    rowMeanV_apply, broadcast_apply, broadcastTo_1b_ab_apply, broadcastTo_1b_ab_apply, shapeCast_self, shapeCast_self,
    broadcast_apply]
  simp only [pay3_eq, mulf_apply, pay2_apply]
  show max (_ * Ideal.rsqrt (_ + Cert.Spec.eps) * _ + _) (Ideal.ofBits .f32 0x00000000#32) = _
  rw [Ideal.ofBits_zero_f32]
  rfl

end Assembly

/-! ## The host's re-layouts around the two kernels, read at coordinates -/

section Host
variable {α : Type}

/-- Four blocks of 1024 rows stacked: row 1024 k + w of the result is row w of block k. -/
theorem concat4_rows_apply (y : Fin 4 → (S1024x72.Idx → α))
    (h : Shape.Concatenates [S1024x72, S1024x72, S1024x72, S1024x72] S4096x72 0)
    (j : Fin 4096) (d : Fin 72) (k : Fin 4) (w : Fin 1024) (hj : j.val = 1024 * k.val + w.val) :
    concatenate S4096x72 0 [⟨S1024x72, y 0⟩, ⟨S1024x72, y 1⟩, ⟨S1024x72, y 2⟩, ⟨S1024x72, y 3⟩] h (ix2 j d)
      = y k (ix2 w d) := by
  have hi : ∀ b : Fin S1024x72.rank, b.cast (rfl : S1024x72.rank = S4096x72.rank) ≠ (0 : Fin S4096x72.rank) →
      ((ix2 w d : S1024x72.Idx) b).val = ((ix2 j d : S4096x72.Idx) (b.cast rfl)).val := fun b hb => by
    match b with
    | ⟨0, _⟩ => exact absurd rfl hb
    | ⟨1, _⟩ => rfl
  match k, hj with
  | ⟨0, _⟩, hj =>
    have hj' : j.val = 1024 * 0 + w.val := hj
    exact concatenate_apply_piece (0 : Fin S4096x72.rank)
      [⟨S1024x72, y 0⟩, ⟨S1024x72, y 1⟩, ⟨S1024x72, y 2⟩, ⟨S1024x72, y 3⟩] h (ix2 j d) 0 (by show 0 < 4; omega)
      S1024x72 (y 0) rfl rfl 0 rfl (ix2 w d) hi (by show 0 + w.val = j.val; omega)
  | ⟨1, _⟩, hj =>
    have hj' : j.val = 1024 * 1 + w.val := hj
    exact concatenate_apply_piece (0 : Fin S4096x72.rank)
      [⟨S1024x72, y 0⟩, ⟨S1024x72, y 1⟩, ⟨S1024x72, y 2⟩, ⟨S1024x72, y 3⟩] h (ix2 j d) 1 (by show 1 < 4; omega)
      S1024x72 (y 1) rfl rfl 1024 rfl (ix2 w d) hi (by show 1024 + w.val = j.val; omega)
  | ⟨2, _⟩, hj =>
    have hj' : j.val = 1024 * 2 + w.val := hj
    exact concatenate_apply_piece (0 : Fin S4096x72.rank)
      [⟨S1024x72, y 0⟩, ⟨S1024x72, y 1⟩, ⟨S1024x72, y 2⟩, ⟨S1024x72, y 3⟩] h (ix2 j d) 2 (by show 2 < 4; omega)
      S1024x72 (y 2) rfl rfl 2048 rfl (ix2 w d) hi (by show 2048 + w.val = j.val; omega)
  | ⟨3, _⟩, hj =>
    have hj' : j.val = 1024 * 3 + w.val := hj
    exact concatenate_apply_piece (0 : Fin S4096x72.rank)
      [⟨S1024x72, y 0⟩, ⟨S1024x72, y 1⟩, ⟨S1024x72, y 2⟩, ⟨S1024x72, y 3⟩] h (ix2 j d) 3 (by show 3 < 4; omega)
      S1024x72 (y 3) rfl rfl 3072 rfl (ix2 w d) hi (by show 3072 + w.val = j.val; omega)

/-- Every fourth row of the table from row k on: row w of the slice is row 4 w + k of the table. -/
theorem slice_step4_apply (a1 : S4096x72.Idx → α) (k : ℕ) (hk : k < 4)
    (h : S4096x72.SlicesBy (![k, 0] : Fin 2 → ℕ) ![4, 1] S1024x72) (w : Fin 1024) (d : Fin 72) :
    Host.slice S1024x72 ![k, 0] ![4, 1] a1 h (ix2 w d) = a1 (ix2 ⟨4 * w.val + k, by have := w.isLt; omega⟩ d) := by
  unfold Host.slice
  refine congrArg a1 (funext fun a => Fin.ext ?_)
  match a with
  | ⟨0, _⟩ => show k + 4 * w.val = 4 * w.val + k; omega
  | ⟨1, _⟩ => show 0 + 1 * d.val = d.val; omega

/-- A vector of 256 entries as a row [1, 256]: entry (0, f) is entry f. -/
theorem reshape_vec_apply (x : S256.Idx → α) (h : S256.ShapeCasts S1x256) (f : Fin 256) :
    shapeCast S1x256 x h (ix2 (0 : Fin 1) f) = x (ix1 f) :=
  shapeCast_a_1a_apply x h 0 f

/-- The tokens [16384, 200] flattened: entry 200 q + l is token l of query q. -/
theorem reshape_tok_apply (x : S16384x200.Idx → α) (h : S16384x200.ShapeCasts S3276800) (q : Fin 16384) (l : Fin 200) :
    shapeCast S3276800 x h (ix1 ⟨200 * q.val + l.val, by have := q.isLt; have := l.isLt; omega⟩) = x (ix2 q l) :=
  shapeCast_apply x h _ _ (by
    rw [Shape.rowMajor_val_two, Shape.rowMajor_val_one]
    show q.val * 200 + l.val = 200 * q.val + l.val
    omega)

/-- The flat packed counts viewed [16384, 1024]: entry (q, w) is flat entry 1024 q + w. -/
theorem reshape_cnt_apply (x : S16777216.Idx → α) (h : S16777216.ShapeCasts S16384x1024) (q : Fin 16384) (w : Fin 1024) :
    shapeCast S16384x1024 x h (ix2 q w) = x (ix1 ⟨1024 * q.val + w.val, by have := q.isLt; have := w.isLt; omega⟩) :=
  shapeCast_apply x h _ _ (by
    rw [Shape.rowMajor_val_two, Shape.rowMajor_val_one]
    show 1024 * q.val + w.val = q.val * 1024 + w.val
    omega)

end Host

/-- The table as the second kernel takes it (each residue's rows at stride four, stacked, in bf16) is the
    specification's regrouped table: row j is the table's row 4 (j % 1024) + j / 1024. -/
theorem tableR_apply (a1 : FVec Ideal S4096x72 .f32)
    (h0 : S4096x72.SlicesBy (![0, 0] : Fin 2 → ℕ) ![4, 1] S1024x72)
    (h1 : S4096x72.SlicesBy (![1, 0] : Fin 2 → ℕ) ![4, 1] S1024x72)
    (h2 : S4096x72.SlicesBy (![2, 0] : Fin 2 → ℕ) ![4, 1] S1024x72)
    (h3 : S4096x72.SlicesBy (![3, 0] : Fin 2 → ℕ) ![4, 1] S1024x72)
    (hc : Shape.Concatenates [S1024x72, S1024x72, S1024x72, S1024x72] S4096x72 0)
    (hb : FTy.bits .bf16 < FTy.bits .f32) (j : Fin 4096) (d : Fin 72) :
    (truncf .bf16 (concatenate S4096x72 0
        [⟨S1024x72, Host.slice S1024x72 ![0, 0] ![4, 1] a1 h0⟩, ⟨S1024x72, Host.slice S1024x72 ![1, 0] ![4, 1] a1 h1⟩,
         ⟨S1024x72, Host.slice S1024x72 ![2, 0] ![4, 1] a1 h2⟩, ⟨S1024x72, Host.slice S1024x72 ![3, 0] ![4, 1] a1 h3⟩]
        hc) hb : FVec Ideal S4096x72 .bf16) (ix2 j d)
      = Cert.Spec.tabR (Cert.Spec.tabF a1) j d := by
  have hjl := j.isLt
  have hw : j.val % 1024 < 1024 := Nat.mod_lt _ (by decide)
  refine (truncf_apply _ hb _).trans ?_
  have hcases : j.val / 1024 = 0 ∨ j.val / 1024 = 1 ∨ j.val / 1024 = 2 ∨ j.val / 1024 = 3 := by omega
  rcases hcases with hq | hq | hq | hq
  · refine (concat4_rows_apply ![Host.slice S1024x72 ![0, 0] ![4, 1] a1 h0, Host.slice S1024x72 ![1, 0] ![4, 1] a1 h1,
        Host.slice S1024x72 ![2, 0] ![4, 1] a1 h2, Host.slice S1024x72 ![3, 0] ![4, 1] a1 h3] hc j d ⟨0, by decide⟩
        ⟨j.val % 1024, hw⟩ (by show j.val = 1024 * 0 + j.val % 1024; omega)).trans ?_
    show Host.slice S1024x72 ![0, 0] ![4, 1] a1 h0 (ix2 ⟨j.val % 1024, hw⟩ d) = _
    refine (slice_step4_apply a1 0 (by decide) h0 _ d).trans ?_
    exact congrArg (fun t => a1 (ix2 t d))
      (Fin.ext (by show 4 * (j.val % 1024) + 0 = 4 * (j.val % 1024) + j.val / 1024; omega))
  · refine (concat4_rows_apply ![Host.slice S1024x72 ![0, 0] ![4, 1] a1 h0, Host.slice S1024x72 ![1, 0] ![4, 1] a1 h1,
        Host.slice S1024x72 ![2, 0] ![4, 1] a1 h2, Host.slice S1024x72 ![3, 0] ![4, 1] a1 h3] hc j d ⟨1, by decide⟩
        ⟨j.val % 1024, hw⟩ (by show j.val = 1024 * 1 + j.val % 1024; omega)).trans ?_
    show Host.slice S1024x72 ![1, 0] ![4, 1] a1 h1 (ix2 ⟨j.val % 1024, hw⟩ d) = _
    refine (slice_step4_apply a1 1 (by decide) h1 _ d).trans ?_
    exact congrArg (fun t => a1 (ix2 t d))
      (Fin.ext (by show 4 * (j.val % 1024) + 1 = 4 * (j.val % 1024) + j.val / 1024; omega))
  · refine (concat4_rows_apply ![Host.slice S1024x72 ![0, 0] ![4, 1] a1 h0, Host.slice S1024x72 ![1, 0] ![4, 1] a1 h1,
        Host.slice S1024x72 ![2, 0] ![4, 1] a1 h2, Host.slice S1024x72 ![3, 0] ![4, 1] a1 h3] hc j d ⟨2, by decide⟩
        ⟨j.val % 1024, hw⟩ (by show j.val = 1024 * 2 + j.val % 1024; omega)).trans ?_
    show Host.slice S1024x72 ![2, 0] ![4, 1] a1 h2 (ix2 ⟨j.val % 1024, hw⟩ d) = _
    refine (slice_step4_apply a1 2 (by decide) h2 _ d).trans ?_
    exact congrArg (fun t => a1 (ix2 t d))
      (Fin.ext (by show 4 * (j.val % 1024) + 2 = 4 * (j.val % 1024) + j.val / 1024; omega))
  · refine (concat4_rows_apply ![Host.slice S1024x72 ![0, 0] ![4, 1] a1 h0, Host.slice S1024x72 ![1, 0] ![4, 1] a1 h1,
        Host.slice S1024x72 ![2, 0] ![4, 1] a1 h2, Host.slice S1024x72 ![3, 0] ![4, 1] a1 h3] hc j d ⟨3, by decide⟩
        ⟨j.val % 1024, hw⟩ (by show j.val = 1024 * 3 + j.val % 1024; omega)).trans ?_
    show Host.slice S1024x72 ![3, 0] ![4, 1] a1 h3 (ix2 ⟨j.val % 1024, hw⟩ d) = _
    refine (slice_step4_apply a1 3 (by decide) h3 _ d).trans ?_
    exact congrArg (fun t => a1 (ix2 t d))
      (Fin.ext (by show 4 * (j.val % 1024) + 3 = 4 * (j.val % 1024) + j.val / 1024; omega))

end Cert.TcValue

end
-- ==== Proof.SpecLaws.lean ====
/-
  The algebra that identifies the second kernel's formula with the reference's, query by query, over the
  extended reals. No program is mentioned here: only the definitions of the specification.

  Four facts carry it.
  (a) Bytes: word w of the packed histogram is the base-256 number whose digit k is the number of positions
      holding token 4 w + k; no digit overflows (a query has 200 positions), so shifting by 8 k and masking
      with 255 reads that number back.
  (b) Regrouping: the counts times the regrouped table, summed over the 4096 columns, is the sum of the rows
      the tokens name (each row taken as often as it is named).
  (c) The mean of the pooled rows: the quotient by 200 is the product with 1/200.
  (d) The root: the variance plus the constant is positive, and for a positive x the product with the
      reciprocal root of x is the quotient by the root of x.
-/
import proofs.«207659_g70703751627518_cont_9to1_m_904_5_alg».proof.Proof.Spec
import Mathlib.Algebra.Order.BigOperators.Group.Finset
import Mathlib.Data.Fintype.BigOperators
import Mathlib.Tactic.NormNum
import Mathlib.Tactic.Positivity

noncomputable section

namespace Cert.Spec

open Idealize.ShloMosaic Idealize.ShloMosaic.ValueIdx

/-! ### (a) Bytes -/

/-- How often the row number n is named in a query. -/
def countN (tok : Fin 200 → Fin 4096) (n : ℕ) : ℕ :=
  (Finset.univ.filter (fun l => (tok l).val = n)).card

/-- A query has 200 positions, so no row is named more often. -/
theorem countN_le (tok : Fin 200 → Fin 4096) (n : ℕ) : countN tok n ≤ 200 := by
  unfold countN
  calc (Finset.univ.filter (fun l => (tok l).val = n)).card
      ≤ (Finset.univ : Finset (Fin 200)).card := Finset.card_filter_le _ _
    _ = 200 := by simp

/-- The count as a sum of zeros and ones. -/
theorem countN_eq_sum (tok : Fin 200 → Fin 4096) (n : ℕ) :
    countN tok n = ∑ l : Fin 200, if (tok l).val = n then 1 else 0 := by
  unfold countN
  rw [Finset.card_filter]

/-- A sum of 32-bit words, as a natural number, is the sum of the words' numbers modulo 2^32. -/
theorem toNat_sum {ι : Type} (s : Finset ι) (f : ι → BitVec 32) :
    (∑ i ∈ s, f i).toNat = (∑ i ∈ s, (f i).toNat) % 2 ^ 32 := by
  classical
  induction s using Finset.induction_on with
  | empty => simp
  | insert a s ha ih =>
    rw [Finset.sum_insert ha, Finset.sum_insert ha, BitVec.toNat_add, ih, Nat.add_mod_mod]

/-- One position's contribution to word w: 256^k if its token is 4 w + k, else nothing. -/
theorem toNat_term (t w : ℕ) :
    (if t / 4 = w then (1#32 <<< (8 * (t % 4))) else 0#32).toNat = if t / 4 = w then 256 ^ (t % 4) else 0 := by
  split_ifs
  · have h : t % 4 = 0 ∨ t % 4 = 1 ∨ t % 4 = 2 ∨ t % 4 = 3 := by omega
    rcases h with h | h | h | h <;> rw [h] <;> decide
  · rfl

/-- The same contribution, split by the byte it lands in. -/
theorem term_split (t w : ℕ) :
    (if t / 4 = w then 256 ^ (t % 4) else 0) =
      (if t = 4 * w then 1 else 0) + 256 * (if t = 4 * w + 1 then 1 else 0)
        + 65536 * (if t = 4 * w + 2 then 1 else 0) + 16777216 * (if t = 4 * w + 3 then 1 else 0) := by
  have h : t % 4 = 0 ∨ t % 4 = 1 ∨ t % 4 = 2 ∨ t % 4 = 3 := by omega
  rcases h with h | h | h | h <;> rw [h] <;> norm_num <;> split_ifs <;> omega

/-- Word w of the packed histogram is the base-256 number whose four digits are the counts of the
    tokens 4 w, 4 w + 1, 4 w + 2, 4 w + 3. -/
theorem packedQ_toNat (tok : Fin 200 → Fin 4096) (w : Fin 1024) :
    (packedQ tok w).toNat =
      countN tok (4 * w.val) + 256 * countN tok (4 * w.val + 1)
        + 65536 * countN tok (4 * w.val + 2) + 16777216 * countN tok (4 * w.val + 3) := by
  have h0 := countN_le tok (4 * w.val)
  have h1 := countN_le tok (4 * w.val + 1)
  have h2 := countN_le tok (4 * w.val + 2)
  have h3 := countN_le tok (4 * w.val + 3)
  have key : (∑ l : Fin 200, (if (tok l).val / 4 = w.val then (1#32 <<< (8 * ((tok l).val % 4))) else 0#32).toNat) =
      countN tok (4 * w.val) + 256 * countN tok (4 * w.val + 1)
        + 65536 * countN tok (4 * w.val + 2) + 16777216 * countN tok (4 * w.val + 3) := by
    simp only [toNat_term, term_split, countN_eq_sum, Finset.sum_add_distrib, Finset.mul_sum]
  unfold packedQ
  rw [toNat_sum, key]
  omega

/-- Column j of the unpacked counts is the count of the token 4 (j % 1024) + j / 1024. -/
theorem plane_packedQ_toNat (tok : Fin 200 → Fin 4096) (j : Fin 4096) :
    (plane (packedQ tok) j).toNat = countN tok (4 * (j.val % 1024) + j.val / 1024) := by
  have h0 := countN_le tok (4 * (j.val % 1024))
  have h1 := countN_le tok (4 * (j.val % 1024) + 1)
  have h2 := countN_le tok (4 * (j.val % 1024) + 2)
  have h3 := countN_le tok (4 * (j.val % 1024) + 3)
  unfold plane
  rw [BitVec.toNat_and, BitVec.toNat_ushiftRight, packedQ_toNat, BitVec.toNat_ofNat, Nat.shiftRight_eq_div_pow]
  simp only []
  have hk : j.val / 1024 = 0 ∨ j.val / 1024 = 1 ∨ j.val / 1024 = 2 ∨ j.val / 1024 = 3 := by
    have := j.isLt; omega
  rcases hk with hk | hk | hk | hk <;> rw [hk] <;>
    (rw [show (255 % 2 ^ 32 : ℕ) = 2 ^ 8 - 1 by norm_num, Nat.and_two_pow_sub_one_eq_mod]; norm_num; omega)

/-- The count, read as a signed integer and then as an extended real, is the count. -/
theorem cntE_packedQ (tok : Fin 200 → Fin 4096) (j : Fin 4096) :
    cntE (packedQ tok) j = ((countN tok (4 * (j.val % 1024) + j.val / 1024) : ℕ) : EReal) := by
  have h := countN_le tok (4 * (j.val % 1024) + j.val / 1024)
  have hn := plane_packedQ_toNat tok j
  unfold cntE
  rw [BitVec.toInt_eq_toNat_of_lt (by rw [hn]; omega), hn, Int.cast_natCast]
  rfl

/-! ### (b) Regrouping -/

/-- The regrouping of the columns: column j holds the table's row 4 (j % 1024) + j / 1024. -/
def regroup : Fin 4096 ≃ Fin 4096 where
  toFun j := ⟨4 * (j.val % 1024) + j.val / 1024, by have := j.isLt; omega⟩
  invFun v := ⟨1024 * (v.val % 4) + v.val / 4, by have := v.isLt; omega⟩
  left_inv j := by
    rcases j with ⟨j, hj⟩
    apply Fin.ext
    show 1024 * ((4 * (j % 1024) + j / 1024) % 4) + (4 * (j % 1024) + j / 1024) / 4 = j
    omega
  right_inv v := by
    rcases v with ⟨v, hv⟩
    apply Fin.ext
    show 4 * ((1024 * (v % 4) + v / 4) % 1024) + (1024 * (v % 4) + v / 4) / 1024 = v
    omega

/-- The rows a query names, each taken as often as it is named: the sum over the positions is the sum
    over the rows v of (the count of v) times row v. -/
theorem sum_rows_eq (T : Fin 4096 → Fin 72 → EReal) (tok : Fin 200 → Fin 4096) (d : Fin 72) :
    ∑ l : Fin 200, T (tok l) d = ∑ v : Fin 4096, ((countN tok v.val : ℕ) : EReal) * T v d := by
  rw [← Finset.sum_fiberwise Finset.univ tok (fun l => T (tok l) d)]
  apply Fintype.sum_congr
  intro v
  have hR : ∀ l ∈ Finset.univ.filter (fun l => tok l = v), T (tok l) d = T v d := by
    intro l hl; rw [(Finset.mem_filter.mp hl).2]
  have hc : (Finset.univ.filter (fun l => tok l = v)).card = countN tok v.val := by
    unfold countN
    congr 1
    ext l
    simp [Fin.ext_iff]
  rw [Finset.sum_congr rfl hR, Finset.sum_const, EReal.nsmul_eq_mul, hc]

/-- The counts times the regrouped table, summed over the columns, is the sum of the rows the tokens name. -/
theorem sum_cnt_tabR (T : Fin 4096 → Fin 72 → EReal) (tok : Fin 200 → Fin 4096) (d : Fin 72) :
    ∑ j : Fin 4096, cntE (packedQ tok) j * tabR T j d = ∑ l : Fin 200, T (tok l) d := by
  have h1 : ∑ j : Fin 4096, cntE (packedQ tok) j * tabR T j d =
      ∑ v : Fin 4096, ((countN tok v.val : ℕ) : EReal) * T v d :=
    Fintype.sum_equiv regroup _ _ (fun j => by
      show cntE (packedQ tok) j * tabR T j d = _
      rw [cntE_packedQ]
      rfl)
  rw [h1, sum_rows_eq]

/-! ### (d) The root -/

/-- A square is nonnegative on all of the extended reals (the squares of both infinities are ⊤). -/
theorem mul_self_nonneg' (x : EReal) : 0 ≤ x * x := by
  induction x using EReal.rec with
  | bot => simp
  | coe r => rw [← EReal.coe_mul]; exact_mod_cast mul_self_nonneg r
  | top => simp

/-- The quotient of a nonnegative by a positive real is nonnegative. -/
theorem div_coe_nonneg {x : EReal} (hx : 0 ≤ x) {y : ℝ} (hy : 0 < y) : 0 ≤ Ideal.div x (y : EReal) := by
  rw [Ideal.div_coe hy.ne']
  apply EReal.mul_nonneg hx
  exact_mod_cast (one_div_pos.mpr hy).le

/-- The constant under the root is a positive real. -/
theorem eps_pos : ∃ r : ℝ, 0 < r ∧ eps = (r : EReal) := by
  refine ⟨10995116 * (2 : ℝ) ^ (-40 : ℤ), by positivity, ?_⟩
  simp [eps, Ideal.ofBits, Ideal.ieee, -EReal.coe_mul]

/-- A nonnegative plus the constant is positive. -/
theorem add_eps_pos {y : EReal} (hy : 0 ≤ y) : 0 < y + eps := by
  obtain ⟨r, hr, he⟩ := eps_pos
  rw [he]
  induction y using EReal.rec with
  | bot => simp at hy
  | coe s =>
      rw [← EReal.coe_add]
      have hs : 0 ≤ s := by exact_mod_cast hy
      exact_mod_cast add_pos_of_nonneg_of_pos hs hr
  | top => simp

/-- For a positive x, the product with the reciprocal root of x is the quotient by the root of x
    (at x = ⊤ both are the product with 0). -/
theorem mul_rsqrt_eq_div_sqrt (c : EReal) {x : EReal} (hx : 0 < x) :
    c * Ideal.rsqrt x = Ideal.div c (Ideal.sqrt x) := by
  induction x using EReal.rec with
  | bot => simp at hx
  | coe r =>
      have hr : 0 < r := by exact_mod_cast hx
      have hs : Real.sqrt r ≠ 0 := (Real.sqrt_pos.mpr hr).ne'
      have hs' : ((Real.sqrt r : ℝ) : EReal) ≠ 0 := by exact_mod_cast hs
      rw [Ideal.rsqrt_coe, Ideal.sqrt_coe, if_neg (not_lt.mpr hr.le), if_neg hr.ne', if_neg (not_lt.mpr hr.le),
        Ideal.div, if_neg hs', EReal.coe_inv]
  | top =>
      rw [Ideal.rsqrt_top, Ideal.sqrt_top, Ideal.div, if_neg (by simp), EReal.inv_top]

/-! ### (c) The mean of the pooled rows, and what follows it by congruence -/

section Congr
variable (W : Fin 72 → Fin 256 → EReal) (b g be : Fin 256 → EReal)
variable (T : Fin 4096 → Fin 72 → EReal) (tok : Fin 200 → Fin 4096)

theorem pooledK_packedQ : pooledK (tabR T) (packedQ tok) = pooled T tok := by
  funext d
  unfold pooledK pooled
  rw [sum_cnt_tabR, Ideal.div_coe (show (200 : ℝ) ≠ 0 by norm_num)]

theorem linK_packedQ : linK W b (tabR T) (packedQ tok) = lin W b T tok := by
  funext f
  unfold linK lin
  rw [pooledK_packedQ]

theorem meanK_packedQ : meanK W b (tabR T) (packedQ tok) = mean W b T tok := by
  unfold meanK mean
  rw [linK_packedQ]

theorem ctrK_packedQ : ctrK W b (tabR T) (packedQ tok) = ctr W b T tok := by
  funext f
  unfold ctrK ctr
  rw [linK_packedQ, meanK_packedQ]

theorem varK_packedQ : varK W b (tabR T) (packedQ tok) = var W b T tok := by
  unfold varK var
  rw [ctrK_packedQ]

/-- The variance is nonnegative on all of the extended reals. -/
theorem var_nonneg : 0 ≤ var W b T tok := by
  unfold var
  exact div_coe_nonneg (Finset.sum_nonneg (fun f _ => mul_self_nonneg' _)) (by norm_num)

/-- The second kernel's formula, at the packed counts of a query and the regrouped table, is the reference's. -/
theorem outKQ_packedQ : outKQ W b g be (tabR T) (packedQ tok) = outQ W b g be T tok := by
  funext f
  unfold outKQ outQ
  rw [varK_packedQ, ctrK_packedQ, mul_rsqrt_eq_div_sqrt _ (add_eps_pos (var_nonneg W b T tok))]

end Congr

/-- The same, for the arrays: the second kernel's result at the packed histogram is the reference's result. -/
theorem kerArr_packedArr (a0 : STok.Idx → BitVec 32) (a1 : STab.Idx → EReal) (a2 : SW.Idx → EReal)
    (a3 a4 a5 : SVec.Idx → EReal) :
    kerArr (packedArr a0) a1 a2 a3 a4 a5 = refArr a0 a1 a2 a3 a4 a5 := by
  funext i
  unfold kerArr refArr
  exact congrFun (outKQ_packedQ (wF a2) (vecF a3) (vecF a4) (vecF a5) (tabF a1) (tokF a0 (i 0))) (i 1)

end Cert.Spec

end
-- ==== Proof.Bridge.lean ====
/-
  The second kernel's result array is the specification's: the bridge between what the launch leaves and the formulas.

  The launch leaves, at row r and lane k of the result, the body's block function at row r % 512 of block r / 512:
  of the 512 rows of packed counts from row 512 (r / 512) on, of the regrouped table, the weights and the three rows.
  Row 512 (r / 512) + r % 512 of the counts is row r; the packed counts, read as 16384 rows of 1024 words off the
  flat array the counting kernel filled, hold at (q, w) word w of query q's packed histogram, because the flat position
  1024 q + w splits back into q and w, and the flat token 200 q + l is token l of query q. With the body's value
  at a row and a lane, the regrouped table and the three rows read at coordinates, this is the specification's kerArr
  at the packed histogram; by the law that unpacking the packed histogram and multiplying with the regrouped table pools
  the table's rows, it is the reference's array.
-/
import proofs.«207659_g70703751627518_cont_9to1_m_904_5_alg».proof.Proof.Launch
import proofs.«207659_g70703751627518_cont_9to1_m_904_5_alg».proof.Proof.TcValue
import proofs.«207659_g70703751627518_cont_9to1_m_904_5_alg».proof.Proof.Spec
import proofs.«207659_g70703751627518_cont_9to1_m_904_5_alg».proof.Proof.SpecLaws

noncomputable section

namespace Cert.Bridge

open Idealize.ShloMosaic Idealize.ShloMosaic.ValueIdx
open Cert.KernelIdeal Cert.KernelIdeal.Hand

/-- The two spellings of the body's block function are one term. -/
theorem tcOut_eq {F : FTy → Type} [FloatOps F] [Named F] (x0 : Vec F S512x1024 .i32) (x1 : Vec F S4096x72 .bf16)
    (x2 : Vec F S72x256 .f32) (x3 x4 x5 : Vec F S1x256 .f32) :
    Cert.KernelIdeal.Hand.tcOut x0 x1 x2 x3 x4 x5 = Cert.TcValue.tcOut x0 x1 x2 x3 x4 x5 := rfl

/-- The flat tokens read back by query: the token at flat position 200 q + l of the reshaped array is token l of
    query q. -/
theorem tokAt_reshape (a0 : IVec S16384x200 32) (h : S16384x200.ShapeCasts S3276800) (q : Fin 16384) :
    tokAt (fun j => shapeCast S3276800 a0 h j) q = Cert.Spec.tokF a0 q := by
  funext l
  exact Fin.ext (congrArg (fun x : BitVec 32 => x.toNat % 4096) (Cert.TcValue.reshape_tok_apply a0 h q l))

/-- The flat counts at position 1024 q + w hold word w of query q's packed histogram. -/
theorem packedFlat_apply (ids : S3276800.Idx → BitVec 32) (q : Fin 16384) (w : Fin 1024)
    (hb : 1024 * q.val + w.val < 16777216) :
    packedFlat ids (ix1 ⟨1024 * q.val + w.val, hb⟩) = Cert.Spec.packedQ (tokAt ids q) w := by
  have hw := w.isLt
  unfold packedFlat
  exact congrArg₂ (fun (a : Fin 16384) (b : Fin 1024) => Cert.Spec.packedQ (tokAt ids a) b)
    (Fin.ext (by show (1024 * q.val + w.val) / 1024 = q.val; omega))
    (Fin.ext (by show (1024 * q.val + w.val) % 1024 = w.val; omega))

/-- The packed counts as the second kernel reads them are the specification's packed histogram array. -/
theorem cnt2Term_apply (a0 : IVec S16384x200 32) (q : Fin 16384) (w : Fin 1024) :
    cnt2Term (F := Ideal) a0 (ix2 q w) = Cert.Spec.packedArr a0 (ix2 q w) := by
  unfold cnt2Term
  refine (Cert.TcValue.reshape_cnt_apply _ _ q w).trans ?_
  refine (packedFlat_apply _ q w _).trans ?_
  rw [tokAt_reshape]
  rfl

/-- Two applications of the per-query formula to equal arguments are equal. -/
theorem outKQ_congr {W W' : Fin 72 → Fin 256 → EReal} {b b' g g' be be' : Fin 256 → EReal}
    {TR TR' : Fin 4096 → Fin 72 → EReal} {cnt cnt' : Fin 1024 → BitVec 32}
    (hW : W = W') (hb : b = b') (hg : g = g') (hbe : be = be') (hT : TR = TR') (hc : cnt = cnt') :
    Cert.Spec.outKQ W b g be TR cnt = Cert.Spec.outKQ W' b' g' be' TR' cnt' := by
  subst hW hb hg hbe hT hc; rfl

/-- THE BRIDGE: the launch's result array is the specification's second-kernel array at the packed histogram. -/
theorem kerTerm_eq (a0 : IVec S16384x200 32) (a1 : FVec Ideal S4096x72 .f32) (a2 : FVec Ideal S72x256 .f32)
    (a3 a4 a5 : FVec Ideal S256 .f32) :
    kerTerm (F := Ideal) a0 a1 a2 a3 a4 a5 = Cert.Spec.kerArr (Cert.Spec.packedArr a0) a1 a2 a3 a4 a5 := by
  funext i
  obtain ⟨p, q, rfl⟩ : ∃ (p : Fin 16384) (q : Fin 256), i = ix2 p q := ⟨i 0, i 1, eq_ix2 i⟩
  have hp := p.isLt
  unfold kerTerm
  rw [tcOut_eq]
  refine (Cert.TcValue.tcOut_apply _ _ _ _ _ _ _ _).trans ?_
  unfold Cert.Spec.kerArr
  refine congrFun (outKQ_congr rfl ?_ ?_ ?_ ?_ ?_) q
  · exact funext fun f => Cert.TcValue.reshape_vec_apply a3 _ f
  · exact funext fun f => Cert.TcValue.reshape_vec_apply a4 _ f
  · exact funext fun f => Cert.TcValue.reshape_vec_apply a5 _ f
  · exact funext fun j => funext fun d => Cert.TcValue.tableR_apply a1 _ _ _ _ _ _ j d
  · funext w
    show cnt2Term (F := Ideal) a0 (ix2 _ w) = _
    rw [cnt2Term_apply]
    exact congrArg (fun t : Fin 16384 => Cert.Spec.packedArr a0 (ix2 t w))
      (Fin.ext (by show 512 * (p.val / 512) + p.val % 512 = p.val; omega))

/-- So the launch's result array is the reference's array. -/
theorem kerTerm_eq_refArr (a0 : IVec S16384x200 32) (a1 : FVec Ideal S4096x72 .f32) (a2 : FVec Ideal S72x256 .f32)
    (a3 a4 a5 : FVec Ideal S256 .f32) :
    kerTerm (F := Ideal) a0 a1 a2 a3 a4 a5 = Cert.Spec.refArr a0 a1 a2 a3 a4 a5 :=
  (kerTerm_eq a0 a1 a2 a3 a4 a5).trans (Cert.Spec.kerArr_packedArr a0 a1 a2 a3 a4 a5)

end Cert.Bridge

end
-- ==== Proof.lean ====
/-
  The whole claim. Both kernel programs and the reference terminate on every weakly fair execution and leave their six
  arguments unchanged; the one named constant of the idealised kernel is the table's 1/200; and over the extended reals
  the kernel's result array and the reference's are one function of the arguments, query by query.
-/
import proofs.«207659_g70703751627518_cont_9to1_m_904_5_alg».proof.Defs
import proofs.«207659_g70703751627518_cont_9to1_m_904_5_alg».proof.Proof.Gen.Kernel
import proofs.«207659_g70703751627518_cont_9to1_m_904_5_alg».proof.Proof.Gen.Kernel.Skeleton
import proofs.«207659_g70703751627518_cont_9to1_m_904_5_alg».proof.Proof.Gen.Kernel.Launch
import proofs.«207659_g70703751627518_cont_9to1_m_904_5_alg».proof.Proof.Gen.Kernel.Points
import proofs.«207659_g70703751627518_cont_9to1_m_904_5_alg».proof.Proof.Gen.KernelIdeal
import proofs.«207659_g70703751627518_cont_9to1_m_904_5_alg».proof.Proof.Gen.KernelIdeal.Skeleton
import proofs.«207659_g70703751627518_cont_9to1_m_904_5_alg».proof.Proof.Gen.KernelIdeal.Launch
import proofs.«207659_g70703751627518_cont_9to1_m_904_5_alg».proof.Proof.Gen.KernelIdeal.Points
import proofs.«207659_g70703751627518_cont_9to1_m_904_5_alg».proof.Proof.Gen.ReferenceIdeal
import proofs.«207659_g70703751627518_cont_9to1_m_904_5_alg».proof.Proof.Gen.Pre_input_domain
import proofs.«207659_g70703751627518_cont_9to1_m_904_5_alg».proof.Proof.Launch
import proofs.«207659_g70703751627518_cont_9to1_m_904_5_alg».proof.Proof.LaunchK
import proofs.«207659_g70703751627518_cont_9to1_m_904_5_alg».proof.Proof.Tile
import proofs.«207659_g70703751627518_cont_9to1_m_904_5_alg».proof.Proof.TileK
import proofs.«207659_g70703751627518_cont_9to1_m_904_5_alg».proof.Proof.PreTok
import proofs.«207659_g70703751627518_cont_9to1_m_904_5_alg».proof.Proof.RefRun
import proofs.«207659_g70703751627518_cont_9to1_m_904_5_alg».proof.Proof.RefValue
import proofs.«207659_g70703751627518_cont_9to1_m_904_5_alg».proof.Proof.Bridge
import Idealize.ShloMosaic.Adequacy
import Idealize.ShloMosaic.Init

noncomputable section

/-! ## The claim -/

namespace Cert.Proof

open Idealize.ShloMosaic Idealize.ShloMosaic.TcCoe Idealize.SL.Sem

/-- One vector subcore's task, as the launch takes it. -/
theorem hT : Cert.KernelIdeal.Hand.TileBody Ideal Cert.KernelIdeal.Hand.UU :=
  fun hF d L ids cnt hids O W hO => Cert.KernelIdeal.Hand.tile_body d L hF ids cnt hids O W hO

/-- The same task over the words of the program as printed. -/
theorem hTK : Cert.Kernel.Hand.TileBody Bits Cert.Kernel.Hand.UU :=
  fun hF d L ids cnt hids O W hO => Cert.Kernel.Hand.tile_body d L hF ids cnt hids O W hO

theorem frame_k : Cert.frame_Kernel (hKernel := Cert.Kernel.Gen.facts) (hPre_input_domain := Cert.Pre_input_domain.Gen.facts) := fun m ρ hpre =>
  (θ_run _ _ _).mono (fun _ h c => (h c).2)
    (Cert.Kernel.Hand.run_kernel (F := Bits) m ρ hTK (fun d => Cert.PreTok.tokOK_of_pre _ _ _ _ _ _ (hpre d)))

theorem frame_ki : Cert.frame_KernelIdeal (hKernelIdeal := Cert.KernelIdeal.Gen.facts) (hPre_input_domain := Cert.Pre_input_domain.Gen.facts) := fun m ρ hpre =>
  (θ_run _ _ _).mono (fun _ h c => (h c).2)
    (Cert.KernelIdeal.Hand.run_kernel (F := Ideal) m ρ hT (fun d => Cert.PreTok.tokOK_of_pre _ _ _ _ _ _ (hpre d)))

/-- The table gives the name the value 1/200, and the printed constant is that value over the extended reals. -/
theorem preserves : Cert.preserves_Kernel_KernelIdeal :=
  IdealRules.named_const.statement Cert.KernelIdeal.κ "inv_200" .f32 0x3BA3D70A#32 ((1 / 200 : ℝ) : EReal) rfl

theorem algebraic : Cert.algebraic_KernelIdeal_ReferenceIdeal (hKernelIdeal := Cert.KernelIdeal.Gen.facts) (hReferenceIdeal := Cert.ReferenceIdeal.Gen.facts)
    (hPre_input_domain := Cert.Pre_input_domain.Gen.facts) := by
  intro m ρ m' ρ' hpre hagree
  have htok : ∀ d : Dev Cert.KernelIdeal.nD, Cert.Spec.TokOK (m ((SparseCore.T d).loc Cert.KernelIdeal.main_arg0)) :=
    fun d => Cert.PreTok.tokOK_of_pre _ _ _ _ _ _ (hpre d)
  refine ⟨fun c => Cert.KernelIdeal.Hand.kerTerm (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Hand.run_kernel (F := Ideal) m ρ hT htok, ?_⟩
  refine (θ_run Cert.ReferenceIdeal.defs _ _).mono (fun _ h c => ⟨(h c).1.trans ?_, (h c).2⟩) (Cert.RefHand.run (F := Ideal) m' ρ')
  rw [(hagree c).1, (hagree c).2.1, (hagree c).2.2.1, (hagree c).2.2.2.1, (hagree c).2.2.2.2.1, (hagree c).2.2.2.2.2]
  exact (Cert.RefHand.refTerm_eq _ _ _ _ _ _ (htok c)).trans (Cert.Bridge.kerTerm_eq_refArr _ _ _ _ _ _).symm

theorem claim : Cert.Claim :=
  ⟨Cert.Kernel.Gen.facts, Cert.KernelIdeal.Gen.facts, Cert.ReferenceIdeal.Gen.facts, Cert.Pre_input_domain.Gen.facts,
    frame_k, frame_ki, Cert.RefHand.frame, preserves, algebraic⟩

end Cert.Proof

end
